-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x8 : Shape := ⟨2, ![512, 8]⟩
abbrev S16x1 : Shape := ⟨2, ![16, 1]⟩
abbrev S8x1 : Shape := ⟨2, ![8, 1]⟩
abbrev S2x1 : Shape := ⟨2, ![2, 1]⟩
abbrev S1536x256 : Shape := ⟨2, ![1536, 256]⟩
abbrev S256 : Shape := ⟨1, ![256]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x8 : S_.BroadcastsInDim S512x8 (![] : Fin 0 → Fin S512x8.rank)
  reducesTo_S512x8_S_d0_1 : S512x8.ReducesTo [0, 1] S_
  bcast_S_S16x1 : S_.BroadcastsInDim S16x1 (![] : Fin 0 → Fin S16x1.rank)
  reducesTo_S16x1_S_d0_1 : S16x1.ReducesTo [0, 1] S_
  bcast_S_S8x1 : S_.BroadcastsInDim S8x1 (![] : Fin 0 → Fin S8x1.rank)
  reducesTo_S8x1_S_d0_1 : S8x1.ReducesTo [0, 1] S_
  bcast_S_S2x1 : S_.BroadcastsInDim S2x1 (![] : Fin 0 → Fin S2x1.rank)
  reducesTo_S2x1_S_d0_1 : S2x1.ReducesTo [0, 1] S_
  bcast_S_S1536x256 : S_.BroadcastsInDim S1536x256 (![] : Fin 0 → Fin S1536x256.rank)
  reducesTo_S1536x256_S_d0_1 : S1536x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S8x1 .f32) (main_arg5 : FVec F S2x1 .f32) (main_arg6 : FVec F S1536x256 .f32) (main_arg7 : FVec F S256 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S8x1 .f32 := Host.absf main_arg4
  let main_cst_6 : FVec F S_ .f32 := constant S_ .f32 0x7F800000#32
  let main_v20 : FVec F S8x1 .f32 := broadcastInDim S8x1 ![] bcast_S_S8x1 main_cst_6
  let main_v21 : IVec S8x1 1 := cmpf .olt main_v19 main_v20
  let main_c_7 : IVec S_ 1 := constantI S_ 1 1#1
  let main_v22 : IVec S_ 1 := (fun x v => Host.reduce IntOp.andi x v reducesTo_S8x1_S_d0_1 h_S_) main_v21 main_c_7
  let main_v23 : IVec S_ 1 := andi main_v18 main_v22
  let main_v24 : FVec F S2x1 .f32 := Host.absf main_arg5
  let main_cst_8 : FVec F S_ .f32 := constant S_ .f32 0x7F800000#32
  let main_v25 : FVec F S2x1 .f32 := broadcastInDim S2x1 ![] bcast_S_S2x1 main_cst_8
  let main_v26 : IVec S2x1 1 := cmpf .olt main_v24 main_v25
  let main_c_9 : IVec S_ 1 := constantI S_ 1 1#1
  let main_v27 : IVec S_ 1 := (fun x v => Host.reduce IntOp.andi x v reducesTo_S2x1_S_d0_1 h_S_) main_v26 main_c_9
  let main_v28 : IVec S_ 1 := andi main_v23 main_v27
  let main_v29 : FVec F S1536x256 .f32 := Host.absf main_arg6
  let main_cst_10 : FVec F S_ .f32 := constant S_ .f32 0x7F800000#32
  let main_v30 : FVec F S1536x256 .f32 := broadcastInDim S1536x256 ![] bcast_S_S1536x256 main_cst_10
  let main_v31 : IVec S1536x256 1 := cmpf .olt main_v29 main_v30
  let main_c_11 : IVec S_ 1 := constantI S_ 1 1#1
  let main_v32 : IVec S_ 1 := (fun x v => Host.reduce IntOp.andi x v reducesTo_S1536x256_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x4096 .f32) (main_arg2 : FVec F S512x8 .f32) (main_arg3 : FVec F S16x1 .f32) (main_arg4 : FVec F S8x1 .f32) (main_arg5 : FVec F S2x1 .f32) (main_arg6 : FVec F S1536x256 .f32) (main_arg7 : FVec F S256 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x8 .f32 := Host.absf main_arg2
  let main_cst_2 : FVec F S_ .f32 := constant S_ .f32 0x7F800000#32
  let main_v10 : FVec F S512x8 .f32 := broadcastInDim S512x8 ![] bcast_S_S512x8 main_cst_2
  let main_v11 : IVec S512x8 1 := cmpf .olt main_v9 main_v10
  let main_c_3 : IVec S_ 1 := constantI S_ 1 1#1
  let main_v12 : IVec S_ 1 := (fun x v => Host.reduce IntOp.andi x v reducesTo_S512x8_S_d0_1 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_arg5 main_arg6 main_arg7 main_v13 main_v16
-- ==== Kernel.lean ====
abbrev S4096x512 : Shape := ⟨2, ![4096, 512]⟩
abbrev S4096x4096 : Shape := ⟨2, ![4096, 4096]⟩
abbrev S512x8 : Shape := ⟨2, ![512, 8]⟩
abbrev S16x1 : Shape := ⟨2, ![16, 1]⟩
abbrev S8x1 : Shape := ⟨2, ![8, 1]⟩
abbrev S2x1 : Shape := ⟨2, ![2, 1]⟩
abbrev S1536x256 : Shape := ⟨2, ![1536, 256]⟩
abbrev S256 : Shape := ⟨1, ![256]⟩
abbrev S4096x8 : Shape := ⟨2, ![4096, 8]⟩
abbrev S4096x1 : Shape := ⟨2, ![4096, 1]⟩
abbrev S_ : Shape := ⟨0, ![]⟩
abbrev S1 : Shape := ⟨1, ![1]⟩
abbrev S1x1 : Shape := ⟨2, ![1, 1]⟩
abbrev S4096x128 : Shape := ⟨2, ![4096, 128]⟩
abbrev S512x2048 : Shape := ⟨2, ![512, 2048]⟩
abbrev S2048x128 : Shape := ⟨2, ![2048, 128]⟩
abbrev S512x128 : Shape := ⟨2, ![512, 128]⟩
abbrev S512x1024 : Shape := ⟨2, ![512, 1024]⟩
abbrev S1024x128 : Shape := ⟨2, ![1024, 128]⟩
abbrev S1024x2048 : Shape := ⟨2, ![1024, 2048]⟩
abbrev S2048x1024 : Shape := ⟨2, ![2048, 1024]⟩
abbrev S1024x1024 : Shape := ⟨2, ![1024, 1024]⟩
abbrev S512x256 : Shape := ⟨2, ![512, 256]⟩
abbrev S4096x256 : Shape := ⟨2, ![4096, 256]⟩
abbrev S2048x256 : Shape := ⟨2, ![2048, 256]⟩
abbrev S512x1 : Shape := ⟨2, ![512, 1]⟩
abbrev S1x256 : Shape := ⟨2, ![1, 256]⟩

abbrev nBuf : Space → Nat
  | .hbm => 103
  | .vmem => 42
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x8, .f32⟩
  | .hbm, ⟨3, _⟩ => ⟨S16x1, .f32⟩
  | .hbm, ⟨4, _⟩ => ⟨S8x1, .f32⟩
  | .hbm, ⟨5, _⟩ => ⟨S2x1, .f32⟩
  | .hbm, ⟨6, _⟩ => ⟨S1536x256, .f32⟩
  | .hbm, ⟨7, _⟩ => ⟨S256, .f32⟩
  | .hbm, ⟨8, _⟩ => ⟨S4096x4096, .bf16⟩
  | .hbm, ⟨9, _⟩ => ⟨S4096x8, .f32⟩
  | .hbm, ⟨10, _⟩ => ⟨S8x1, .f32⟩
  | .hbm, ⟨11, _⟩ => ⟨S4096x1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S1, .f32⟩
  | .hbm, ⟨23, _⟩ => ⟨S1x1, .f32⟩
  | .hbm, ⟨24, _⟩ => ⟨S4096x1, .f32⟩
  | .hbm, ⟨25, _⟩ => ⟨S4096x1, .f32⟩
  | .hbm, ⟨26, _⟩ => ⟨S4096x8, .f32⟩
  | .hbm, ⟨27, _⟩ => ⟨S4096x8, .f32⟩
  | .hbm, ⟨28, _⟩ => ⟨S_, .i32⟩
  | .hbm, ⟨29, _⟩ => ⟨S_, .f32⟩
  | .hbm, ⟨30, _⟩ => ⟨S4096x128, .f32⟩
  | .hbm, ⟨31, _⟩ => ⟨S4096x128, .bf16⟩
  | .hbm, ⟨32, _⟩ => ⟨S4096x128, .f32⟩
  | .hbm, ⟨33, _⟩ => ⟨S4096x8, .f32⟩
  | .hbm, ⟨34, _⟩ => ⟨S_, .f32⟩
  | .hbm, ⟨35, _⟩ => ⟨S4096x8, .f32⟩
  | .hbm, ⟨36, _⟩ => ⟨S4096x8, .i1⟩
  | .hbm, ⟨37, _⟩ => ⟨S_, .f32⟩
  | .hbm, ⟨38, _⟩ => ⟨S4096x8, .f32⟩
  | .hbm, ⟨39, _⟩ => ⟨S4096x8, .i1⟩
  | .hbm, ⟨40, _⟩ => ⟨S_, .f32⟩
  | .hbm, ⟨41, _⟩ => ⟨S_, .f32⟩
  | .hbm, ⟨42, _⟩ => ⟨S4096x8, .f32⟩
  | .hbm, ⟨43, _⟩ => ⟨S4096x8, .f32⟩
  | .hbm, ⟨44, _⟩ => ⟨S4096x8, .f32⟩
  | .hbm, ⟨45, _⟩ => ⟨S_, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x1, .f32⟩
  | .hbm, ⟨50, _⟩ => ⟨S1x1, .f32⟩
  | .hbm, ⟨51, _⟩ => ⟨S4096x1, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S1, .f32⟩
  | .hbm, ⟨63, _⟩ => ⟨S1x1, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S_, .i32⟩
  | .hbm, ⟨68, _⟩ => ⟨S_, .f32⟩
  | .hbm, ⟨69, _⟩ => ⟨S4096x128, .f32⟩
  | .hbm, ⟨70, _⟩ => ⟨S4096x128, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .i1⟩
  | .hbm, ⟨75, _⟩ => ⟨S_, .f32⟩
  | .hbm, ⟨76, _⟩ => ⟨S4096x1, .f32⟩
  | .hbm, ⟨77, _⟩ => ⟨S4096x1, .i1⟩
  | .hbm, ⟨78, _⟩ => ⟨S_, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .i1⟩
  | .hbm, ⟨90, _⟩ => ⟨S4096x1, .f32⟩
  | .hbm, ⟨91, _⟩ => ⟨S4096x4096, .bf16⟩
  | .hbm, ⟨92, _⟩ => ⟨S4096x4096, .bf16⟩
  | .hbm, ⟨93, _⟩ => ⟨S512x256, .f32⟩
  | .hbm, ⟨94, _⟩ => ⟨S4096x256, .f32⟩
  | .hbm, ⟨95, _⟩ => ⟨S4096x256, .bf16⟩
  | .hbm, ⟨96, _⟩ => ⟨S512x256, .f32⟩
  | .hbm, ⟨97, _⟩ => ⟨S4096x256, .f32⟩
  | .hbm, ⟨98, _⟩ => ⟨S4096x256, .bf16⟩
  | .hbm, ⟨99, _⟩ => ⟨S4096x256, .f32⟩
  | .hbm, ⟨100, _⟩ => ⟨S1x256, .f32⟩
  | .hbm, ⟨101, _⟩ => ⟨S4096x256, .f32⟩
  | .hbm, ⟨102, _⟩ => ⟨S4096x256, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S2048x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1024, .f32⟩
  | .local _ .vmem, ⟨8, _⟩ => ⟨S512x1024, .f32⟩
  | .local _ .vmem, ⟨9, _⟩ => ⟨S1024x128, .f32⟩
  | .local _ .vmem, ⟨10, _⟩ => ⟨S1024x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1024x2048, .bf16⟩
  | .local _ .vmem, ⟨15, _⟩ => ⟨S1024x2048, .bf16⟩
  | .local _ .vmem, ⟨16, _⟩ => ⟨S2048x1024, .bf16⟩
  | .local _ .vmem, ⟨17, _⟩ => ⟨S2048x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x2048, .bf16⟩
  | .local _ .vmem, ⟨22, _⟩ => ⟨S1024x2048, .bf16⟩
  | .local _ .vmem, ⟨23, _⟩ => ⟨S2048x1024, .bf16⟩
  | .local _ .vmem, ⟨24, _⟩ => ⟨S2048x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S512x2048, .bf16⟩
  | .local _ .vmem, ⟨29, _⟩ => ⟨S512x2048, .bf16⟩
  | .local _ .vmem, ⟨30, _⟩ => ⟨S512x2048, .bf16⟩
  | .local _ .vmem, ⟨31, _⟩ => ⟨S512x2048, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S512x1, .f32⟩
  | .local _ .vmem, ⟨37, _⟩ => ⟨S512x1, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_cst_1 : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_v4 : Ref sig .tc := ⟨.hbm, 43, rfl⟩
abbrev main_call1_v5 : Ref sig .tc := ⟨.hbm, 44, rfl⟩
abbrev main_call1_cst_2 : Ref sig .tc := ⟨.hbm, 45, rfl⟩
abbrev main_call1_v6 : Ref sig .tc := ⟨.hbm, 46, rfl⟩
abbrev main_call1_v7 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_call2_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call3_cst : Ref sig .tc := ⟨.hbm, 72, rfl⟩
abbrev main_call3_v0 : Ref sig .tc := ⟨.hbm, 73, rfl⟩
abbrev main_call3_v1 : Ref sig .tc := ⟨.hbm, 74, rfl⟩
abbrev main_call3_cst_0 : Ref sig .tc := ⟨.hbm, 75, rfl⟩
abbrev main_call3_v2 : Ref sig .tc := ⟨.hbm, 76, rfl⟩
abbrev main_call3_v3 : Ref sig .tc := ⟨.hbm, 77, rfl⟩
abbrev main_call3_cst_1 : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_v4 : Ref sig .tc := ⟨.hbm, 81, rfl⟩
abbrev main_call3_v5 : Ref sig .tc := ⟨.hbm, 82, rfl⟩
abbrev main_call3_cst_2 : Ref sig .tc := ⟨.hbm, 83, rfl⟩
abbrev main_call3_v6 : Ref sig .tc := ⟨.hbm, 84, rfl⟩
abbrev main_call3_v7 : Ref sig .tc := ⟨.hbm, 85, rfl⟩
abbrev main_v40 : Ref sig .tc := ⟨.hbm, 86, rfl⟩
abbrev main_cst_6 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc4_scratch0 : Ref sig .tc := ⟨.vmem, 40, rfl⟩
abbrev cc4_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 4], ![false, false, false]⟩

def k1_cond2 (i : grid1.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 2], ![false, false, false]⟩

def k3_cond2 (i : grid3.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![8, 2], ![false, false]⟩

def k4_cond2 (i : grid4.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_17 : BitVec 32 := 0#32
  let v25 : BitVec 1 := Scalar.cmpi .ne v24 c0_i32_17
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S512x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S512x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

class Facts₀ : Prop where
  bitsLt_bf16_f32 : FTy.bits .bf16 < FTy.bits .f32
  slices_S16x1_S8x1_8_0 : S16x1.Slices ![8, 0] S8x1
  reducesTo_S4096x1_S1_d0 : S4096x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S4096x1_S4096x8_0_1 : S4096x1.BroadcastsInDim S4096x8 (![0, 1] : Fin 2 → Fin S4096x8.rank)
  pads_S4096x8_S4096x128_000_01200 : S4096x8.Pads (![0, 0] : Fin 2 → Nat) ![0, 120] ![0, 0] S4096x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S4096x128_S4096x8_0_0 : S4096x128.Slices ![0, 0] S4096x8
  bcast_S_S4096x8 : S_.BroadcastsInDim S4096x8 (![] : Fin 0 → Fin S4096x8.rank)
  slices_S2x1_S1x1_1_0 : S2x1.Slices ![1, 0] S1x1
  pads_S4096x1_S4096x128_000_01270 : S4096x1.Pads (![0, 0] : Fin 2 → Nat) ![0, 127] ![0, 0] S4096x128
  inb_S512x1024_S512x1024_0_0 : ∀ a, (![0, 0] : Fin 2 → Nat) a + S512x1024.size a ≤ S512x1024.size a
  h_S512x1024 : 0 < S512x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S4096x128_S4096x1_0_0 : S4096x128.Slices ![0, 0] S4096x1
  bcast_S_S4096x1 : S_.BroadcastsInDim S4096x1 (![] : Fin 0 → Fin S4096x1.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S1024x1024_S1024x1024_0_0 : (Rect.unit (s := S1024x1024) ![0, 0] S1024x1024.size inb_S1024x1024_S1024x1024_0_0).PackedRows (EltTy.packing .bf16)
  slices_S1536x256_S512x256_0_0 : S1536x256.Slices ![0, 0] S512x256
  slices_S1536x256_S512x256_1024_0 : S1536x256.Slices ![1024, 0] S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x512_S512x8_S4096x8_1_0_0_1_n_n_wf : DotDims.WF S4096x512 S512x8 S4096x8 [1] [0] [0] [1] [] []
  dot_S4096x8_S8x1_S4096x1_1_0_0_1_n_n_wf : DotDims.WF S4096x8 S8x1 S4096x1 [1] [0] [0] [1] [] []
  dot_S512x2048_S2048x128_S512x128_1_0_0_1_n_n_wf : DotDims.WF S512x2048 S2048x128 S512x128 [1] [0] [0] [1] [] []
  dot_S4096x1_S1x1_S4096x1_1_0_0_1_n_n_wf : DotDims.WF S4096x1 S1x1 S4096x1 [1] [0] [0] [1] [] []
  dot_S512x1024_S1024x128_S512x128_1_0_0_1_n_n_wf : DotDims.WF S512x1024 S1024x128 S512x128 [1] [0] [0] [1] [] []
  dot_S1024x2048_S2048x1024_S1024x1024_1_0_0_1_n_n_wf : DotDims.WF S1024x2048 S2048x1024 S1024x1024 [1] [0] [0] [1] [] []
  dot_S4096x512_S512x256_S4096x256_1_0_0_1_n_n_wf : DotDims.WF S4096x512 S512x256 S4096x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .bf16 = 32 ∨ (Rect.block (s := S4096x4096) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x128.size a
  hwx0_1 : ∀ i : grid0.Coords, EltTy.bits .bf16 = 32 ∨ (Rect.block (s := S4096x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x4096.size a
  hwx2_0 : ∀ i : grid2.Coords, EltTy.bits .bf16 = 32 ∨ (Rect.block (s := S4096x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .bf16 = 32 ∨ (Rect.block (s := S4096x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .bf16 = 32 ∨ (Rect.block (s := S4096x4096) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S4096x4096.size a
  hwx3_0 : ∀ i : grid3.Coords, EltTy.bits .bf16 = 32 ∨ (Rect.block (s := S4096x4096) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S4096x4096.size a
  hwx3_1 : ∀ i : grid3.Coords, EltTy.bits .bf16 = 32 ∨ (Rect.block (s := S4096x4096) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .bf16 = 32 ∨ (Rect.block (s := S4096x4096) S1024x1024.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S4096x4096.size a
  hwx4_0 : ∀ i : grid4.Coords, EltTy.bits .bf16 = 32 ∨ (Rect.block (s := S4096x4096) S512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S4096x4096.size a
  hwx4_1 : ∀ i : grid4.Coords, EltTy.bits .bf16 = 32 ∨ (Rect.block (s := S4096x4096) S512x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S4096x256.size a
  hwx4_2 : ∀ i : grid4.Coords, EltTy.bits .bf16 = 32 ∨ (Rect.block (s := S4096x256) S2048x256.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x256.size a ≤ S4096x256.size a
  hwx4_3 : ∀ i : grid4.Coords, EltTy.bits .bf16 = 32 ∨ (Rect.block (s := S4096x256) S2048x256.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S4096x1.size a
  hwx4_4 : ∀ i : grid4.Coords, EltTy.bits .f32 = 32 ∨ (Rect.block (s := S4096x1) S512x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x256.size a ≤ S4096x256.size a
  hwx4_5 : ∀ i : grid4.Coords, EltTy.bits .f32 = 32 ∨ (Rect.block (s := S4096x256) S512x256.size (cc4_transform_5 i) (hinb4_5 i)).WholeWords (EltTy.packing .f32)

variable [Facts₀]

def dot_S4096x512_S512x8_S4096x8_1_0_0_1_n_n : DotDims S4096x512 S512x8 S4096x8 where
  lhsContracting := [1]
  rhsContracting := [0]
  lhsNonContracting := [0]
  rhsNonContracting := [1]
  lhsBatch := []
  rhsBatch := []
  wf := dot_S4096x512_S512x8_S4096x8_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S4096x1_S1x1_S4096x1_1_0_0_1_n_n : DotDims S4096x1 S1x1 S4096x1 where
  lhsContracting := [1]
  rhsContracting := [0]
  lhsNonContracting := [0]
  rhsNonContracting := [1]
  lhsBatch := []
  rhsBatch := []
  wf := dot_S4096x1_S1x1_S4096x1_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v44) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v0) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S2048x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51) S2048x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v43) S512x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v52) S512x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x8 : Shape := ⟨2, ![512, 8]⟩
abbrev S16x1 : Shape := ⟨2, ![16, 1]⟩
abbrev S8x1 : Shape := ⟨2, ![8, 1]⟩
abbrev S2x1 : Shape := ⟨2, ![2, 1]⟩
abbrev S1536x256 : Shape := ⟨2, ![1536, 256]⟩
abbrev S256 : Shape := ⟨1, ![256]⟩
abbrev S4096x8 : Shape := ⟨2, ![4096, 8]⟩
abbrev S4096x1 : Shape := ⟨2, ![4096, 1]⟩
abbrev S1x4096 : Shape := ⟨2, ![1, 4096]⟩
abbrev S_ : Shape := ⟨0, ![]⟩
abbrev S4096 : Shape := ⟨1, ![4096]⟩
abbrev S1x1 : Shape := ⟨2, ![1, 1]⟩
abbrev S4096x1536 : Shape := ⟨2, ![4096, 1536]⟩
abbrev S4096x256 : Shape := ⟨2, ![4096, 256]⟩
abbrev S1x256 : Shape := ⟨2, ![1, 256]⟩

abbrev nBuf : Space → Nat
  | .hbm => 116
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x8, .f32⟩
  | .hbm, ⟨3, _⟩ => ⟨S16x1, .f32⟩
  | .hbm, ⟨4, _⟩ => ⟨S8x1, .f32⟩
  | .hbm, ⟨5, _⟩ => ⟨S2x1, .f32⟩
  | .hbm, ⟨6, _⟩ => ⟨S1536x256, .f32⟩
  | .hbm, ⟨7, _⟩ => ⟨S256, .f32⟩
  | .hbm, ⟨8, _⟩ => ⟨S4096x8, .f32⟩
  | .hbm, ⟨9, _⟩ => ⟨S8x1, .f32⟩
  | .hbm, ⟨10, _⟩ => ⟨S4096x1, .f32⟩
  | .hbm, ⟨11, _⟩ => ⟨S8x1, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x8, .f32⟩
  | .hbm, ⟨33, _⟩ => ⟨S_, .f32⟩
  | .hbm, ⟨34, _⟩ => ⟨S4096x8, .f32⟩
  | .hbm, ⟨35, _⟩ => ⟨S4096x8, .i1⟩
  | .hbm, ⟨36, _⟩ => ⟨S_, .f32⟩
  | .hbm, ⟨37, _⟩ => ⟨S4096x8, .f32⟩
  | .hbm, ⟨38, _⟩ => ⟨S4096x8, .i1⟩
  | .hbm, ⟨39, _⟩ => ⟨S_, .f32⟩
  | .hbm, ⟨40, _⟩ => ⟨S_, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S_, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x1, .f32⟩
  | .hbm, ⟨49, _⟩ => ⟨S1x1, .f32⟩
  | .hbm, ⟨50, _⟩ => ⟨S4096x1, .f32⟩
  | .hbm, ⟨51, _⟩ => ⟨S1x1, .f32⟩
  | .hbm, ⟨52, _⟩ => ⟨S4096x1, .f32⟩
  | .hbm, ⟨53, _⟩ => ⟨S1x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .i1⟩
  | .hbm, ⟨76, _⟩ => ⟨S_, .f32⟩
  | .hbm, ⟨77, _⟩ => ⟨S4096x1, .f32⟩
  | .hbm, ⟨78, _⟩ => ⟨S4096x1, .i1⟩
  | .hbm, ⟨79, _⟩ => ⟨S_, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096x1, .f32⟩
  | .hbm, ⟨92, _⟩ => ⟨S4096x1, .i1⟩
  | .hbm, ⟨93, _⟩ => ⟨S4096x1, .f32⟩
  | .hbm, ⟨94, _⟩ => ⟨S4096x4096, .f32⟩
  | .hbm, ⟨95, _⟩ => ⟨S4096x4096, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x4096, .f32⟩
  | .hbm, ⟨100, _⟩ => ⟨S4096x4096, .f32⟩
  | .hbm, ⟨101, _⟩ => ⟨S4096x4096, .f32⟩
  | .hbm, ⟨102, _⟩ => ⟨S4096x4096, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S4096x4096, .f32⟩
  | .hbm, ⟨107, _⟩ => ⟨S4096x4096, .f32⟩
  | .hbm, ⟨108, _⟩ => ⟨S4096x512, .f32⟩
  | .hbm, ⟨109, _⟩ => ⟨S4096x512, .f32⟩
  | .hbm, ⟨110, _⟩ => ⟨S4096x512, .f32⟩
  | .hbm, ⟨111, _⟩ => ⟨S4096x1536, .f32⟩
  | .hbm, ⟨112, _⟩ => ⟨S4096x256, .f32⟩
  | .hbm, ⟨113, _⟩ => ⟨S1x256, .f32⟩
  | .hbm, ⟨114, _⟩ => ⟨S4096x256, .f32⟩
  | .hbm, ⟨115, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_cst_1 : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_v4 : Ref sig .tc := ⟨.hbm, 42, rfl⟩
abbrev main_call0_v5 : Ref sig .tc := ⟨.hbm, 43, rfl⟩
abbrev main_call0_cst_2 : Ref sig .tc := ⟨.hbm, 44, rfl⟩
abbrev main_call0_v6 : Ref sig .tc := ⟨.hbm, 45, rfl⟩
abbrev main_call0_v7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_cst_1 : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_v4 : Ref sig .tc := ⟨.hbm, 82, rfl⟩
abbrev main_call1_v5 : Ref sig .tc := ⟨.hbm, 83, rfl⟩
abbrev main_call1_cst_2 : Ref sig .tc := ⟨.hbm, 84, rfl⟩
abbrev main_call1_v6 : Ref sig .tc := ⟨.hbm, 85, rfl⟩
abbrev main_call1_v7 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_5 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_6 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_7 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩

abbrev nD : Nat := 1
abbrev τ : Topo := Topo.v7x

variable {F : FTy → Type} [FloatOps F]

class Facts₀ : Prop where
  slices_S16x1_S8x1_0_0 : S16x1.Slices ![0, 0] S8x1
  slices_S16x1_S8x1_8_0 : S16x1.Slices ![8, 0] S8x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x8 : S_.BroadcastsInDim S4096x8 (![] : Fin 0 → Fin S4096x8.rank)
  slices_S2x1_S1x1_0_0 : S2x1.Slices ![0, 0] S1x1
  slices_S2x1_S1x1_1_0 : S2x1.Slices ![1, 0] S1x1
  bcast_S_S4096x1 : S_.BroadcastsInDim S4096x1 (![] : Fin 0 → Fin S4096x1.rank)
  concatenates_S4096x512_S4096x512_S4096x512_S4096x1536_d1 : Shape.Concatenates [S4096x512, S4096x512, S4096x512] S4096x1536 1
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x512_S512x8_S4096x8_1_0_0_1_n_n_wf : DotDims.WF S4096x512 S512x8 S4096x8 [1] [0] [0] [1] [] []
  dot_S4096x8_S8x1_S4096x1_1_0_0_1_n_n_wf : DotDims.WF S4096x8 S8x1 S4096x1 [1] [0] [0] [1] [] []
  dot_S4096x4096_S4096x8_S4096x8_1_0_0_1_n_n_wf : DotDims.WF S4096x4096 S4096x8 S4096x8 [1] [0] [0] [1] [] []
  dot_S4096x1_S1x1_S4096x1_1_0_0_1_n_n_wf : DotDims.WF S4096x1 S1x1 S4096x1 [1] [0] [0] [1] [] []
  dot_S4096x4096_S4096x1_S4096x1_1_0_0_1_n_n_wf : DotDims.WF S4096x4096 S4096x1 S4096x1 [1] [0] [0] [1] [] []
  dot_S4096x4096_S4096x4096_S4096x4096_1_0_0_1_n_n_wf : DotDims.WF S4096x4096 S4096x4096 S4096x4096 [1] [0] [0] [1] [] []
  dot_S4096x4096_S4096x512_S4096x512_1_0_0_1_n_n_wf : DotDims.WF S4096x4096 S4096x512 S4096x512 [1] [0] [0] [1] [] []
  dot_S4096x1536_S1536x256_S4096x256_1_0_0_1_n_n_wf : DotDims.WF S4096x1536 S1536x256 S4096x256 [1] [0] [0] [1] [] []

variable [Facts₀]

def dot_S4096x512_S512x8_S4096x8_1_0_0_1_n_n : DotDims S4096x512 S512x8 S4096x8 where
  lhsContracting := [1]
  rhsContracting := [0]
  lhsNonContracting := [0]
  rhsNonContracting := [1]
  lhsBatch := []
  rhsBatch := []
  wf := dot_S4096x512_S512x8_S4096x8_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf
def dot_S4096x4096_S4096x8_S4096x8_1_0_0_1_n_n : DotDims S4096x4096 S4096x8 S4096x8 where
  lhsContracting := [1]
  rhsContracting := [0]
  lhsNonContracting := [0]
  rhsNonContracting := [1]
  lhsBatch := []
  rhsBatch := []
  wf := dot_S4096x4096_S4096x8_S4096x8_1_0_0_1_n_n_wf
def dot_S4096x1_S1x1_S4096x1_1_0_0_1_n_n : DotDims S4096x1 S1x1 S4096x1 where
  lhsContracting := [1]
  rhsContracting := [0]
  lhsNonContracting := [0]
  rhsNonContracting := [1]
  lhsBatch := []
  rhsBatch := []
  wf := dot_S4096x1_S1x1_S4096x1_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x1536_S1536x256_S4096x256_1_0_0_1_n_n : DotDims S4096x1536 S1536x256 S4096x256 where
  lhsContracting := [1]
  rhsContracting := [0]
  lhsNonContracting := [0]
  rhsNonContracting := [1]
  lhsBatch := []
  rhsBatch := []
  wf := dot_S4096x1536_S1536x256_S4096x256_1_0_0_1_n_n_wf

class Facts : Prop extends Facts₀ where

variable [Facts]
-- ==== Proof.RunAll.lean ====
/-
  The five kernel regions as segments of @main, and the whole-program run.
  A region's kernel half (`Half`) is what is proved about its body alone, at any contents `V` the region may be
  entered from: the proof data of its pipeline with the arrays read off `V`, the body's obligation at every grid
  point, and the region invariant being the plain "scratch at anything" one before the first point and implying it
  after the last (the accumulator scratch carried between points is, at the end, a scratch holding something).
  From a half, the region is a segment entered from "every unscoped buffer at `Vin`" and left at "every unscoped
  buffer at `Vout`", where `Vout` has the region's arrays at what its write-backs leave and agrees with `Vin` elsewhere.
-/
import proofs.«162839_j74869869904021_2_alg».proof.Proof.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- The contents of a core's unscoped buffers, read at the TensorCore's references. -/
abbrev Conts (F : FTy → Type) [FloatOps F] : Type := (c : Dev nD) → (b : Ref sig .tc) → Buf (Elt F) ((c : Thread nD τ).loc b)

/-- What is proved about region `p`'s kernel alone. -/
structure Half (F : FTy → Type) [FloatOps F] (p : Fin 5) where
  dat : Conts F → (c : Dev nD) → Dat τ (Elt F) Unit ℕ (UR sig nD τ) ℕ (cfgs p) c
  A_eq : ∀ V c w, (dat V c).A w = V c (Pipeline.arrRef (cfgs p).spec w)
  body : ∀ V c, Pipeline.BodyObligation (dat V c) (defs₀ (F := F)) Variants.none () Set.univ
  Phi_first : ∀ V c, (dat V c).Φ 0 = Pipeline.ΦA (cfgs p).spec c
  Phi_last : ∀ V c, (dat V c).Φ (Fin.last (cfgs p).N) ⊢ Pipeline.ΦA (cfgs p).spec c
  owed : ∀ V c t, (dat V c).owed t = 0
  recorded0 : ∀ V c x, x ∈ (dat V c).recorded 0

/-- No level is assigned: no core owes another anything. -/
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- A region with distinct arrays as a segment, from its kernel half: entered from every unscoped buffer at `Vin`,
    left at `Vout`. -/
def regOf (p : Fin 5) (pdats : (p : Fin 5) → (c : Dev nD) → Dat τ (Elt F) Unit ℕ (UR sig nD τ) ℕ (cfgs p) c)
    (hl : Pipeline.LaunchFacts (nD := nD) (τ := τ) cfgs p)
    (Vin Vout : Dev nD → Valuation τ sig (Elt F))
    (hbody : ∀ c, Pipeline.BodyObligation (pdats p c) (defs₀ (F := F)) Variants.none () Set.univ)
    (hshare : ∀ c w, (pdats p c).share w = fullShare) (howed : ∀ c t, (pdats p c).owed t = 0)
    (hrec : ∀ c x, x ∈ (pdats p c).recorded 0)
    (hA : ∀ c w, (pdats p c).A w = Vin c (Pipeline.arrRef (cfgs p).spec w))
    (hΦ0 : ∀ c, (pdats p c).Φ 0 = Pipeline.ΦA (cfgs p).spec c)
    (hΦN : ∀ c, (pdats p c).Φ (Fin.last (cfgs p).N) ⊢ Pipeline.ΦA (cfgs p).spec c)
    (hF : ∀ c w, (pdats p c).arrAt w (cfgs p).N = Vout c (Pipeline.arrRef (cfgs p).spec w))
    (hrest : ∀ c (b : Ref sig .tc), b ∉ Finset.univ.image (Pipeline.arrRef (cfgs p).spec) → Vout c b = Vin c b)
    (hpf : ∀ c : Dev nD, (BI.emp : sProp 𝕄) ⊢ Pipeline.prefHeld (pcfgs (F := F) p).pre c (fun _ => fullShare) (adm (F := F) p).1) :
    RegionSeg (pcfgs (F := F)) adm pdats () defs₀ Variants.none L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats hl.win hl.arr_whole c
      (hshare c) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · exact hpf c
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pdats (hshare c)
      (fun b => Vin c b) (fun b => Vout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## The contents the regions leave, stage by stage -/

variable (m : (ℓ : Loc nD τ sig) → Buf (Elt F) ℓ)
variable (H0 : Half F 0) (H1 : Half F 1) (H2 : Half F 2) (H3 : Half F 3) (H4 : Half F 4)

/-- A valuation read at the TensorCore's references. -/
abbrev cv (W : Dev nD → Valuation τ sig (Elt F)) : Conts F := fun c b => W c b

/-- `o` with the contents of `r₀` replaced by `x` (at every item). -/
def setOut (o : Outs (F := F)) (r₀ : Ref sig .tc) (x : (c : Dev nD) → Buf (Elt F) ((c : Thread nD τ).loc r₀)) : Outs (F := F) :=
  fun J r c => if h : r = r₀ then h ▸ x c else o J r c

theorem setOut_self (o : Outs (F := F)) (r₀ : Ref sig .tc) (x : (c : Dev nD) → Buf (Elt F) ((c : Thread nD τ).loc r₀)) (J : ℕ) (c : Dev nD) :
    setOut o r₀ x J r₀ c = x c := by
  unfold setOut; rw [dif_pos rfl]

theorem setOut_ne (o : Outs (F := F)) (r₀ : Ref sig .tc) (x : (c : Dev nD) → Buf (Elt F) ((c : Thread nD τ).loc r₀)) (J : ℕ) (r : Ref sig .tc) (c : Dev nD)
    (h : r ≠ r₀) : setOut o r₀ x J r c = o J r c := by
  unfold setOut; rw [dif_neg h]

/-- Each region's output window. -/
abbrev wo0 : Fin (cfgs 0).W := ⟨2, by decide⟩
abbrev wo1 : Fin (cfgs 1).W := ⟨2, by decide⟩
abbrev wo2 : Fin (cfgs 2).W := ⟨2, by decide⟩
abbrev wo3 : Fin (cfgs 3).W := ⟨2, by decide⟩
abbrev wo4 : Fin (cfgs 4).W := ⟨5, by decide⟩

/-- Before any region: anything (the launch contents). -/
def outs0 : Outs (F := F) := fun _ r c => m ((c : Thread nD τ).loc r)
/-- Region 0's output array at what its write-backs leave, entered from `V3`. -/
def outs1 : Outs (F := F) := setOut (outs0 m) main_v19 fun c => (H0.dat (cv (V3 m)) c).arrAt wo0 (cfgs 0).N
/-- Region 1's, entered from `V8`. -/
def outs2 : Outs (F := F) := setOut (outs1 m H0) main_v38 fun c => (H1.dat (cv (V8 m (outs1 m H0))) c).arrAt wo1 (cfgs 1).N
/-- Region 2's, entered from `V12`. -/
def outs3 : Outs (F := F) := setOut (outs2 m H0 H1) main_v44 fun c => (H2.dat (cv (V12 m (outs2 m H0 H1))) c).arrAt wo2 (cfgs 2).N
/-- Region 3's, entered from `V13`. -/
def outs4 : Outs (F := F) := setOut (outs3 m H0 H1 H2) main_v45 fun c => (H3.dat (cv (V13 m (outs3 m H0 H1 H2))) c).arrAt wo3 (cfgs 3).N
/-- Region 4's, entered from `V15`. -/
def outs5 : Outs (F := F) := setOut (outs4 m H0 H1 H2 H3) main_v52 fun c => (H4.dat (cv (V15 m (outs4 m H0 H1 H2 H3))) c).arrAt wo4 (cfgs 4).N

theorem outs1_at (J : ℕ) (c : Dev nD) : outs1 m H0 J main_v19 c = (H0.dat (cv (V3 m)) c).arrAt wo0 (cfgs 0).N := by
  unfold outs1; exact setOut_self (F := F) _ _ _ J c
theorem outs2_at (J : ℕ) (c : Dev nD) : outs2 m H0 H1 J main_v38 c = (H1.dat (cv (V8 m (outs1 m H0))) c).arrAt wo1 (cfgs 1).N := by
  unfold outs2; exact setOut_self (F := F) _ _ _ J c
theorem outs3_at (J : ℕ) (c : Dev nD) : outs3 m H0 H1 H2 J main_v44 c = (H2.dat (cv (V12 m (outs2 m H0 H1))) c).arrAt wo2 (cfgs 2).N := by
  unfold outs3; exact setOut_self (F := F) _ _ _ J c
theorem outs4_at (J : ℕ) (c : Dev nD) : outs4 m H0 H1 H2 H3 J main_v45 c = (H3.dat (cv (V13 m (outs3 m H0 H1 H2))) c).arrAt wo3 (cfgs 3).N := by
  unfold outs4; exact setOut_self (F := F) _ _ _ J c
theorem outs5_at (J : ℕ) (c : Dev nD) : outs5 m H0 H1 H2 H3 H4 J main_v52 c = (H4.dat (cv (V15 m (outs4 m H0 H1 H2 H3))) c).arrAt wo4 (cfgs 4).N := by
  unfold outs5; exact setOut_self (F := F) _ _ _ J c

/-! ## A valuation reads the regions' contents only at the regions before it -/

theorem V8_congr (o o' : Outs (F := F)) (h4 : ∀ c, o 4 main_v19 c = o' 4 main_v19 c) (c : Dev nD) : V8 m o c = V8 m o' c :=
  congrArg (fun x => StableHlo.after hostOps1_3 (StableHlo.after hostOps1_2 (StableHlo.after hostOps1_1 (StableHlo.after hostOps1
    (Function.update (V3 m c) main_v19 x))))) (h4 c)

theorem V12_congr (o o' : Outs (F := F)) (h4 : ∀ c, o 4 main_v19 c = o' 4 main_v19 c) (h9 : ∀ c, o 9 main_v38 c = o' 9 main_v38 c) (c : Dev nD) :
    V12 m o c = V12 m o' c := by
  rw [show V12 m o c = StableHlo.after hostOps2_2 (StableHlo.after hostOps2_1 (StableHlo.after hostOps2 (Function.update (V8 m o c) main_v38 (o 9 main_v38 c)))) from rfl,
    V8_congr m o o' h4 c, h9 c]

theorem V13_congr (o o' : Outs (F := F)) (h4 : ∀ c, o 4 main_v19 c = o' 4 main_v19 c) (h9 : ∀ c, o 9 main_v38 c = o' 9 main_v38 c)
    (h13 : ∀ c, o 13 main_v44 c = o' 13 main_v44 c) (c : Dev nD) : V13 m o c = V13 m o' c := by
  rw [show V13 m o c = Function.update (V12 m o c) main_v44 (o 13 main_v44 c) from rfl, V12_congr m o o' h4 h9 c, h13 c]

theorem V15_congr (o o' : Outs (F := F)) (h4 : ∀ c, o 4 main_v19 c = o' 4 main_v19 c) (h9 : ∀ c, o 9 main_v38 c = o' 9 main_v38 c)
    (h13 : ∀ c, o 13 main_v44 c = o' 13 main_v44 c) (h14 : ∀ c, o 14 main_v45 c = o' 14 main_v45 c) (c : Dev nD) : V15 m o c = V15 m o' c := by
  rw [show V15 m o c = StableHlo.after hostOps4 (Function.update (V13 m o c) main_v45 (o 14 main_v45 c)) from rfl, V13_congr m o o' h4 h9 h13 c, h14 c]

/-! ## The stages agree where an earlier one is defined -/

local notation "o1" => outs1 m H0
local notation "o2" => outs2 m H0 H1
local notation "o3" => outs3 m H0 H1 H2
local notation "o4" => outs4 m H0 H1 H2 H3
local notation "o5" => outs5 m H0 H1 H2 H3 H4

theorem o5_o4 (J : ℕ) (r : Ref sig .tc) (c : Dev nD) (h : r ≠ main_v52) : o5 J r c = o4 J r c := setOut_ne _ _ _ J r c h
theorem o4_o3 (J : ℕ) (r : Ref sig .tc) (c : Dev nD) (h : r ≠ main_v45) : o4 J r c = o3 J r c := setOut_ne _ _ _ J r c h
theorem o3_o2 (J : ℕ) (r : Ref sig .tc) (c : Dev nD) (h : r ≠ main_v44) : o3 J r c = o2 J r c := setOut_ne _ _ _ J r c h
theorem o2_o1 (J : ℕ) (r : Ref sig .tc) (c : Dev nD) (h : r ≠ main_v38) : o2 J r c = o1 J r c := setOut_ne _ _ _ J r c h

theorem o5_v19 (J : ℕ) (c : Dev nD) : o5 J main_v19 c = o1 J main_v19 c :=
  (o5_o4 m H0 H1 H2 H3 H4 J _ c (by decide)).trans ((o4_o3 m H0 H1 H2 H3 J _ c (by decide)).trans ((o3_o2 m H0 H1 H2 J _ c (by decide)).trans (o2_o1 m H0 H1 J _ c (by decide))))
theorem o5_v38 (J : ℕ) (c : Dev nD) : o5 J main_v38 c = o2 J main_v38 c :=
  (o5_o4 m H0 H1 H2 H3 H4 J _ c (by decide)).trans ((o4_o3 m H0 H1 H2 H3 J _ c (by decide)).trans (o3_o2 m H0 H1 H2 J _ c (by decide)))
theorem o5_v44 (J : ℕ) (c : Dev nD) : o5 J main_v44 c = o3 J main_v44 c :=
  (o5_o4 m H0 H1 H2 H3 H4 J _ c (by decide)).trans (o4_o3 m H0 H1 H2 H3 J _ c (by decide))
theorem o5_v45 (J : ℕ) (c : Dev nD) : o5 J main_v45 c = o4 J main_v45 c := o5_o4 m H0 H1 H2 H3 H4 J _ c (by decide)
theorem o2_v19 (J : ℕ) (c : Dev nD) : o2 J main_v19 c = o1 J main_v19 c := o2_o1 m H0 H1 J _ c (by decide)
theorem o3_v19 (J : ℕ) (c : Dev nD) : o3 J main_v19 c = o1 J main_v19 c := (o3_o2 m H0 H1 H2 J _ c (by decide)).trans (o2_v19 m H0 H1 J c)
theorem o4_v19 (J : ℕ) (c : Dev nD) : o4 J main_v19 c = o1 J main_v19 c := (o4_o3 m H0 H1 H2 H3 J _ c (by decide)).trans (o3_v19 m H0 H1 H2 J c)
theorem o3_v38 (J : ℕ) (c : Dev nD) : o3 J main_v38 c = o2 J main_v38 c := o3_o2 m H0 H1 H2 J _ c (by decide)
theorem o4_v38 (J : ℕ) (c : Dev nD) : o4 J main_v38 c = o2 J main_v38 c := (o4_o3 m H0 H1 H2 H3 J _ c (by decide)).trans (o3_v38 m H0 H1 H2 J c)
theorem o4_v44 (J : ℕ) (c : Dev nD) : o4 J main_v44 c = o3 J main_v44 c := o4_o3 m H0 H1 H2 H3 J _ c (by decide)

/-- The valuation region 1 is entered from, at the final contents, is the one its proof data were taken at. -/
theorem V8_final (c : Dev nD) : V8 m o5 c = V8 m o1 c := V8_congr m _ _ (fun c => o5_v19 m H0 H1 H2 H3 H4 4 c) c
theorem V12_final (c : Dev nD) : V12 m o5 c = V12 m o2 c :=
  V12_congr m _ _ (fun c => (o5_v19 m H0 H1 H2 H3 H4 4 c).trans (o2_v19 m H0 H1 4 c).symm) (fun c => o5_v38 m H0 H1 H2 H3 H4 9 c) c
theorem V13_final (c : Dev nD) : V13 m o5 c = V13 m o3 c :=
  V13_congr m _ _ (fun c => (o5_v19 m H0 H1 H2 H3 H4 4 c).trans (o3_v19 m H0 H1 H2 4 c).symm)
    (fun c => (o5_v38 m H0 H1 H2 H3 H4 9 c).trans (o3_v38 m H0 H1 H2 9 c).symm) (fun c => o5_v44 m H0 H1 H2 H3 H4 13 c) c
theorem V15_final (c : Dev nD) : V15 m o5 c = V15 m o4 c :=
  V15_congr m _ _ (fun c => (o5_v19 m H0 H1 H2 H3 H4 4 c).trans (o4_v19 m H0 H1 H2 H3 4 c).symm)
    (fun c => (o5_v38 m H0 H1 H2 H3 H4 9 c).trans (o4_v38 m H0 H1 H2 H3 9 c).symm)
    (fun c => (o5_v44 m H0 H1 H2 H3 H4 13 c).trans (o4_v44 m H0 H1 H2 H3 13 c).symm) (fun c => o5_v45 m H0 H1 H2 H3 H4 14 c) c

/-! ## The proof data family -/

/-- Every pipeline's proof data, each at the contents its region is entered from — a literal match on the pipeline. -/
def pdats : (p : Fin 5) → (c : Dev nD) → Dat τ (Elt F) Unit ℕ (UR sig nD τ) ℕ (cfgs p) c
  | ⟨0, _⟩ => fun c => H0.dat (cv (V3 m)) c
  | ⟨1, _⟩ => fun c => H1.dat (cv (V8 m o1)) c
  | ⟨2, _⟩ => fun c => H2.dat (cv (V12 m o2)) c
  | ⟨3, _⟩ => fun c => H3.dat (cv (V13 m o3)) c
  | ⟨4, _⟩ => fun c => H4.dat (cv (V15 m o4)) c

local notation "PD" => pdats m H0 H1 H2 H3 H4

/-- No pipeline has a prefetched table. -/
theorem no_tables (p : Fin 5) (c : Dev nD) : (BI.emp : sProp 𝕄) ⊢ Pipeline.prefHeld (pcfgs (F := F) p).pre c (fun _ => fullShare) (adm (F := F) p).1 := by
  unfold Pipeline.prefHeld
  match p with
  | ⟨0, _⟩ | ⟨1, _⟩ | ⟨2, _⟩ | ⟨3, _⟩ | ⟨4, _⟩ => rw [show (Finset.univ : Finset (Fin 0)) = ∅ from rfl, BI.bigSep_empty]

/-! ## Region 0 -/

theorem in0 : ∀ w : Fin (cfgs 0).W, w ≠ wo0 → ((cfgs 0).win w).isOut = false ∧ Pipeline.arrRef (cfgs 0).spec w ∉ ([main_v19] : List (Ref sig .tc)) := by decide

theorem hF0 (c : Dev nD) (w : Fin (cfgs 0).W) : (PD 0 c).arrAt w (cfgs 0).N = V4 m o5 c (Pipeline.arrRef (cfgs 0).spec w) := by
  by_cases hw : w = wo0
  · subst hw
    refine Eq.trans ?_ (Function.update_self (f := V3 (F := F) m c) (Proc.devRef (τ := τ) .tc main_v19) (o5 4 main_v19 c)).symm
    rw [o5_v19 m H0 H1 H2 H3 H4 4 c]
    exact (outs1_at m H0 4 c).symm
  · exact ((PD 0 c).arrAt_in w (in0 w hw).1 _).trans ((H0.A_eq _ c w).trans (V4_of m o5 c _ (in0 w hw).2).symm)

theorem hrest0 (c : Dev nD) (b : Ref sig .tc) (hb : b ∉ Finset.univ.image (Pipeline.arrRef (cfgs 0).spec)) : V4 m o5 c b = V3 m c b :=
  V4_of m o5 c b fun hm => hb (by rw [List.mem_singleton.mp hm]; exact Finset.mem_image.mpr ⟨wo0, Finset.mem_univ _, rfl⟩)

variable (hs0 : ∀ V c w, (H0.dat V c).share w = fullShare)

/-- Region 0 as a segment: entered from `V3`, left at `V4`. -/
def reg0 : RegionSeg (pcfgs (F := F)) adm PD () defs₀ Variants.none L lv 0 :=
  regOf 0 PD launch0 (V3 m) (V4 m o5) (fun c => H0.body _ c) (fun c w => hs0 _ c w) (fun c t => H0.owed _ c t) (fun c x => H0.recorded0 _ c x)
    (fun c w => H0.A_eq _ c w) (fun c => H0.Phi_first _ c) (fun c => H0.Phi_last _ c)
    (hF0 m H0 H1 H2 H3 H4) (hrest0 m H0 H1 H2 H3 H4) (no_tables 0)

/-! ## Region 1 -/

theorem in1 : ∀ w : Fin (cfgs 1).W, w ≠ wo1 → ((cfgs 1).win w).isOut = false ∧ Pipeline.arrRef (cfgs 1).spec w ∉ ([main_v38] : List (Ref sig .tc)) := by decide

theorem hA1 (c : Dev nD) (w : Fin (cfgs 1).W) : (PD 1 c).A w = V8 m o5 c (Pipeline.arrRef (cfgs 1).spec w) :=
  (H1.A_eq _ c w).trans (congrFun (V8_final m H0 H1 H2 H3 H4 c).symm _)

theorem hF1 (c : Dev nD) (w : Fin (cfgs 1).W) : (PD 1 c).arrAt w (cfgs 1).N = V9 m o5 c (Pipeline.arrRef (cfgs 1).spec w) := by
  by_cases hw : w = wo1
  · subst hw
    refine Eq.trans ?_ (Function.update_self (f := V8 (F := F) m o5 c) (Proc.devRef (τ := τ) .tc main_v38) (o5 9 main_v38 c)).symm
    rw [o5_v38 m H0 H1 H2 H3 H4 9 c]
    exact (outs2_at m H0 H1 9 c).symm
  · exact ((PD 1 c).arrAt_in w (in1 w hw).1 _).trans ((hA1 m H0 H1 H2 H3 H4 c w).trans (V9_of m o5 c _ (in1 w hw).2).symm)

theorem hrest1 (c : Dev nD) (b : Ref sig .tc) (hb : b ∉ Finset.univ.image (Pipeline.arrRef (cfgs 1).spec)) : V9 m o5 c b = V8 m o5 c b :=
  V9_of m o5 c b fun hm => hb (by rw [List.mem_singleton.mp hm]; exact Finset.mem_image.mpr ⟨wo1, Finset.mem_univ _, rfl⟩)

variable (hs1 : ∀ V c w, (H1.dat V c).share w = fullShare)

/-- Region 1 as a segment: entered from `V8`, left at `V9`. -/
def reg1 : RegionSeg (pcfgs (F := F)) adm PD () defs₀ Variants.none L lv 1 :=
  regOf 1 PD launch1 (V8 m o5) (V9 m o5) (fun c => H1.body _ c) (fun c w => hs1 _ c w) (fun c t => H1.owed _ c t) (fun c x => H1.recorded0 _ c x)
    (hA1 m H0 H1 H2 H3 H4) (fun c => H1.Phi_first _ c) (fun c => H1.Phi_last _ c)
    (hF1 m H0 H1 H2 H3 H4) (hrest1 m H0 H1 H2 H3 H4) (no_tables 1)

/-! ## Region 3 -/

theorem in3 : ∀ w : Fin (cfgs 3).W, w ≠ wo3 → ((cfgs 3).win w).isOut = false ∧ Pipeline.arrRef (cfgs 3).spec w ∉ ([main_v45] : List (Ref sig .tc)) := by decide

theorem hA3 (c : Dev nD) (w : Fin (cfgs 3).W) : (PD 3 c).A w = V13 m o5 c (Pipeline.arrRef (cfgs 3).spec w) :=
  (H3.A_eq _ c w).trans (congrFun (V13_final m H0 H1 H2 H3 H4 c).symm _)

theorem hF3 (c : Dev nD) (w : Fin (cfgs 3).W) : (PD 3 c).arrAt w (cfgs 3).N = V14 m o5 c (Pipeline.arrRef (cfgs 3).spec w) := by
  by_cases hw : w = wo3
  · subst hw
    refine Eq.trans ?_ (Function.update_self (f := V13 (F := F) m o5 c) (Proc.devRef (τ := τ) .tc main_v45) (o5 14 main_v45 c)).symm
    rw [o5_v45 m H0 H1 H2 H3 H4 14 c]
    exact (outs4_at m H0 H1 H2 H3 14 c).symm
  · exact ((PD 3 c).arrAt_in w (in3 w hw).1 _).trans ((hA3 m H0 H1 H2 H3 H4 c w).trans (V14_of m o5 c _ (in3 w hw).2).symm)

theorem hrest3 (c : Dev nD) (b : Ref sig .tc) (hb : b ∉ Finset.univ.image (Pipeline.arrRef (cfgs 3).spec)) : V14 m o5 c b = V13 m o5 c b :=
  V14_of m o5 c b fun hm => hb (by rw [List.mem_singleton.mp hm]; exact Finset.mem_image.mpr ⟨wo3, Finset.mem_univ _, rfl⟩)

variable (hs3 : ∀ V c w, (H3.dat V c).share w = fullShare)

/-- Region 3 as a segment: entered from `V13`, left at `V14`. -/
def reg3 : RegionSeg (pcfgs (F := F)) adm PD () defs₀ Variants.none L lv 3 :=
  regOf 3 PD launch3 (V13 m o5) (V14 m o5) (fun c => H3.body _ c) (fun c w => hs3 _ c w) (fun c t => H3.owed _ c t) (fun c x => H3.recorded0 _ c x)
    (hA3 m H0 H1 H2 H3 H4) (fun c => H3.Phi_first _ c) (fun c => H3.Phi_last _ c)
    (hF3 m H0 H1 H2 H3 H4) (hrest3 m H0 H1 H2 H3 H4) (no_tables 3)

/-! ## Region 4 -/

theorem in4 : ∀ w : Fin (cfgs 4).W, w ≠ wo4 → ((cfgs 4).win w).isOut = false ∧ Pipeline.arrRef (cfgs 4).spec w ∉ ([main_v52] : List (Ref sig .tc)) := by decide

theorem hA4 (c : Dev nD) (w : Fin (cfgs 4).W) : (PD 4 c).A w = V15 m o5 c (Pipeline.arrRef (cfgs 4).spec w) :=
  (H4.A_eq _ c w).trans (congrFun (V15_final m H0 H1 H2 H3 H4 c).symm _)

theorem hF4 (c : Dev nD) (w : Fin (cfgs 4).W) : (PD 4 c).arrAt w (cfgs 4).N = V16 m o5 c (Pipeline.arrRef (cfgs 4).spec w) := by
  by_cases hw : w = wo4
  · subst hw
    refine Eq.trans ?_ (Function.update_self (f := V15 (F := F) m o5 c) (Proc.devRef (τ := τ) .tc main_v52) (o5 16 main_v52 c)).symm
    exact (outs5_at m H0 H1 H2 H3 H4 16 c).symm
  · exact ((PD 4 c).arrAt_in w (in4 w hw).1 _).trans ((hA4 m H0 H1 H2 H3 H4 c w).trans (V16_of m o5 c _ (in4 w hw).2).symm)

theorem hrest4 (c : Dev nD) (b : Ref sig .tc) (hb : b ∉ Finset.univ.image (Pipeline.arrRef (cfgs 4).spec)) : V16 m o5 c b = V15 m o5 c b :=
  V16_of m o5 c b fun hm => hb (by rw [List.mem_singleton.mp hm]; exact Finset.mem_image.mpr ⟨wo4, Finset.mem_univ _, rfl⟩)

variable (hs4 : ∀ V c w, (H4.dat V c).share w = fullShare)

/-- Region 4 as a segment: entered from `V15`, left at `V16`. -/
def reg4 : RegionSeg (pcfgs (F := F)) adm PD () defs₀ Variants.none L lv 4 :=
  regOf 4 PD launch4 (V15 m o5) (V16 m o5) (fun c => H4.body _ c) (fun c w => hs4 _ c w) (fun c t => H4.owed _ c t) (fun c x => H4.recorded0 _ c x)
    (hA4 m H0 H1 H2 H3 H4) (fun c => H4.Phi_first _ c) (fun c => H4.Phi_last _ c)
    (hF4 m H0 H1 H2 H3 H4) (hrest4 m H0 H1 H2 H3 H4) (no_tables 4)

/-! ## Region 2: two input windows on one array -/

abbrev wi20 : Fin (cfgs 2).W := ⟨0, by decide⟩
abbrev wi21 : Fin (cfgs 2).W := ⟨1, by decide⟩

/-- Region 2's arrays, window by window: the adjacency array behind windows 0 and 1 at the two halves of the full share,
    the output array at the full share. -/
theorem arrays2 (c : Dev nD) (D : Dat τ (Elt F) Unit ℕ (UR sig nD τ) ℕ (cfgs 2) c)
    (h0 : D.share wi20 = fullShare.left) (h1 : D.share wi21 = fullShare.right) (h2 : D.share wo2 = fullShare)
    (Fw : (w : Fin (cfgs 2).W) → Buf (Elt F) (((cfgs 2).win w).arr.view.loc (c.tc : Thread nD τ))) :
    (D.arrays Fw : sProp 𝕄) = iprop((((c : Thread nD τ).loc main_v0) ↦{fullShare.left} Fw wi20) ∗ (((c : Thread nD τ).loc main_v0) ↦{fullShare.right} Fw wi21)
        ∗ (((c : Thread nD τ).loc main_v44) ↦{fullShare} Fw wo2)) := by
  unfold Dat.arrays
  rw [bigSep_W2]
  have e0 : ((cfgs 2).win 0).arr.view.set = Finset.univ := (arr_whole2 0).set_eq_univ
  have e1 : ((cfgs 2).win 1).arr.view.set = Finset.univ := (arr_whole2 1).set_eq_univ
  have e2 : ((cfgs 2).win 2).arr.view.set = Finset.univ := (arr_whole2 2).set_eq_univ
  rw [e0, e1, e2, show D.share 0 = _ from h0, show D.share 1 = _ from h1, show D.share 2 = _ from h2]
  rfl

/-- The two distinct buffers behind region 2's arrays. -/
theorem image2 : Finset.univ.image (Pipeline.arrRef (cfgs 2).spec) = {main_v0, main_v44} := by decide

/-- The buffers behind region 2's arrays, whole at the full share at contents `V`, are its `arrays` at contents read off
    `V`: the adjacency array's full share splits into the two windows' halves. And back. -/
theorem arrBufs2_iff (c : Dev nD) (D : Dat τ (Elt F) Unit ℕ (UR sig nD τ) ℕ (cfgs 2) c)
    (h0 : D.share wi20 = fullShare.left) (h1 : D.share wi21 = fullShare.right) (h2 : D.share wo2 = fullShare)
    (V : (b : Ref sig .tc) → Buf (Elt F) ((c : Thread nD τ).loc b))
    (Fw : (w : Fin (cfgs 2).W) → Buf (Elt F) (((cfgs 2).win w).arr.view.loc (c.tc : Thread nD τ)))
    (hF : ∀ w, Fw w = V (Pipeline.arrRef (cfgs 2).spec w)) :
    (Pipeline.arrBufs (Ix := Unit) (Name := ℕ) (U := UR sig nD τ) (Lvl := ℕ) (cfgs 2).spec c V : sProp 𝕄) ⊣⊢ D.arrays Fw := by
  rw [arrays2 c D h0 h1 h2 Fw]
  unfold Pipeline.arrBufs
  rw [image2, BI.bigSep_insert (by decide), BI.bigSep_singleton]
  rw [show Fw wi20 = V main_v0 from hF wi20, show Fw wi21 = V main_v0 from hF wi21, show Fw wo2 = V main_v44 from hF wo2]
  have hsh : (((c : Thread nD τ).loc main_v0) ↦{fullShare} V main_v0 : sProp 𝕄) ⊣⊢ iprop((((c : Thread nD τ).loc main_v0) ↦{fullShare.left} V main_v0) ∗ (((c : Thread nD τ).loc main_v0) ↦{fullShare.right} V main_v0)) :=
    pointsTo_share (IsOp.posShare_halves fullShare).mem_op
  exact ⟨(sep_mono hsh.1 .rfl).trans sep_assoc.1, sep_assoc.2.trans (sep_mono hsh.2 .rfl)⟩

/-! ## Region 2 -/

theorem in2 : ∀ w : Fin (cfgs 2).W, w ≠ wo2 → ((cfgs 2).win w).isOut = false ∧ Pipeline.arrRef (cfgs 2).spec w ∉ ([main_v44] : List (Ref sig .tc)) := by decide

theorem hA2 (c : Dev nD) (w : Fin (cfgs 2).W) : (PD 2 c).A w = V12 m o5 c (Pipeline.arrRef (cfgs 2).spec w) :=
  (H2.A_eq _ c w).trans (congrFun (V12_final m H0 H1 H2 H3 H4 c).symm _)

theorem hF2 (c : Dev nD) (w : Fin (cfgs 2).W) : (PD 2 c).arrAt w (cfgs 2).N = V13 m o5 c (Pipeline.arrRef (cfgs 2).spec w) := by
  by_cases hw : w = wo2
  · subst hw
    refine Eq.trans ?_ (Function.update_self (f := V12 (F := F) m o5 c) (Proc.devRef (τ := τ) .tc main_v44) (o5 13 main_v44 c)).symm
    rw [o5_v44 m H0 H1 H2 H3 H4 13 c]
    exact (outs3_at m H0 H1 H2 13 c).symm
  · exact ((PD 2 c).arrAt_in w (in2 w hw).1 _).trans ((hA2 m H0 H1 H2 H3 H4 c w).trans (V13_of m o5 c _ (in2 w hw).2).symm)

theorem hrest2 (c : Dev nD) (b : Ref sig .tc) (hb : b ∉ Finset.univ.image (Pipeline.arrRef (cfgs 2).spec)) : V13 m o5 c b = V12 m o5 c b :=
  V13_of m o5 c b fun hm => hb (by rw [List.mem_singleton.mp hm]; exact Finset.mem_image.mpr ⟨wo2, Finset.mem_univ _, rfl⟩)

-- Region 2's proof data name the two halves of the full share for its two windows on the adjacency array.
variable (hs2 : ∀ V c, (H2.dat V c).share wi20 = fullShare.left ∧ (H2.dat V c).share wi21 = fullShare.right ∧ (H2.dat V c).share wo2 = fullShare)

set_option backward.isDefEq.respectTransparency.types false in
/-- Region 2 as a segment: entered from `V12`, left at `V13`. Its two input windows read ONE array: at the entry the array's
    full share is split into the halves the proof data name, at the exit the halves are joined again. -/
def reg2 : RegionSeg (pcfgs (F := F)) adm PD () defs₀ Variants.none L lv 2 where
  win := winFacts₀2
  block_pos := block_pos2
  stage_whole := stage_whole2
  K := PEmpty
  osem k := k.elim
  ho := Pipeline.OwnSemFacts.none _
  hbody c := (H2.body _ c).loose
  hwaits := Pipeline.hwaits_of_owed_zero _ _ _ _ L lv 2 (fun c t => H2.owed _ c t)
  pre c := iprop(StableHlo.held (c : Thread nD τ) (Pipeline.ucRefs τ sig) (V12 m o5 c) ∗ R c)
  post c := iprop(StableHlo.held (c : Thread nD τ) (Pipeline.ucRefs τ sig) (V13 m o5 c) ∗ R c)
  X c := iprop(∃ r, prngReg c r)
  Y c := iprop(∃ r, prngReg c r)
  Z c := Pipeline.unscopedRest (Ix := Unit) (Name := ℕ) (U := UR sig nD τ) (Lvl := ℕ) (cfgs 2).spec c (fun b => V12 m o5 c b)
  hentry c := by
    rw [Pipeline.ownSems0_none]
    have hub := Pipeline.unscopedBufs_split₀ cfgs 2 winFacts₀2.arr_unscoped c (Ix := Unit) (Name := ℕ) (U := UR sig nD τ) (Lvl := ℕ) (fun b => V12 m o5 c b)
    rw [Pipeline.unscopedBufs_held] at hub
    have hsp := (arrBufs2_iff c (PD 2 c) (hs2 _ c).1 (hs2 _ c).2.1 (hs2 _ c).2.2 (fun b => V12 m o5 c b) ((PD 2 c).arrAt · 0)
      (fun w => hA2 m H0 H1 H2 H3 H4 c w)).1
    have hsplit := (Entails.of_eq hub).trans (sep_mono hsp .rfl)
    iintro ⟨⟨Hub, Hp, HO⟩, -, -⟩
    ihave H := hsplit $$ Hub
    icases H with ⟨Ha, Hrest⟩
    imodintro
    isplitl [Ha]; · iexact Ha
    isplitr; · exact no_tables 2 c
    isplitl [HO]
    · unfold Pipeline.Dat.owesAt Pipeline.owesWithin
      rw [show (PD 2 c).owed 0 = 0 from H2.owed _ c 0]
      icases HO with ⟨%W, HO⟩; iexists W; isplitr; · ipureintro; exact fun x _ => Or.inl (H2.recorded0 _ c x)
      iexact HO
    isplitl [Hp]; · iexact Hp
    iexact Hrest
  hin c := by
    rw [show (PD 2 c).Φ 0 = Pipeline.ΦA (cfgs 2).spec c from H2.Phi_first _ c]; unfold Pipeline.ΦA
    iintro ⟨Hp, -, Hr⟩
    isplitl [Hr]; · iexact Hr
    iexact Hp
  hout c := by
    rw [Pipeline.ownSems0_none]
    refine (show (PD 2 c).Φ (Fin.last (cfgs 2).N) ⊢ Pipeline.ΦA (cfgs 2).spec c from H2.Phi_last _ c).trans ?_
    unfold Pipeline.ΦA
    iintro ⟨Hr, Hp⟩
    isplitl [Hp]; · iexact Hp
    isplitr; · iempintro
    iexact Hr
  hexit c := by
    have hub := Pipeline.unscopedBufs_split₀ cfgs 2 winFacts₀2.arr_unscoped c (Ix := Unit) (Name := ℕ) (U := UR sig nD τ) (Lvl := ℕ) (fun b => V13 m o5 c b)
    rw [Pipeline.unscopedBufs_held] at hub
    have hjn := (arrBufs2_iff c (PD 2 c) (hs2 _ c).1 (hs2 _ c).2.1 (hs2 _ c).2.2 (fun b => V13 m o5 c b) ((PD 2 c).arrAt · (cfgs 2).N)
      (fun w => hF2 m H0 H1 H2 H3 H4 c w)).2
    have hrestEq : (Pipeline.unscopedRest (Ix := Unit) (Name := ℕ) (U := UR sig nD τ) (Lvl := ℕ) (cfgs 2).spec c (fun b => V12 m o5 c b) : sProp 𝕄)
        = Pipeline.unscopedRest (cfgs 2).spec c (fun b => V13 m o5 c b) := by
      unfold Pipeline.unscopedRest
      exact BI.bigSep_congr fun b hb => by dsimp only; rw [hrest2 m H0 H1 H2 H3 H4 c b (Finset.mem_sdiff.mp hb).2]
    have hjoin := (BIClass.sep_mono hjn (Entails.of_eq hrestEq)).trans (Entails.of_eq hub.symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (PD 2 c).owed (Fin.last (cfgs 2).N) = 0 from H2.owed _ c _]
    icases HO with ⟨%W, -, HO⟩; iexists W; iexact HO

/-! ## The run -/

variable (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hs0 hs1 hs2 hs3 hs4 in
set_option backward.isDefEq.respectTransparency.types false in
/-- THE RUN. Every weakly fair execution of @main terminates without a fault, and every core's unscoped buffers end at the
    last valuation of the fold through @main, the regions' output arrays at what the regions leave. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V17 m o5 c b) :=
  run_cond m (Ix := Unit) (U := UR sig nD τ) (Lvl := ℕ) emb₁ () Variants.none L lv (fun _ _ => rfl) ρ o5 PD
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (reg0 m H0 H1 H2 H3 H4 hs0) (fun _ => .rfl) (fun _ => .rfl)
    (reg1 m H0 H1 H2 H3 H4 hs1) (fun _ => .rfl) (fun _ => .rfl)
    (reg2 m H0 H1 H2 H3 H4 hs2) (fun _ => .rfl) (fun _ => .rfl)
    (reg3 m H0 H1 H2 H3 H4 hs3) (fun _ => .rfl) (fun _ => .rfl)
    (reg4 m H0 H1 H2 H3 H4 hs4) (fun _ => .rfl) (fun _ => .rfl)

end Cert.KernelIdeal.Run

end
-- ==== Proof.Reg0Runs.lean ====
import proofs.«162839_j74869869904021_2_alg».proof.Proof.Gen.KernelIdeal.Launch
import proofs.«162839_j74869869904021_2_alg».proof.Proof.Gen.KernelIdeal.Skeleton
import proofs.«162839_j74869869904021_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matrix product): what the control cases of its kernel share

The kernel accumulates a row block of the product over the last grid axis `k`: at `k = 0` it zeroes
an accumulator it keeps between grid points, at every point it adds the product of the two input
blocks, and at the last `k` it copies the accumulator to the output block. Everything is stated at
a parameter `V`: the contents of the unscoped buffers when the region is entered. -/

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the accumulator is zeroed): the last grid
    coordinate is 0. -/
abbrev cond_0 (i : grid0.Coords) : Prop := (Scalar.cmpi .ne (Scalar.extui (Scalar.cmpi .eq (BitVec.ofNat 32 (i 2).val) 0#32)) 0#32) = 1#1
/-- It holds at the even points. -/
theorem hcond_0 : ∀ t : Fin cfg0.N, cond_0 (grid0.coords t) ↔ t.val % 2 = 0 :=
  (by decide +kernel : ∀ t : Fin grid0.N, cond_0 (grid0.coords t) ↔ t.val % 2 = 0)

/-- The condition of the body's second conditional (the accumulator is copied out): the last grid
    coordinate is the last one. -/
abbrev cond_1 (i : grid0.Coords) : Prop := k0_cond2 i = 1#1
/-- It holds at the odd points. -/
theorem hcond_1 : ∀ t : Fin cfg0.N, cond_1 (grid0.coords t) ↔ t.val % 2 = 1 :=
  (by decide +kernel : ∀ t : Fin grid0.N, cond_1 (grid0.coords t) ↔ t.val % 2 = 1)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- At the even points the output window is idle: nothing is stored into it, -/
theorem idleAt_2_A : ∀ t : Fin cfg0.N, cond_0 (grid0.coords t) → ¬cond_1 (grid0.coords t) → cfg0.idle 2 (grid0.coords t) = true := by decide +kernel
/-- and its block is not written back there. -/
theorem noFlush_2_A : ∀ t : Fin cfg0.N, cond_0 (grid0.coords t) → ¬cond_1 (grid0.coords t) → (cfg0.win 2).flush t = false := by decide +kernel
/-- At the odd points the output window is live. -/
theorem liveAt_2_B : ∀ t : Fin cfg0.N, ¬cond_0 (grid0.coords t) → cond_1 (grid0.coords t) → cfg0.idle 2 (grid0.coords t) = false := by decide +kernel

/-! ## The staging and scratch memrefs -/

/-- One staging buffer of the output window, through which its contents are stated. -/
abbrev VO_2 : View sig .tc .vmem S512x128 .f32 := (Memref.whole cc0_stg2_0 : Memref sig .tc .vmem S512x128 .f32).view
/-- Each window's current staging memref at point `t`, as the pipeline passes it, and its wholeness. -/
abbrev ms_0 (t : Fin cfg0.N) : Memref sig .tc .vmem S512x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x128 .f32 := win0_2.stage (cfg0.slots t 2)
abbrev hs_2 (t : Fin cfg0.N) : (ms_2 t).IsWhole := hstage0_2 ((cfg0.slots t 2).cast nbuf0_2)
/-- The accumulator: a whole scoped buffer of the kernel's own, passed beside the windows. -/
abbrev scM : Memref sig .tc .vmem S512x128 .f32 := Memref.whole cc0_scratch0
/-- The accumulator as a view: what it holds is stated through it. -/
abbrev VS : View sig .tc .vmem S512x128 .f32 := scM.view

/-- The other scoped buffers of the program, unopened. -/
abbrev restBut (c : Dev nD) : sProp 𝕄 :=
  Pipeline.scopedRestBut (Ix := Unit) (Name := ℕ) (U := UR sig nD τ) (Lvl := ℕ) (Val := Elt F) spec0 c [cc0_scratch0]

/-- The region's invariant with the accumulator as a memref owned at some contents. -/
theorem PhiA_eq (c : Dev nD) :
    (Pipeline.ΦA spec0 c : sProp 𝕄)
      = iprop(iprop(iprop((∃ d, owns (c : Thread nD τ) scM fullShare d)) ∗ restBut c) ∗ (∃ r, prngReg c r)) := by
  unfold Pipeline.ΦA; rw [scopedRest0_split]; simp only [scM, owns_whole]; try rfl

end Cert.KernelIdeal.Reg0

end
-- ==== Proof.Reg0RunA.lean ====
import proofs.«162839_j74869869904021_2_alg».proof.Proof.Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k = 0` (the accumulator zeroed, then the blocks' product added; nothing
    copied out): on whole memrefs — the inputs' at their contents, the output's at contents handed back
    untouched, the accumulator at anything — it runs to the continuation holding the inputs' and the
    output's as they were and the accumulator with the pieces `LS0` written. The pieces are the
    witness the symbolic run finds. -/
noncomputable def kernelRun_A (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Reg0

end
-- ==== Proof.Reg0RunB.lean ====
import proofs.«162839_j74869869904021_2_alg».proof.Proof.Reg0RunA

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k` last (the blocks' product added to the accumulator, which is then
    copied to the output block): on whole memrefs — the inputs' at their contents, the output's at
    anything, the accumulator at the contents `xs0` the point before left — it runs to the
    continuation holding the inputs' as they were, the output's with the pieces `L2` written and the
    accumulator with the pieces `LS0` written. -/
noncomputable def kernelRun_B (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Reg0

end
-- ==== Proof.Reg0.lean ====
import proofs.«162839_j74869869904021_2_alg».proof.Proof.Reg0RunB

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matrix product): the proof data of its pipeline and the body obligation

What the output block and the accumulator hold after each grid point, by recursion on the point (the
accumulator is carried from one point to the next); the invariant (the accumulator at what the point
before left); and the body's triple at every point, from the two control cases' runs. -/

variable (V : (c : Dev nD) → (b : Ref sig .tc) → Buf (Elt F) ((c : Thread nD τ).loc b))

/-! ## What each case leaves -/

/-- The case `k = 0` stores nothing into the output: a placeholder that nothing consults (the window is
    idle and not written back at these points). -/
def out_A_2 (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) : Vec F S512x128 .f32 :=
  VO_2.read (Elt F) (VO_2.writes (Elt F) VO_2.junk (kernelRun_A c i arg3 harg3 arg4 harg4 arg5 harg5 arg6 harg6 hc0 hc1 x0 x1).1)

/-- The pieces the case `k = 0` writes to the accumulator cover it. -/
theorem scover_A (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) (y : S512x128.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x128.size (by sl_kernel_rfl) y

/-- What the case `k = 0` leaves in the accumulator: its pieces read back. -/
def sout_A (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) : Vec F S512x128 .f32 :=
  VS.read (Elt F) (VS.writes (Elt F) VS.junk (kernelRun_A c i arg3 harg3 arg4 harg4 arg5 harg5 arg6 harg6 hc0 hc1 x0 x1).2.1)

/-- The pieces the case `k` last writes to the output block cover it. -/
theorem cover_B_2 (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) (y : S512x128.Idx) :
    ∃ pc ∈ (kernelRun_B c i arg3 harg3 arg4 harg4 arg5 harg5 arg6 harg6 hc0 hc1 x0 x1 xs0).1, y ∈ pc.1.set :=
  View.cover_of_tiledL (kernelRun_B c i arg3 harg3 arg4 harg4 arg5 harg5 arg6 harg6 hc0 hc1 x0 x1 xs0).1 S512x128.size (by sl_kernel_rfl) y

/-- What the case `k` last leaves in the output block: its pieces read back. -/
def out_B_2 (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) : Vec F S512x128 .f32 :=
  VO_2.read (Elt F) (VO_2.writes (Elt F) VO_2.junk (kernelRun_B c i arg3 harg3 arg4 harg4 arg5 harg5 arg6 harg6 hc0 hc1 x0 x1 xs0).1)

/-- The pieces the case `k` last writes to the accumulator cover it. -/
theorem scover_B (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) (y : S512x128.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S512x128.size (by sl_kernel_rfl) y

/-- What the case `k` last leaves in the accumulator: its pieces read back. -/
def sout_B (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) : Vec F S512x128 .f32 :=
  VS.read (Elt F) (VS.writes (Elt F) VS.junk (kernelRun_B c i arg3 harg3 arg4 harg4 arg5 harg5 arg6 harg6 hc0 hc1 x0 x1 xs0).2.1)

/-! ## What the output block and the accumulator hold after each point -/

theorem hc1_of_even (t : Fin cfg0.N) (h0 : t.val % 2 = 0) : ¬cond_1 (grid0.coords t) :=
  fun h => by have := (hcond_1 t).mp h; omega
theorem hc0_of_odd (t : Fin cfg0.N) (h0 : ¬t.val % 2 = 0) : ¬cond_0 (grid0.coords t) :=
  fun h => h0 ((hcond_0 t).mp h)
theorem hc1_of_odd (t : Fin cfg0.N) (h0 : ¬t.val % 2 = 0) : cond_1 (grid0.coords t) :=
  (hcond_1 t).mpr (by omega)

/-- The pair (output block, accumulator) after an even point: the case `k = 0` at the point's memrefs
    and input blocks. -/
def stepA (c : Dev nD) (t : Fin cfg0.N) (h0 : t.val % 2 = 0) : Vec F S512x128 .f32 × Vec F S512x128 .f32 :=
  (out_A_2 c (grid0.coords t) (ms_0 t) (hs_0 t) (ms_1 t) (hs_1 t) (ms_2 t) (hs_2 t) scM (Memref.isWhole_whole _) ((hcond_0 t).mpr h0) (hc1_of_even t h0) (iblk V c 0 t) (iblk V c 1 t),
   sout_A c (grid0.coords t) (ms_0 t) (hs_0 t) (ms_1 t) (hs_1 t) (ms_2 t) (hs_2 t) scM (Memref.isWhole_whole _) ((hcond_0 t).mpr h0) (hc1_of_even t h0) (iblk V c 0 t) (iblk V c 1 t))

/-- The pair after an odd point: the case `k` last at the point's memrefs and input blocks, over the
    accumulator `xs` the point before left. -/
def stepB (c : Dev nD) (t : Fin cfg0.N) (h0 : ¬t.val % 2 = 0) (xs : Vec F S512x128 .f32) : Vec F S512x128 .f32 × Vec F S512x128 .f32 :=
  (out_B_2 c (grid0.coords t) (ms_0 t) (hs_0 t) (ms_1 t) (hs_1 t) (ms_2 t) (hs_2 t) scM (Memref.isWhole_whole _) (hc0_of_odd t h0) (hc1_of_odd t h0) (iblk V c 0 t) (iblk V c 1 t) xs,
   sout_B c (grid0.coords t) (ms_0 t) (hs_0 t) (ms_1 t) (hs_1 t) (ms_2 t) (hs_2 t) scM (Memref.isWhole_whole _) (hc0_of_odd t h0) (hc1_of_odd t h0) (iblk V c 0 t) (iblk V c 1 t) xs)

/-- THE ACCUMULATION: what the output's staging buffer and the accumulator hold after the body at
    position `n`. -/
def outsAt (c : Dev nD) : (n : ℕ) → n < cfg0.N → Vec F S512x128 .f32 × Vec F S512x128 .f32
  | 0, hn => stepA V c ⟨0, hn⟩ (Nat.zero_mod _)
  | n + 1, hn =>
    if h0 : (n + 1) % 2 = 0 then stepA V c ⟨n + 1, hn⟩ h0
    else stepB V c ⟨n + 1, hn⟩ h0 (outsAt c n (Nat.lt_of_succ_lt hn)).2

theorem outsAt_A (c : Dev nD) (t : Fin cfg0.N) (h0 : t.val % 2 = 0) :
    outsAt V c t.val t.isLt = stepA V c t h0 := by
  obtain ⟨n, hn⟩ := t
  cases n with
  | zero => exact rfl
  | succ n => exact (dif_pos h0).trans rfl

theorem outsAt_B (c : Dev nD) (t : Fin cfg0.N) (h0 : ¬t.val % 2 = 0) :
    outsAt V c t.val t.isLt = stepB V c t h0 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

/-- The region invariant before position `n`: before the first point the launch's (every scoped buffer
    at anything); afterwards the accumulator at what the point before left in it, the other scoped
    buffers unopened, the generator register at some state. -/
def PhiS (c : Dev nD) : (n : ℕ) → n ≤ cfg0.N → sProp 𝕄
  | 0, _ => Pipeline.ΦA spec0 c
  | n + 1, hn => iprop(iprop(iprop(owns (c : Thread nD τ) scM fullShare ((outsAt V c n hn).2)) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM fullShare ((outsAt V c n hn).2)) ∗ restBut (F := F) c) ∗ (∃ r, prngReg c r)) := rfl

theorem PhiS_pos (c : Dev nD) (n : ℕ) (h : n ≤ cfg0.N) (hz : n ≠ 0) :
    PhiS V c n h = iprop(iprop(iprop(owns (c : Thread nD τ) scM fullShare ((outsAt V c (n - 1) (by omega)).2)) ∗ restBut (F := F) c) ∗ (∃ r, prngReg c r)) := by
  cases n with
  | zero => exact absurd rfl hz
  | succ n => rfl

/-! ## The pipeline's proof data -/

/-- The proof data of the region's pipeline on core `c`: the arrays as the region finds them (`V`);
    after the body at point `t` each input's buffer at its block and the output's at `outsAt`; the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the parity of the point says which
    case it is in; the invariant hands the body the accumulator at what the point before left (at
    anything at the first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · rw [Dat.leavesExact_idle (dat V c) 2 t (idleAt_2_A t ((hcond_0 t).mpr h0) (hc1_of_even t h0)) (noFlush_2_A t ((hcond_0 t).mpr h0) (hc1_of_even t h0))]
    rw [outsAt_A V c t h0]
    unfold stepA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid0.coords t) _ _ _ _ _ _ _ _ ((hcond_0 t).mpr h0) (hc1_of_even t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid0.coords t) _ _ _ _ _ _ _ _ ((hcond_0 t).mpr h0) (hc1_of_even t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · rw [show (dat V c).leavesExact 2 t = owns (c : Thread nD τ) (ms_2 t) fullShare ((dat V c).after 2 t) from by
      unfold Dat.leavesExact; rw [liveAt_2_B t (hc0_of_odd t h0) (hc1_of_odd t h0)], after_2]
    rw [outsAt_B V c t h0]
    unfold stepB out_B_2 sout_B; (try dsimp only)
    have hz : t.val ≠ 0 := fun h => h0 (by rw [h])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun_B c (grid0.coords t) _ _ _ _ _ _ _ _ (hc0_of_odd t h0) (hc1_of_odd t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover_B c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B_2 c _ _ _ _ _ _ _ _ _ _ _ _ _ _)

/-- The library's body obligation, at every point. -/
theorem body_obligation (c : Dev nD) : Pipeline.BodyObligation (dat (F := F) V c) (defs₀ (F := F)) Variants.none () Set.univ := fun t => by
  rw [bigSep_W0, bigSep_W0]
  exact sound_body V c t

/-- The invariant before the first point is what the launch hands the region. -/
theorem Phi_first (c : Dev nD) : (dat V c).Φ 0 = Pipeline.ΦA spec0 c := rfl

/-- After any point but the first the invariant gives the launch's back: the accumulator's named
    contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg0.N) ⊢ Pipeline.ΦA spec0 c :=
  Phi_out V c _ (by rw [Fin.val_last]; have : cfg0.N = 16 := N_0; omega)

end Cert.KernelIdeal.Reg0

end
-- ==== Proof.Reg1Runs.lean ====
import proofs.«162839_j74869869904021_2_alg».proof.Proof.Gen.KernelIdeal.Launch
import proofs.«162839_j74869869904021_2_alg».proof.Proof.Gen.KernelIdeal.Skeleton
import proofs.«162839_j74869869904021_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second matrix product): what the control cases of its kernel share

The kernel accumulates a row block of the product over the last grid axis `k` (four steps): at
`k = 0` it zeroes an accumulator it keeps between grid points, at every point it adds the product of
the two input blocks, and at the last `k` it copies the accumulator to the output block. Everything
is stated at a parameter `V`: the contents of the unscoped buffers when the region is entered. -/

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the accumulator is zeroed): the last grid
    coordinate is 0. -/
abbrev cond_0 (i : grid1.Coords) : Prop := (Scalar.cmpi .ne (Scalar.extui (Scalar.cmpi .eq (BitVec.ofNat 32 (i 2).val) 0#32)) 0#32) = 1#1
/-- It holds at the points ≡ 0 (mod 4). -/
theorem hcond_0 : ∀ t : Fin cfg1.N, cond_0 (grid1.coords t) ↔ t.val % 4 = 0 :=
  (by decide +kernel : ∀ t : Fin grid1.N, cond_0 (grid1.coords t) ↔ t.val % 4 = 0)

/-- The condition of the body's second conditional (the accumulator is copied out): the last grid
    coordinate is the last one. -/
abbrev cond_1 (i : grid1.Coords) : Prop := k1_cond2 i = 1#1
/-- It holds at the points ≡ 3 (mod 4). -/
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Where the accumulator is not copied out the output window is idle: nothing is stored into it, -/
theorem idleAt_2 : ∀ t : Fin cfg1.N, ¬cond_1 (grid1.coords t) → cfg1.idle 2 (grid1.coords t) = true := by decide +kernel
/-- and its block is not written back there. -/
theorem noFlush_2 : ∀ t : Fin cfg1.N, ¬cond_1 (grid1.coords t) → (cfg1.win 2).flush t = false := by decide +kernel
/-- Where it is copied out the output window is live. -/
theorem liveAt_2_C : ∀ t : Fin cfg1.N, cond_1 (grid1.coords t) → cfg1.idle 2 (grid1.coords t) = false := by decide +kernel

/-! ## The staging and scratch memrefs -/

/-- One staging buffer of the output window, through which its contents are stated. -/
abbrev VO_2 : View sig .tc .vmem S512x128 .f32 := (Memref.whole cc1_stg2_0 : Memref sig .tc .vmem S512x128 .f32).view
/-- Each window's current staging memref at point `t`, as the pipeline passes it, and its wholeness. -/
abbrev ms_0 (t : Fin cfg1.N) : Memref sig .tc .vmem S512x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S512x128 .f32 := win1_2.stage (cfg1.slots t 2)
abbrev hs_2 (t : Fin cfg1.N) : (ms_2 t).IsWhole := hstage1_2 ((cfg1.slots t 2).cast nbuf1_2)
/-- The accumulator: a whole scoped buffer of the kernel's own, passed beside the windows. -/
abbrev scM : Memref sig .tc .vmem S512x128 .f32 := Memref.whole cc1_scratch0
/-- The accumulator as a view: what it holds is stated through it. -/
abbrev VS : View sig .tc .vmem S512x128 .f32 := scM.view

/-- The other scoped buffers of the program, unopened. -/
abbrev restBut (c : Dev nD) : sProp 𝕄 :=
  Pipeline.scopedRestBut (Ix := Unit) (Name := ℕ) (U := UR sig nD τ) (Lvl := ℕ) (Val := Elt F) spec1 c [cc1_scratch0]

/-- The region's invariant with the accumulator as a memref owned at some contents. -/
theorem PhiA_eq (c : Dev nD) :
    (Pipeline.ΦA spec1 c : sProp 𝕄)
      = iprop(iprop(iprop((∃ d, owns (c : Thread nD τ) scM fullShare d)) ∗ restBut c) ∗ (∃ r, prngReg c r)) := by
  unfold Pipeline.ΦA; rw [scopedRest1_split]; simp only [scM, owns_whole]; try rfl

end Cert.KernelIdeal.Reg1

end
-- ==== Proof.Reg1RunA.lean ====
import proofs.«162839_j74869869904021_2_alg».proof.Proof.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k = 0` (the accumulator zeroed, then the blocks' product added; nothing
    copied out): on whole memrefs — the inputs' at their contents, the output's at contents handed back
    untouched, the accumulator at anything — it runs to the continuation holding the inputs' and the
    output's as they were and the accumulator with the pieces `LS0` written. The pieces are the
    witness the symbolic run finds. -/
noncomputable def kernelRun_A (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Reg1

end
-- ==== Proof.Reg1RunB.lean ====
import proofs.«162839_j74869869904021_2_alg».proof.Proof.Reg1RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k` neither first nor last (the blocks' product added to the accumulator;
    nothing copied out): on whole memrefs — the inputs' at their contents, the output's at contents
    handed back untouched, the accumulator at the contents `xs0` the point before left — it runs to the
    continuation holding the inputs' and the output's as they were and the accumulator with the pieces
    `LS0` written. -/
noncomputable def kernelRun_B (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Reg1

end
-- ==== Proof.Reg1RunC.lean ====
import proofs.«162839_j74869869904021_2_alg».proof.Proof.Reg1RunB

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k` last (the blocks' product added to the accumulator, which is then
    copied to the output block): on whole memrefs — the inputs' at their contents, the output's at
    anything, the accumulator at the contents `xs0` the point before left — it runs to the
    continuation holding the inputs' as they were, the output's with the pieces `L2` written and the
    accumulator with the pieces `LS0` written. -/
noncomputable def kernelRun_C (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Reg1

end
-- ==== Proof.Reg1.lean ====
import proofs.«162839_j74869869904021_2_alg».proof.Proof.Reg1RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second matrix product): the proof data of its pipeline and the body obligation

What the output block and the accumulator hold after each grid point, by recursion on the point (the
accumulator is carried from one point to the next); the invariant (the accumulator at what the point
before left); and the body's triple at every point, from the three control cases' runs. -/

variable (V : (c : Dev nD) → (b : Ref sig .tc) → Buf (Elt F) ((c : Thread nD τ).loc b))

/-! ## What each case leaves -/

/-- The case `k = 0` stores nothing into the output: a placeholder that nothing consults (the window is
    idle and not written back at these points). -/
def out_A_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) : Vec F S512x128 .f32 :=
  VO_2.read (Elt F) (VO_2.writes (Elt F) VO_2.junk (kernelRun_A c i arg3 harg3 arg4 harg4 arg5 harg5 arg6 harg6 hc0 hc1 x0 x1).1)

/-- The pieces the case `k = 0` writes to the accumulator cover it. -/
theorem scover_A (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) (y : S512x128.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x128.size (by sl_kernel_rfl) y

/-- What the case `k = 0` leaves in the accumulator: its pieces read back. -/
def sout_A (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) : Vec F S512x128 .f32 :=
  VS.read (Elt F) (VS.writes (Elt F) VS.junk (kernelRun_A c i arg3 harg3 arg4 harg4 arg5 harg5 arg6 harg6 hc0 hc1 x0 x1).2.1)

/-- The middle case stores nothing into the output either: the same placeholder. -/
def out_B_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) : Vec F S512x128 .f32 :=
  VO_2.read (Elt F) (VO_2.writes (Elt F) VO_2.junk (kernelRun_B c i arg3 harg3 arg4 harg4 arg5 harg5 arg6 harg6 hc0 hc1 x0 x1 xs0).1)

/-- The pieces the middle case writes to the accumulator cover it. -/
theorem scover_B (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) (y : S512x128.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S512x128.size (by sl_kernel_rfl) y

/-- What the middle case leaves in the accumulator: its pieces read back. -/
def sout_B (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) : Vec F S512x128 .f32 :=
  VS.read (Elt F) (VS.writes (Elt F) VS.junk (kernelRun_B c i arg3 harg3 arg4 harg4 arg5 harg5 arg6 harg6 hc0 hc1 x0 x1 xs0).2.1)

/-- The pieces the case `k` last writes to the output block cover it. -/
theorem cover_C_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) (y : S512x128.Idx) :
    ∃ pc ∈ (kernelRun_C c i arg3 harg3 arg4 harg4 arg5 harg5 arg6 harg6 hc0 hc1 x0 x1 xs0).1, y ∈ pc.1.set :=
  View.cover_of_tiledL (kernelRun_C c i arg3 harg3 arg4 harg4 arg5 harg5 arg6 harg6 hc0 hc1 x0 x1 xs0).1 S512x128.size (by sl_kernel_rfl) y

/-- What the case `k` last leaves in the output block: its pieces read back. -/
def out_C_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) : Vec F S512x128 .f32 :=
  VO_2.read (Elt F) (VO_2.writes (Elt F) VO_2.junk (kernelRun_C c i arg3 harg3 arg4 harg4 arg5 harg5 arg6 harg6 hc0 hc1 x0 x1 xs0).1)

/-- The pieces the case `k` last writes to the accumulator cover it. -/
theorem scover_C (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) (y : S512x128.Idx) :
    ∃ pc ∈ (kernelRun_C c i arg3 harg3 arg4 harg4 arg5 harg5 arg6 harg6 hc0 hc1 x0 x1 xs0).2.1, y ∈ pc.1.set :=
  View.cover_of_tiledL (kernelRun_C c i arg3 harg3 arg4 harg4 arg5 harg5 arg6 harg6 hc0 hc1 x0 x1 xs0).2.1 S512x128.size (by sl_kernel_rfl) y

/-- What the case `k` last leaves in the accumulator: its pieces read back. -/
def sout_C (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) : Vec F S512x128 .f32 :=
  VS.read (Elt F) (VS.writes (Elt F) VS.junk (kernelRun_C c i arg3 harg3 arg4 harg4 arg5 harg5 arg6 harg6 hc0 hc1 x0 x1 xs0).2.1)

/-! ## What the output block and the accumulator hold after each point -/

theorem c0_of (t : Fin cfg1.N) (h0 : t.val % 4 = 0) : cond_0 (grid1.coords t) := (hcond_0 t).mpr h0
theorem nc1_of_first (t : Fin cfg1.N) (h0 : t.val % 4 = 0) : ¬cond_1 (grid1.coords t) :=
  fun h => by have := (hcond_1 t).mp h; omega
theorem nc0_of (t : Fin cfg1.N) (h0 : ¬t.val % 4 = 0) : ¬cond_0 (grid1.coords t) :=
  fun h => h0 ((hcond_0 t).mp h)
theorem nc1_of (t : Fin cfg1.N) (h1 : ¬t.val % 4 = 3) : ¬cond_1 (grid1.coords t) :=
  fun h => h1 ((hcond_1 t).mp h)
theorem c1_of (t : Fin cfg1.N) (h1 : t.val % 4 = 3) : cond_1 (grid1.coords t) := (hcond_1 t).mpr h1

/-- The pair (output block, accumulator) after a point with `k = 0`. -/
def stepA (c : Dev nD) (t : Fin cfg1.N) (h0 : t.val % 4 = 0) : Vec F S512x128 .f32 × Vec F S512x128 .f32 :=
  (out_A_2 c (grid1.coords t) (ms_0 t) (hs_0 t) (ms_1 t) (hs_1 t) (ms_2 t) (hs_2 t) scM (Memref.isWhole_whole _) (c0_of t h0) (nc1_of_first t h0) (iblk V c 0 t) (iblk V c 1 t),
   sout_A c (grid1.coords t) (ms_0 t) (hs_0 t) (ms_1 t) (hs_1 t) (ms_2 t) (hs_2 t) scM (Memref.isWhole_whole _) (c0_of t h0) (nc1_of_first t h0) (iblk V c 0 t) (iblk V c 1 t))

/-- The pair after a point with `k` neither first nor last, over the accumulator `xs` the point before left. -/
def stepB (c : Dev nD) (t : Fin cfg1.N) (h0 : ¬t.val % 4 = 0) (h1 : ¬t.val % 4 = 3) (xs : Vec F S512x128 .f32) : Vec F S512x128 .f32 × Vec F S512x128 .f32 :=
  (out_B_2 c (grid1.coords t) (ms_0 t) (hs_0 t) (ms_1 t) (hs_1 t) (ms_2 t) (hs_2 t) scM (Memref.isWhole_whole _) (nc0_of t h0) (nc1_of t h1) (iblk V c 0 t) (iblk V c 1 t) xs,
   sout_B c (grid1.coords t) (ms_0 t) (hs_0 t) (ms_1 t) (hs_1 t) (ms_2 t) (hs_2 t) scM (Memref.isWhole_whole _) (nc0_of t h0) (nc1_of t h1) (iblk V c 0 t) (iblk V c 1 t) xs)

/-- The pair after a point with `k` last, over the accumulator `xs` the point before left. -/
def stepC (c : Dev nD) (t : Fin cfg1.N) (h0 : ¬t.val % 4 = 0) (h1 : t.val % 4 = 3) (xs : Vec F S512x128 .f32) : Vec F S512x128 .f32 × Vec F S512x128 .f32 :=
  (out_C_2 c (grid1.coords t) (ms_0 t) (hs_0 t) (ms_1 t) (hs_1 t) (ms_2 t) (hs_2 t) scM (Memref.isWhole_whole _) (nc0_of t h0) (c1_of t h1) (iblk V c 0 t) (iblk V c 1 t) xs,
   sout_C c (grid1.coords t) (ms_0 t) (hs_0 t) (ms_1 t) (hs_1 t) (ms_2 t) (hs_2 t) scM (Memref.isWhole_whole _) (nc0_of t h0) (c1_of t h1) (iblk V c 0 t) (iblk V c 1 t) xs)

/-- THE ACCUMULATION: what the output's staging buffer and the accumulator hold after the body at
    position `n`. -/
def outsAt (c : Dev nD) : (n : ℕ) → n < cfg1.N → Vec F S512x128 .f32 × Vec F S512x128 .f32
  | 0, hn => stepA V c ⟨0, hn⟩ (Nat.zero_mod _)
  | n + 1, hn =>
    if h0 : (n + 1) % 4 = 0 then stepA V c ⟨n + 1, hn⟩ h0
    else if h1 : (n + 1) % 4 = 3 then stepC V c ⟨n + 1, hn⟩ h0 h1 (outsAt c n (Nat.lt_of_succ_lt hn)).2
    else stepB V c ⟨n + 1, hn⟩ h0 h1 (outsAt c n (Nat.lt_of_succ_lt hn)).2

theorem outsAt_A (c : Dev nD) (t : Fin cfg1.N) (h0 : t.val % 4 = 0) :
    outsAt V c t.val t.isLt = stepA V c t h0 := by
  obtain ⟨n, hn⟩ := t
  cases n with
  | zero => exact rfl
  | succ n => exact (dif_pos h0).trans rfl

theorem outsAt_B (c : Dev nD) (t : Fin cfg1.N) (h0 : ¬t.val % 4 = 0) (h1 : ¬t.val % 4 = 3) :
    outsAt V c t.val t.isLt = stepB V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = stepC V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the launch's (every scoped buffer
    at anything); afterwards the accumulator at what the point before left in it, the other scoped
    buffers unopened, the generator register at some state. -/
def PhiS (c : Dev nD) : (n : ℕ) → n ≤ cfg1.N → sProp 𝕄
  | 0, _ => Pipeline.ΦA spec1 c
  | n + 1, hn => iprop(iprop(iprop(owns (c : Thread nD τ) scM fullShare ((outsAt V c n hn).2)) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM fullShare ((outsAt V c n hn).2)) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM fullShare ((outsAt V c (n - 1) (by omega)).2)) ∗ restBut (F := F) c) ∗ (∃ r, prngReg c r)) := by
  cases n with
  | zero => exact absurd rfl hz
  | succ n => rfl

/-! ## The pipeline's proof data -/

/-- The proof data of the region's pipeline on core `c`: the arrays as the region finds them (`V`);
    after the body at point `t` each input's buffer at its block and the output's at `outsAt`; the
    invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the point's residue mod 4 says which
    case it is in; the invariant hands the body the accumulator at what the point before left (at
    anything at the first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 4 = 0
  · rw [Dat.leavesExact_idle (dat V c) 2 t (idleAt_2 t (nc1_of_first t h0)) (noFlush_2 t (nc1_of_first t h0))]
    rw [outsAt_A V c t h0]
    unfold stepA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid1.coords t) _ _ _ _ _ _ _ _ (c0_of t h0) (nc1_of_first t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid1.coords t) _ _ _ _ _ _ _ _ (c0_of t h0) (nc1_of_first t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat V c).leavesExact 2 t = owns (c : Thread nD τ) (ms_2 t) fullShare ((dat V c).after 2 t) from by
        unfold Dat.leavesExact; rw [liveAt_2_C t (c1_of t h1)], after_2]
      rw [outsAt_C V c t h0 h1]
      unfold stepC out_C_2 sout_C; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_C c (grid1.coords t) _ _ _ _ _ _ _ _ (nc0_of t h0) (c1_of t h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover_C_2 c _ _ _ _ _ _ _ _ _ _ _ _ _ _)
    · rw [Dat.leavesExact_idle (dat V c) 2 t (idleAt_2 t (nc1_of t h1)) (noFlush_2 t (nc1_of t h1))]
      rw [outsAt_B V c t h0 h1]
      unfold stepB sout_B; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_B c (grid1.coords t) _ _ _ _ _ _ _ _ (nc0_of t h0) (nc1_of t h1) (iblk V c 0 t) (iblk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- The invariant before the first point is what the launch hands the region. -/
theorem Phi_first (c : Dev nD) : (dat V c).Φ 0 = Pipeline.ΦA spec1 c := rfl

/-- After any point but the first the invariant gives the launch's back: the accumulator's named
    contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg1.N) ⊢ Pipeline.ΦA spec1 c :=
  Phi_out V c _ (by rw [Fin.val_last]; have : cfg1.N = 32 := N_1; omega)

end Cert.KernelIdeal.Reg1

end
-- ==== Proof.Reg2Runs.lean ====
/- Region 2 (custom_call 2, the blocked matrix product accumulated over the last grid axis): what the
   two control cases of its body share — the windows' blocks read off the region-entry contents, the closed
   forms of the two conditions on the grid position, where the output window is idle, the staging and
   scratch memrefs, and the region invariant with the scratch operand opened. -/
import proofs.«162839_j74869869904021_2_alg».proof.Proof.Gen.KernelIdeal.Launch
import proofs.«162839_j74869869904021_2_alg».proof.Proof.Gen.KernelIdeal.Skeleton
import proofs.«162839_j74869869904021_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (the reduction coordinate is 0), from the grid coordinates. -/
abbrev cond0 (i : grid2.Coords) : Prop := (Scalar.cmpi .ne (Scalar.extui (Scalar.cmpi .eq (BitVec.ofNat 32 (i 2).val) 0#32)) 0#32) = 1#1
/-- It holds at the even points — decided over the grid. -/
theorem hcond0 : ∀ t : Fin cfg2.N, cond0 (grid2.coords t) ↔ t.val % 2 = 0 :=
  (by decide +kernel : ∀ t : Fin grid2.N, cond0 (grid2.coords t) ↔ t.val % 2 = 0)

/-- The condition of the body's second `scf.if` (the reduction coordinate is the last), from the grid coordinates. -/
abbrev cond1 (i : grid2.Coords) : Prop := k2_cond2 i = 1#1
/-- It holds at the odd points — decided over the grid. -/
theorem hcond1 : ∀ t : Fin cfg2.N, cond1 (grid2.coords t) ↔ t.val % 2 = 1 :=
  (by decide +kernel : ∀ t : Fin grid2.N, cond1 (grid2.coords t) ↔ t.val % 2 = 1)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
/-- At the even points the output window is idle: the body stores nothing into it, -/
theorem idleAt_2_A : ∀ t : Fin cfg2.N, cond0 (grid2.coords t) → ¬cond1 (grid2.coords t) → cfg2.idle 2 (grid2.coords t) = true := by decide +kernel
/-- and the pipeline does not write its block back. -/
theorem noFlush_2_A : ∀ t : Fin cfg2.N, cond0 (grid2.coords t) → ¬cond1 (grid2.coords t) → (cfg2.win 2).flush t = false := by decide +kernel
/-- At the odd points the output window is live. -/
theorem liveAt_2_B : ∀ t : Fin cfg2.N, ¬cond0 (grid2.coords t) → cond1 (grid2.coords t) → cfg2.idle 2 (grid2.coords t) = false := by decide +kernel

/-! ## The staging and scratch memrefs -/

/-- One staging buffer of the output window, through which its contents are stated. -/
abbrev VO_2 : View sig .tc .vmem S1024x1024 .bf16 := (Memref.whole cc2_stg2_0 : Memref sig .tc .vmem S1024x1024 .bf16).view
/-- Each window's current staging memref at point `t`, as the pipeline passes it, and its wholeness. -/
abbrev ms_0 (t : Fin cfg2.N) : Memref sig .tc .vmem S1024x2048 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x1024 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x1024 .bf16 := win2_2.stage (cfg2.slots t 2)
abbrev hs_2 (t : Fin cfg2.N) : (ms_2 t).IsWhole := hstage2_2 ((cfg2.slots t 2).cast nbuf2_2)
/-- The scratch operand: a whole scoped buffer of the kernel's own, the accumulator carried between points. -/
abbrev scM : Memref sig .tc .vmem S1024x1024 .f32 := Memref.whole cc2_scratch0
abbrev VS : View sig .tc .vmem S1024x1024 .f32 := scM.view

/-- The class invariant with the scratch operand as a memref owned at some contents, the other scoped buffers
    unopened: what the body obligation hands the run and takes back. -/
theorem PhiA_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

end Cert.KernelIdeal.Reg2

end
-- ==== Proof.Reg2RunA.lean ====
/- Region 2: the whole-body run of the kernel at a point whose reduction coordinate is 0 (case A): the
   accumulator scratch is zeroed and the first partial product added; the output block is not stored. -/
import proofs.«162839_j74869869904021_2_alg».proof.Proof.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case A, with the proof that on whole memrefs — the inputs' at their contents, the output's at contents it
    hands back untouched, the scratch at anything — the body runs to the continuation holding the inputs' as they
    were, the output's as it was and the scratch with its pieces written. -/
noncomputable def kernelRun_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i)
    (x0 : Vec F S1024x2048 .bf16) (x1 : Vec F S2048x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Reg2

end
-- ==== Proof.Reg2RunB.lean ====
/- Region 2: the whole-body run of the kernel at a point whose reduction coordinate is the last (case B): the
   second partial product is added to the accumulator the point before left, and the accumulator, narrowed to
   the output's element type, is stored into the output block. -/
import proofs.«162839_j74869869904021_2_alg».proof.Proof.Reg2RunA

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case B, with the proof that on whole memrefs — the inputs' at their contents, the output's at anything, the
    scratch at what the point before left — the body runs to the continuation holding the inputs' as they were
    and the output's and the scratch with their pieces written. -/
noncomputable def kernelRun_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i)
    (x0 : Vec F S1024x2048 .bf16) (x1 : Vec F S2048x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Reg2

end
-- ==== Proof.Reg2.lean ====
/- Region 2 (custom_call 2): the kernel half of its frame at the region-entry contents `V` — what each control
   case leaves in the output block and in the accumulator scratch, the accumulation point by point, the region
   invariant carrying the scratch, the proof data, and the body obligation at every grid point. -/
import proofs.«162839_j74869869904021_2_alg».proof.Proof.Reg2RunB

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults (the window is idle there). -/
def out_A_2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .bf16 :=
  VO_2.read (Elt F) (VO_2.writes (Elt F) VO_2.junk (kernelRun_A c i arg3 harg3 arg4 harg4 arg5 harg5 arg6 harg6 hc0 hc1 x0 x1).1)

/-- Case A's pieces for the scratch cover it. -/
theorem scover_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) (y : S1024x1024.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S1024x1024.size (by sl_kernel_rfl) y

/-- What case A leaves in the scratch: its pieces read back. -/
def sout_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .f32 :=
  VS.read (Elt F) (VS.writes (Elt F) VS.junk (kernelRun_A c i arg3 harg3 arg4 harg4 arg5 harg5 arg6 harg6 hc0 hc1 x0 x1).2.1)

/-- Case B's pieces for the output block cover it. -/
theorem cover_B_2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).1, y ∈ pc.1.set :=
  View.cover_of_tiledL (kernelRun_B c i arg3 harg3 arg4 harg4 arg5 harg5 arg6 harg6 hc0 hc1 x0 x1 xs0).1 S1024x1024.size (by sl_kernel_rfl) y

/-- What case B leaves in the output block: its pieces read back. -/
def out_B_2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .bf16 :=
  VO_2.read (Elt F) (VO_2.writes (Elt F) VO_2.junk (kernelRun_B c i arg3 harg3 arg4 harg4 arg5 harg5 arg6 harg6 hc0 hc1 x0 x1 xs0).1)

/-- Case B's pieces for the scratch cover it. -/
theorem scover_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S1024x1024.size (by sl_kernel_rfl) y

/-- What case B leaves in the scratch: its pieces read back. -/
def sout_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .f32 :=
  VS.read (Elt F) (VS.writes (Elt F) VS.junk (kernelRun_B c i arg3 harg3 arg4 harg4 arg5 harg5 arg6 harg6 hc0 hc1 x0 x1 xs0).2.1)

/-! ## The cases at a point -/

theorem hA0 (t : Fin cfg2.N) (h0 : t.val % 2 = 0) : cond0 (grid2.coords t) := (hcond0 t).mpr h0
theorem hA1 (t : Fin cfg2.N) (h0 : t.val % 2 = 0) : ¬cond1 (grid2.coords t) := fun h => by
  have h1 := (hcond1 t).mp h; omega
theorem hB0 (t : Fin cfg2.N) (h0 : ¬t.val % 2 = 0) : ¬cond0 (grid2.coords t) := fun h => h0 ((hcond0 t).mp h)
theorem hB1 (t : Fin cfg2.N) (h0 : ¬t.val % 2 = 0) : cond1 (grid2.coords t) := (hcond1 t).mpr (by omega)

/-- What a point of case A leaves in the output block and the scratch: the case run at the point's memrefs and
    input blocks. -/
def outA (c : Dev nD) (t : Fin cfg2.N) (h0 : t.val % 2 = 0) : Vec F S1024x1024 .bf16 × Vec F S1024x1024 .f32 :=
  (out_A_2 c (grid2.coords t) (ms_0 t) (hs_0 t) (ms_1 t) (hs_1 t) (ms_2 t) (hs_2 t) scM (Memref.isWhole_whole _) (hA0 t h0) (hA1 t h0) (iblk V c 0 t) (iblk V c 1 t),
   sout_A c (grid2.coords t) (ms_0 t) (hs_0 t) (ms_1 t) (hs_1 t) (ms_2 t) (hs_2 t) scM (Memref.isWhole_whole _) (hA0 t h0) (hA1 t h0) (iblk V c 0 t) (iblk V c 1 t))

/-- The same for a point of case B, over what the point before left in the scratch. -/
def outB (c : Dev nD) (t : Fin cfg2.N) (h0 : ¬t.val % 2 = 0) (xs : Vec F S1024x1024 .f32) : Vec F S1024x1024 .bf16 × Vec F S1024x1024 .f32 :=
  (out_B_2 c (grid2.coords t) (ms_0 t) (hs_0 t) (ms_1 t) (hs_1 t) (ms_2 t) (hs_2 t) scM (Memref.isWhole_whole _) (hB0 t h0) (hB1 t h0) (iblk V c 0 t) (iblk V c 1 t) xs,
   sout_B c (grid2.coords t) (ms_0 t) (hs_0 t) (ms_1 t) (hs_1 t) (ms_2 t) (hs_2 t) scM (Memref.isWhole_whole _) (hB0 t h0) (hB1 t h0) (iblk V c 0 t) (iblk V c 1 t) xs)

/-! ## What the output block and the scratch hold after each point -/

/-- The accumulation: what the output's staging buffer and the scratch hold after the body at position `n`. -/
def outsAt (c : Dev nD) : (n : ℕ) → n < cfg2.N → Vec F S1024x1024 .bf16 × Vec F S1024x1024 .f32
  | 0, hn => outA V c ⟨0, hn⟩ (Nat.zero_mod _)
  | n + 1, hn =>
    if h0 : (n + 1) % 2 = 0 then outA V c ⟨n + 1, hn⟩ h0
    else outB V c ⟨n + 1, hn⟩ h0 (outsAt c n (Nat.lt_of_succ_lt hn)).2

theorem outsAt_A (c : Dev nD) (t : Fin cfg2.N) (h0 : t.val % 2 = 0) :
    outsAt V c t.val t.isLt = outA V c t h0 := by
  obtain ⟨n, hn⟩ := t
  cases n with
  | zero => exact rfl
  | succ n => exact (dif_pos h0).trans rfl

theorem outsAt_B (c : Dev nD) (t : Fin cfg2.N) (h0 : ¬t.val % 2 = 0) :
    outsAt V c t.val t.isLt = outB V c t h0 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region invariant before position `n`: before the first point the class's; afterwards the scratch at what
    the point before left in it, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at the accumulation's; the invariant `PhiS`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the parity of the point says which case it is in;
    the invariant hands the body the scratch (at anything for case A, at what the point before left for case B)
    and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · rw [Dat.leavesExact_idle (dat V c) 2 t (idleAt_2_A t (hA0 t h0) (hA1 t h0)) (noFlush_2_A t (hA0 t h0) (hA1 t h0))]
    rw [outsAt_A V c t h0]
    unfold outA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid2.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid2.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · rw [show (dat V c).leavesExact 2 t = owns (c : Thread nD τ) (ms_2 t) fullShare ((dat V c).after 2 t) from by
      unfold Dat.leavesExact; rw [liveAt_2_B t (hB0 t h0) (hB1 t h0)], after_2]
    rw [outsAt_B V c t h0]
    unfold outB out_B_2 sout_B; (try dsimp only)
    have hz : t.val ≠ 0 := fun hz => h0 (by rw [hz])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun_B c (grid2.coords t) _ _ _ _ _ _ _ _ (hB0 t h0) (hB1 t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover_B c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B_2 c _ _ _ _ _ _ _ _ _ _ _ _ _ _)

/-- The library's body obligation, at every point. -/
theorem body_obligation (c : Dev nD) : Pipeline.BodyObligation (dat (F := F) V c) (defs₀ (F := F)) Variants.none () Set.univ := fun t => by
  rw [bigSep_W2, bigSep_W2]
  exact sound_body V c t

/-- Before the first point the invariant is the class's. -/
theorem Phi_first (c : Dev nD) : (dat V c).Φ 0 = Pipeline.ΦA spec2 c := by
  rw [show (dat V c).Φ 0 = PhiS V c 0 (Nat.zero_le _) from rfl, PhiS_zero V c 0 _ rfl]

/-- After any point but the first the invariant gives the class's back: the scratch's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg2.N) ⊢ Pipeline.ΦA spec2 c :=
  Phi_out V c _ (by rw [Fin.val_last]; have : cfg2.N = 32 := N_2; omega)

end Cert.KernelIdeal.Reg2

end
-- ==== Proof.Reg3Runs.lean ====
/- Region 3 (custom_call 3, the blocked matrix product accumulated over the last grid axis): what the
   two control cases of its body share — the windows' blocks read off the region-entry contents, the closed
   forms of the two conditions on the grid position, where the output window is idle, the staging and
   scratch memrefs, and the region invariant with the scratch operand opened. -/
import proofs.«162839_j74869869904021_2_alg».proof.Proof.Gen.KernelIdeal.Launch
import proofs.«162839_j74869869904021_2_alg».proof.Proof.Gen.KernelIdeal.Skeleton
import proofs.«162839_j74869869904021_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (the reduction coordinate is 0), from the grid coordinates. -/
abbrev cond0 (i : grid3.Coords) : Prop := (Scalar.cmpi .ne (Scalar.extui (Scalar.cmpi .eq (BitVec.ofNat 32 (i 2).val) 0#32)) 0#32) = 1#1
/-- It holds at the even points — decided over the grid. -/
theorem hcond0 : ∀ t : Fin cfg3.N, cond0 (grid3.coords t) ↔ t.val % 2 = 0 :=
  (by decide +kernel : ∀ t : Fin grid3.N, cond0 (grid3.coords t) ↔ t.val % 2 = 0)

/-- The condition of the body's second `scf.if` (the reduction coordinate is the last), from the grid coordinates. -/
abbrev cond1 (i : grid3.Coords) : Prop := k3_cond2 i = 1#1
/-- It holds at the odd points — decided over the grid. -/
theorem hcond1 : ∀ t : Fin cfg3.N, cond1 (grid3.coords t) ↔ t.val % 2 = 1 :=
  (by decide +kernel : ∀ t : Fin grid3.N, cond1 (grid3.coords t) ↔ t.val % 2 = 1)

/-! ## Where the windows are idle -/

theorem liveAt_0 : ∀ t : Fin cfg3.N, cfg3.idle 0 (grid3.coords t) = false := by decide +kernel
theorem liveAt_1 : ∀ t : Fin cfg3.N, cfg3.idle 1 (grid3.coords t) = false := by decide +kernel
/-- At the even points the output window is idle: the body stores nothing into it, -/
theorem idleAt_2_A : ∀ t : Fin cfg3.N, cond0 (grid3.coords t) → ¬cond1 (grid3.coords t) → cfg3.idle 2 (grid3.coords t) = true := by decide +kernel
/-- and the pipeline does not write its block back. -/
theorem noFlush_2_A : ∀ t : Fin cfg3.N, cond0 (grid3.coords t) → ¬cond1 (grid3.coords t) → (cfg3.win 2).flush t = false := by decide +kernel
/-- At the odd points the output window is live. -/
theorem liveAt_2_B : ∀ t : Fin cfg3.N, ¬cond0 (grid3.coords t) → cond1 (grid3.coords t) → cfg3.idle 2 (grid3.coords t) = false := by decide +kernel

/-! ## The staging and scratch memrefs -/

/-- One staging buffer of the output window, through which its contents are stated. -/
abbrev VO_2 : View sig .tc .vmem S1024x1024 .bf16 := (Memref.whole cc3_stg2_0 : Memref sig .tc .vmem S1024x1024 .bf16).view
/-- Each window's current staging memref at point `t`, as the pipeline passes it, and its wholeness. -/
abbrev ms_0 (t : Fin cfg3.N) : Memref sig .tc .vmem S1024x2048 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x1024 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1024x1024 .bf16 := win3_2.stage (cfg3.slots t 2)
abbrev hs_2 (t : Fin cfg3.N) : (ms_2 t).IsWhole := hstage3_2 ((cfg3.slots t 2).cast nbuf3_2)
/-- The scratch operand: a whole scoped buffer of the kernel's own, the accumulator carried between points. -/
abbrev scM : Memref sig .tc .vmem S1024x1024 .f32 := Memref.whole cc3_scratch0
abbrev VS : View sig .tc .vmem S1024x1024 .f32 := scM.view

/-- The class invariant with the scratch operand as a memref owned at some contents, the other scoped buffers
    unopened: what the body obligation hands the run and takes back. -/
theorem PhiA_eq (c : Dev nD) :
    (Pipeline.ΦA spec3 c : sProp 𝕄)
      = iprop(iprop((∃ d, owns (c : Thread nD τ) scM fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

end Cert.KernelIdeal.Reg3

end
-- ==== Proof.Reg3RunA.lean ====
/- Region 3: the whole-body run of the kernel at a point whose reduction coordinate is 0 (case A): the
   accumulator scratch is zeroed and the first partial product added; the output block is not stored. -/
import proofs.«162839_j74869869904021_2_alg».proof.Proof.Reg3Runs

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case A, with the proof that on whole memrefs — the inputs' at their contents, the output's at contents it
    hands back untouched, the scratch at anything — the body runs to the continuation holding the inputs' as they
    were, the output's as it was and the scratch with its pieces written. -/
noncomputable def kernelRun_A (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i)
    (x0 : Vec F S1024x2048 .bf16) (x1 : Vec F S2048x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Reg3

end
-- ==== Proof.Reg3RunB.lean ====
/- Region 3: the whole-body run of the kernel at a point whose reduction coordinate is the last (case B): the
   second partial product is added to the accumulator the point before left, and the accumulator, narrowed to
   the output's element type, is stored into the output block. -/
import proofs.«162839_j74869869904021_2_alg».proof.Proof.Reg3RunA

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case B, with the proof that on whole memrefs — the inputs' at their contents, the output's at anything, the
    scratch at what the point before left — the body runs to the continuation holding the inputs' as they were
    and the output's and the scratch with their pieces written. -/
noncomputable def kernelRun_B (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i)
    (x0 : Vec F S1024x2048 .bf16) (x1 : Vec F S2048x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Reg3

end
-- ==== Proof.Reg3.lean ====
/- Region 3 (custom_call 3): the kernel half of its frame at the region-entry contents `V` — what each control
   case leaves in the output block and in the accumulator scratch, the accumulation point by point, the region
   invariant carrying the scratch, the proof data, and the body obligation at every grid point. -/
import proofs.«162839_j74869869904021_2_alg».proof.Proof.Reg3RunB

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults (the window is idle there). -/
def out_A_2 (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .bf16 :=
  VO_2.read (Elt F) (VO_2.writes (Elt F) VO_2.junk (kernelRun_A c i arg3 harg3 arg4 harg4 arg5 harg5 arg6 harg6 hc0 hc1 x0 x1).1)

/-- Case A's pieces for the scratch cover it. -/
theorem scover_A (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) (y : S1024x1024.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S1024x1024.size (by sl_kernel_rfl) y

/-- What case A leaves in the scratch: its pieces read back. -/
def sout_A (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .f32 :=
  VS.read (Elt F) (VS.writes (Elt F) VS.junk (kernelRun_A c i arg3 harg3 arg4 harg4 arg5 harg5 arg6 harg6 hc0 hc1 x0 x1).2.1)

/-- Case B's pieces for the output block cover it. -/
theorem cover_B_2 (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).1, y ∈ pc.1.set :=
  View.cover_of_tiledL (kernelRun_B c i arg3 harg3 arg4 harg4 arg5 harg5 arg6 harg6 hc0 hc1 x0 x1 xs0).1 S1024x1024.size (by sl_kernel_rfl) y

/-- What case B leaves in the output block: its pieces read back. -/
def out_B_2 (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .bf16 :=
  VO_2.read (Elt F) (VO_2.writes (Elt F) VO_2.junk (kernelRun_B c i arg3 harg3 arg4 harg4 arg5 harg5 arg6 harg6 hc0 hc1 x0 x1 xs0).1)

/-- Case B's pieces for the scratch cover it. -/
theorem scover_B (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S1024x1024.size (by sl_kernel_rfl) y

/-- What case B leaves in the scratch: its pieces read back. -/
def sout_B (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .f32 :=
  VS.read (Elt F) (VS.writes (Elt F) VS.junk (kernelRun_B c i arg3 harg3 arg4 harg4 arg5 harg5 arg6 harg6 hc0 hc1 x0 x1 xs0).2.1)

/-! ## The cases at a point -/

theorem hA0 (t : Fin cfg3.N) (h0 : t.val % 2 = 0) : cond0 (grid3.coords t) := (hcond0 t).mpr h0
theorem hA1 (t : Fin cfg3.N) (h0 : t.val % 2 = 0) : ¬cond1 (grid3.coords t) := fun h => by
  have h1 := (hcond1 t).mp h; omega
theorem hB0 (t : Fin cfg3.N) (h0 : ¬t.val % 2 = 0) : ¬cond0 (grid3.coords t) := fun h => h0 ((hcond0 t).mp h)
theorem hB1 (t : Fin cfg3.N) (h0 : ¬t.val % 2 = 0) : cond1 (grid3.coords t) := (hcond1 t).mpr (by omega)

/-- What a point of case A leaves in the output block and the scratch: the case run at the point's memrefs and
    input blocks. -/
def outA (c : Dev nD) (t : Fin cfg3.N) (h0 : t.val % 2 = 0) : Vec F S1024x1024 .bf16 × Vec F S1024x1024 .f32 :=
  (out_A_2 c (grid3.coords t) (ms_0 t) (hs_0 t) (ms_1 t) (hs_1 t) (ms_2 t) (hs_2 t) scM (Memref.isWhole_whole _) (hA0 t h0) (hA1 t h0) (iblk V c 0 t) (iblk V c 1 t),
   sout_A c (grid3.coords t) (ms_0 t) (hs_0 t) (ms_1 t) (hs_1 t) (ms_2 t) (hs_2 t) scM (Memref.isWhole_whole _) (hA0 t h0) (hA1 t h0) (iblk V c 0 t) (iblk V c 1 t))

/-- The same for a point of case B, over what the point before left in the scratch. -/
def outB (c : Dev nD) (t : Fin cfg3.N) (h0 : ¬t.val % 2 = 0) (xs : Vec F S1024x1024 .f32) : Vec F S1024x1024 .bf16 × Vec F S1024x1024 .f32 :=
  (out_B_2 c (grid3.coords t) (ms_0 t) (hs_0 t) (ms_1 t) (hs_1 t) (ms_2 t) (hs_2 t) scM (Memref.isWhole_whole _) (hB0 t h0) (hB1 t h0) (iblk V c 0 t) (iblk V c 1 t) xs,
   sout_B c (grid3.coords t) (ms_0 t) (hs_0 t) (ms_1 t) (hs_1 t) (ms_2 t) (hs_2 t) scM (Memref.isWhole_whole _) (hB0 t h0) (hB1 t h0) (iblk V c 0 t) (iblk V c 1 t) xs)

/-! ## What the output block and the scratch hold after each point -/

/-- The accumulation: what the output's staging buffer and the scratch hold after the body at position `n`. -/
def outsAt (c : Dev nD) : (n : ℕ) → n < cfg3.N → Vec F S1024x1024 .bf16 × Vec F S1024x1024 .f32
  | 0, hn => outA V c ⟨0, hn⟩ (Nat.zero_mod _)
  | n + 1, hn =>
    if h0 : (n + 1) % 2 = 0 then outA V c ⟨n + 1, hn⟩ h0
    else outB V c ⟨n + 1, hn⟩ h0 (outsAt c n (Nat.lt_of_succ_lt hn)).2

theorem outsAt_A (c : Dev nD) (t : Fin cfg3.N) (h0 : t.val % 2 = 0) :
    outsAt V c t.val t.isLt = outA V c t h0 := by
  obtain ⟨n, hn⟩ := t
  cases n with
  | zero => exact rfl
  | succ n => exact (dif_pos h0).trans rfl

theorem outsAt_B (c : Dev nD) (t : Fin cfg3.N) (h0 : ¬t.val % 2 = 0) :
    outsAt V c t.val t.isLt = outB V c t h0 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region invariant before position `n`: before the first point the class's; afterwards the scratch at what
    the point before left in it, the other scoped buffers unopened, the generator register at some state. -/
def PhiS (c : Dev nD) : (n : ℕ) → n ≤ cfg3.N → sProp 𝕄
  | 0, _ => Pipeline.ΦA spec3 c
  | n + 1, hn => iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at the accumulation's; the invariant `PhiS`; nothing owed. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the parity of the point says which case it is in;
    the invariant hands the body the scratch (at anything for case A, at what the point before left for case B)
    and takes it back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg3.N = 32 from N_3)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · rw [Dat.leavesExact_idle (dat V c) 2 t (idleAt_2_A t (hA0 t h0) (hA1 t h0)) (noFlush_2_A t (hA0 t h0) (hA1 t h0))]
    rw [outsAt_A V c t h0]
    unfold outA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid3.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid3.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · rw [show (dat V c).leavesExact 2 t = owns (c : Thread nD τ) (ms_2 t) fullShare ((dat V c).after 2 t) from by
      unfold Dat.leavesExact; rw [liveAt_2_B t (hB0 t h0) (hB1 t h0)], after_2]
    rw [outsAt_B V c t h0]
    unfold outB out_B_2 sout_B; (try dsimp only)
    have hz : t.val ≠ 0 := fun hz => h0 (by rw [hz])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun_B c (grid3.coords t) _ _ _ _ _ _ _ _ (hB0 t h0) (hB1 t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover_B c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B_2 c _ _ _ _ _ _ _ _ _ _ _ _ _ _)

/-- The library's body obligation, at every point. -/
theorem body_obligation (c : Dev nD) : Pipeline.BodyObligation (dat (F := F) V c) (defs₀ (F := F)) Variants.none () Set.univ := fun t => by
  rw [bigSep_W3, bigSep_W3]
  exact sound_body V c t

/-- Before the first point the invariant is the class's. -/
theorem Phi_first (c : Dev nD) : (dat V c).Φ 0 = Pipeline.ΦA spec3 c := by
  rw [show (dat V c).Φ 0 = PhiS V c 0 (Nat.zero_le _) from rfl, PhiS_zero V c 0 _ rfl]

/-- After any point but the first the invariant gives the class's back: the scratch's named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg3.N) ⊢ Pipeline.ΦA spec3 c :=
  Phi_out V c _ (by rw [Fin.val_last]; have : cfg3.N = 32 := N_3; omega)

end Cert.KernelIdeal.Reg3

end
-- ==== Proof.Reg4Runs.lean ====
/- The frame of region 4 (the fused propagation kernel, grid 8 x 2), part 1: what the two control cases of
   its body share. The kernel carries two f32 accumulators between the two points of a row block: at the first point
   of a row block (k = 0) it zeroes both and adds one block product to each; at the second (k = 1) it adds the second
   block products and stores the masked combination of the two accumulators into the output block. Everything is
   stated at a parameter V, the unscoped buffers' contents when the region is entered. -/
import proofs.«162839_j74869869904021_2_alg».proof.Proof.Gen.KernelIdeal.Launch
import proofs.«162839_j74869869904021_2_alg».proof.Proof.Gen.KernelIdeal.Skeleton
import proofs.«162839_j74869869904021_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (where it is
    not fetched its block index has not moved), for any proof data whose array is V's and whose body leaves the block
    in place. -/
theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is
    not fetched its block index has not moved), for any proof data whose array is V's and whose body leaves the block
    in place. -/
theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is
    not fetched its block index has not moved), for any proof data whose array is V's and whose body leaves the block
    in place. -/
theorem before_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is
    not fetched its block index has not moved), for any proof data whose array is V's and whose body leaves the block
    in place. -/
theorem before_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is
    not fetched its block index has not moved), for any proof data whose array is V's and whose body leaves the block
    in place. -/
theorem before_4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the grid -/

/-- The first conditional's condition (k = 0), from the grid coordinates. -/
abbrev cond0 (i : grid4.Coords) : Prop := (Scalar.cmpi .ne (Scalar.extui (Scalar.cmpi .eq (BitVec.ofNat 32 (i 1).val) 0#32)) 0#32) = 1#1
/-- It holds at the even points. -/
theorem hcond0 : ∀ t : Fin cfg4.N, cond0 (grid4.coords t) ↔ t.val % 2 = 0 :=
  (by decide +kernel : ∀ t : Fin grid4.N, cond0 (grid4.coords t) ↔ t.val % 2 = 0)

/-- The second conditional's condition (k = 1). -/
abbrev cond1 (i : grid4.Coords) : Prop := k4_cond2 i = 1#1
/-- It holds at the odd points. -/
theorem hcond1 : ∀ t : Fin cfg4.N, cond1 (grid4.coords t) ↔ t.val % 2 = 1 :=
  (by decide +kernel : ∀ t : Fin grid4.N, cond1 (grid4.coords t) ↔ t.val % 2 = 1)

/-! ## Where the windows are idle -/

theorem liveAt_0 : ∀ t : Fin cfg4.N, cfg4.idle 0 (grid4.coords t) = false := fun _ => rfl
theorem liveAt_1 : ∀ t : Fin cfg4.N, cfg4.idle 1 (grid4.coords t) = false := fun _ => rfl
theorem liveAt_2 : ∀ t : Fin cfg4.N, cfg4.idle 2 (grid4.coords t) = false := fun _ => rfl
theorem liveAt_3 : ∀ t : Fin cfg4.N, cfg4.idle 3 (grid4.coords t) = false := fun _ => rfl
theorem liveAt_4 : ∀ t : Fin cfg4.N, cfg4.idle 4 (grid4.coords t) = false := fun _ => rfl
/-- At the even points the output window is idle (the body stores nothing into it) and is not written back. -/
theorem idleAt_5_A : ∀ t : Fin cfg4.N, cond0 (grid4.coords t) → ¬cond1 (grid4.coords t) → cfg4.idle 5 (grid4.coords t) = true := by decide +kernel
theorem noFlush_5_A : ∀ t : Fin cfg4.N, cond0 (grid4.coords t) → ¬cond1 (grid4.coords t) → (cfg4.win 5).flush t = false := by decide +kernel
/-- At the odd points it is live. -/
theorem liveAt_5_B : ∀ t : Fin cfg4.N, ¬cond0 (grid4.coords t) → cond1 (grid4.coords t) → cfg4.idle 5 (grid4.coords t) = false := by decide +kernel

/-! ## The staging and scratch memrefs at a point -/

/-- One staging buffer of the output window, through which its contents are stated (the choice does not matter). -/
abbrev VO_5 : View sig .tc .vmem S512x256 .f32 := (Memref.whole cc4_stg5_0 : Memref sig .tc .vmem S512x256 .f32).view
abbrev ms_0 (t : Fin cfg4.N) : Memref sig .tc .vmem S512x2048 .bf16 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S512x2048 .bf16 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S2048x256 .bf16 := win4_2.stage (cfg4.slots t 2)
abbrev hs_2 (t : Fin cfg4.N) : (ms_2 t).IsWhole := hstage4_2 ((cfg4.slots t 2).cast nbuf4_2)
abbrev ms_3 (t : Fin cfg4.N) : Memref sig .tc .vmem S2048x256 .bf16 := win4_3.stage (cfg4.slots t 3)
abbrev hs_3 (t : Fin cfg4.N) : (ms_3 t).IsWhole := hstage4_3 ((cfg4.slots t 3).cast nbuf4_3)
abbrev ms_4 (t : Fin cfg4.N) : Memref sig .tc .vmem S512x1 .f32 := win4_4.stage (cfg4.slots t 4)
abbrev hs_4 (t : Fin cfg4.N) : (ms_4 t).IsWhole := hstage4_4 ((cfg4.slots t 4).cast nbuf4_4)
abbrev ms_5 (t : Fin cfg4.N) : Memref sig .tc .vmem S512x256 .f32 := win4_5.stage (cfg4.slots t 5)
abbrev hs_5 (t : Fin cfg4.N) : (ms_5 t).IsWhole := hstage4_5 ((cfg4.slots t 5).cast nbuf4_5)
/-- The two accumulators: whole scoped buffers of the kernel's own. -/
abbrev scM_0 : Memref sig .tc .vmem S512x256 .f32 := Memref.whole cc4_scratch0
abbrev scM_1 : Memref sig .tc .vmem S512x256 .f32 := Memref.whole cc4_scratch1
abbrev VS_0 : View sig .tc .vmem S512x256 .f32 := scM_0.view
abbrev VS_1 : View sig .tc .vmem S512x256 .f32 := scM_1.view

/-- The region's invariant with the two accumulators as memrefs owned at some contents, the other scoped buffers
    unopened. -/
theorem PhiA_eq (c : Dev nD) :
    (Pipeline.ΦA spec4 c : sProp 𝕄)
      = iprop(iprop(iprop((∃ d, owns (c : Thread nD τ) scM_0 fullShare d) ∗ (∃ d, owns (c : Thread nD τ) scM_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM_0, scM_1, owns_whole]; try rfl

end Cert.KernelIdeal.Reg4

end
-- ==== Proof.Reg4RunA.lean ====
/- The frame of region 4, part 2: the kernel body run whole at a first point of a row block (k = 0: both accumulators
   zeroed, then one block product added to each; nothing stored into the output block). -/
import proofs.«162839_j74869869904021_2_alg».proof.Proof.Reg4Runs

-- membership in a rectangle of full-size extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output block's buffer (nothing) and in the two accumulators, as pieces (last first),
    at a point with k = 0, with the proof that on whole memrefs — the five inputs' at their contents, the output's at
    contents handed back untouched, the accumulators at anything — the body runs to the continuation holding the inputs
    and the output buffer as they were and each accumulator with its pieces written. -/
noncomputable def kernelRun_A (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) :
    Σ' (L5 : List (View.Piece (Elt F) S512x256 .f32)) (LS0 : List (View.Piece (Elt F) S512x256 .f32)), { LS1 : List (View.Piece (Elt F) S512x256 .f32) //
      ∀ (xi5 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__sgc_fused_kernel i arg2 harg2 arg3 harg3 arg4 harg4 arg5 harg5 arg6 harg6 arg7 harg7 arg8 harg8 arg9 harg9) K } := by
  refine ⟨[], ?_, ?_, fun xi5 E K => ?run⟩
  case run =>
    simp only [cc4__sgc_fused_kernel_eq_skeleton]; unfold cc4__sgc_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Reg4

end
-- ==== Proof.Reg4RunB.lean ====
/- The frame of region 4, part 3: the kernel body run whole at a second point of a row block (k = 1: the second block
   products added to the accumulators, then the masked combination of the two stored into the output block). -/
import proofs.«162839_j74869869904021_2_alg».proof.Proof.Reg4RunA

-- membership in a rectangle of full-size extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output block's buffer and in the two accumulators, as pieces (last first), at a
    point with k = 1, with the proof that on whole memrefs — the five inputs' at their contents, the output's at anything,
    the accumulators at the contents the point before left — the body runs to the continuation holding the inputs as they
    were and the output buffer and each accumulator with its pieces written. -/
noncomputable def kernelRun_B (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) :
    Σ' (L5 : List (View.Piece (Elt F) S512x256 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__sgc_fused_kernel i arg2 harg2 arg3 harg3 arg4 harg4 arg5 harg5 arg6 harg6 arg7 harg7 arg8 harg8 arg9 harg9) K } := by
  refine ⟨?_, ?_, ?_, fun E K => ?run⟩
  case run =>
    simp only [cc4__sgc_fused_kernel_eq_skeleton]; unfold cc4__sgc_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Reg4

end
-- ==== Proof.Reg4.lean ====
/- The frame of region 4 (the fused propagation kernel, grid 8 x 2), last part: what the output block's buffer and the two
   accumulators hold after each case of the body and point by point, the proof data at the entry contents V, and the body
   obligation. The accumulators are carried from the first point of a row block (k = 0) to the second (k = 1); the output
   window is idle at the first and written back after the second. -/
import proofs.«162839_j74869869904021_2_alg».proof.Proof.Reg4RunB

-- membership in a rectangle of full-size extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output block: a placeholder that nothing consults (the window is idle and not
    written back there). -/
def out_A_5 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) : Vec F S512x256 .f32 :=
  VO_5.read (Elt F) (VO_5.writes (Elt F) VO_5.junk (kernelRun_A c i arg2 harg2 arg3 harg3 arg4 harg4 arg5 harg5 arg6 harg6 arg7 harg7 arg8 harg8 arg9 harg9 hc0 hc1 x0 x1 x2 x3 x4).1)

/-- The k = 0 case's pieces for the first accumulator cover it. -/
theorem scover_A_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) (y : S512x256.Idx) :
    ∃ pc ∈ (kernelRun_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun_A c i arg2 harg2 arg3 harg3 arg4 harg4 arg5 harg5 arg6 harg6 arg7 harg7 arg8 harg8 arg9 harg9 hc0 hc1 x0 x1 x2 x3 x4).2.1 S512x256.size (by sl_kernel_rfl) y

/-- What the k = 0 case leaves in the first accumulator. -/
def sout_A_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) : Vec F S512x256 .f32 :=
  VS_0.read (Elt F) (VS_0.writes (Elt F) VS_0.junk (kernelRun_A c i arg2 harg2 arg3 harg3 arg4 harg4 arg5 harg5 arg6 harg6 arg7 harg7 arg8 harg8 arg9 harg9 hc0 hc1 x0 x1 x2 x3 x4).2.1)

/-- The k = 0 case's pieces for the second accumulator cover it. -/
theorem scover_A_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) (y : S512x256.Idx) :
    ∃ pc ∈ (kernelRun_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun_A c i arg2 harg2 arg3 harg3 arg4 harg4 arg5 harg5 arg6 harg6 arg7 harg7 arg8 harg8 arg9 harg9 hc0 hc1 x0 x1 x2 x3 x4).2.2.1 S512x256.size (by sl_kernel_rfl) y

/-- What the k = 0 case leaves in the second accumulator. -/
def sout_A_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) : Vec F S512x256 .f32 :=
  VS_1.read (Elt F) (VS_1.writes (Elt F) VS_1.junk (kernelRun_A c i arg2 harg2 arg3 harg3 arg4 harg4 arg5 harg5 arg6 harg6 arg7 harg7 arg8 harg8 arg9 harg9 hc0 hc1 x0 x1 x2 x3 x4).2.2.1)

/-- The k = 1 case's one store covers the output block. -/
theorem cover_B_5 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) (y : S512x256.Idx) :
    ∃ pc ∈ (kernelRun_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun_B c i arg2 harg2 arg3 harg3 arg4 harg4 arg5 harg5 arg6 harg6 arg7 harg7 arg8 harg8 arg9 harg9 hc0 hc1 x0 x1 x2 x3 x4 xs0 xs1).1 S512x256.size (by sl_kernel_rfl) y

/-- What the k = 1 case leaves in the output block's buffer. -/
def out_B_5 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) : Vec F S512x256 .f32 :=
  VO_5.read (Elt F) (VO_5.writes (Elt F) VO_5.junk (kernelRun_B c i arg2 harg2 arg3 harg3 arg4 harg4 arg5 harg5 arg6 harg6 arg7 harg7 arg8 harg8 arg9 harg9 hc0 hc1 x0 x1 x2 x3 x4 xs0 xs1).1)

theorem scover_B_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) (y : S512x256.Idx) :
    ∃ pc ∈ (kernelRun_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun_B c i arg2 harg2 arg3 harg3 arg4 harg4 arg5 harg5 arg6 harg6 arg7 harg7 arg8 harg8 arg9 harg9 hc0 hc1 x0 x1 x2 x3 x4 xs0 xs1).2.1 S512x256.size (by sl_kernel_rfl) y

/-- What the k = 1 case leaves in the first accumulator. -/
def sout_B_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) : Vec F S512x256 .f32 :=
  VS_0.read (Elt F) (VS_0.writes (Elt F) VS_0.junk (kernelRun_B c i arg2 harg2 arg3 harg3 arg4 harg4 arg5 harg5 arg6 harg6 arg7 harg7 arg8 harg8 arg9 harg9 hc0 hc1 x0 x1 x2 x3 x4 xs0 xs1).2.1)

theorem scover_B_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) (y : S512x256.Idx) :
    ∃ pc ∈ (kernelRun_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun_B c i arg2 harg2 arg3 harg3 arg4 harg4 arg5 harg5 arg6 harg6 arg7 harg7 arg8 harg8 arg9 harg9 hc0 hc1 x0 x1 x2 x3 x4 xs0 xs1).2.2.1 S512x256.size (by sl_kernel_rfl) y

/-- What the k = 1 case leaves in the second accumulator. -/
def sout_B_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) : Vec F S512x256 .f32 :=
  VS_1.read (Elt F) (VS_1.writes (Elt F) VS_1.junk (kernelRun_B c i arg2 harg2 arg3 harg3 arg4 harg4 arg5 harg5 arg6 harg6 arg7 harg7 arg8 harg8 arg9 harg9 hc0 hc1 x0 x1 x2 x3 x4 xs0 xs1).2.2.1)

/-! ## The cases at a point of the grid -/

theorem hA0 (t : Fin cfg4.N) (h : t.val % 2 = 0) : cond0 (grid4.coords t) := (hcond0 t).mpr h
theorem hA1 (t : Fin cfg4.N) (h : t.val % 2 = 0) : ¬cond1 (grid4.coords t) := fun h' => by have := (hcond1 t).mp h'; omega
theorem hB0 (t : Fin cfg4.N) (h : ¬t.val % 2 = 0) : ¬cond0 (grid4.coords t) := fun h' => h ((hcond0 t).mp h')
theorem hB1 (t : Fin cfg4.N) (h : ¬t.val % 2 = 0) : cond1 (grid4.coords t) := (hcond1 t).mpr (by omega)

/-- The output block's buffer and the two accumulators after the body at an even point t (k = 0), on the point's
    memrefs and input blocks. -/
def caseA (c : Dev nD) (t : Fin cfg4.N) (h0 : t.val % 2 = 0) : Vec F S512x256 .f32 × Vec F S512x256 .f32 × Vec F S512x256 .f32 :=
  (out_A_5 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t),
   sout_A_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t),
   sout_A_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t))

/-- The same after the body at an odd point t (k = 1), the accumulators found at xs0, xs1. -/
def caseB (c : Dev nD) (t : Fin cfg4.N) (h0 : ¬t.val % 2 = 0) (xs0 xs1 : Vec F S512x256 .f32) : Vec F S512x256 .f32 × Vec F S512x256 .f32 × Vec F S512x256 .f32 :=
  (out_B_5 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) xs0 xs1,
   sout_B_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) xs0 xs1,
   sout_B_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) xs0 xs1)

/-! ## What the buffers hold after each point -/

/-- THE ACCUMULATION: the output block's buffer and the two accumulators after the body at position n — at an even
    position the k = 0 case, at an odd one the k = 1 case over what the position before left in the accumulators. -/
def outsAt (c : Dev nD) : (n : ℕ) → n < cfg4.N → Vec F S512x256 .f32 × Vec F S512x256 .f32 × Vec F S512x256 .f32
  | 0, hn => caseA V c ⟨0, hn⟩ (Nat.zero_mod _)
  | n + 1, hn =>
    if h0 : (n + 1) % 2 = 0 then caseA V c ⟨n + 1, hn⟩ h0
    else caseB V c ⟨n + 1, hn⟩ h0 (outsAt c n (Nat.lt_of_succ_lt hn)).2.1 (outsAt c n (Nat.lt_of_succ_lt hn)).2.2

theorem outsAt_A (c : Dev nD) (t : Fin cfg4.N) (h0 : t.val % 2 = 0) : outsAt V c t.val t.isLt = caseA V c t h0 := by
  obtain ⟨n, hn⟩ := t
  cases n with
  | zero => exact rfl
  | succ n => exact (dif_pos h0).trans rfl

theorem outsAt_B (c : Dev nD) (t : Fin cfg4.N) (h0 : ¬t.val % 2 = 0) :
    outsAt V c t.val t.isLt = caseB V c t h0 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

/-- The region's invariant before position n: before the first point the launch's (every scratch at anything);
    afterwards the two accumulators at what the point before left, the other scoped buffers unopened, the generator
    register at some state. -/
def PhiS (c : Dev nD) : (n : ℕ) → n ≤ cfg4.N → sProp 𝕄
  | 0, _ => Pipeline.ΦA spec4 c
  | n + 1, hn => iprop(iprop(iprop(owns (c : Thread nD τ) scM_0 fullShare ((outsAt V c n hn).2.1) ∗ owns (c : Thread nD τ) scM_1 fullShare ((outsAt V c n hn).2.2))
      ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(iprop(owns (c : Thread nD τ) scM_0 fullShare ((outsAt V c n hn).2.1) ∗ owns (c : Thread nD τ) scM_1 fullShare ((outsAt V c n hn).2.2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS_pos (c : Dev nD) (n : ℕ) (h : n ≤ cfg4.N) (hz : n ≠ 0) :
    PhiS V c n h = iprop(iprop(iprop(owns (c : Thread nD τ) scM_0 fullShare ((outsAt V c (n - 1) (by omega)).2.1) ∗ owns (c : Thread nD τ) scM_1 fullShare ((outsAt V c (n - 1) (by omega)).2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the region's pipeline on core c: the arrays as the region finds them; after the body at point t
    each input's buffer at its block and the output's at the accumulation's first component; the invariant PhiS; nothing
    owed; full shares. -/
def dat (c : Dev nD) : Pipeline.Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; simp only [Fin.coe_castSucc]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = iblk V c 4 t := by dsimp only [dat]
theorem after_5 (c : Dev nD) (t : Fin cfg4.N) : (dat V c).after 5 t = (outsAt V c t.val t.isLt).1 := by dsimp only [dat]

theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d
theorem before_2 (c : Dev nD) (t : Fin cfg4.N) (d) : (dat V c).before 2 t d = iblk V c 2 t :=
  before_2_of V (dat V c) (A_eq V c 2) (after_2 V c) t d
theorem before_3 (c : Dev nD) (t : Fin cfg4.N) (d) : (dat V c).before 3 t d = iblk V c 3 t :=
  before_3_of V (dat V c) (A_eq V c 3) (after_3 V c) t d
theorem before_4 (c : Dev nD) (t : Fin cfg4.N) (d) : (dat V c).before 4 t d = iblk V c 4 t :=
  before_4_of V (dat V c) (A_eq V c 4) (after_4 V c) t d

/-- The invariant before the first point is the launch's. -/
theorem Phi_first (c : Dev nD) : (dat V c).Φ 0 = Pipeline.ΦA spec4 c := by
  rw [show (dat V c).Φ 0 = PhiS V c 0 (Nat.zero_le _) from rfl, PhiS_zero V c 0 _ rfl]

/-- After any point but the first the invariant gives the launch's back: the accumulators' named contents are forgotten. -/
theorem Phi_out (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_last (c : Dev nD) : (dat V c).Φ (Fin.last cfg4.N) ⊢ Pipeline.ΦA spec4 c :=
  Phi_out V c _ (by rw [Fin.val_last]; have : cfg4.N = 16 := N_4; omega)

/-! ## The body obligation, at a generic point -/

def bodyPre (c : Dev nD) (t : Fin cfg4.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the point's parity says which case it is in; the
    invariant hands the body the accumulators at what the point before left (at anything at the first point) and takes
    them back at this point's contents; the core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg4.N = 16 from N_4)
  by_cases h0 : t.val % 2 = 0
  ·
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [show (dat V c).leavesExact 3 t = owns (c : Thread nD τ) (ms_3 t) fullShare ((dat V c).after 3 t) from by
      unfold Dat.leavesExact; rw [liveAt_3 t], after_3]
    rw [show (dat V c).leavesExact 4 t = owns (c : Thread nD τ) (ms_4 t) fullShare ((dat V c).after 4 t) from by
      unfold Dat.leavesExact; rw [liveAt_4 t], after_4]
    rw [Dat.leavesExact_idle (dat V c) 5 t (idleAt_5_A t (hA0 t h0) (hA1 t h0)) (noFlush_5_A t (hA0 t h0) (hA1 t h0))]
    rw [outsAt_A V c t h0]
    unfold caseA sout_A_0 sout_A_1; (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun_A c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover_A_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
            · unfold owns; iexists _; isplitr
              swap; · iexact HS1
              ipureintro; exact View.read_writes_of_cover _ _ _ _ _ (scover_A_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun_A c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover_A_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
            · unfold owns; iexists _; isplitr
              swap; · iexact HS1
              ipureintro; exact View.read_writes_of_cover _ _ _ _ _ (scover_A_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  ·
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [show (dat V c).leavesExact 3 t = owns (c : Thread nD τ) (ms_3 t) fullShare ((dat V c).after 3 t) from by
      unfold Dat.leavesExact; rw [liveAt_3 t], after_3]
    rw [show (dat V c).leavesExact 4 t = owns (c : Thread nD τ) (ms_4 t) fullShare ((dat V c).after 4 t) from by
      unfold Dat.leavesExact; rw [liveAt_4 t], after_4]
    rw [show (dat V c).leavesExact 5 t = owns (c : Thread nD τ) (ms_5 t) fullShare ((dat V c).after 5 t) from by
      unfold Dat.leavesExact; rw [liveAt_5_B t (hB0 t h0) (hB1 t h0)], after_5]
    rw [outsAt_B V c t h0]
    unfold caseB out_B_5 sout_B_0 sout_B_1; (try dsimp only)
    have hz : t.val ≠ 0 := fun e => h0 (by rw [e])
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun_B c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover_B_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t) _ _)
            · unfold owns; iexists _; isplitr
              swap; · iexact HS1
              ipureintro; exact View.read_writes_of_cover _ _ _ _ _ (scover_B_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t) _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_B_5 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t) _ _)

/-- The library's body obligation, at every point. -/
theorem body_obligation (c : Dev nD) : Pipeline.BodyObligation (dat (F := F) V c) (defs₀ (F := F)) Variants.none () Set.univ := fun t => by
  rw [bigSep_W4, bigSep_W4]
  exact sound_body V c t

end Cert.KernelIdeal.Reg4

end
-- ==== Proof.Frames.lean ====
/- The kernel program's whole run from the five regions' kernel halves: every weakly fair execution of @main
   terminates without a fault with every unscoped buffer at the last valuation of the fold through @main (the
   regions' output arrays at what the regions leave); in particular the eight argument arrays end as launched,
   and the result buffer ends at that valuation's contents. -/
import proofs.«162839_j74869869904021_2_alg».proof.Proof.RunAll
import proofs.«162839_j74869869904021_2_alg».proof.Proof.Reg0
import proofs.«162839_j74869869904021_2_alg».proof.Proof.Reg1
import proofs.«162839_j74869869904021_2_alg».proof.Proof.Reg2
import proofs.«162839_j74869869904021_2_alg».proof.Proof.Reg3
import proofs.«162839_j74869869904021_2_alg».proof.Proof.Reg4

set_option maxRecDepth 16384

noncomputable section

namespace Cert.KernelIdeal.Final

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The five regions' kernel halves -/

def H0 : Half F 0 := ⟨Reg0.dat, Reg0.A_eq, Reg0.body_obligation, Reg0.Phi_first, Reg0.Phi_last, fun _ _ _ => rfl, fun _ _ _ => trivial⟩
def H1 : Half F 1 := ⟨Reg1.dat, Reg1.A_eq, Reg1.body_obligation, Reg1.Phi_first, Reg1.Phi_last, fun _ _ _ => rfl, fun _ _ _ => trivial⟩
def H2 : Half F 2 := ⟨Reg2.dat, Reg2.A_eq, Reg2.body_obligation, Reg2.Phi_first, Reg2.Phi_last, fun _ _ _ => rfl, fun _ _ _ => trivial⟩
def H3 : Half F 3 := ⟨Reg3.dat, Reg3.A_eq, Reg3.body_obligation, Reg3.Phi_first, Reg3.Phi_last, fun _ _ _ => rfl, fun _ _ _ => trivial⟩
def H4 : Half F 4 := ⟨Reg4.dat, Reg4.A_eq, Reg4.body_obligation, Reg4.Phi_first, Reg4.Phi_last, fun _ _ _ => rfl, fun _ _ _ => trivial⟩

/-! ## The shares the arrays are held at -/

theorem hs0 (V : Conts F) (c : Dev nD) (w : Fin (cfgs 0).W) : ((H0 (F := F)).dat V c).share w = fullShare :=
  (Reg0.dat V c).share_full (fun _ => rfl) w
theorem hs1 (V : Conts F) (c : Dev nD) (w : Fin (cfgs 1).W) : ((H1 (F := F)).dat V c).share w = fullShare :=
  (Reg1.dat V c).share_full (fun _ => rfl) w
theorem hs3 (V : Conts F) (c : Dev nD) (w : Fin (cfgs 3).W) : ((H3 (F := F)).dat V c).share w = fullShare :=
  (Reg3.dat V c).share_full (fun _ => rfl) w
theorem hs4 (V : Conts F) (c : Dev nD) (w : Fin (cfgs 4).W) : ((H4 (F := F)).dat V c).share w = fullShare :=
  (Reg4.dat V c).share_full (fun _ => rfl) w
/-- Region 2's two input windows read one array: each holds one half of its full share; the output array is held whole. -/
theorem hs2 (V : Conts F) (c : Dev nD) : ((H2 (F := F)).dat V c).share wi20 = fullShare.left ∧ ((H2 (F := F)).dat V c).share wi21 = fullShare.right
    ∧ ((H2 (F := F)).dat V c).share wo2 = fullShare := ⟨rfl, rfl, rfl⟩

/-! ## The run -/

/-- What the regions leave in their output arrays, stage by stage. -/
abbrev outs (m : (ℓ : Loc nD τ sig) → Buf (Elt F) ℓ) : Outs (F := F) := outs5 m H0 H1 H2 H3 H4

/-- THE RUN: every weakly fair execution of @main terminates without a fault, every unscoped buffer ending at the last
    valuation of the fold through @main. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V17 m (outs m) c b) :=
  run_all m H0 H1 H2 H3 H4 hs0 hs1 hs3 hs4 hs2 ρ

/-- THE FRAME: the eight argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V17_main_arg0 m _ c),
      (h c _ (mem_uc main_arg1 (by decide))).trans (V17_main_arg1 m _ c),
      (h c _ (mem_uc main_arg2 (by decide))).trans (V17_main_arg2 m _ c),
      (h c _ (mem_uc main_arg3 (by decide))).trans (V17_main_arg3 m _ c),
      (h c _ (mem_uc main_arg4 (by decide))).trans (V17_main_arg4 m _ c),
      (h c _ (mem_uc main_arg5 (by decide))).trans (V17_main_arg5 m _ c),
      (h c _ (mem_uc main_arg6 (by decide))).trans (V17_main_arg6 m _ c),
      (h c _ (mem_uc main_arg7 (by decide))).trans (V17_main_arg7 m _ c)⟩) (run m ρ)

/-- THE VALUE: the result buffer ends at the last valuation's contents, and the eight argument arrays end as launched. -/
theorem value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v55) = V17 m (outs m) c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v55 (by decide)),
      (h c _ (mem_uc main_arg0 (by decide))).trans (V17_main_arg0 m _ c),
      (h c _ (mem_uc main_arg1 (by decide))).trans (V17_main_arg1 m _ c),
      (h c _ (mem_uc main_arg2 (by decide))).trans (V17_main_arg2 m _ c),
      (h c _ (mem_uc main_arg3 (by decide))).trans (V17_main_arg3 m _ c),
      (h c _ (mem_uc main_arg4 (by decide))).trans (V17_main_arg4 m _ c),
      (h c _ (mem_uc main_arg5 (by decide))).trans (V17_main_arg5 m _ c),
      (h c _ (mem_uc main_arg6 (by decide))).trans (V17_main_arg6 m _ c),
      (h c _ (mem_uc main_arg7 (by decide))).trans (V17_main_arg7 m _ c)⟩) (run m ρ)

end Cert.KernelIdeal.Final

end
-- ==== Proof.WRunAll.lean ====
/-
  The five kernel regions as segments of @main, and the whole-program run.
  A region's kernel half (`Half`) is what is proved about its body alone, at any contents `V` the region may be
  entered from: the proof data of its pipeline with the arrays read off `V`, the body's obligation at every grid
  point, and the region invariant being the plain "scratch at anything" one before the first point and implying it
  after the last (the accumulator scratch carried between points is, at the end, a scratch holding something).
  From a half, the region is a segment entered from "every unscoped buffer at `Vin`" and left at "every unscoped
  buffer at `Vout`", where `Vout` has the region's arrays at what its write-backs leave and agrees with `Vin` elsewhere.
-/
import proofs.«162839_j74869869904021_2_alg».proof.Proof.WRunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- The contents of a core's unscoped buffers, read at the TensorCore's references. -/
abbrev Conts (F : FTy → Type) [FloatOps F] : Type := (c : Dev nD) → (b : Ref sig .tc) → Buf (Elt F) ((c : Thread nD τ).loc b)

/-- What is proved about region `p`'s kernel alone. -/
structure Half (F : FTy → Type) [FloatOps F] (p : Fin 5) where
  dat : Conts F → (c : Dev nD) → Dat τ (Elt F) Unit ℕ (UR sig nD τ) ℕ (cfgs p) c
  A_eq : ∀ V c w, (dat V c).A w = V c (Pipeline.arrRef (cfgs p).spec w)
  body : ∀ V c, Pipeline.BodyObligation (dat V c) (defs₀ (F := F)) Variants.none () Set.univ
  Phi_first : ∀ V c, (dat V c).Φ 0 = Pipeline.ΦA (cfgs p).spec c
  Phi_last : ∀ V c, (dat V c).Φ (Fin.last (cfgs p).N) ⊢ Pipeline.ΦA (cfgs p).spec c
  owed : ∀ V c t, (dat V c).owed t = 0
  recorded0 : ∀ V c x, x ∈ (dat V c).recorded 0

/-- No level is assigned: no core owes another anything. -/
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- A region with distinct arrays as a segment, from its kernel half: entered from every unscoped buffer at `Vin`,
    left at `Vout`. -/
def regOf (p : Fin 5) (pdats : (p : Fin 5) → (c : Dev nD) → Dat τ (Elt F) Unit ℕ (UR sig nD τ) ℕ (cfgs p) c)
    (hl : Pipeline.LaunchFacts (nD := nD) (τ := τ) cfgs p)
    (Vin Vout : Dev nD → Valuation τ sig (Elt F))
    (hbody : ∀ c, Pipeline.BodyObligation (pdats p c) (defs₀ (F := F)) Variants.none () Set.univ)
    (hshare : ∀ c w, (pdats p c).share w = fullShare) (howed : ∀ c t, (pdats p c).owed t = 0)
    (hrec : ∀ c x, x ∈ (pdats p c).recorded 0)
    (hA : ∀ c w, (pdats p c).A w = Vin c (Pipeline.arrRef (cfgs p).spec w))
    (hΦ0 : ∀ c, (pdats p c).Φ 0 = Pipeline.ΦA (cfgs p).spec c)
    (hΦN : ∀ c, (pdats p c).Φ (Fin.last (cfgs p).N) ⊢ Pipeline.ΦA (cfgs p).spec c)
    (hF : ∀ c w, (pdats p c).arrAt w (cfgs p).N = Vout c (Pipeline.arrRef (cfgs p).spec w))
    (hrest : ∀ c (b : Ref sig .tc), b ∉ Finset.univ.image (Pipeline.arrRef (cfgs p).spec) → Vout c b = Vin c b)
    (hpf : ∀ c : Dev nD, (BI.emp : sProp 𝕄) ⊢ Pipeline.prefHeld (pcfgs (F := F) p).pre c (fun _ => fullShare) (adm (F := F) p).1) :
    RegionSeg (pcfgs (F := F)) adm pdats () defs₀ Variants.none L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats hl.win hl.arr_whole c
      (hshare c) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · exact hpf c
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pdats (hshare c)
      (fun b => Vin c b) (fun b => Vout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-! ## The contents the regions leave, stage by stage -/

variable (m : (ℓ : Loc nD τ sig) → Buf (Elt F) ℓ)
variable (H0 : Half F 0) (H1 : Half F 1) (H2 : Half F 2) (H3 : Half F 3) (H4 : Half F 4)

/-- A valuation read at the TensorCore's references. -/
abbrev cv (W : Dev nD → Valuation τ sig (Elt F)) : Conts F := fun c b => W c b

/-- `o` with the contents of `r₀` replaced by `x` (at every item). -/
def setOut (o : Outs (F := F)) (r₀ : Ref sig .tc) (x : (c : Dev nD) → Buf (Elt F) ((c : Thread nD τ).loc r₀)) : Outs (F := F) :=
  fun J r c => if h : r = r₀ then h ▸ x c else o J r c

theorem setOut_self (o : Outs (F := F)) (r₀ : Ref sig .tc) (x : (c : Dev nD) → Buf (Elt F) ((c : Thread nD τ).loc r₀)) (J : ℕ) (c : Dev nD) :
    setOut o r₀ x J r₀ c = x c := by
  unfold setOut; rw [dif_pos rfl]

theorem setOut_ne (o : Outs (F := F)) (r₀ : Ref sig .tc) (x : (c : Dev nD) → Buf (Elt F) ((c : Thread nD τ).loc r₀)) (J : ℕ) (r : Ref sig .tc) (c : Dev nD)
    (h : r ≠ r₀) : setOut o r₀ x J r c = o J r c := by
  unfold setOut; rw [dif_neg h]

/-- Each region's output window. -/
abbrev wo0 : Fin (cfgs 0).W := ⟨2, by decide⟩
abbrev wo1 : Fin (cfgs 1).W := ⟨2, by decide⟩
abbrev wo2 : Fin (cfgs 2).W := ⟨2, by decide⟩
abbrev wo3 : Fin (cfgs 3).W := ⟨2, by decide⟩
abbrev wo4 : Fin (cfgs 4).W := ⟨5, by decide⟩

/-- Before any region: anything (the launch contents). -/
def outs0 : Outs (F := F) := fun _ r c => m ((c : Thread nD τ).loc r)
/-- Region 0's output array at what its write-backs leave, entered from `V3`. -/
def outs1 : Outs (F := F) := setOut (outs0 m) main_v19 fun c => (H0.dat (cv (V3 m)) c).arrAt wo0 (cfgs 0).N
/-- Region 1's, entered from `V8`. -/
def outs2 : Outs (F := F) := setOut (outs1 m H0) main_v38 fun c => (H1.dat (cv (V8 m (outs1 m H0))) c).arrAt wo1 (cfgs 1).N
/-- Region 2's, entered from `V12`. -/
def outs3 : Outs (F := F) := setOut (outs2 m H0 H1) main_v44 fun c => (H2.dat (cv (V12 m (outs2 m H0 H1))) c).arrAt wo2 (cfgs 2).N
/-- Region 3's, entered from `V13`. -/
def outs4 : Outs (F := F) := setOut (outs3 m H0 H1 H2) main_v45 fun c => (H3.dat (cv (V13 m (outs3 m H0 H1 H2))) c).arrAt wo3 (cfgs 3).N
/-- Region 4's, entered from `V15`. -/
def outs5 : Outs (F := F) := setOut (outs4 m H0 H1 H2 H3) main_v52 fun c => (H4.dat (cv (V15 m (outs4 m H0 H1 H2 H3))) c).arrAt wo4 (cfgs 4).N

theorem outs1_at (J : ℕ) (c : Dev nD) : outs1 m H0 J main_v19 c = (H0.dat (cv (V3 m)) c).arrAt wo0 (cfgs 0).N := by
  unfold outs1; exact setOut_self (F := F) _ _ _ J c
theorem outs2_at (J : ℕ) (c : Dev nD) : outs2 m H0 H1 J main_v38 c = (H1.dat (cv (V8 m (outs1 m H0))) c).arrAt wo1 (cfgs 1).N := by
  unfold outs2; exact setOut_self (F := F) _ _ _ J c
theorem outs3_at (J : ℕ) (c : Dev nD) : outs3 m H0 H1 H2 J main_v44 c = (H2.dat (cv (V12 m (outs2 m H0 H1))) c).arrAt wo2 (cfgs 2).N := by
  unfold outs3; exact setOut_self (F := F) _ _ _ J c
theorem outs4_at (J : ℕ) (c : Dev nD) : outs4 m H0 H1 H2 H3 J main_v45 c = (H3.dat (cv (V13 m (outs3 m H0 H1 H2))) c).arrAt wo3 (cfgs 3).N := by
  unfold outs4; exact setOut_self (F := F) _ _ _ J c
theorem outs5_at (J : ℕ) (c : Dev nD) : outs5 m H0 H1 H2 H3 H4 J main_v52 c = (H4.dat (cv (V15 m (outs4 m H0 H1 H2 H3))) c).arrAt wo4 (cfgs 4).N := by
  unfold outs5; exact setOut_self (F := F) _ _ _ J c

/-! ## A valuation reads the regions' contents only at the regions before it -/

theorem V8_congr (o o' : Outs (F := F)) (h4 : ∀ c, o 4 main_v19 c = o' 4 main_v19 c) (c : Dev nD) : V8 m o c = V8 m o' c :=
  congrArg (fun x => StableHlo.after hostOps1_3 (StableHlo.after hostOps1_2 (StableHlo.after hostOps1_1 (StableHlo.after hostOps1
    (Function.update (V3 m c) main_v19 x))))) (h4 c)

theorem V12_congr (o o' : Outs (F := F)) (h4 : ∀ c, o 4 main_v19 c = o' 4 main_v19 c) (h9 : ∀ c, o 9 main_v38 c = o' 9 main_v38 c) (c : Dev nD) :
    V12 m o c = V12 m o' c := by
  rw [show V12 m o c = StableHlo.after hostOps2_2 (StableHlo.after hostOps2_1 (StableHlo.after hostOps2 (Function.update (V8 m o c) main_v38 (o 9 main_v38 c)))) from rfl,
    V8_congr m o o' h4 c, h9 c]

theorem V13_congr (o o' : Outs (F := F)) (h4 : ∀ c, o 4 main_v19 c = o' 4 main_v19 c) (h9 : ∀ c, o 9 main_v38 c = o' 9 main_v38 c)
    (h13 : ∀ c, o 13 main_v44 c = o' 13 main_v44 c) (c : Dev nD) : V13 m o c = V13 m o' c := by
  rw [show V13 m o c = Function.update (V12 m o c) main_v44 (o 13 main_v44 c) from rfl, V12_congr m o o' h4 h9 c, h13 c]

theorem V15_congr (o o' : Outs (F := F)) (h4 : ∀ c, o 4 main_v19 c = o' 4 main_v19 c) (h9 : ∀ c, o 9 main_v38 c = o' 9 main_v38 c)
    (h13 : ∀ c, o 13 main_v44 c = o' 13 main_v44 c) (h14 : ∀ c, o 14 main_v45 c = o' 14 main_v45 c) (c : Dev nD) : V15 m o c = V15 m o' c := by
  rw [show V15 m o c = StableHlo.after hostOps4 (Function.update (V13 m o c) main_v45 (o 14 main_v45 c)) from rfl, V13_congr m o o' h4 h9 h13 c, h14 c]

/-! ## The stages agree where an earlier one is defined -/

local notation "o1" => outs1 m H0
local notation "o2" => outs2 m H0 H1
local notation "o3" => outs3 m H0 H1 H2
local notation "o4" => outs4 m H0 H1 H2 H3
local notation "o5" => outs5 m H0 H1 H2 H3 H4

theorem o5_o4 (J : ℕ) (r : Ref sig .tc) (c : Dev nD) (h : r ≠ main_v52) : o5 J r c = o4 J r c := setOut_ne _ _ _ J r c h
theorem o4_o3 (J : ℕ) (r : Ref sig .tc) (c : Dev nD) (h : r ≠ main_v45) : o4 J r c = o3 J r c := setOut_ne _ _ _ J r c h
theorem o3_o2 (J : ℕ) (r : Ref sig .tc) (c : Dev nD) (h : r ≠ main_v44) : o3 J r c = o2 J r c := setOut_ne _ _ _ J r c h
theorem o2_o1 (J : ℕ) (r : Ref sig .tc) (c : Dev nD) (h : r ≠ main_v38) : o2 J r c = o1 J r c := setOut_ne _ _ _ J r c h

theorem o5_v19 (J : ℕ) (c : Dev nD) : o5 J main_v19 c = o1 J main_v19 c :=
  (o5_o4 m H0 H1 H2 H3 H4 J _ c (by decide)).trans ((o4_o3 m H0 H1 H2 H3 J _ c (by decide)).trans ((o3_o2 m H0 H1 H2 J _ c (by decide)).trans (o2_o1 m H0 H1 J _ c (by decide))))
theorem o5_v38 (J : ℕ) (c : Dev nD) : o5 J main_v38 c = o2 J main_v38 c :=
  (o5_o4 m H0 H1 H2 H3 H4 J _ c (by decide)).trans ((o4_o3 m H0 H1 H2 H3 J _ c (by decide)).trans (o3_o2 m H0 H1 H2 J _ c (by decide)))
theorem o5_v44 (J : ℕ) (c : Dev nD) : o5 J main_v44 c = o3 J main_v44 c :=
  (o5_o4 m H0 H1 H2 H3 H4 J _ c (by decide)).trans (o4_o3 m H0 H1 H2 H3 J _ c (by decide))
theorem o5_v45 (J : ℕ) (c : Dev nD) : o5 J main_v45 c = o4 J main_v45 c := o5_o4 m H0 H1 H2 H3 H4 J _ c (by decide)
theorem o2_v19 (J : ℕ) (c : Dev nD) : o2 J main_v19 c = o1 J main_v19 c := o2_o1 m H0 H1 J _ c (by decide)
theorem o3_v19 (J : ℕ) (c : Dev nD) : o3 J main_v19 c = o1 J main_v19 c := (o3_o2 m H0 H1 H2 J _ c (by decide)).trans (o2_v19 m H0 H1 J c)
theorem o4_v19 (J : ℕ) (c : Dev nD) : o4 J main_v19 c = o1 J main_v19 c := (o4_o3 m H0 H1 H2 H3 J _ c (by decide)).trans (o3_v19 m H0 H1 H2 J c)
theorem o3_v38 (J : ℕ) (c : Dev nD) : o3 J main_v38 c = o2 J main_v38 c := o3_o2 m H0 H1 H2 J _ c (by decide)
theorem o4_v38 (J : ℕ) (c : Dev nD) : o4 J main_v38 c = o2 J main_v38 c := (o4_o3 m H0 H1 H2 H3 J _ c (by decide)).trans (o3_v38 m H0 H1 H2 J c)
theorem o4_v44 (J : ℕ) (c : Dev nD) : o4 J main_v44 c = o3 J main_v44 c := o4_o3 m H0 H1 H2 H3 J _ c (by decide)

/-- The valuation region 1 is entered from, at the final contents, is the one its proof data were taken at. -/
theorem V8_final (c : Dev nD) : V8 m o5 c = V8 m o1 c := V8_congr m _ _ (fun c => o5_v19 m H0 H1 H2 H3 H4 4 c) c
theorem V12_final (c : Dev nD) : V12 m o5 c = V12 m o2 c :=
  V12_congr m _ _ (fun c => (o5_v19 m H0 H1 H2 H3 H4 4 c).trans (o2_v19 m H0 H1 4 c).symm) (fun c => o5_v38 m H0 H1 H2 H3 H4 9 c) c
theorem V13_final (c : Dev nD) : V13 m o5 c = V13 m o3 c :=
  V13_congr m _ _ (fun c => (o5_v19 m H0 H1 H2 H3 H4 4 c).trans (o3_v19 m H0 H1 H2 4 c).symm)
    (fun c => (o5_v38 m H0 H1 H2 H3 H4 9 c).trans (o3_v38 m H0 H1 H2 9 c).symm) (fun c => o5_v44 m H0 H1 H2 H3 H4 13 c) c
theorem V15_final (c : Dev nD) : V15 m o5 c = V15 m o4 c :=
  V15_congr m _ _ (fun c => (o5_v19 m H0 H1 H2 H3 H4 4 c).trans (o4_v19 m H0 H1 H2 H3 4 c).symm)
    (fun c => (o5_v38 m H0 H1 H2 H3 H4 9 c).trans (o4_v38 m H0 H1 H2 H3 9 c).symm)
    (fun c => (o5_v44 m H0 H1 H2 H3 H4 13 c).trans (o4_v44 m H0 H1 H2 H3 13 c).symm) (fun c => o5_v45 m H0 H1 H2 H3 H4 14 c) c

/-! ## The proof data family -/

/-- Every pipeline's proof data, each at the contents its region is entered from — a literal match on the pipeline. -/
def pdats : (p : Fin 5) → (c : Dev nD) → Dat τ (Elt F) Unit ℕ (UR sig nD τ) ℕ (cfgs p) c
  | ⟨0, _⟩ => fun c => H0.dat (cv (V3 m)) c
  | ⟨1, _⟩ => fun c => H1.dat (cv (V8 m o1)) c
  | ⟨2, _⟩ => fun c => H2.dat (cv (V12 m o2)) c
  | ⟨3, _⟩ => fun c => H3.dat (cv (V13 m o3)) c
  | ⟨4, _⟩ => fun c => H4.dat (cv (V15 m o4)) c

local notation "PD" => pdats m H0 H1 H2 H3 H4

/-- No pipeline has a prefetched table. -/
theorem no_tables (p : Fin 5) (c : Dev nD) : (BI.emp : sProp 𝕄) ⊢ Pipeline.prefHeld (pcfgs (F := F) p).pre c (fun _ => fullShare) (adm (F := F) p).1 := by
  unfold Pipeline.prefHeld
  match p with
  | ⟨0, _⟩ | ⟨1, _⟩ | ⟨2, _⟩ | ⟨3, _⟩ | ⟨4, _⟩ => rw [show (Finset.univ : Finset (Fin 0)) = ∅ from rfl, BI.bigSep_empty]

/-! ## Region 0 -/

theorem in0 : ∀ w : Fin (cfgs 0).W, w ≠ wo0 → ((cfgs 0).win w).isOut = false ∧ Pipeline.arrRef (cfgs 0).spec w ∉ ([main_v19] : List (Ref sig .tc)) := by decide

theorem hF0 (c : Dev nD) (w : Fin (cfgs 0).W) : (PD 0 c).arrAt w (cfgs 0).N = V4 m o5 c (Pipeline.arrRef (cfgs 0).spec w) := by
  by_cases hw : w = wo0
  · subst hw
    refine Eq.trans ?_ (Function.update_self (f := V3 (F := F) m c) (Proc.devRef (τ := τ) .tc main_v19) (o5 4 main_v19 c)).symm
    rw [o5_v19 m H0 H1 H2 H3 H4 4 c]
    exact (outs1_at m H0 4 c).symm
  · exact ((PD 0 c).arrAt_in w (in0 w hw).1 _).trans ((H0.A_eq _ c w).trans (V4_of m o5 c _ (in0 w hw).2).symm)

theorem hrest0 (c : Dev nD) (b : Ref sig .tc) (hb : b ∉ Finset.univ.image (Pipeline.arrRef (cfgs 0).spec)) : V4 m o5 c b = V3 m c b :=
  V4_of m o5 c b fun hm => hb (by rw [List.mem_singleton.mp hm]; exact Finset.mem_image.mpr ⟨wo0, Finset.mem_univ _, rfl⟩)

variable (hs0 : ∀ V c w, (H0.dat V c).share w = fullShare)

/-- Region 0 as a segment: entered from `V3`, left at `V4`. -/
def reg0 : RegionSeg (pcfgs (F := F)) adm PD () defs₀ Variants.none L lv 0 :=
  regOf 0 PD launch0 (V3 m) (V4 m o5) (fun c => H0.body _ c) (fun c w => hs0 _ c w) (fun c t => H0.owed _ c t) (fun c x => H0.recorded0 _ c x)
    (fun c w => H0.A_eq _ c w) (fun c => H0.Phi_first _ c) (fun c => H0.Phi_last _ c)
    (hF0 m H0 H1 H2 H3 H4) (hrest0 m H0 H1 H2 H3 H4) (no_tables 0)

/-! ## Region 1 -/

theorem in1 : ∀ w : Fin (cfgs 1).W, w ≠ wo1 → ((cfgs 1).win w).isOut = false ∧ Pipeline.arrRef (cfgs 1).spec w ∉ ([main_v38] : List (Ref sig .tc)) := by decide

theorem hA1 (c : Dev nD) (w : Fin (cfgs 1).W) : (PD 1 c).A w = V8 m o5 c (Pipeline.arrRef (cfgs 1).spec w) :=
  (H1.A_eq _ c w).trans (congrFun (V8_final m H0 H1 H2 H3 H4 c).symm _)

theorem hF1 (c : Dev nD) (w : Fin (cfgs 1).W) : (PD 1 c).arrAt w (cfgs 1).N = V9 m o5 c (Pipeline.arrRef (cfgs 1).spec w) := by
  by_cases hw : w = wo1
  · subst hw
    refine Eq.trans ?_ (Function.update_self (f := V8 (F := F) m o5 c) (Proc.devRef (τ := τ) .tc main_v38) (o5 9 main_v38 c)).symm
    rw [o5_v38 m H0 H1 H2 H3 H4 9 c]
    exact (outs2_at m H0 H1 9 c).symm
  · exact ((PD 1 c).arrAt_in w (in1 w hw).1 _).trans ((hA1 m H0 H1 H2 H3 H4 c w).trans (V9_of m o5 c _ (in1 w hw).2).symm)

theorem hrest1 (c : Dev nD) (b : Ref sig .tc) (hb : b ∉ Finset.univ.image (Pipeline.arrRef (cfgs 1).spec)) : V9 m o5 c b = V8 m o5 c b :=
  V9_of m o5 c b fun hm => hb (by rw [List.mem_singleton.mp hm]; exact Finset.mem_image.mpr ⟨wo1, Finset.mem_univ _, rfl⟩)

variable (hs1 : ∀ V c w, (H1.dat V c).share w = fullShare)

/-- Region 1 as a segment: entered from `V8`, left at `V9`. -/
def reg1 : RegionSeg (pcfgs (F := F)) adm PD () defs₀ Variants.none L lv 1 :=
  regOf 1 PD launch1 (V8 m o5) (V9 m o5) (fun c => H1.body _ c) (fun c w => hs1 _ c w) (fun c t => H1.owed _ c t) (fun c x => H1.recorded0 _ c x)
    (hA1 m H0 H1 H2 H3 H4) (fun c => H1.Phi_first _ c) (fun c => H1.Phi_last _ c)
    (hF1 m H0 H1 H2 H3 H4) (hrest1 m H0 H1 H2 H3 H4) (no_tables 1)

/-! ## Region 3 -/

theorem in3 : ∀ w : Fin (cfgs 3).W, w ≠ wo3 → ((cfgs 3).win w).isOut = false ∧ Pipeline.arrRef (cfgs 3).spec w ∉ ([main_v45] : List (Ref sig .tc)) := by decide

theorem hA3 (c : Dev nD) (w : Fin (cfgs 3).W) : (PD 3 c).A w = V13 m o5 c (Pipeline.arrRef (cfgs 3).spec w) :=
  (H3.A_eq _ c w).trans (congrFun (V13_final m H0 H1 H2 H3 H4 c).symm _)

theorem hF3 (c : Dev nD) (w : Fin (cfgs 3).W) : (PD 3 c).arrAt w (cfgs 3).N = V14 m o5 c (Pipeline.arrRef (cfgs 3).spec w) := by
  by_cases hw : w = wo3
  · subst hw
    refine Eq.trans ?_ (Function.update_self (f := V13 (F := F) m o5 c) (Proc.devRef (τ := τ) .tc main_v45) (o5 14 main_v45 c)).symm
    rw [o5_v45 m H0 H1 H2 H3 H4 14 c]
    exact (outs4_at m H0 H1 H2 H3 14 c).symm
  · exact ((PD 3 c).arrAt_in w (in3 w hw).1 _).trans ((hA3 m H0 H1 H2 H3 H4 c w).trans (V14_of m o5 c _ (in3 w hw).2).symm)

theorem hrest3 (c : Dev nD) (b : Ref sig .tc) (hb : b ∉ Finset.univ.image (Pipeline.arrRef (cfgs 3).spec)) : V14 m o5 c b = V13 m o5 c b :=
  V14_of m o5 c b fun hm => hb (by rw [List.mem_singleton.mp hm]; exact Finset.mem_image.mpr ⟨wo3, Finset.mem_univ _, rfl⟩)

variable (hs3 : ∀ V c w, (H3.dat V c).share w = fullShare)

/-- Region 3 as a segment: entered from `V13`, left at `V14`. -/
def reg3 : RegionSeg (pcfgs (F := F)) adm PD () defs₀ Variants.none L lv 3 :=
  regOf 3 PD launch3 (V13 m o5) (V14 m o5) (fun c => H3.body _ c) (fun c w => hs3 _ c w) (fun c t => H3.owed _ c t) (fun c x => H3.recorded0 _ c x)
    (hA3 m H0 H1 H2 H3 H4) (fun c => H3.Phi_first _ c) (fun c => H3.Phi_last _ c)
    (hF3 m H0 H1 H2 H3 H4) (hrest3 m H0 H1 H2 H3 H4) (no_tables 3)

/-! ## Region 4 -/

theorem in4 : ∀ w : Fin (cfgs 4).W, w ≠ wo4 → ((cfgs 4).win w).isOut = false ∧ Pipeline.arrRef (cfgs 4).spec w ∉ ([main_v52] : List (Ref sig .tc)) := by decide

theorem hA4 (c : Dev nD) (w : Fin (cfgs 4).W) : (PD 4 c).A w = V15 m o5 c (Pipeline.arrRef (cfgs 4).spec w) :=
  (H4.A_eq _ c w).trans (congrFun (V15_final m H0 H1 H2 H3 H4 c).symm _)

theorem hF4 (c : Dev nD) (w : Fin (cfgs 4).W) : (PD 4 c).arrAt w (cfgs 4).N = V16 m o5 c (Pipeline.arrRef (cfgs 4).spec w) := by
  by_cases hw : w = wo4
  · subst hw
    refine Eq.trans ?_ (Function.update_self (f := V15 (F := F) m o5 c) (Proc.devRef (τ := τ) .tc main_v52) (o5 16 main_v52 c)).symm
    exact (outs5_at m H0 H1 H2 H3 H4 16 c).symm
  · exact ((PD 4 c).arrAt_in w (in4 w hw).1 _).trans ((hA4 m H0 H1 H2 H3 H4 c w).trans (V16_of m o5 c _ (in4 w hw).2).symm)

theorem hrest4 (c : Dev nD) (b : Ref sig .tc) (hb : b ∉ Finset.univ.image (Pipeline.arrRef (cfgs 4).spec)) : V16 m o5 c b = V15 m o5 c b :=
  V16_of m o5 c b fun hm => hb (by rw [List.mem_singleton.mp hm]; exact Finset.mem_image.mpr ⟨wo4, Finset.mem_univ _, rfl⟩)

variable (hs4 : ∀ V c w, (H4.dat V c).share w = fullShare)

/-- Region 4 as a segment: entered from `V15`, left at `V16`. -/
def reg4 : RegionSeg (pcfgs (F := F)) adm PD () defs₀ Variants.none L lv 4 :=
  regOf 4 PD launch4 (V15 m o5) (V16 m o5) (fun c => H4.body _ c) (fun c w => hs4 _ c w) (fun c t => H4.owed _ c t) (fun c x => H4.recorded0 _ c x)
    (hA4 m H0 H1 H2 H3 H4) (fun c => H4.Phi_first _ c) (fun c => H4.Phi_last _ c)
    (hF4 m H0 H1 H2 H3 H4) (hrest4 m H0 H1 H2 H3 H4) (no_tables 4)

/-! ## Region 2: two input windows on one array -/

abbrev wi20 : Fin (cfgs 2).W := ⟨0, by decide⟩
abbrev wi21 : Fin (cfgs 2).W := ⟨1, by decide⟩

/-- Region 2's arrays, window by window: the adjacency array behind windows 0 and 1 at the two halves of the full share,
    the output array at the full share. -/
theorem arrays2 (c : Dev nD) (D : Dat τ (Elt F) Unit ℕ (UR sig nD τ) ℕ (cfgs 2) c)
    (h0 : D.share wi20 = fullShare.left) (h1 : D.share wi21 = fullShare.right) (h2 : D.share wo2 = fullShare)
    (Fw : (w : Fin (cfgs 2).W) → Buf (Elt F) (((cfgs 2).win w).arr.view.loc (c.tc : Thread nD τ))) :
    (D.arrays Fw : sProp 𝕄) = iprop((((c : Thread nD τ).loc main_v0) ↦{fullShare.left} Fw wi20) ∗ (((c : Thread nD τ).loc main_v0) ↦{fullShare.right} Fw wi21)
        ∗ (((c : Thread nD τ).loc main_v44) ↦{fullShare} Fw wo2)) := by
  unfold Dat.arrays
  rw [bigSep_W2]
  have e0 : ((cfgs 2).win 0).arr.view.set = Finset.univ := (arr_whole2 0).set_eq_univ
  have e1 : ((cfgs 2).win 1).arr.view.set = Finset.univ := (arr_whole2 1).set_eq_univ
  have e2 : ((cfgs 2).win 2).arr.view.set = Finset.univ := (arr_whole2 2).set_eq_univ
  rw [e0, e1, e2, show D.share 0 = _ from h0, show D.share 1 = _ from h1, show D.share 2 = _ from h2]
  rfl

/-- The two distinct buffers behind region 2's arrays. -/
theorem image2 : Finset.univ.image (Pipeline.arrRef (cfgs 2).spec) = {main_v0, main_v44} := by decide

/-- The buffers behind region 2's arrays, whole at the full share at contents `V`, are its `arrays` at contents read off
    `V`: the adjacency array's full share splits into the two windows' halves. And back. -/
theorem arrBufs2_iff (c : Dev nD) (D : Dat τ (Elt F) Unit ℕ (UR sig nD τ) ℕ (cfgs 2) c)
    (h0 : D.share wi20 = fullShare.left) (h1 : D.share wi21 = fullShare.right) (h2 : D.share wo2 = fullShare)
    (V : (b : Ref sig .tc) → Buf (Elt F) ((c : Thread nD τ).loc b))
    (Fw : (w : Fin (cfgs 2).W) → Buf (Elt F) (((cfgs 2).win w).arr.view.loc (c.tc : Thread nD τ)))
    (hF : ∀ w, Fw w = V (Pipeline.arrRef (cfgs 2).spec w)) :
    (Pipeline.arrBufs (Ix := Unit) (Name := ℕ) (U := UR sig nD τ) (Lvl := ℕ) (cfgs 2).spec c V : sProp 𝕄) ⊣⊢ D.arrays Fw := by
  rw [arrays2 c D h0 h1 h2 Fw]
  unfold Pipeline.arrBufs
  rw [image2, BI.bigSep_insert (by decide), BI.bigSep_singleton]
  rw [show Fw wi20 = V main_v0 from hF wi20, show Fw wi21 = V main_v0 from hF wi21, show Fw wo2 = V main_v44 from hF wo2]
  have hsh : (((c : Thread nD τ).loc main_v0) ↦{fullShare} V main_v0 : sProp 𝕄) ⊣⊢ iprop((((c : Thread nD τ).loc main_v0) ↦{fullShare.left} V main_v0) ∗ (((c : Thread nD τ).loc main_v0) ↦{fullShare.right} V main_v0)) :=
    pointsTo_share (IsOp.posShare_halves fullShare).mem_op
  exact ⟨(sep_mono hsh.1 .rfl).trans sep_assoc.1, sep_assoc.2.trans (sep_mono hsh.2 .rfl)⟩

/-! ## Region 2 -/

theorem in2 : ∀ w : Fin (cfgs 2).W, w ≠ wo2 → ((cfgs 2).win w).isOut = false ∧ Pipeline.arrRef (cfgs 2).spec w ∉ ([main_v44] : List (Ref sig .tc)) := by decide

theorem hA2 (c : Dev nD) (w : Fin (cfgs 2).W) : (PD 2 c).A w = V12 m o5 c (Pipeline.arrRef (cfgs 2).spec w) :=
  (H2.A_eq _ c w).trans (congrFun (V12_final m H0 H1 H2 H3 H4 c).symm _)

theorem hF2 (c : Dev nD) (w : Fin (cfgs 2).W) : (PD 2 c).arrAt w (cfgs 2).N = V13 m o5 c (Pipeline.arrRef (cfgs 2).spec w) := by
  by_cases hw : w = wo2
  · subst hw
    refine Eq.trans ?_ (Function.update_self (f := V12 (F := F) m o5 c) (Proc.devRef (τ := τ) .tc main_v44) (o5 13 main_v44 c)).symm
    rw [o5_v44 m H0 H1 H2 H3 H4 13 c]
    exact (outs3_at m H0 H1 H2 13 c).symm
  · exact ((PD 2 c).arrAt_in w (in2 w hw).1 _).trans ((hA2 m H0 H1 H2 H3 H4 c w).trans (V13_of m o5 c _ (in2 w hw).2).symm)

theorem hrest2 (c : Dev nD) (b : Ref sig .tc) (hb : b ∉ Finset.univ.image (Pipeline.arrRef (cfgs 2).spec)) : V13 m o5 c b = V12 m o5 c b :=
  V13_of m o5 c b fun hm => hb (by rw [List.mem_singleton.mp hm]; exact Finset.mem_image.mpr ⟨wo2, Finset.mem_univ _, rfl⟩)

-- Region 2's proof data name the two halves of the full share for its two windows on the adjacency array.
variable (hs2 : ∀ V c, (H2.dat V c).share wi20 = fullShare.left ∧ (H2.dat V c).share wi21 = fullShare.right ∧ (H2.dat V c).share wo2 = fullShare)

set_option backward.isDefEq.respectTransparency.types false in
/-- Region 2 as a segment: entered from `V12`, left at `V13`. Its two input windows read ONE array: at the entry the array's
    full share is split into the halves the proof data name, at the exit the halves are joined again. -/
def reg2 : RegionSeg (pcfgs (F := F)) adm PD () defs₀ Variants.none L lv 2 where
  win := winFacts₀2
  block_pos := block_pos2
  stage_whole := stage_whole2
  K := PEmpty
  osem k := k.elim
  ho := Pipeline.OwnSemFacts.none _
  hbody c := (H2.body _ c).loose
  hwaits := Pipeline.hwaits_of_owed_zero _ _ _ _ L lv 2 (fun c t => H2.owed _ c t)
  pre c := iprop(StableHlo.held (c : Thread nD τ) (Pipeline.ucRefs τ sig) (V12 m o5 c) ∗ R c)
  post c := iprop(StableHlo.held (c : Thread nD τ) (Pipeline.ucRefs τ sig) (V13 m o5 c) ∗ R c)
  X c := iprop(∃ r, prngReg c r)
  Y c := iprop(∃ r, prngReg c r)
  Z c := Pipeline.unscopedRest (Ix := Unit) (Name := ℕ) (U := UR sig nD τ) (Lvl := ℕ) (cfgs 2).spec c (fun b => V12 m o5 c b)
  hentry c := by
    rw [Pipeline.ownSems0_none]
    have hub := Pipeline.unscopedBufs_split₀ cfgs 2 winFacts₀2.arr_unscoped c (Ix := Unit) (Name := ℕ) (U := UR sig nD τ) (Lvl := ℕ) (fun b => V12 m o5 c b)
    rw [Pipeline.unscopedBufs_held] at hub
    have hsp := (arrBufs2_iff c (PD 2 c) (hs2 _ c).1 (hs2 _ c).2.1 (hs2 _ c).2.2 (fun b => V12 m o5 c b) ((PD 2 c).arrAt · 0)
      (fun w => hA2 m H0 H1 H2 H3 H4 c w)).1
    have hsplit := (Entails.of_eq hub).trans (sep_mono hsp .rfl)
    iintro ⟨⟨Hub, Hp, HO⟩, -, -⟩
    ihave H := hsplit $$ Hub
    icases H with ⟨Ha, Hrest⟩
    imodintro
    isplitl [Ha]; · iexact Ha
    isplitr; · exact no_tables 2 c
    isplitl [HO]
    · unfold Pipeline.Dat.owesAt Pipeline.owesWithin
      rw [show (PD 2 c).owed 0 = 0 from H2.owed _ c 0]
      icases HO with ⟨%W, HO⟩; iexists W; isplitr; · ipureintro; exact fun x _ => Or.inl (H2.recorded0 _ c x)
      iexact HO
    isplitl [Hp]; · iexact Hp
    iexact Hrest
  hin c := by
    rw [show (PD 2 c).Φ 0 = Pipeline.ΦA (cfgs 2).spec c from H2.Phi_first _ c]; unfold Pipeline.ΦA
    iintro ⟨Hp, -, Hr⟩
    isplitl [Hr]; · iexact Hr
    iexact Hp
  hout c := by
    rw [Pipeline.ownSems0_none]
    refine (show (PD 2 c).Φ (Fin.last (cfgs 2).N) ⊢ Pipeline.ΦA (cfgs 2).spec c from H2.Phi_last _ c).trans ?_
    unfold Pipeline.ΦA
    iintro ⟨Hr, Hp⟩
    isplitl [Hp]; · iexact Hp
    isplitr; · iempintro
    iexact Hr
  hexit c := by
    have hub := Pipeline.unscopedBufs_split₀ cfgs 2 winFacts₀2.arr_unscoped c (Ix := Unit) (Name := ℕ) (U := UR sig nD τ) (Lvl := ℕ) (fun b => V13 m o5 c b)
    rw [Pipeline.unscopedBufs_held] at hub
    have hjn := (arrBufs2_iff c (PD 2 c) (hs2 _ c).1 (hs2 _ c).2.1 (hs2 _ c).2.2 (fun b => V13 m o5 c b) ((PD 2 c).arrAt · (cfgs 2).N)
      (fun w => hF2 m H0 H1 H2 H3 H4 c w)).2
    have hrestEq : (Pipeline.unscopedRest (Ix := Unit) (Name := ℕ) (U := UR sig nD τ) (Lvl := ℕ) (cfgs 2).spec c (fun b => V12 m o5 c b) : sProp 𝕄)
        = Pipeline.unscopedRest (cfgs 2).spec c (fun b => V13 m o5 c b) := by
      unfold Pipeline.unscopedRest
      exact BI.bigSep_congr fun b hb => by dsimp only; rw [hrest2 m H0 H1 H2 H3 H4 c b (Finset.mem_sdiff.mp hb).2]
    have hjoin := (BIClass.sep_mono hjn (Entails.of_eq hrestEq)).trans (Entails.of_eq hub.symm)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (PD 2 c).owed (Fin.last (cfgs 2).N) = 0 from H2.owed _ c _]
    icases HO with ⟨%W, -, HO⟩; iexists W; iexact HO

/-! ## The run -/

variable (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hs0 hs1 hs2 hs3 hs4 in
set_option backward.isDefEq.respectTransparency.types false in
/-- THE RUN. Every weakly fair execution of @main terminates without a fault, and every core's unscoped buffers end at the
    last valuation of the fold through @main, the regions' output arrays at what the regions leave. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V17 m o5 c b) :=
  run_cond m (Ix := Unit) (U := UR sig nD τ) (Lvl := ℕ) emb₁ () Variants.none L lv (fun _ _ => rfl) ρ o5 PD
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (reg0 m H0 H1 H2 H3 H4 hs0) (fun _ => .rfl) (fun _ => .rfl)
    (reg1 m H0 H1 H2 H3 H4 hs1) (fun _ => .rfl) (fun _ => .rfl)
    (reg2 m H0 H1 H2 H3 H4 hs2) (fun _ => .rfl) (fun _ => .rfl)
    (reg3 m H0 H1 H2 H3 H4 hs3) (fun _ => .rfl) (fun _ => .rfl)
    (reg4 m H0 H1 H2 H3 H4 hs4) (fun _ => .rfl) (fun _ => .rfl)

end Cert.Kernel.Run

end
-- ==== Proof.WReg0Runs.lean ====
import proofs.«162839_j74869869904021_2_alg».proof.Proof.Gen.Kernel.Launch
import proofs.«162839_j74869869904021_2_alg».proof.Proof.Gen.Kernel.Skeleton
import proofs.«162839_j74869869904021_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matrix product): what the control cases of its kernel share

The kernel accumulates a row block of the product over the last grid axis `k`: at `k = 0` it zeroes
an accumulator it keeps between grid points, at every point it adds the product of the two input
blocks, and at the last `k` it copies the accumulator to the output block. Everything is stated at
a parameter `V`: the contents of the unscoped buffers when the region is entered. -/

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the accumulator is zeroed): the last grid
    coordinate is 0. -/
abbrev cond_0 (i : grid0.Coords) : Prop := (Scalar.cmpi .ne (Scalar.extui (Scalar.cmpi .eq (BitVec.ofNat 32 (i 2).val) 0#32)) 0#32) = 1#1
/-- It holds at the even points. -/
theorem hcond_0 : ∀ t : Fin cfg0.N, cond_0 (grid0.coords t) ↔ t.val % 2 = 0 :=
  (by decide +kernel : ∀ t : Fin grid0.N, cond_0 (grid0.coords t) ↔ t.val % 2 = 0)

/-- The condition of the body's second conditional (the accumulator is copied out): the last grid
    coordinate is the last one. -/
abbrev cond_1 (i : grid0.Coords) : Prop := k0_cond2 i = 1#1
/-- It holds at the odd points. -/
theorem hcond_1 : ∀ t : Fin cfg0.N, cond_1 (grid0.coords t) ↔ t.val % 2 = 1 :=
  (by decide +kernel : ∀ t : Fin grid0.N, cond_1 (grid0.coords t) ↔ t.val % 2 = 1)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- At the even points the output window is idle: nothing is stored into it, -/
theorem idleAt_2_A : ∀ t : Fin cfg0.N, cond_0 (grid0.coords t) → ¬cond_1 (grid0.coords t) → cfg0.idle 2 (grid0.coords t) = true := by decide +kernel
/-- and its block is not written back there. -/
theorem noFlush_2_A : ∀ t : Fin cfg0.N, cond_0 (grid0.coords t) → ¬cond_1 (grid0.coords t) → (cfg0.win 2).flush t = false := by decide +kernel
/-- At the odd points the output window is live. -/
theorem liveAt_2_B : ∀ t : Fin cfg0.N, ¬cond_0 (grid0.coords t) → cond_1 (grid0.coords t) → cfg0.idle 2 (grid0.coords t) = false := by decide +kernel

/-! ## The staging and scratch memrefs -/

/-- One staging buffer of the output window, through which its contents are stated. -/
abbrev VO_2 : View sig .tc .vmem S512x128 .f32 := (Memref.whole cc0_stg2_0 : Memref sig .tc .vmem S512x128 .f32).view
/-- Each window's current staging memref at point `t`, as the pipeline passes it, and its wholeness. -/
abbrev ms_0 (t : Fin cfg0.N) : Memref sig .tc .vmem S512x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x128 .f32 := win0_2.stage (cfg0.slots t 2)
abbrev hs_2 (t : Fin cfg0.N) : (ms_2 t).IsWhole := hstage0_2 ((cfg0.slots t 2).cast nbuf0_2)
/-- The accumulator: a whole scoped buffer of the kernel's own, passed beside the windows. -/
abbrev scM : Memref sig .tc .vmem S512x128 .f32 := Memref.whole cc0_scratch0
/-- The accumulator as a view: what it holds is stated through it. -/
abbrev VS : View sig .tc .vmem S512x128 .f32 := scM.view

/-- The other scoped buffers of the program, unopened. -/
abbrev restBut (c : Dev nD) : sProp 𝕄 :=
  Pipeline.scopedRestBut (Ix := Unit) (Name := ℕ) (U := UR sig nD τ) (Lvl := ℕ) (Val := Elt F) spec0 c [cc0_scratch0]

/-- The region's invariant with the accumulator as a memref owned at some contents. -/
theorem PhiA_eq (c : Dev nD) :
    (Pipeline.ΦA spec0 c : sProp 𝕄)
      = iprop(iprop(iprop((∃ d, owns (c : Thread nD τ) scM fullShare d)) ∗ restBut c) ∗ (∃ r, prngReg c r)) := by
  unfold Pipeline.ΦA; rw [scopedRest0_split]; simp only [scM, owns_whole]; try rfl

end Cert.Kernel.Reg0

end
-- ==== Proof.WReg0RunA.lean ====
import proofs.«162839_j74869869904021_2_alg».proof.Proof.WReg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k = 0` (the accumulator zeroed, then the blocks' product added; nothing
    copied out): on whole memrefs — the inputs' at their contents, the output's at contents handed back
    untouched, the accumulator at anything — it runs to the continuation holding the inputs' and the
    output's as they were and the accumulator with the pieces `LS0` written. The pieces are the
    witness the symbolic run finds. -/
noncomputable def kernelRun_A (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Reg0

end
-- ==== Proof.WReg0RunB.lean ====
import proofs.«162839_j74869869904021_2_alg».proof.Proof.WReg0RunA

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k` last (the blocks' product added to the accumulator, which is then
    copied to the output block): on whole memrefs — the inputs' at their contents, the output's at
    anything, the accumulator at the contents `xs0` the point before left — it runs to the
    continuation holding the inputs' as they were, the output's with the pieces `L2` written and the
    accumulator with the pieces `LS0` written. -/
noncomputable def kernelRun_B (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Reg0

end
-- ==== Proof.WReg0.lean ====
import proofs.«162839_j74869869904021_2_alg».proof.Proof.WReg0RunB

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matrix product): the proof data of its pipeline and the body obligation

What the output block and the accumulator hold after each grid point, by recursion on the point (the
accumulator is carried from one point to the next); the invariant (the accumulator at what the point
before left); and the body's triple at every point, from the two control cases' runs. -/

variable (V : (c : Dev nD) → (b : Ref sig .tc) → Buf (Elt F) ((c : Thread nD τ).loc b))

/-! ## What each case leaves -/

/-- The case `k = 0` stores nothing into the output: a placeholder that nothing consults (the window is
    idle and not written back at these points). -/
def out_A_2 (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) : Vec F S512x128 .f32 :=
  VO_2.read (Elt F) (VO_2.writes (Elt F) VO_2.junk (kernelRun_A c i arg3 harg3 arg4 harg4 arg5 harg5 arg6 harg6 hc0 hc1 x0 x1).1)

/-- The pieces the case `k = 0` writes to the accumulator cover it. -/
theorem scover_A (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) (y : S512x128.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x128.size (by sl_kernel_rfl) y

/-- What the case `k = 0` leaves in the accumulator: its pieces read back. -/
def sout_A (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) : Vec F S512x128 .f32 :=
  VS.read (Elt F) (VS.writes (Elt F) VS.junk (kernelRun_A c i arg3 harg3 arg4 harg4 arg5 harg5 arg6 harg6 hc0 hc1 x0 x1).2.1)

/-- The pieces the case `k` last writes to the output block cover it. -/
theorem cover_B_2 (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) (y : S512x128.Idx) :
    ∃ pc ∈ (kernelRun_B c i arg3 harg3 arg4 harg4 arg5 harg5 arg6 harg6 hc0 hc1 x0 x1 xs0).1, y ∈ pc.1.set :=
  View.cover_of_tiledL (kernelRun_B c i arg3 harg3 arg4 harg4 arg5 harg5 arg6 harg6 hc0 hc1 x0 x1 xs0).1 S512x128.size (by sl_kernel_rfl) y

/-- What the case `k` last leaves in the output block: its pieces read back. -/
def out_B_2 (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) : Vec F S512x128 .f32 :=
  VO_2.read (Elt F) (VO_2.writes (Elt F) VO_2.junk (kernelRun_B c i arg3 harg3 arg4 harg4 arg5 harg5 arg6 harg6 hc0 hc1 x0 x1 xs0).1)

/-- The pieces the case `k` last writes to the accumulator cover it. -/
theorem scover_B (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) (y : S512x128.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S512x128.size (by sl_kernel_rfl) y

/-- What the case `k` last leaves in the accumulator: its pieces read back. -/
def sout_B (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) : Vec F S512x128 .f32 :=
  VS.read (Elt F) (VS.writes (Elt F) VS.junk (kernelRun_B c i arg3 harg3 arg4 harg4 arg5 harg5 arg6 harg6 hc0 hc1 x0 x1 xs0).2.1)

/-! ## What the output block and the accumulator hold after each point -/

theorem hc1_of_even (t : Fin cfg0.N) (h0 : t.val % 2 = 0) : ¬cond_1 (grid0.coords t) :=
  fun h => by have := (hcond_1 t).mp h; omega
theorem hc0_of_odd (t : Fin cfg0.N) (h0 : ¬t.val % 2 = 0) : ¬cond_0 (grid0.coords t) :=
  fun h => h0 ((hcond_0 t).mp h)
theorem hc1_of_odd (t : Fin cfg0.N) (h0 : ¬t.val % 2 = 0) : cond_1 (grid0.coords t) :=
  (hcond_1 t).mpr (by omega)

/-- The pair (output block, accumulator) after an even point: the case `k = 0` at the point's memrefs
    and input blocks. -/
def stepA (c : Dev nD) (t : Fin cfg0.N) (h0 : t.val % 2 = 0) : Vec F S512x128 .f32 × Vec F S512x128 .f32 :=
  (out_A_2 c (grid0.coords t) (ms_0 t) (hs_0 t) (ms_1 t) (hs_1 t) (ms_2 t) (hs_2 t) scM (Memref.isWhole_whole _) ((hcond_0 t).mpr h0) (hc1_of_even t h0) (iblk V c 0 t) (iblk V c 1 t),
   sout_A c (grid0.coords t) (ms_0 t) (hs_0 t) (ms_1 t) (hs_1 t) (ms_2 t) (hs_2 t) scM (Memref.isWhole_whole _) ((hcond_0 t).mpr h0) (hc1_of_even t h0) (iblk V c 0 t) (iblk V c 1 t))

/-- The pair after an odd point: the case `k` last at the point's memrefs and input blocks, over the
    accumulator `xs` the point before left. -/
def stepB (c : Dev nD) (t : Fin cfg0.N) (h0 : ¬t.val % 2 = 0) (xs : Vec F S512x128 .f32) : Vec F S512x128 .f32 × Vec F S512x128 .f32 :=
  (out_B_2 c (grid0.coords t) (ms_0 t) (hs_0 t) (ms_1 t) (hs_1 t) (ms_2 t) (hs_2 t) scM (Memref.isWhole_whole _) (hc0_of_odd t h0) (hc1_of_odd t h0) (iblk V c 0 t) (iblk V c 1 t) xs,
   sout_B c (grid0.coords t) (ms_0 t) (hs_0 t) (ms_1 t) (hs_1 t) (ms_2 t) (hs_2 t) scM (Memref.isWhole_whole _) (hc0_of_odd t h0) (hc1_of_odd t h0) (iblk V c 0 t) (iblk V c 1 t) xs)

/-- THE ACCUMULATION: what the output's staging buffer and the accumulator hold after the body at
    position `n`. -/
def outsAt (c : Dev nD) : (n : ℕ) → n < cfg0.N → Vec F S512x128 .f32 × Vec F S512x128 .f32
  | 0, hn => stepA V c ⟨0, hn⟩ (Nat.zero_mod _)
  | n + 1, hn =>
    if h0 : (n + 1) % 2 = 0 then stepA V c ⟨n + 1, hn⟩ h0
    else stepB V c ⟨n + 1, hn⟩ h0 (outsAt c n (Nat.lt_of_succ_lt hn)).2

theorem outsAt_A (c : Dev nD) (t : Fin cfg0.N) (h0 : t.val % 2 = 0) :
    outsAt V c t.val t.isLt = stepA V c t h0 := by
  obtain ⟨n, hn⟩ := t
  cases n with
  | zero => exact rfl
  | succ n => exact (dif_pos h0).trans rfl

theorem outsAt_B (c : Dev nD) (t : Fin cfg0.N) (h0 : ¬t.val % 2 = 0) :
    outsAt V c t.val t.isLt = stepB V c t h0 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

/-- The region invariant before position `n`: before the first point the launch's (every scoped buffer
    at anything); afterwards the accumulator at what the point before left in it, the other scoped
    buffers unopened, the generator register at some state. -/
def PhiS (c : Dev nD) : (n : ℕ) → n ≤ cfg0.N → sProp 𝕄
  | 0, _ => Pipeline.ΦA spec0 c
  | n + 1, hn => iprop(iprop(iprop(owns (c : Thread nD τ) scM fullShare ((outsAt V c n hn).2)) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM fullShare ((outsAt V c n hn).2)) ∗ restBut (F := F) c) ∗ (∃ r, prngReg c r)) := rfl

theorem PhiS_pos (c : Dev nD) (n : ℕ) (h : n ≤ cfg0.N) (hz : n ≠ 0) :
    PhiS V c n h = iprop(iprop(iprop(owns (c : Thread nD τ) scM fullShare ((outsAt V c (n - 1) (by omega)).2)) ∗ restBut (F := F) c) ∗ (∃ r, prngReg c r)) := by
  cases n with
  | zero => exact absurd rfl hz
  | succ n => rfl

/-! ## The pipeline's proof data -/

/-- The proof data of the region's pipeline on core `c`: the arrays as the region finds them (`V`);
    after the body at point `t` each input's buffer at its block and the output's at `outsAt`; the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the parity of the point says which
    case it is in; the invariant hands the body the accumulator at what the point before left (at
    anything at the first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · rw [Dat.leavesExact_idle (dat V c) 2 t (idleAt_2_A t ((hcond_0 t).mpr h0) (hc1_of_even t h0)) (noFlush_2_A t ((hcond_0 t).mpr h0) (hc1_of_even t h0))]
    rw [outsAt_A V c t h0]
    unfold stepA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid0.coords t) _ _ _ _ _ _ _ _ ((hcond_0 t).mpr h0) (hc1_of_even t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid0.coords t) _ _ _ _ _ _ _ _ ((hcond_0 t).mpr h0) (hc1_of_even t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · rw [show (dat V c).leavesExact 2 t = owns (c : Thread nD τ) (ms_2 t) fullShare ((dat V c).after 2 t) from by
      unfold Dat.leavesExact; rw [liveAt_2_B t (hc0_of_odd t h0) (hc1_of_odd t h0)], after_2]
    rw [outsAt_B V c t h0]
    unfold stepB out_B_2 sout_B; (try dsimp only)
    have hz : t.val ≠ 0 := fun h => h0 (by rw [h])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun_B c (grid0.coords t) _ _ _ _ _ _ _ _ (hc0_of_odd t h0) (hc1_of_odd t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover_B c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B_2 c _ _ _ _ _ _ _ _ _ _ _ _ _ _)

/-- The library's body obligation, at every point. -/
theorem body_obligation (c : Dev nD) : Pipeline.BodyObligation (dat (F := F) V c) (defs₀ (F := F)) Variants.none () Set.univ := fun t => by
  rw [bigSep_W0, bigSep_W0]
  exact sound_body V c t

/-- The invariant before the first point is what the launch hands the region. -/
theorem Phi_first (c : Dev nD) : (dat V c).Φ 0 = Pipeline.ΦA spec0 c := rfl

/-- After any point but the first the invariant gives the launch's back: the accumulator's named
    contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg0.N) ⊢ Pipeline.ΦA spec0 c :=
  Phi_out V c _ (by rw [Fin.val_last]; have : cfg0.N = 16 := N_0; omega)

end Cert.Kernel.Reg0

end
-- ==== Proof.WReg1Runs.lean ====
import proofs.«162839_j74869869904021_2_alg».proof.Proof.Gen.Kernel.Launch
import proofs.«162839_j74869869904021_2_alg».proof.Proof.Gen.Kernel.Skeleton
import proofs.«162839_j74869869904021_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second matrix product): what the control cases of its kernel share

The kernel accumulates a row block of the product over the last grid axis `k` (four steps): at
`k = 0` it zeroes an accumulator it keeps between grid points, at every point it adds the product of
the two input blocks, and at the last `k` it copies the accumulator to the output block. Everything
is stated at a parameter `V`: the contents of the unscoped buffers when the region is entered. -/

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the accumulator is zeroed): the last grid
    coordinate is 0. -/
abbrev cond_0 (i : grid1.Coords) : Prop := (Scalar.cmpi .ne (Scalar.extui (Scalar.cmpi .eq (BitVec.ofNat 32 (i 2).val) 0#32)) 0#32) = 1#1
/-- It holds at the points ≡ 0 (mod 4). -/
theorem hcond_0 : ∀ t : Fin cfg1.N, cond_0 (grid1.coords t) ↔ t.val % 4 = 0 :=
  (by decide +kernel : ∀ t : Fin grid1.N, cond_0 (grid1.coords t) ↔ t.val % 4 = 0)

/-- The condition of the body's second conditional (the accumulator is copied out): the last grid
    coordinate is the last one. -/
abbrev cond_1 (i : grid1.Coords) : Prop := k1_cond2 i = 1#1
/-- It holds at the points ≡ 3 (mod 4). -/
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Where the accumulator is not copied out the output window is idle: nothing is stored into it, -/
theorem idleAt_2 : ∀ t : Fin cfg1.N, ¬cond_1 (grid1.coords t) → cfg1.idle 2 (grid1.coords t) = true := by decide +kernel
/-- and its block is not written back there. -/
theorem noFlush_2 : ∀ t : Fin cfg1.N, ¬cond_1 (grid1.coords t) → (cfg1.win 2).flush t = false := by decide +kernel
/-- Where it is copied out the output window is live. -/
theorem liveAt_2_C : ∀ t : Fin cfg1.N, cond_1 (grid1.coords t) → cfg1.idle 2 (grid1.coords t) = false := by decide +kernel

/-! ## The staging and scratch memrefs -/

/-- One staging buffer of the output window, through which its contents are stated. -/
abbrev VO_2 : View sig .tc .vmem S512x128 .f32 := (Memref.whole cc1_stg2_0 : Memref sig .tc .vmem S512x128 .f32).view
/-- Each window's current staging memref at point `t`, as the pipeline passes it, and its wholeness. -/
abbrev ms_0 (t : Fin cfg1.N) : Memref sig .tc .vmem S512x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S512x128 .f32 := win1_2.stage (cfg1.slots t 2)
abbrev hs_2 (t : Fin cfg1.N) : (ms_2 t).IsWhole := hstage1_2 ((cfg1.slots t 2).cast nbuf1_2)
/-- The accumulator: a whole scoped buffer of the kernel's own, passed beside the windows. -/
abbrev scM : Memref sig .tc .vmem S512x128 .f32 := Memref.whole cc1_scratch0
/-- The accumulator as a view: what it holds is stated through it. -/
abbrev VS : View sig .tc .vmem S512x128 .f32 := scM.view

/-- The other scoped buffers of the program, unopened. -/
abbrev restBut (c : Dev nD) : sProp 𝕄 :=
  Pipeline.scopedRestBut (Ix := Unit) (Name := ℕ) (U := UR sig nD τ) (Lvl := ℕ) (Val := Elt F) spec1 c [cc1_scratch0]

/-- The region's invariant with the accumulator as a memref owned at some contents. -/
theorem PhiA_eq (c : Dev nD) :
    (Pipeline.ΦA spec1 c : sProp 𝕄)
      = iprop(iprop(iprop((∃ d, owns (c : Thread nD τ) scM fullShare d)) ∗ restBut c) ∗ (∃ r, prngReg c r)) := by
  unfold Pipeline.ΦA; rw [scopedRest1_split]; simp only [scM, owns_whole]; try rfl

end Cert.Kernel.Reg1

end
-- ==== Proof.WReg1RunA.lean ====
import proofs.«162839_j74869869904021_2_alg».proof.Proof.WReg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k = 0` (the accumulator zeroed, then the blocks' product added; nothing
    copied out): on whole memrefs — the inputs' at their contents, the output's at contents handed back
    untouched, the accumulator at anything — it runs to the continuation holding the inputs' and the
    output's as they were and the accumulator with the pieces `LS0` written. The pieces are the
    witness the symbolic run finds. -/
noncomputable def kernelRun_A (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Reg1

end
-- ==== Proof.WReg1RunB.lean ====
import proofs.«162839_j74869869904021_2_alg».proof.Proof.WReg1RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k` neither first nor last (the blocks' product added to the accumulator;
    nothing copied out): on whole memrefs — the inputs' at their contents, the output's at contents
    handed back untouched, the accumulator at the contents `xs0` the point before left — it runs to the
    continuation holding the inputs' and the output's as they were and the accumulator with the pieces
    `LS0` written. -/
noncomputable def kernelRun_B (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Reg1

end
-- ==== Proof.WReg1RunC.lean ====
import proofs.«162839_j74869869904021_2_alg».proof.Proof.WReg1RunB

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with `k` last (the blocks' product added to the accumulator, which is then
    copied to the output block): on whole memrefs — the inputs' at their contents, the output's at
    anything, the accumulator at the contents `xs0` the point before left — it runs to the
    continuation holding the inputs' as they were, the output's with the pieces `L2` written and the
    accumulator with the pieces `LS0` written. -/
noncomputable def kernelRun_C (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Reg1

end
-- ==== Proof.WReg1.lean ====
import proofs.«162839_j74869869904021_2_alg».proof.Proof.WReg1RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second matrix product): the proof data of its pipeline and the body obligation

What the output block and the accumulator hold after each grid point, by recursion on the point (the
accumulator is carried from one point to the next); the invariant (the accumulator at what the point
before left); and the body's triple at every point, from the three control cases' runs. -/

variable (V : (c : Dev nD) → (b : Ref sig .tc) → Buf (Elt F) ((c : Thread nD τ).loc b))

/-! ## What each case leaves -/

/-- The case `k = 0` stores nothing into the output: a placeholder that nothing consults (the window is
    idle and not written back at these points). -/
def out_A_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) : Vec F S512x128 .f32 :=
  VO_2.read (Elt F) (VO_2.writes (Elt F) VO_2.junk (kernelRun_A c i arg3 harg3 arg4 harg4 arg5 harg5 arg6 harg6 hc0 hc1 x0 x1).1)

/-- The pieces the case `k = 0` writes to the accumulator cover it. -/
theorem scover_A (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) (y : S512x128.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x128.size (by sl_kernel_rfl) y

/-- What the case `k = 0` leaves in the accumulator: its pieces read back. -/
def sout_A (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) : Vec F S512x128 .f32 :=
  VS.read (Elt F) (VS.writes (Elt F) VS.junk (kernelRun_A c i arg3 harg3 arg4 harg4 arg5 harg5 arg6 harg6 hc0 hc1 x0 x1).2.1)

/-- The middle case stores nothing into the output either: the same placeholder. -/
def out_B_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) : Vec F S512x128 .f32 :=
  VO_2.read (Elt F) (VO_2.writes (Elt F) VO_2.junk (kernelRun_B c i arg3 harg3 arg4 harg4 arg5 harg5 arg6 harg6 hc0 hc1 x0 x1 xs0).1)

/-- The pieces the middle case writes to the accumulator cover it. -/
theorem scover_B (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) (y : S512x128.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S512x128.size (by sl_kernel_rfl) y

/-- What the middle case leaves in the accumulator: its pieces read back. -/
def sout_B (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) : Vec F S512x128 .f32 :=
  VS.read (Elt F) (VS.writes (Elt F) VS.junk (kernelRun_B c i arg3 harg3 arg4 harg4 arg5 harg5 arg6 harg6 hc0 hc1 x0 x1 xs0).2.1)

/-- The pieces the case `k` last writes to the output block cover it. -/
theorem cover_C_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) (y : S512x128.Idx) :
    ∃ pc ∈ (kernelRun_C c i arg3 harg3 arg4 harg4 arg5 harg5 arg6 harg6 hc0 hc1 x0 x1 xs0).1, y ∈ pc.1.set :=
  View.cover_of_tiledL (kernelRun_C c i arg3 harg3 arg4 harg4 arg5 harg5 arg6 harg6 hc0 hc1 x0 x1 xs0).1 S512x128.size (by sl_kernel_rfl) y

/-- What the case `k` last leaves in the output block: its pieces read back. -/
def out_C_2 (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) : Vec F S512x128 .f32 :=
  VO_2.read (Elt F) (VO_2.writes (Elt F) VO_2.junk (kernelRun_C c i arg3 harg3 arg4 harg4 arg5 harg5 arg6 harg6 hc0 hc1 x0 x1 xs0).1)

/-- The pieces the case `k` last writes to the accumulator cover it. -/
theorem scover_C (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) (y : S512x128.Idx) :
    ∃ pc ∈ (kernelRun_C c i arg3 harg3 arg4 harg4 arg5 harg5 arg6 harg6 hc0 hc1 x0 x1 xs0).2.1, y ∈ pc.1.set :=
  View.cover_of_tiledL (kernelRun_C c i arg3 harg3 arg4 harg4 arg5 harg5 arg6 harg6 hc0 hc1 x0 x1 xs0).2.1 S512x128.size (by sl_kernel_rfl) y

/-- What the case `k` last leaves in the accumulator: its pieces read back. -/
def sout_C (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) : Vec F S512x128 .f32 :=
  VS.read (Elt F) (VS.writes (Elt F) VS.junk (kernelRun_C c i arg3 harg3 arg4 harg4 arg5 harg5 arg6 harg6 hc0 hc1 x0 x1 xs0).2.1)

/-! ## What the output block and the accumulator hold after each point -/

theorem c0_of (t : Fin cfg1.N) (h0 : t.val % 4 = 0) : cond_0 (grid1.coords t) := (hcond_0 t).mpr h0
theorem nc1_of_first (t : Fin cfg1.N) (h0 : t.val % 4 = 0) : ¬cond_1 (grid1.coords t) :=
  fun h => by have := (hcond_1 t).mp h; omega
theorem nc0_of (t : Fin cfg1.N) (h0 : ¬t.val % 4 = 0) : ¬cond_0 (grid1.coords t) :=
  fun h => h0 ((hcond_0 t).mp h)
theorem nc1_of (t : Fin cfg1.N) (h1 : ¬t.val % 4 = 3) : ¬cond_1 (grid1.coords t) :=
  fun h => h1 ((hcond_1 t).mp h)
theorem c1_of (t : Fin cfg1.N) (h1 : t.val % 4 = 3) : cond_1 (grid1.coords t) := (hcond_1 t).mpr h1

/-- The pair (output block, accumulator) after a point with `k = 0`. -/
def stepA (c : Dev nD) (t : Fin cfg1.N) (h0 : t.val % 4 = 0) : Vec F S512x128 .f32 × Vec F S512x128 .f32 :=
  (out_A_2 c (grid1.coords t) (ms_0 t) (hs_0 t) (ms_1 t) (hs_1 t) (ms_2 t) (hs_2 t) scM (Memref.isWhole_whole _) (c0_of t h0) (nc1_of_first t h0) (iblk V c 0 t) (iblk V c 1 t),
   sout_A c (grid1.coords t) (ms_0 t) (hs_0 t) (ms_1 t) (hs_1 t) (ms_2 t) (hs_2 t) scM (Memref.isWhole_whole _) (c0_of t h0) (nc1_of_first t h0) (iblk V c 0 t) (iblk V c 1 t))

/-- The pair after a point with `k` neither first nor last, over the accumulator `xs` the point before left. -/
def stepB (c : Dev nD) (t : Fin cfg1.N) (h0 : ¬t.val % 4 = 0) (h1 : ¬t.val % 4 = 3) (xs : Vec F S512x128 .f32) : Vec F S512x128 .f32 × Vec F S512x128 .f32 :=
  (out_B_2 c (grid1.coords t) (ms_0 t) (hs_0 t) (ms_1 t) (hs_1 t) (ms_2 t) (hs_2 t) scM (Memref.isWhole_whole _) (nc0_of t h0) (nc1_of t h1) (iblk V c 0 t) (iblk V c 1 t) xs,
   sout_B c (grid1.coords t) (ms_0 t) (hs_0 t) (ms_1 t) (hs_1 t) (ms_2 t) (hs_2 t) scM (Memref.isWhole_whole _) (nc0_of t h0) (nc1_of t h1) (iblk V c 0 t) (iblk V c 1 t) xs)

/-- The pair after a point with `k` last, over the accumulator `xs` the point before left. -/
def stepC (c : Dev nD) (t : Fin cfg1.N) (h0 : ¬t.val % 4 = 0) (h1 : t.val % 4 = 3) (xs : Vec F S512x128 .f32) : Vec F S512x128 .f32 × Vec F S512x128 .f32 :=
  (out_C_2 c (grid1.coords t) (ms_0 t) (hs_0 t) (ms_1 t) (hs_1 t) (ms_2 t) (hs_2 t) scM (Memref.isWhole_whole _) (nc0_of t h0) (c1_of t h1) (iblk V c 0 t) (iblk V c 1 t) xs,
   sout_C c (grid1.coords t) (ms_0 t) (hs_0 t) (ms_1 t) (hs_1 t) (ms_2 t) (hs_2 t) scM (Memref.isWhole_whole _) (nc0_of t h0) (c1_of t h1) (iblk V c 0 t) (iblk V c 1 t) xs)

/-- THE ACCUMULATION: what the output's staging buffer and the accumulator hold after the body at
    position `n`. -/
def outsAt (c : Dev nD) : (n : ℕ) → n < cfg1.N → Vec F S512x128 .f32 × Vec F S512x128 .f32
  | 0, hn => stepA V c ⟨0, hn⟩ (Nat.zero_mod _)
  | n + 1, hn =>
    if h0 : (n + 1) % 4 = 0 then stepA V c ⟨n + 1, hn⟩ h0
    else if h1 : (n + 1) % 4 = 3 then stepC V c ⟨n + 1, hn⟩ h0 h1 (outsAt c n (Nat.lt_of_succ_lt hn)).2
    else stepB V c ⟨n + 1, hn⟩ h0 h1 (outsAt c n (Nat.lt_of_succ_lt hn)).2

theorem outsAt_A (c : Dev nD) (t : Fin cfg1.N) (h0 : t.val % 4 = 0) :
    outsAt V c t.val t.isLt = stepA V c t h0 := by
  obtain ⟨n, hn⟩ := t
  cases n with
  | zero => exact rfl
  | succ n => exact (dif_pos h0).trans rfl

theorem outsAt_B (c : Dev nD) (t : Fin cfg1.N) (h0 : ¬t.val % 4 = 0) (h1 : ¬t.val % 4 = 3) :
    outsAt V c t.val t.isLt = stepB V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = stepC V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the launch's (every scoped buffer
    at anything); afterwards the accumulator at what the point before left in it, the other scoped
    buffers unopened, the generator register at some state. -/
def PhiS (c : Dev nD) : (n : ℕ) → n ≤ cfg1.N → sProp 𝕄
  | 0, _ => Pipeline.ΦA spec1 c
  | n + 1, hn => iprop(iprop(iprop(owns (c : Thread nD τ) scM fullShare ((outsAt V c n hn).2)) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM fullShare ((outsAt V c n hn).2)) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM fullShare ((outsAt V c (n - 1) (by omega)).2)) ∗ restBut (F := F) c) ∗ (∃ r, prngReg c r)) := by
  cases n with
  | zero => exact absurd rfl hz
  | succ n => rfl

/-! ## The pipeline's proof data -/

/-- The proof data of the region's pipeline on core `c`: the arrays as the region finds them (`V`);
    after the body at point `t` each input's buffer at its block and the output's at `outsAt`; the
    invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the point's residue mod 4 says which
    case it is in; the invariant hands the body the accumulator at what the point before left (at
    anything at the first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 4 = 0
  · rw [Dat.leavesExact_idle (dat V c) 2 t (idleAt_2 t (nc1_of_first t h0)) (noFlush_2 t (nc1_of_first t h0))]
    rw [outsAt_A V c t h0]
    unfold stepA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid1.coords t) _ _ _ _ _ _ _ _ (c0_of t h0) (nc1_of_first t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid1.coords t) _ _ _ _ _ _ _ _ (c0_of t h0) (nc1_of_first t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat V c).leavesExact 2 t = owns (c : Thread nD τ) (ms_2 t) fullShare ((dat V c).after 2 t) from by
        unfold Dat.leavesExact; rw [liveAt_2_C t (c1_of t h1)], after_2]
      rw [outsAt_C V c t h0 h1]
      unfold stepC out_C_2 sout_C; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_C c (grid1.coords t) _ _ _ _ _ _ _ _ (nc0_of t h0) (c1_of t h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover_C_2 c _ _ _ _ _ _ _ _ _ _ _ _ _ _)
    · rw [Dat.leavesExact_idle (dat V c) 2 t (idleAt_2 t (nc1_of t h1)) (noFlush_2 t (nc1_of t h1))]
      rw [outsAt_B V c t h0 h1]
      unfold stepB sout_B; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_B c (grid1.coords t) _ _ _ _ _ _ _ _ (nc0_of t h0) (nc1_of t h1) (iblk V c 0 t) (iblk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- The invariant before the first point is what the launch hands the region. -/
theorem Phi_first (c : Dev nD) : (dat V c).Φ 0 = Pipeline.ΦA spec1 c := rfl

/-- After any point but the first the invariant gives the launch's back: the accumulator's named
    contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg1.N) ⊢ Pipeline.ΦA spec1 c :=
  Phi_out V c _ (by rw [Fin.val_last]; have : cfg1.N = 32 := N_1; omega)

end Cert.Kernel.Reg1

end
-- ==== Proof.WReg2Runs.lean ====
/- Region 2 (custom_call 2, the blocked matrix product accumulated over the last grid axis): what the
   two control cases of its body share — the windows' blocks read off the region-entry contents, the closed
   forms of the two conditions on the grid position, where the output window is idle, the staging and
   scratch memrefs, and the region invariant with the scratch operand opened. -/
import proofs.«162839_j74869869904021_2_alg».proof.Proof.Gen.Kernel.Launch
import proofs.«162839_j74869869904021_2_alg».proof.Proof.Gen.Kernel.Skeleton
import proofs.«162839_j74869869904021_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (the reduction coordinate is 0), from the grid coordinates. -/
abbrev cond0 (i : grid2.Coords) : Prop := (Scalar.cmpi .ne (Scalar.extui (Scalar.cmpi .eq (BitVec.ofNat 32 (i 2).val) 0#32)) 0#32) = 1#1
/-- It holds at the even points — decided over the grid. -/
theorem hcond0 : ∀ t : Fin cfg2.N, cond0 (grid2.coords t) ↔ t.val % 2 = 0 :=
  (by decide +kernel : ∀ t : Fin grid2.N, cond0 (grid2.coords t) ↔ t.val % 2 = 0)

/-- The condition of the body's second `scf.if` (the reduction coordinate is the last), from the grid coordinates. -/
abbrev cond1 (i : grid2.Coords) : Prop := k2_cond2 i = 1#1
/-- It holds at the odd points — decided over the grid. -/
theorem hcond1 : ∀ t : Fin cfg2.N, cond1 (grid2.coords t) ↔ t.val % 2 = 1 :=
  (by decide +kernel : ∀ t : Fin grid2.N, cond1 (grid2.coords t) ↔ t.val % 2 = 1)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
/-- At the even points the output window is idle: the body stores nothing into it, -/
theorem idleAt_2_A : ∀ t : Fin cfg2.N, cond0 (grid2.coords t) → ¬cond1 (grid2.coords t) → cfg2.idle 2 (grid2.coords t) = true := by decide +kernel
/-- and the pipeline does not write its block back. -/
theorem noFlush_2_A : ∀ t : Fin cfg2.N, cond0 (grid2.coords t) → ¬cond1 (grid2.coords t) → (cfg2.win 2).flush t = false := by decide +kernel
/-- At the odd points the output window is live. -/
theorem liveAt_2_B : ∀ t : Fin cfg2.N, ¬cond0 (grid2.coords t) → cond1 (grid2.coords t) → cfg2.idle 2 (grid2.coords t) = false := by decide +kernel

/-! ## The staging and scratch memrefs -/

/-- One staging buffer of the output window, through which its contents are stated. -/
abbrev VO_2 : View sig .tc .vmem S1024x1024 .bf16 := (Memref.whole cc2_stg2_0 : Memref sig .tc .vmem S1024x1024 .bf16).view
/-- Each window's current staging memref at point `t`, as the pipeline passes it, and its wholeness. -/
abbrev ms_0 (t : Fin cfg2.N) : Memref sig .tc .vmem S1024x2048 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x1024 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x1024 .bf16 := win2_2.stage (cfg2.slots t 2)
abbrev hs_2 (t : Fin cfg2.N) : (ms_2 t).IsWhole := hstage2_2 ((cfg2.slots t 2).cast nbuf2_2)
/-- The scratch operand: a whole scoped buffer of the kernel's own, the accumulator carried between points. -/
abbrev scM : Memref sig .tc .vmem S1024x1024 .f32 := Memref.whole cc2_scratch0
abbrev VS : View sig .tc .vmem S1024x1024 .f32 := scM.view

/-- The class invariant with the scratch operand as a memref owned at some contents, the other scoped buffers
    unopened: what the body obligation hands the run and takes back. -/
theorem PhiA_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

end Cert.Kernel.Reg2

end
-- ==== Proof.WReg2RunA.lean ====
/- Region 2: the whole-body run of the kernel at a point whose reduction coordinate is 0 (case A): the
   accumulator scratch is zeroed and the first partial product added; the output block is not stored. -/
import proofs.«162839_j74869869904021_2_alg».proof.Proof.WReg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case A, with the proof that on whole memrefs — the inputs' at their contents, the output's at contents it
    hands back untouched, the scratch at anything — the body runs to the continuation holding the inputs' as they
    were, the output's as it was and the scratch with its pieces written. -/
noncomputable def kernelRun_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i)
    (x0 : Vec F S1024x2048 .bf16) (x1 : Vec F S2048x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Reg2

end
-- ==== Proof.WReg2RunB.lean ====
/- Region 2: the whole-body run of the kernel at a point whose reduction coordinate is the last (case B): the
   second partial product is added to the accumulator the point before left, and the accumulator, narrowed to
   the output's element type, is stored into the output block. -/
import proofs.«162839_j74869869904021_2_alg».proof.Proof.WReg2RunA

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case B, with the proof that on whole memrefs — the inputs' at their contents, the output's at anything, the
    scratch at what the point before left — the body runs to the continuation holding the inputs' as they were
    and the output's and the scratch with their pieces written. -/
noncomputable def kernelRun_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i)
    (x0 : Vec F S1024x2048 .bf16) (x1 : Vec F S2048x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Reg2

end
-- ==== Proof.WReg2.lean ====
/- Region 2 (custom_call 2): the kernel half of its frame at the region-entry contents `V` — what each control
   case leaves in the output block and in the accumulator scratch, the accumulation point by point, the region
   invariant carrying the scratch, the proof data, and the body obligation at every grid point. -/
import proofs.«162839_j74869869904021_2_alg».proof.Proof.WReg2RunB

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults (the window is idle there). -/
def out_A_2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .bf16 :=
  VO_2.read (Elt F) (VO_2.writes (Elt F) VO_2.junk (kernelRun_A c i arg3 harg3 arg4 harg4 arg5 harg5 arg6 harg6 hc0 hc1 x0 x1).1)

/-- Case A's pieces for the scratch cover it. -/
theorem scover_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) (y : S1024x1024.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S1024x1024.size (by sl_kernel_rfl) y

/-- What case A leaves in the scratch: its pieces read back. -/
def sout_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .f32 :=
  VS.read (Elt F) (VS.writes (Elt F) VS.junk (kernelRun_A c i arg3 harg3 arg4 harg4 arg5 harg5 arg6 harg6 hc0 hc1 x0 x1).2.1)

/-- Case B's pieces for the output block cover it. -/
theorem cover_B_2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).1, y ∈ pc.1.set :=
  View.cover_of_tiledL (kernelRun_B c i arg3 harg3 arg4 harg4 arg5 harg5 arg6 harg6 hc0 hc1 x0 x1 xs0).1 S1024x1024.size (by sl_kernel_rfl) y

/-- What case B leaves in the output block: its pieces read back. -/
def out_B_2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .bf16 :=
  VO_2.read (Elt F) (VO_2.writes (Elt F) VO_2.junk (kernelRun_B c i arg3 harg3 arg4 harg4 arg5 harg5 arg6 harg6 hc0 hc1 x0 x1 xs0).1)

/-- Case B's pieces for the scratch cover it. -/
theorem scover_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S1024x1024.size (by sl_kernel_rfl) y

/-- What case B leaves in the scratch: its pieces read back. -/
def sout_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .f32 :=
  VS.read (Elt F) (VS.writes (Elt F) VS.junk (kernelRun_B c i arg3 harg3 arg4 harg4 arg5 harg5 arg6 harg6 hc0 hc1 x0 x1 xs0).2.1)

/-! ## The cases at a point -/

theorem hA0 (t : Fin cfg2.N) (h0 : t.val % 2 = 0) : cond0 (grid2.coords t) := (hcond0 t).mpr h0
theorem hA1 (t : Fin cfg2.N) (h0 : t.val % 2 = 0) : ¬cond1 (grid2.coords t) := fun h => by
  have h1 := (hcond1 t).mp h; omega
theorem hB0 (t : Fin cfg2.N) (h0 : ¬t.val % 2 = 0) : ¬cond0 (grid2.coords t) := fun h => h0 ((hcond0 t).mp h)
theorem hB1 (t : Fin cfg2.N) (h0 : ¬t.val % 2 = 0) : cond1 (grid2.coords t) := (hcond1 t).mpr (by omega)

/-- What a point of case A leaves in the output block and the scratch: the case run at the point's memrefs and
    input blocks. -/
def outA (c : Dev nD) (t : Fin cfg2.N) (h0 : t.val % 2 = 0) : Vec F S1024x1024 .bf16 × Vec F S1024x1024 .f32 :=
  (out_A_2 c (grid2.coords t) (ms_0 t) (hs_0 t) (ms_1 t) (hs_1 t) (ms_2 t) (hs_2 t) scM (Memref.isWhole_whole _) (hA0 t h0) (hA1 t h0) (iblk V c 0 t) (iblk V c 1 t),
   sout_A c (grid2.coords t) (ms_0 t) (hs_0 t) (ms_1 t) (hs_1 t) (ms_2 t) (hs_2 t) scM (Memref.isWhole_whole _) (hA0 t h0) (hA1 t h0) (iblk V c 0 t) (iblk V c 1 t))

/-- The same for a point of case B, over what the point before left in the scratch. -/
def outB (c : Dev nD) (t : Fin cfg2.N) (h0 : ¬t.val % 2 = 0) (xs : Vec F S1024x1024 .f32) : Vec F S1024x1024 .bf16 × Vec F S1024x1024 .f32 :=
  (out_B_2 c (grid2.coords t) (ms_0 t) (hs_0 t) (ms_1 t) (hs_1 t) (ms_2 t) (hs_2 t) scM (Memref.isWhole_whole _) (hB0 t h0) (hB1 t h0) (iblk V c 0 t) (iblk V c 1 t) xs,
   sout_B c (grid2.coords t) (ms_0 t) (hs_0 t) (ms_1 t) (hs_1 t) (ms_2 t) (hs_2 t) scM (Memref.isWhole_whole _) (hB0 t h0) (hB1 t h0) (iblk V c 0 t) (iblk V c 1 t) xs)

/-! ## What the output block and the scratch hold after each point -/

/-- The accumulation: what the output's staging buffer and the scratch hold after the body at position `n`. -/
def outsAt (c : Dev nD) : (n : ℕ) → n < cfg2.N → Vec F S1024x1024 .bf16 × Vec F S1024x1024 .f32
  | 0, hn => outA V c ⟨0, hn⟩ (Nat.zero_mod _)
  | n + 1, hn =>
    if h0 : (n + 1) % 2 = 0 then outA V c ⟨n + 1, hn⟩ h0
    else outB V c ⟨n + 1, hn⟩ h0 (outsAt c n (Nat.lt_of_succ_lt hn)).2

theorem outsAt_A (c : Dev nD) (t : Fin cfg2.N) (h0 : t.val % 2 = 0) :
    outsAt V c t.val t.isLt = outA V c t h0 := by
  obtain ⟨n, hn⟩ := t
  cases n with
  | zero => exact rfl
  | succ n => exact (dif_pos h0).trans rfl

theorem outsAt_B (c : Dev nD) (t : Fin cfg2.N) (h0 : ¬t.val % 2 = 0) :
    outsAt V c t.val t.isLt = outB V c t h0 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region invariant before position `n`: before the first point the class's; afterwards the scratch at what
    the point before left in it, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at the accumulation's; the invariant `PhiS`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the parity of the point says which case it is in;
    the invariant hands the body the scratch (at anything for case A, at what the point before left for case B)
    and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · rw [Dat.leavesExact_idle (dat V c) 2 t (idleAt_2_A t (hA0 t h0) (hA1 t h0)) (noFlush_2_A t (hA0 t h0) (hA1 t h0))]
    rw [outsAt_A V c t h0]
    unfold outA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid2.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid2.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · rw [show (dat V c).leavesExact 2 t = owns (c : Thread nD τ) (ms_2 t) fullShare ((dat V c).after 2 t) from by
      unfold Dat.leavesExact; rw [liveAt_2_B t (hB0 t h0) (hB1 t h0)], after_2]
    rw [outsAt_B V c t h0]
    unfold outB out_B_2 sout_B; (try dsimp only)
    have hz : t.val ≠ 0 := fun hz => h0 (by rw [hz])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun_B c (grid2.coords t) _ _ _ _ _ _ _ _ (hB0 t h0) (hB1 t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover_B c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B_2 c _ _ _ _ _ _ _ _ _ _ _ _ _ _)

/-- The library's body obligation, at every point. -/
theorem body_obligation (c : Dev nD) : Pipeline.BodyObligation (dat (F := F) V c) (defs₀ (F := F)) Variants.none () Set.univ := fun t => by
  rw [bigSep_W2, bigSep_W2]
  exact sound_body V c t

/-- Before the first point the invariant is the class's. -/
theorem Phi_first (c : Dev nD) : (dat V c).Φ 0 = Pipeline.ΦA spec2 c := by
  rw [show (dat V c).Φ 0 = PhiS V c 0 (Nat.zero_le _) from rfl, PhiS_zero V c 0 _ rfl]

/-- After any point but the first the invariant gives the class's back: the scratch's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg2.N) ⊢ Pipeline.ΦA spec2 c :=
  Phi_out V c _ (by rw [Fin.val_last]; have : cfg2.N = 32 := N_2; omega)

end Cert.Kernel.Reg2

end
-- ==== Proof.WReg3Runs.lean ====
/- Region 3 (custom_call 3, the blocked matrix product accumulated over the last grid axis): what the
   two control cases of its body share — the windows' blocks read off the region-entry contents, the closed
   forms of the two conditions on the grid position, where the output window is idle, the staging and
   scratch memrefs, and the region invariant with the scratch operand opened. -/
import proofs.«162839_j74869869904021_2_alg».proof.Proof.Gen.Kernel.Launch
import proofs.«162839_j74869869904021_2_alg».proof.Proof.Gen.Kernel.Skeleton
import proofs.«162839_j74869869904021_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (the reduction coordinate is 0), from the grid coordinates. -/
abbrev cond0 (i : grid3.Coords) : Prop := (Scalar.cmpi .ne (Scalar.extui (Scalar.cmpi .eq (BitVec.ofNat 32 (i 2).val) 0#32)) 0#32) = 1#1
/-- It holds at the even points — decided over the grid. -/
theorem hcond0 : ∀ t : Fin cfg3.N, cond0 (grid3.coords t) ↔ t.val % 2 = 0 :=
  (by decide +kernel : ∀ t : Fin grid3.N, cond0 (grid3.coords t) ↔ t.val % 2 = 0)

/-- The condition of the body's second `scf.if` (the reduction coordinate is the last), from the grid coordinates. -/
abbrev cond1 (i : grid3.Coords) : Prop := k3_cond2 i = 1#1
/-- It holds at the odd points — decided over the grid. -/
theorem hcond1 : ∀ t : Fin cfg3.N, cond1 (grid3.coords t) ↔ t.val % 2 = 1 :=
  (by decide +kernel : ∀ t : Fin grid3.N, cond1 (grid3.coords t) ↔ t.val % 2 = 1)

/-! ## Where the windows are idle -/

theorem liveAt_0 : ∀ t : Fin cfg3.N, cfg3.idle 0 (grid3.coords t) = false := by decide +kernel
theorem liveAt_1 : ∀ t : Fin cfg3.N, cfg3.idle 1 (grid3.coords t) = false := by decide +kernel
/-- At the even points the output window is idle: the body stores nothing into it, -/
theorem idleAt_2_A : ∀ t : Fin cfg3.N, cond0 (grid3.coords t) → ¬cond1 (grid3.coords t) → cfg3.idle 2 (grid3.coords t) = true := by decide +kernel
/-- and the pipeline does not write its block back. -/
theorem noFlush_2_A : ∀ t : Fin cfg3.N, cond0 (grid3.coords t) → ¬cond1 (grid3.coords t) → (cfg3.win 2).flush t = false := by decide +kernel
/-- At the odd points the output window is live. -/
theorem liveAt_2_B : ∀ t : Fin cfg3.N, ¬cond0 (grid3.coords t) → cond1 (grid3.coords t) → cfg3.idle 2 (grid3.coords t) = false := by decide +kernel

/-! ## The staging and scratch memrefs -/

/-- One staging buffer of the output window, through which its contents are stated. -/
abbrev VO_2 : View sig .tc .vmem S1024x1024 .bf16 := (Memref.whole cc3_stg2_0 : Memref sig .tc .vmem S1024x1024 .bf16).view
/-- Each window's current staging memref at point `t`, as the pipeline passes it, and its wholeness. -/
abbrev ms_0 (t : Fin cfg3.N) : Memref sig .tc .vmem S1024x2048 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x1024 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1024x1024 .bf16 := win3_2.stage (cfg3.slots t 2)
abbrev hs_2 (t : Fin cfg3.N) : (ms_2 t).IsWhole := hstage3_2 ((cfg3.slots t 2).cast nbuf3_2)
/-- The scratch operand: a whole scoped buffer of the kernel's own, the accumulator carried between points. -/
abbrev scM : Memref sig .tc .vmem S1024x1024 .f32 := Memref.whole cc3_scratch0
abbrev VS : View sig .tc .vmem S1024x1024 .f32 := scM.view

/-- The class invariant with the scratch operand as a memref owned at some contents, the other scoped buffers
    unopened: what the body obligation hands the run and takes back. -/
theorem PhiA_eq (c : Dev nD) :
    (Pipeline.ΦA spec3 c : sProp 𝕄)
      = iprop(iprop((∃ d, owns (c : Thread nD τ) scM fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

end Cert.Kernel.Reg3

end
-- ==== Proof.WReg3RunA.lean ====
/- Region 3: the whole-body run of the kernel at a point whose reduction coordinate is 0 (case A): the
   accumulator scratch is zeroed and the first partial product added; the output block is not stored. -/
import proofs.«162839_j74869869904021_2_alg».proof.Proof.WReg3Runs

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case A, with the proof that on whole memrefs — the inputs' at their contents, the output's at contents it
    hands back untouched, the scratch at anything — the body runs to the continuation holding the inputs' as they
    were, the output's as it was and the scratch with its pieces written. -/
noncomputable def kernelRun_A (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i)
    (x0 : Vec F S1024x2048 .bf16) (x1 : Vec F S2048x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Reg3

end
-- ==== Proof.WReg3RunB.lean ====
/- Region 3: the whole-body run of the kernel at a point whose reduction coordinate is the last (case B): the
   second partial product is added to the accumulator the point before left, and the accumulator, narrowed to
   the output's element type, is stored into the output block. -/
import proofs.«162839_j74869869904021_2_alg».proof.Proof.WReg3RunA

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in
    case B, with the proof that on whole memrefs — the inputs' at their contents, the output's at anything, the
    scratch at what the point before left — the body runs to the continuation holding the inputs' as they were
    and the output's and the scratch with their pieces written. -/
noncomputable def kernelRun_B (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i)
    (x0 : Vec F S1024x2048 .bf16) (x1 : Vec F S2048x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Reg3

end
-- ==== Proof.WReg3.lean ====
/- Region 3 (custom_call 3): the kernel half of its frame at the region-entry contents `V` — what each control
   case leaves in the output block and in the accumulator scratch, the accumulation point by point, the region
   invariant carrying the scratch, the proof data, and the body obligation at every grid point. -/
import proofs.«162839_j74869869904021_2_alg».proof.Proof.WReg3RunB

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults (the window is idle there). -/
def out_A_2 (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .bf16 :=
  VO_2.read (Elt F) (VO_2.writes (Elt F) VO_2.junk (kernelRun_A c i arg3 harg3 arg4 harg4 arg5 harg5 arg6 harg6 hc0 hc1 x0 x1).1)

/-- Case A's pieces for the scratch cover it. -/
theorem scover_A (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) (y : S1024x1024.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S1024x1024.size (by sl_kernel_rfl) y

/-- What case A leaves in the scratch: its pieces read back. -/
def sout_A (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) : Vec F S1024x1024 .f32 :=
  VS.read (Elt F) (VS.writes (Elt F) VS.junk (kernelRun_A c i arg3 harg3 arg4 harg4 arg5 harg5 arg6 harg6 hc0 hc1 x0 x1).2.1)

/-- Case B's pieces for the output block cover it. -/
theorem cover_B_2 (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).1, y ∈ pc.1.set :=
  View.cover_of_tiledL (kernelRun_B c i arg3 harg3 arg4 harg4 arg5 harg5 arg6 harg6 hc0 hc1 x0 x1 xs0).1 S1024x1024.size (by sl_kernel_rfl) y

/-- What case B leaves in the output block: its pieces read back. -/
def out_B_2 (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .bf16 :=
  VO_2.read (Elt F) (VO_2.writes (Elt F) VO_2.junk (kernelRun_B c i arg3 harg3 arg4 harg4 arg5 harg5 arg6 harg6 hc0 hc1 x0 x1 xs0).1)

/-- Case B's pieces for the scratch cover it. -/
theorem scover_B (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) (y : S1024x1024.Idx) :
    ∃ pc ∈ (kernelRun_B c i arg3 harg3 arg4 harg4 arg5 harg5 arg6 harg6 hc0 hc1 x0 x1 xs0).2.1, y ∈ pc.1.set :=
  View.cover_of_tiledL (kernelRun_B c i arg3 harg3 arg4 harg4 arg5 harg5 arg6 harg6 hc0 hc1 x0 x1 xs0).2.1 S1024x1024.size (by sl_kernel_rfl) y

/-- What case B leaves in the scratch: its pieces read back. -/
def sout_B (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) : Vec F S1024x1024 .f32 :=
  VS.read (Elt F) (VS.writes (Elt F) VS.junk (kernelRun_B c i arg3 harg3 arg4 harg4 arg5 harg5 arg6 harg6 hc0 hc1 x0 x1 xs0).2.1)

/-! ## The cases at a point -/

theorem hA0 (t : Fin cfg3.N) (h0 : t.val % 2 = 0) : cond0 (grid3.coords t) := (hcond0 t).mpr h0
theorem hA1 (t : Fin cfg3.N) (h0 : t.val % 2 = 0) : ¬cond1 (grid3.coords t) := fun h => by
  have h1 := (hcond1 t).mp h; omega
theorem hB0 (t : Fin cfg3.N) (h0 : ¬t.val % 2 = 0) : ¬cond0 (grid3.coords t) := fun h => h0 ((hcond0 t).mp h)
theorem hB1 (t : Fin cfg3.N) (h0 : ¬t.val % 2 = 0) : cond1 (grid3.coords t) := (hcond1 t).mpr (by omega)

/-- What a point of case A leaves in the output block and the scratch: the case run at the point's memrefs and
    input blocks. -/
def outA (c : Dev nD) (t : Fin cfg3.N) (h0 : t.val % 2 = 0) : Vec F S1024x1024 .bf16 × Vec F S1024x1024 .f32 :=
  (out_A_2 c (grid3.coords t) (ms_0 t) (hs_0 t) (ms_1 t) (hs_1 t) (ms_2 t) (hs_2 t) scM (Memref.isWhole_whole _) (hA0 t h0) (hA1 t h0) (iblk V c 0 t) (iblk V c 1 t),
   sout_A c (grid3.coords t) (ms_0 t) (hs_0 t) (ms_1 t) (hs_1 t) (ms_2 t) (hs_2 t) scM (Memref.isWhole_whole _) (hA0 t h0) (hA1 t h0) (iblk V c 0 t) (iblk V c 1 t))

/-- The same for a point of case B, over what the point before left in the scratch. -/
def outB (c : Dev nD) (t : Fin cfg3.N) (h0 : ¬t.val % 2 = 0) (xs : Vec F S1024x1024 .f32) : Vec F S1024x1024 .bf16 × Vec F S1024x1024 .f32 :=
  (out_B_2 c (grid3.coords t) (ms_0 t) (hs_0 t) (ms_1 t) (hs_1 t) (ms_2 t) (hs_2 t) scM (Memref.isWhole_whole _) (hB0 t h0) (hB1 t h0) (iblk V c 0 t) (iblk V c 1 t) xs,
   sout_B c (grid3.coords t) (ms_0 t) (hs_0 t) (ms_1 t) (hs_1 t) (ms_2 t) (hs_2 t) scM (Memref.isWhole_whole _) (hB0 t h0) (hB1 t h0) (iblk V c 0 t) (iblk V c 1 t) xs)

/-! ## What the output block and the scratch hold after each point -/

/-- The accumulation: what the output's staging buffer and the scratch hold after the body at position `n`. -/
def outsAt (c : Dev nD) : (n : ℕ) → n < cfg3.N → Vec F S1024x1024 .bf16 × Vec F S1024x1024 .f32
  | 0, hn => outA V c ⟨0, hn⟩ (Nat.zero_mod _)
  | n + 1, hn =>
    if h0 : (n + 1) % 2 = 0 then outA V c ⟨n + 1, hn⟩ h0
    else outB V c ⟨n + 1, hn⟩ h0 (outsAt c n (Nat.lt_of_succ_lt hn)).2

theorem outsAt_A (c : Dev nD) (t : Fin cfg3.N) (h0 : t.val % 2 = 0) :
    outsAt V c t.val t.isLt = outA V c t h0 := by
  obtain ⟨n, hn⟩ := t
  cases n with
  | zero => exact rfl
  | succ n => exact (dif_pos h0).trans rfl

theorem outsAt_B (c : Dev nD) (t : Fin cfg3.N) (h0 : ¬t.val % 2 = 0) :
    outsAt V c t.val t.isLt = outB V c t h0 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region invariant before position `n`: before the first point the class's; afterwards the scratch at what
    the point before left in it, the other scoped buffers unopened, the generator register at some state. -/
def PhiS (c : Dev nD) : (n : ℕ) → n ≤ cfg3.N → sProp 𝕄
  | 0, _ => Pipeline.ΦA spec3 c
  | n + 1, hn => iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at the accumulation's; the invariant `PhiS`; nothing owed. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

/-! ## The body obligation, at a generic point -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the parity of the point says which case it is in;
    the invariant hands the body the scratch (at anything for case A, at what the point before left for case B)
    and takes it back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg3.N = 32 from N_3)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 2 = 0
  · rw [Dat.leavesExact_idle (dat V c) 2 t (idleAt_2_A t (hA0 t h0) (hA1 t h0)) (noFlush_2_A t (hA0 t h0) (hA1 t h0))]
    rw [outsAt_A V c t h0]
    unfold outA sout_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩⟩
      iapply ((kernelRun_A c (grid3.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun_A c (grid3.coords t) _ _ _ _ _ _ _ _ (hA0 t h0) (hA1 t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · rw [show (dat V c).leavesExact 2 t = owns (c : Thread nD τ) (ms_2 t) fullShare ((dat V c).after 2 t) from by
      unfold Dat.leavesExact; rw [liveAt_2_B t (hB0 t h0) (hB1 t h0)], after_2]
    rw [outsAt_B V c t h0]
    unfold outB out_B_2 sout_B; (try dsimp only)
    have hz : t.val ≠ 0 := fun hz => h0 (by rw [hz])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun_B c (grid3.coords t) _ _ _ _ _ _ _ _ (hB0 t h0) (hB1 t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover_B c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_B_2 c _ _ _ _ _ _ _ _ _ _ _ _ _ _)

/-- The library's body obligation, at every point. -/
theorem body_obligation (c : Dev nD) : Pipeline.BodyObligation (dat (F := F) V c) (defs₀ (F := F)) Variants.none () Set.univ := fun t => by
  rw [bigSep_W3, bigSep_W3]
  exact sound_body V c t

/-- Before the first point the invariant is the class's. -/
theorem Phi_first (c : Dev nD) : (dat V c).Φ 0 = Pipeline.ΦA spec3 c := by
  rw [show (dat V c).Φ 0 = PhiS V c 0 (Nat.zero_le _) from rfl, PhiS_zero V c 0 _ rfl]

/-- After any point but the first the invariant gives the class's back: the scratch's named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem Phi_last (c : Dev nD) : (dat V c).Φ (Fin.last cfg3.N) ⊢ Pipeline.ΦA spec3 c :=
  Phi_out V c _ (by rw [Fin.val_last]; have : cfg3.N = 32 := N_3; omega)

end Cert.Kernel.Reg3

end
-- ==== Proof.WReg4Runs.lean ====
/- The frame of region 4 (the fused propagation kernel, grid 8 x 2), part 1: what the two control cases of
   its body share. The kernel carries two f32 accumulators between the two points of a row block: at the first point
   of a row block (k = 0) it zeroes both and adds one block product to each; at the second (k = 1) it adds the second
   block products and stores the masked combination of the two accumulators into the output block. Everything is
   stated at a parameter V, the unscoped buffers' contents when the region is entered. -/
import proofs.«162839_j74869869904021_2_alg».proof.Proof.Gen.Kernel.Launch
import proofs.«162839_j74869869904021_2_alg».proof.Proof.Gen.Kernel.Skeleton
import proofs.«162839_j74869869904021_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (where it is
    not fetched its block index has not moved), for any proof data whose array is V's and whose body leaves the block
    in place. -/
theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is
    not fetched its block index has not moved), for any proof data whose array is V's and whose body leaves the block
    in place. -/
theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is
    not fetched its block index has not moved), for any proof data whose array is V's and whose body leaves the block
    in place. -/
theorem before_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is
    not fetched its block index has not moved), for any proof data whose array is V's and whose body leaves the block
    in place. -/
theorem before_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is
    not fetched its block index has not moved), for any proof data whose array is V's and whose body leaves the block
    in place. -/
theorem before_4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the grid -/

/-- The first conditional's condition (k = 0), from the grid coordinates. -/
abbrev cond0 (i : grid4.Coords) : Prop := (Scalar.cmpi .ne (Scalar.extui (Scalar.cmpi .eq (BitVec.ofNat 32 (i 1).val) 0#32)) 0#32) = 1#1
/-- It holds at the even points. -/
theorem hcond0 : ∀ t : Fin cfg4.N, cond0 (grid4.coords t) ↔ t.val % 2 = 0 :=
  (by decide +kernel : ∀ t : Fin grid4.N, cond0 (grid4.coords t) ↔ t.val % 2 = 0)

/-- The second conditional's condition (k = 1). -/
abbrev cond1 (i : grid4.Coords) : Prop := k4_cond2 i = 1#1
/-- It holds at the odd points. -/
theorem hcond1 : ∀ t : Fin cfg4.N, cond1 (grid4.coords t) ↔ t.val % 2 = 1 :=
  (by decide +kernel : ∀ t : Fin grid4.N, cond1 (grid4.coords t) ↔ t.val % 2 = 1)

/-! ## Where the windows are idle -/

theorem liveAt_0 : ∀ t : Fin cfg4.N, cfg4.idle 0 (grid4.coords t) = false := fun _ => rfl
theorem liveAt_1 : ∀ t : Fin cfg4.N, cfg4.idle 1 (grid4.coords t) = false := fun _ => rfl
theorem liveAt_2 : ∀ t : Fin cfg4.N, cfg4.idle 2 (grid4.coords t) = false := fun _ => rfl
theorem liveAt_3 : ∀ t : Fin cfg4.N, cfg4.idle 3 (grid4.coords t) = false := fun _ => rfl
theorem liveAt_4 : ∀ t : Fin cfg4.N, cfg4.idle 4 (grid4.coords t) = false := fun _ => rfl
/-- At the even points the output window is idle (the body stores nothing into it) and is not written back. -/
theorem idleAt_5_A : ∀ t : Fin cfg4.N, cond0 (grid4.coords t) → ¬cond1 (grid4.coords t) → cfg4.idle 5 (grid4.coords t) = true := by decide +kernel
theorem noFlush_5_A : ∀ t : Fin cfg4.N, cond0 (grid4.coords t) → ¬cond1 (grid4.coords t) → (cfg4.win 5).flush t = false := by decide +kernel
/-- At the odd points it is live. -/
theorem liveAt_5_B : ∀ t : Fin cfg4.N, ¬cond0 (grid4.coords t) → cond1 (grid4.coords t) → cfg4.idle 5 (grid4.coords t) = false := by decide +kernel

/-! ## The staging and scratch memrefs at a point -/

/-- One staging buffer of the output window, through which its contents are stated (the choice does not matter). -/
abbrev VO_5 : View sig .tc .vmem S512x256 .f32 := (Memref.whole cc4_stg5_0 : Memref sig .tc .vmem S512x256 .f32).view
abbrev ms_0 (t : Fin cfg4.N) : Memref sig .tc .vmem S512x2048 .bf16 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S512x2048 .bf16 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S2048x256 .bf16 := win4_2.stage (cfg4.slots t 2)
abbrev hs_2 (t : Fin cfg4.N) : (ms_2 t).IsWhole := hstage4_2 ((cfg4.slots t 2).cast nbuf4_2)
abbrev ms_3 (t : Fin cfg4.N) : Memref sig .tc .vmem S2048x256 .bf16 := win4_3.stage (cfg4.slots t 3)
abbrev hs_3 (t : Fin cfg4.N) : (ms_3 t).IsWhole := hstage4_3 ((cfg4.slots t 3).cast nbuf4_3)
abbrev ms_4 (t : Fin cfg4.N) : Memref sig .tc .vmem S512x1 .f32 := win4_4.stage (cfg4.slots t 4)
abbrev hs_4 (t : Fin cfg4.N) : (ms_4 t).IsWhole := hstage4_4 ((cfg4.slots t 4).cast nbuf4_4)
abbrev ms_5 (t : Fin cfg4.N) : Memref sig .tc .vmem S512x256 .f32 := win4_5.stage (cfg4.slots t 5)
abbrev hs_5 (t : Fin cfg4.N) : (ms_5 t).IsWhole := hstage4_5 ((cfg4.slots t 5).cast nbuf4_5)
/-- The two accumulators: whole scoped buffers of the kernel's own. -/
abbrev scM_0 : Memref sig .tc .vmem S512x256 .f32 := Memref.whole cc4_scratch0
abbrev scM_1 : Memref sig .tc .vmem S512x256 .f32 := Memref.whole cc4_scratch1
abbrev VS_0 : View sig .tc .vmem S512x256 .f32 := scM_0.view
abbrev VS_1 : View sig .tc .vmem S512x256 .f32 := scM_1.view

/-- The region's invariant with the two accumulators as memrefs owned at some contents, the other scoped buffers
    unopened. -/
theorem PhiA_eq (c : Dev nD) :
    (Pipeline.ΦA spec4 c : sProp 𝕄)
      = iprop(iprop(iprop((∃ d, owns (c : Thread nD τ) scM_0 fullShare d) ∗ (∃ d, owns (c : Thread nD τ) scM_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM_0, scM_1, owns_whole]; try rfl

end Cert.Kernel.Reg4

end
-- ==== Proof.WReg4RunA.lean ====
/- The frame of region 4, part 2: the kernel body run whole at a first point of a row block (k = 0: both accumulators
   zeroed, then one block product added to each; nothing stored into the output block). -/
import proofs.«162839_j74869869904021_2_alg».proof.Proof.WReg4Runs

-- membership in a rectangle of full-size extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output block's buffer (nothing) and in the two accumulators, as pieces (last first),
    at a point with k = 0, with the proof that on whole memrefs — the five inputs' at their contents, the output's at
    contents handed back untouched, the accumulators at anything — the body runs to the continuation holding the inputs
    and the output buffer as they were and each accumulator with its pieces written. -/
noncomputable def kernelRun_A (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) :
    Σ' (L5 : List (View.Piece (Elt F) S512x256 .f32)) (LS0 : List (View.Piece (Elt F) S512x256 .f32)), { LS1 : List (View.Piece (Elt F) S512x256 .f32) //
      ∀ (xi5 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__sgc_fused_kernel i arg2 harg2 arg3 harg3 arg4 harg4 arg5 harg5 arg6 harg6 arg7 harg7 arg8 harg8 arg9 harg9) K } := by
  refine ⟨[], ?_, ?_, fun xi5 E K => ?run⟩
  case run =>
    simp only [cc4__sgc_fused_kernel_eq_skeleton]; unfold cc4__sgc_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Reg4

end
-- ==== Proof.WReg4RunB.lean ====
/- The frame of region 4, part 3: the kernel body run whole at a second point of a row block (k = 1: the second block
   products added to the accumulators, then the masked combination of the two stored into the output block). -/
import proofs.«162839_j74869869904021_2_alg».proof.Proof.WReg4RunA

-- membership in a rectangle of full-size extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output block's buffer and in the two accumulators, as pieces (last first), at a
    point with k = 1, with the proof that on whole memrefs — the five inputs' at their contents, the output's at anything,
    the accumulators at the contents the point before left — the body runs to the continuation holding the inputs as they
    were and the output buffer and each accumulator with its pieces written. -/
noncomputable def kernelRun_B (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) :
    Σ' (L5 : List (View.Piece (Elt F) S512x256 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__sgc_fused_kernel i arg2 harg2 arg3 harg3 arg4 harg4 arg5 harg5 arg6 harg6 arg7 harg7 arg8 harg8 arg9 harg9) K } := by
  refine ⟨?_, ?_, ?_, fun E K => ?run⟩
  case run =>
    simp only [cc4__sgc_fused_kernel_eq_skeleton]; unfold cc4__sgc_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Reg4

end
-- ==== Proof.WReg4.lean ====
/- The frame of region 4 (the fused propagation kernel, grid 8 x 2), last part: what the output block's buffer and the two
   accumulators hold after each case of the body and point by point, the proof data at the entry contents V, and the body
   obligation. The accumulators are carried from the first point of a row block (k = 0) to the second (k = 1); the output
   window is idle at the first and written back after the second. -/
import proofs.«162839_j74869869904021_2_alg».proof.Proof.WReg4RunB

-- membership in a rectangle of full-size extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output block: a placeholder that nothing consults (the window is idle and not
    written back there). -/
def out_A_5 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) : Vec F S512x256 .f32 :=
  VO_5.read (Elt F) (VO_5.writes (Elt F) VO_5.junk (kernelRun_A c i arg2 harg2 arg3 harg3 arg4 harg4 arg5 harg5 arg6 harg6 arg7 harg7 arg8 harg8 arg9 harg9 hc0 hc1 x0 x1 x2 x3 x4).1)

/-- The k = 0 case's pieces for the first accumulator cover it. -/
theorem scover_A_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) (y : S512x256.Idx) :
    ∃ pc ∈ (kernelRun_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun_A c i arg2 harg2 arg3 harg3 arg4 harg4 arg5 harg5 arg6 harg6 arg7 harg7 arg8 harg8 arg9 harg9 hc0 hc1 x0 x1 x2 x3 x4).2.1 S512x256.size (by sl_kernel_rfl) y

/-- What the k = 0 case leaves in the first accumulator. -/
def sout_A_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) : Vec F S512x256 .f32 :=
  VS_0.read (Elt F) (VS_0.writes (Elt F) VS_0.junk (kernelRun_A c i arg2 harg2 arg3 harg3 arg4 harg4 arg5 harg5 arg6 harg6 arg7 harg7 arg8 harg8 arg9 harg9 hc0 hc1 x0 x1 x2 x3 x4).2.1)

/-- The k = 0 case's pieces for the second accumulator cover it. -/
theorem scover_A_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) (y : S512x256.Idx) :
    ∃ pc ∈ (kernelRun_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun_A c i arg2 harg2 arg3 harg3 arg4 harg4 arg5 harg5 arg6 harg6 arg7 harg7 arg8 harg8 arg9 harg9 hc0 hc1 x0 x1 x2 x3 x4).2.2.1 S512x256.size (by sl_kernel_rfl) y

/-- What the k = 0 case leaves in the second accumulator. -/
def sout_A_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i)
    (x0 : Vec F S512x2048 .bf16) (x1 : Vec F S512x2048 .bf16) (x2 : Vec F S2048x256 .bf16) (x3 : Vec F S2048x256 .bf16) (x4 : Vec F S512x1 .f32) : Vec F S512x256 .f32 :=
  VS_1.read (Elt F) (VS_1.writes (Elt F) VS_1.junk (kernelRun_A c i arg2 harg2 arg3 harg3 arg4 harg4 arg5 harg5 arg6 harg6 arg7 harg7 arg8 harg8 arg9 harg9 hc0 hc1 x0 x1 x2 x3 x4).2.2.1)

/-- The k = 1 case's one store covers the output block. -/
theorem cover_B_5 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) (y : S512x256.Idx) :
    ∃ pc ∈ (kernelRun_B c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun_B c i arg2 harg2 arg3 harg3 arg4 harg4 arg5 harg5 arg6 harg6 arg7 harg7 arg8 harg8 arg9 harg9 hc0 hc1 x0 x1 x2 x3 x4 xs0 xs1).1 S512x256.size (by sl_kernel_rfl) y

/-- What the k = 1 case leaves in the output block's buffer. -/
def out_B_5 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) : Vec F S512x256 .f32 :=
  VO_5.read (Elt F) (VO_5.writes (Elt F) VO_5.junk (kernelRun_B c i arg2 harg2 arg3 harg3 arg4 harg4 arg5 harg5 arg6 harg6 arg7 harg7 arg8 harg8 arg9 harg9 hc0 hc1 x0 x1 x2 x3 x4 xs0 xs1).1)

theorem scover_B_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) (y : S512x256.Idx) :
    ∃ pc ∈ (kernelRun_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun_B c i arg2 harg2 arg3 harg3 arg4 harg4 arg5 harg5 arg6 harg6 arg7 harg7 arg8 harg8 arg9 harg9 hc0 hc1 x0 x1 x2 x3 x4 xs0 xs1).2.1 S512x256.size (by sl_kernel_rfl) y

/-- What the k = 1 case leaves in the first accumulator. -/
def sout_B_0 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) : Vec F S512x256 .f32 :=
  VS_0.read (Elt F) (VS_0.writes (Elt F) VS_0.junk (kernelRun_B c i arg2 harg2 arg3 harg3 arg4 harg4 arg5 harg5 arg6 harg6 arg7 harg7 arg8 harg8 arg9 harg9 hc0 hc1 x0 x1 x2 x3 x4 xs0 xs1).2.1)

theorem scover_B_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) (y : S512x256.Idx) :
    ∃ pc ∈ (kernelRun_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun_B c i arg2 harg2 arg3 harg3 arg4 harg4 arg5 harg5 arg6 harg6 arg7 harg7 arg8 harg8 arg9 harg9 hc0 hc1 x0 x1 x2 x3 x4 xs0 xs1).2.2.1 S512x256.size (by sl_kernel_rfl) y

/-- What the k = 1 case leaves in the second accumulator. -/
def sout_B_1 (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i)
    (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) : Vec F S512x256 .f32 :=
  VS_1.read (Elt F) (VS_1.writes (Elt F) VS_1.junk (kernelRun_B c i arg2 harg2 arg3 harg3 arg4 harg4 arg5 harg5 arg6 harg6 arg7 harg7 arg8 harg8 arg9 harg9 hc0 hc1 x0 x1 x2 x3 x4 xs0 xs1).2.2.1)

/-! ## The cases at a point of the grid -/

theorem hA0 (t : Fin cfg4.N) (h : t.val % 2 = 0) : cond0 (grid4.coords t) := (hcond0 t).mpr h
theorem hA1 (t : Fin cfg4.N) (h : t.val % 2 = 0) : ¬cond1 (grid4.coords t) := fun h' => by have := (hcond1 t).mp h'; omega
theorem hB0 (t : Fin cfg4.N) (h : ¬t.val % 2 = 0) : ¬cond0 (grid4.coords t) := fun h' => h ((hcond0 t).mp h')
theorem hB1 (t : Fin cfg4.N) (h : ¬t.val % 2 = 0) : cond1 (grid4.coords t) := (hcond1 t).mpr (by omega)

/-- The output block's buffer and the two accumulators after the body at an even point t (k = 0), on the point's
    memrefs and input blocks. -/
def caseA (c : Dev nD) (t : Fin cfg4.N) (h0 : t.val % 2 = 0) : Vec F S512x256 .f32 × Vec F S512x256 .f32 × Vec F S512x256 .f32 :=
  (out_A_5 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t),
   sout_A_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t),
   sout_A_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t))

/-- The same after the body at an odd point t (k = 1), the accumulators found at xs0, xs1. -/
def caseB (c : Dev nD) (t : Fin cfg4.N) (h0 : ¬t.val % 2 = 0) (xs0 xs1 : Vec F S512x256 .f32) : Vec F S512x256 .f32 × Vec F S512x256 .f32 × Vec F S512x256 .f32 :=
  (out_B_5 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) xs0 xs1,
   sout_B_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) xs0 xs1,
   sout_B_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) xs0 xs1)

/-! ## What the buffers hold after each point -/

/-- THE ACCUMULATION: the output block's buffer and the two accumulators after the body at position n — at an even
    position the k = 0 case, at an odd one the k = 1 case over what the position before left in the accumulators. -/
def outsAt (c : Dev nD) : (n : ℕ) → n < cfg4.N → Vec F S512x256 .f32 × Vec F S512x256 .f32 × Vec F S512x256 .f32
  | 0, hn => caseA V c ⟨0, hn⟩ (Nat.zero_mod _)
  | n + 1, hn =>
    if h0 : (n + 1) % 2 = 0 then caseA V c ⟨n + 1, hn⟩ h0
    else caseB V c ⟨n + 1, hn⟩ h0 (outsAt c n (Nat.lt_of_succ_lt hn)).2.1 (outsAt c n (Nat.lt_of_succ_lt hn)).2.2

theorem outsAt_A (c : Dev nD) (t : Fin cfg4.N) (h0 : t.val % 2 = 0) : outsAt V c t.val t.isLt = caseA V c t h0 := by
  obtain ⟨n, hn⟩ := t
  cases n with
  | zero => exact rfl
  | succ n => exact (dif_pos h0).trans rfl

theorem outsAt_B (c : Dev nD) (t : Fin cfg4.N) (h0 : ¬t.val % 2 = 0) :
    outsAt V c t.val t.isLt = caseB V c t h0 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

/-- The region's invariant before position n: before the first point the launch's (every scratch at anything);
    afterwards the two accumulators at what the point before left, the other scoped buffers unopened, the generator
    register at some state. -/
def PhiS (c : Dev nD) : (n : ℕ) → n ≤ cfg4.N → sProp 𝕄
  | 0, _ => Pipeline.ΦA spec4 c
  | n + 1, hn => iprop(iprop(iprop(owns (c : Thread nD τ) scM_0 fullShare ((outsAt V c n hn).2.1) ∗ owns (c : Thread nD τ) scM_1 fullShare ((outsAt V c n hn).2.2))
      ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(iprop(owns (c : Thread nD τ) scM_0 fullShare ((outsAt V c n hn).2.1) ∗ owns (c : Thread nD τ) scM_1 fullShare ((outsAt V c n hn).2.2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS_pos (c : Dev nD) (n : ℕ) (h : n ≤ cfg4.N) (hz : n ≠ 0) :
    PhiS V c n h = iprop(iprop(iprop(owns (c : Thread nD τ) scM_0 fullShare ((outsAt V c (n - 1) (by omega)).2.1) ∗ owns (c : Thread nD τ) scM_1 fullShare ((outsAt V c (n - 1) (by omega)).2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the region's pipeline on core c: the arrays as the region finds them; after the body at point t
    each input's buffer at its block and the output's at the accumulation's first component; the invariant PhiS; nothing
    owed; full shares. -/
def dat (c : Dev nD) : Pipeline.Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; simp only [Fin.coe_castSucc]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = iblk V c 4 t := by dsimp only [dat]
theorem after_5 (c : Dev nD) (t : Fin cfg4.N) : (dat V c).after 5 t = (outsAt V c t.val t.isLt).1 := by dsimp only [dat]

theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d
theorem before_2 (c : Dev nD) (t : Fin cfg4.N) (d) : (dat V c).before 2 t d = iblk V c 2 t :=
  before_2_of V (dat V c) (A_eq V c 2) (after_2 V c) t d
theorem before_3 (c : Dev nD) (t : Fin cfg4.N) (d) : (dat V c).before 3 t d = iblk V c 3 t :=
  before_3_of V (dat V c) (A_eq V c 3) (after_3 V c) t d
theorem before_4 (c : Dev nD) (t : Fin cfg4.N) (d) : (dat V c).before 4 t d = iblk V c 4 t :=
  before_4_of V (dat V c) (A_eq V c 4) (after_4 V c) t d

/-- The invariant before the first point is the launch's. -/
theorem Phi_first (c : Dev nD) : (dat V c).Φ 0 = Pipeline.ΦA spec4 c := by
  rw [show (dat V c).Φ 0 = PhiS V c 0 (Nat.zero_le _) from rfl, PhiS_zero V c 0 _ rfl]

/-- After any point but the first the invariant gives the launch's back: the accumulators' named contents are forgotten. -/
theorem Phi_out (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_last (c : Dev nD) : (dat V c).Φ (Fin.last cfg4.N) ⊢ Pipeline.ΦA spec4 c :=
  Phi_out V c _ (by rw [Fin.val_last]; have : cfg4.N = 16 := N_4; omega)

/-! ## The body obligation, at a generic point -/

def bodyPre (c : Dev nD) (t : Fin cfg4.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the point's parity says which case it is in; the
    invariant hands the body the accumulators at what the point before left (at anything at the first point) and takes
    them back at this point's contents; the core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg4.N = 16 from N_4)
  by_cases h0 : t.val % 2 = 0
  ·
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [show (dat V c).leavesExact 3 t = owns (c : Thread nD τ) (ms_3 t) fullShare ((dat V c).after 3 t) from by
      unfold Dat.leavesExact; rw [liveAt_3 t], after_3]
    rw [show (dat V c).leavesExact 4 t = owns (c : Thread nD τ) (ms_4 t) fullShare ((dat V c).after 4 t) from by
      unfold Dat.leavesExact; rw [liveAt_4 t], after_4]
    rw [Dat.leavesExact_idle (dat V c) 5 t (idleAt_5_A t (hA0 t h0) (hA1 t h0)) (noFlush_5_A t (hA0 t h0) (hA1 t h0))]
    rw [outsAt_A V c t h0]
    unfold caseA sout_A_0 sout_A_1; (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun_A c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover_A_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
            · unfold owns; iexists _; isplitr
              swap; · iexact HS1
              ipureintro; exact View.read_writes_of_cover _ _ _ _ _ (scover_A_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun_A c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hA0 t h0) (hA1 t h0) (iblk V c 0 t) (iblk V c 1 t) (iblk V c 2 t) (iblk V c 3 t) (iblk V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover_A_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
            · unfold owns; iexists _; isplitr
              swap; · iexact HS1
              ipureintro; exact View.read_writes_of_cover _ _ _ _ _ (scover_A_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t))
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  ·
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [show (dat V c).leavesExact 3 t = owns (c : Thread nD τ) (ms_3 t) fullShare ((dat V c).after 3 t) from by
      unfold Dat.leavesExact; rw [liveAt_3 t], after_3]
    rw [show (dat V c).leavesExact 4 t = owns (c : Thread nD τ) (ms_4 t) fullShare ((dat V c).after 4 t) from by
      unfold Dat.leavesExact; rw [liveAt_4 t], after_4]
    rw [show (dat V c).leavesExact 5 t = owns (c : Thread nD τ) (ms_5 t) fullShare ((dat V c).after 5 t) from by
      unfold Dat.leavesExact; rw [liveAt_5_B t (hB0 t h0) (hB1 t h0)], after_5]
    rw [outsAt_B V c t h0]
    unfold caseB out_B_5 sout_B_0 sout_B_1; (try dsimp only)
    have hz : t.val ≠ 0 := fun e => h0 (by rw [e])
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun_B c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) (hB0 t h0) (hB1 t h0) (iblk V c 0 t) (iblk V c 1 t) (iblk V c 2 t) (iblk V c 3 t) (iblk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover_B_0 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t) _ _)
            · unfold owns; iexists _; isplitr
              swap; · iexact HS1
              ipureintro; exact View.read_writes_of_cover _ _ _ _ _ (scover_B_1 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t) _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_B_5 c (grid4.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) _ _ (iblk V c 0 t) (iblk V c 1 t) (iblk V c 2 t) (iblk V c 3 t) (iblk V c 4 t) _ _)

/-- The library's body obligation, at every point. -/
theorem body_obligation (c : Dev nD) : Pipeline.BodyObligation (dat (F := F) V c) (defs₀ (F := F)) Variants.none () Set.univ := fun t => by
  rw [bigSep_W4, bigSep_W4]
  exact sound_body V c t

end Cert.Kernel.Reg4

end
-- ==== Proof.WFrames.lean ====
/- The kernel program's whole run from the five regions' kernel halves: every weakly fair execution of @main
   terminates without a fault with every unscoped buffer at the last valuation of the fold through @main (the
   regions' output arrays at what the regions leave); in particular the eight argument arrays end as launched,
   and the result buffer ends at that valuation's contents. -/
import proofs.«162839_j74869869904021_2_alg».proof.Proof.WRunAll
import proofs.«162839_j74869869904021_2_alg».proof.Proof.WReg0
import proofs.«162839_j74869869904021_2_alg».proof.Proof.WReg1
import proofs.«162839_j74869869904021_2_alg».proof.Proof.WReg2
import proofs.«162839_j74869869904021_2_alg».proof.Proof.WReg3
import proofs.«162839_j74869869904021_2_alg».proof.Proof.WReg4

set_option maxRecDepth 16384

noncomputable section

namespace Cert.Kernel.Final

open Cert.Kernel Cert.Kernel.Gen Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The five regions' kernel halves -/

def H0 : Half F 0 := ⟨Reg0.dat, Reg0.A_eq, Reg0.body_obligation, Reg0.Phi_first, Reg0.Phi_last, fun _ _ _ => rfl, fun _ _ _ => trivial⟩
def H1 : Half F 1 := ⟨Reg1.dat, Reg1.A_eq, Reg1.body_obligation, Reg1.Phi_first, Reg1.Phi_last, fun _ _ _ => rfl, fun _ _ _ => trivial⟩
def H2 : Half F 2 := ⟨Reg2.dat, Reg2.A_eq, Reg2.body_obligation, Reg2.Phi_first, Reg2.Phi_last, fun _ _ _ => rfl, fun _ _ _ => trivial⟩
def H3 : Half F 3 := ⟨Reg3.dat, Reg3.A_eq, Reg3.body_obligation, Reg3.Phi_first, Reg3.Phi_last, fun _ _ _ => rfl, fun _ _ _ => trivial⟩
def H4 : Half F 4 := ⟨Reg4.dat, Reg4.A_eq, Reg4.body_obligation, Reg4.Phi_first, Reg4.Phi_last, fun _ _ _ => rfl, fun _ _ _ => trivial⟩

/-! ## The shares the arrays are held at -/

theorem hs0 (V : Conts F) (c : Dev nD) (w : Fin (cfgs 0).W) : ((H0 (F := F)).dat V c).share w = fullShare :=
  (Reg0.dat V c).share_full (fun _ => rfl) w
theorem hs1 (V : Conts F) (c : Dev nD) (w : Fin (cfgs 1).W) : ((H1 (F := F)).dat V c).share w = fullShare :=
  (Reg1.dat V c).share_full (fun _ => rfl) w
theorem hs3 (V : Conts F) (c : Dev nD) (w : Fin (cfgs 3).W) : ((H3 (F := F)).dat V c).share w = fullShare :=
  (Reg3.dat V c).share_full (fun _ => rfl) w
theorem hs4 (V : Conts F) (c : Dev nD) (w : Fin (cfgs 4).W) : ((H4 (F := F)).dat V c).share w = fullShare :=
  (Reg4.dat V c).share_full (fun _ => rfl) w
/-- Region 2's two input windows read one array: each holds one half of its full share; the output array is held whole. -/
theorem hs2 (V : Conts F) (c : Dev nD) : ((H2 (F := F)).dat V c).share wi20 = fullShare.left ∧ ((H2 (F := F)).dat V c).share wi21 = fullShare.right
    ∧ ((H2 (F := F)).dat V c).share wo2 = fullShare := ⟨rfl, rfl, rfl⟩

/-! ## The run -/

/-- What the regions leave in their output arrays, stage by stage. -/
abbrev outs (m : (ℓ : Loc nD τ sig) → Buf (Elt F) ℓ) : Outs (F := F) := outs5 m H0 H1 H2 H3 H4

/-- THE RUN: every weakly fair execution of @main terminates without a fault, every unscoped buffer ending at the last
    valuation of the fold through @main. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V17 m (outs m) c b) :=
  run_all m H0 H1 H2 H3 H4 hs0 hs1 hs3 hs4 hs2 ρ

/-- THE FRAME: the eight argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V17_main_arg0 m _ c),
      (h c _ (mem_uc main_arg1 (by decide))).trans (V17_main_arg1 m _ c),
      (h c _ (mem_uc main_arg2 (by decide))).trans (V17_main_arg2 m _ c),
      (h c _ (mem_uc main_arg3 (by decide))).trans (V17_main_arg3 m _ c),
      (h c _ (mem_uc main_arg4 (by decide))).trans (V17_main_arg4 m _ c),
      (h c _ (mem_uc main_arg5 (by decide))).trans (V17_main_arg5 m _ c),
      (h c _ (mem_uc main_arg6 (by decide))).trans (V17_main_arg6 m _ c),
      (h c _ (mem_uc main_arg7 (by decide))).trans (V17_main_arg7 m _ c)⟩) (run m ρ)

/-- THE VALUE: the result buffer ends at the last valuation's contents, and the eight argument arrays end as launched. -/
theorem value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v55) = V17 m (outs m) c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v55 (by decide)),
      (h c _ (mem_uc main_arg0 (by decide))).trans (V17_main_arg0 m _ c),
      (h c _ (mem_uc main_arg1 (by decide))).trans (V17_main_arg1 m _ c),
      (h c _ (mem_uc main_arg2 (by decide))).trans (V17_main_arg2 m _ c),
      (h c _ (mem_uc main_arg3 (by decide))).trans (V17_main_arg3 m _ c),
      (h c _ (mem_uc main_arg4 (by decide))).trans (V17_main_arg4 m _ c),
      (h c _ (mem_uc main_arg5 (by decide))).trans (V17_main_arg5 m _ c),
      (h c _ (mem_uc main_arg6 (by decide))).trans (V17_main_arg6 m _ c),
      (h c _ (mem_uc main_arg7 (by decide))).trans (V17_main_arg7 m _ c)⟩) (run m ρ)

end Cert.Kernel.Final

end
-- ==== Proof.RefOps.lean ====
/-
  The reference program's @main read as a straight line of host operations, and the values it computes, stage by stage.

  The program is a graph-attention model followed by a graph convolution. Two attention layers: features are
  projected, every pair of nodes gets the score "source score of the row node plus destination score of the column
  node", each row of scores is turned into weights by a softmax (row maximum subtracted, exponential, divided by
  the row sum), the weights are masked entrywise by the adjacency matrix, the weighted features are summed and
  passed through the exponential linear unit. The second layer's output, one number per node, is the node score.
  A node is "kept" when its score exceeds the threshold; the adjacency matrix, its square and its cube are masked by
  the kept / not-kept indicator of the row node, each masked matrix multiplies the input features, the three products
  are laid side by side and mapped through a last linear layer with a bias.

  Each value that matters is a named stage below, so that a later proof opens one stage at a time.
-/
import proofs.«162839_j74869869904021_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages

Every stage is a function of the program's arguments it depends on (`x` the node features, `adj` the adjacency
matrix, `W1`, `a1` the first attention layer's projection and scoring vectors, `W2`, `a2` the second layer's,
`Ws`, `b` the last linear layer). -/

/-- Pair scores from per-node source and destination scores: entry `(i, j)` is `src i + dst j`. -/
def pairScores (src dst : FVec F S4096x1 .f32) : FVec F S4096x4096 .f32 :=
  addf (broadcastInDim S4096x4096 ![0, 1] bcast_S4096x1_S4096x4096_0_1 src)
    (broadcastInDim S4096x4096 ![0, 1] bcast_S1x4096_S4096x4096_0_1
      (transpose S1x4096 [1, 0] dst transposes_S4096x1_S1x4096_1_0))

/-- Three arrays joined along an axis. The same as the concatenation of the list of the three, with the three arrays
    as separate arguments (the list form's side condition mentions the list, this one's only the three shapes). -/
def concat3 {α : Type} (t : Shape) (a : Fin t.rank) (s0 s1 s2 : Shape) (h : Shape.Concatenates [s0, s1, s2] t a)
    (x0 : s0.Idx → α) (x1 : s1.Idx → α) (x2 : s2.Idx → α) : t.Idx → α :=
  concatenate t a [⟨s0, x0⟩, ⟨s1, x1⟩, ⟨s2, x2⟩] h

/-- A vector of one number per row, repeated along each row of a square matrix. -/
def rows (v : FVec F S4096x1 .f32) : FVec F S4096x4096 .f32 :=
  broadcastInDim S4096x4096 ![0, 1] bcast_S4096x1_S4096x4096_0_1 v

/-- A vector indexed by the row, as a one-column matrix. -/
def col (v : FVec F S4096 .f32) : FVec F S4096x1 .f32 :=
  broadcastInDim S4096x1 ![0] bcast_S4096_S4096x1_0 v

/-- The row maximum as the program computes it: the larger of minus infinity and the maximum, started at minus
    infinity, of the row's entries. -/
def rowMax (e : FVec F S4096x4096 .f32) : FVec F S4096 .f32 :=
  maximumf (broadcastInDim S4096 ![] bcast_S_S4096 (constant S_ .f32 0xFF800000#32))
    (Host.reduce FloatOps.maximumf e (constant S_ .f32 0xFF800000#32) reducesTo_S4096x4096_S4096_d1 h_S_)

/-- The exponential of every entry minus its row's maximum. -/
def expShift (e : FVec F S4096x4096 .f32) : FVec F S4096x4096 .f32 :=
  Host.exp (subf e (rows (col (rowMax e))))

/-- The row sums of the shifted exponentials, started at zero. -/
def rowSum (e : FVec F S4096x4096 .f32) : FVec F S4096 .f32 :=
  Host.reduceAdd (expShift e) (constant S_ .f32 0x00000000#32) reducesTo_S4096x4096_S4096_d1 h_S_

/-- The softmax of every row. -/
def softmax (e : FVec F S4096x4096 .f32) : FVec F S4096x4096 .f32 :=
  Host.divf (expShift e) (rows (col (rowSum e)))

/-- The exponential linear unit, entrywise, as the program spells it: where an entry is positive the entry itself,
    elsewhere one times `exp - 1` of (zero where the entry is positive, the entry elsewhere). -/
def eluV {s : Shape} (hb : S_.BroadcastsInDim s (![] : Fin 0 → Fin s.rank)) (z : FVec F s .f32) : FVec F s .f32 :=
  select (cmpf .ogt z (broadcastInDim s ![] hb (constant S_ .f32 0x00000000#32))) z
    (mulf (broadcastInDim s ![] hb (constant S_ .f32 0x3F800000#32))
      (Host.expm1 (select (cmpf .ogt z (broadcastInDim s ![] hb (constant S_ .f32 0x00000000#32)))
        (broadcastInDim s ![] hb (id (constant S_ .f32 0x00000000#32))) z)))

section Stages

variable (x : FVec F S4096x512 .f32) (adj : FVec F S4096x4096 .f32) (W1 : FVec F S512x8 .f32)
  (a1 : FVec F S16x1 .f32) (W2 : FVec F S8x1 .f32) (a2 : FVec F S2x1 .f32) (Ws : FVec F S1536x256 .f32)
  (b : FVec F S256 .f32)

/-- First layer: the projected features `x · W1`. -/
def h1 : FVec F S4096x8 .f32 :=
  Host.dotGeneral dot_S4096x512_S512x8_S4096x8_1_0_0_1_n_n none x W1

/-- First layer: source scores, the projected features against the first eight entries of `a1`. -/
def src1 : FVec F S4096x1 .f32 :=
  Host.dotGeneral dot_S4096x8_S8x1_S4096x1_1_0_0_1_n_n none (h1 x W1)
    (extractStridedSlice S8x1 ![0, 0] a1 slices_S16x1_S8x1_0_0)

/-- First layer: destination scores, the projected features against the last eight entries of `a1`. -/
def dst1 : FVec F S4096x1 .f32 :=
  Host.dotGeneral dot_S4096x8_S8x1_S4096x1_1_0_0_1_n_n none (h1 x W1)
    (extractStridedSlice S8x1 ![8, 0] a1 slices_S16x1_S8x1_8_0)

/-- First layer: pair scores. -/
def e1 : FVec F S4096x4096 .f32 := pairScores (src1 x W1 a1) (dst1 x W1 a1)

/-- First layer: attention weights before masking, the row softmax of the pair scores. -/
def sm1 : FVec F S4096x4096 .f32 := softmax (e1 x W1 a1)

/-- First layer: attention weights masked by the adjacency matrix. -/
def att1 : FVec F S4096x4096 .f32 := mulf (sm1 x W1 a1) adj

/-- First layer: the weighted sum of projected features. -/
def agg1 : FVec F S4096x8 .f32 :=
  Host.dotGeneral dot_S4096x4096_S4096x8_S4096x8_1_0_0_1_n_n none (att1 x adj W1 a1) (h1 x W1)

/-- First layer's output, after the exponential linear unit. -/
def g1 : FVec F S4096x8 .f32 := eluV bcast_S_S4096x8 (agg1 x adj W1 a1)

/-- Second layer: the projected features `g1 · W2`. -/
def h2 : FVec F S4096x1 .f32 :=
  Host.dotGeneral dot_S4096x8_S8x1_S4096x1_1_0_0_1_n_n none (g1 x adj W1 a1) W2

/-- Second layer: source scores, against the first entry of `a2`. -/
def src2 : FVec F S4096x1 .f32 :=
  Host.dotGeneral dot_S4096x1_S1x1_S4096x1_1_0_0_1_n_n none (h2 x adj W1 a1 W2)
    (extractStridedSlice S1x1 ![0, 0] a2 slices_S2x1_S1x1_0_0)

/-- Second layer: destination scores, against the second entry of `a2`. -/
def dst2 : FVec F S4096x1 .f32 :=
  Host.dotGeneral dot_S4096x1_S1x1_S4096x1_1_0_0_1_n_n none (h2 x adj W1 a1 W2)
    (extractStridedSlice S1x1 ![1, 0] a2 slices_S2x1_S1x1_1_0)

/-- Second layer: pair scores. -/
def e2 : FVec F S4096x4096 .f32 := pairScores (src2 x adj W1 a1 W2 a2) (dst2 x adj W1 a1 W2 a2)

/-- Second layer: attention weights before masking. -/
def sm2 : FVec F S4096x4096 .f32 := softmax (e2 x adj W1 a1 W2 a2)

/-- Second layer: attention weights masked by the adjacency matrix. -/
def att2 : FVec F S4096x4096 .f32 := mulf (sm2 x adj W1 a1 W2 a2) adj

/-- Second layer: the weighted sum of projected features. -/
def agg2 : FVec F S4096x1 .f32 :=
  Host.dotGeneral dot_S4096x4096_S4096x1_S4096x1_1_0_0_1_n_n none (att2 x adj W1 a1 W2 a2) (h2 x adj W1 a1 W2)

/-- The node scores: the second layer's output, after the exponential linear unit. -/
def ns : FVec F S4096x1 .f32 := eluV bcast_S_S4096x1 (agg2 x adj W1 a1 W2 a2)

/-- The indicator (one or zero) of a node's score exceeding the threshold. -/
def mask : FVec F S4096x1 .f32 :=
  uitofp .f32 (cmpf .ogt (ns x adj W1 a1 W2 a2)
    (broadcastInDim S4096x1 ![] bcast_S_S4096x1 (constant S_ .f32 0x3F333333#32)))

/-- One minus the indicator. -/
def nmask : FVec F S4096x1 .f32 :=
  subf (broadcastInDim S4096x1 ![] bcast_S_S4096x1 (constant S_ .f32 0x3F800000#32)) (mask x adj W1 a1 W2 a2)

/-- The square of the adjacency matrix. -/
def adj2 : FVec F S4096x4096 .f32 :=
  Host.dotGeneral dot_S4096x4096_S4096x4096_S4096x4096_1_0_0_1_n_n none adj adj

/-- The cube of the adjacency matrix. -/
def adj3 : FVec F S4096x4096 .f32 :=
  Host.dotGeneral dot_S4096x4096_S4096x4096_S4096x4096_1_0_0_1_n_n none (adj2 adj) adj

/-- The adjacency matrix with the rows of kept nodes only. -/
def m1 : FVec F S4096x4096 .f32 := mulf adj (rows (mask x adj W1 a1 W2 a2))

/-- The squared adjacency matrix, its rows scaled by one minus the indicator and then by the indicator. -/
def m2 : FVec F S4096x4096 .f32 :=
  mulf (mulf (adj2 adj) (rows (nmask x adj W1 a1 W2 a2))) (rows (mask x adj W1 a1 W2 a2))

/-- The cubed adjacency matrix with the rows of nodes that are not kept only. -/
def m3 : FVec F S4096x4096 .f32 := mulf (adj3 adj) (rows (nmask x adj W1 a1 W2 a2))

/-- The first masked matrix times the features. -/
def p1 : FVec F S4096x512 .f32 :=
  Host.dotGeneral dot_S4096x4096_S4096x512_S4096x512_1_0_0_1_n_n none (m1 x adj W1 a1 W2 a2) x

/-- The second masked matrix times the features. -/
def p2 : FVec F S4096x512 .f32 :=
  Host.dotGeneral dot_S4096x4096_S4096x512_S4096x512_1_0_0_1_n_n none (m2 x adj W1 a1 W2 a2) x

/-- The third masked matrix times the features. -/
def p3 : FVec F S4096x512 .f32 :=
  Host.dotGeneral dot_S4096x4096_S4096x512_S4096x512_1_0_0_1_n_n none (m3 x adj W1 a1 W2 a2) x

/-- The three products side by side. -/
def agg : FVec F S4096x1536 .f32 :=
  concat3 S4096x1536 1 S4096x512 S4096x512 S4096x512 concatenates_S4096x512_S4096x512_S4096x512_S4096x1536_d1
    (p1 x adj W1 a1 W2 a2) (p2 x adj W1 a1 W2 a2) (p3 x adj W1 a1 W2 a2)

/-- The program's result: the last linear layer of the three products, plus the bias on every row. -/
def result : FVec F S4096x256 .f32 :=
  addf (Host.dotGeneral dot_S4096x1536_S1536x256_S4096x256_1_0_0_1_n_n none (agg x adj W1 a1 W2 a2) Ws)
    (broadcastInDim S4096x256 ![0, 1] bcast_S1x256_S4096x256_0_1 (broadcastInDim S1x256 ![1] bcast_S256_S1x256_1 b))

end Stages

/-! ## The program as a list of operations -/

/-- @main's 108 operations, in order, each call of an outlined function replaced by that function's operations over
    the call's own buffers (the exponential linear unit is fifteen: three zeros and a one with their broadcasts, two
    comparisons, the inner selection's three, the exponential minus one, the product, the outer selection). -/
abbrev ops : List (HloOp τ sig (Elt F)) :=
  [ binary main_arg0 main_arg2 main_v0 ((fun l r => Host.dotGeneral dot_S4096x512_S512x8_S4096x8_1_0_0_1_n_n none l r) : (⟨S4096x512, .f32⟩ : BufTy).Contents (Elt F) → (⟨S512x8, .f32⟩ : BufTy).Contents (Elt F) → (⟨S4096x8, .f32⟩ : BufTy).Contents (Elt F)),
    unary main_arg3 main_v1 ((extractStridedSlice S8x1 ![0, 0] · slices_S16x1_S8x1_0_0) : (⟨S16x1, .f32⟩ : BufTy).Contents (Elt F) → (⟨S8x1, .f32⟩ : BufTy).Contents (Elt F)),
    binary main_v0 main_v1 main_v2 ((fun l r => Host.dotGeneral dot_S4096x8_S8x1_S4096x1_1_0_0_1_n_n none l r) : (⟨S4096x8, .f32⟩ : BufTy).Contents (Elt F) → (⟨S8x1, .f32⟩ : BufTy).Contents (Elt F) → (⟨S4096x1, .f32⟩ : BufTy).Contents (Elt F)),
    unary main_arg3 main_v3 ((extractStridedSlice S8x1 ![8, 0] · slices_S16x1_S8x1_8_0) : (⟨S16x1, .f32⟩ : BufTy).Contents (Elt F) → (⟨S8x1, .f32⟩ : BufTy).Contents (Elt F)),
    binary main_v0 main_v3 main_v4 ((fun l r => Host.dotGeneral dot_S4096x8_S8x1_S4096x1_1_0_0_1_n_n none l r) : (⟨S4096x8, .f32⟩ : BufTy).Contents (Elt F) → (⟨S8x1, .f32⟩ : BufTy).Contents (Elt F) → (⟨S4096x1, .f32⟩ : BufTy).Contents (Elt F)),
    unary main_v4 main_v5 ((transpose S1x4096 [1, 0] · transposes_S4096x1_S1x4096_1_0) : (⟨S4096x1, .f32⟩ : BufTy).Contents (Elt F) → (⟨S1x4096, .f32⟩ : BufTy).Contents (Elt F)),
    unary main_v2 main_v6 (broadcastInDim S4096x4096 ![0, 1] bcast_S4096x1_S4096x4096_0_1 : (⟨S4096x1, .f32⟩ : BufTy).Contents (Elt F) → (⟨S4096x4096, .f32⟩ : BufTy).Contents (Elt F)),
    unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0xFF800000#32),
    binary main_v8 main_cst main_v9 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v10 (broadcastInDim S4096 ![] bcast_S_S4096 : (⟨S_, .f32⟩ : BufTy).Contents (Elt F) → (⟨S4096, .f32⟩ : BufTy).Contents (Elt F)),
    binary main_v10 main_v9 main_v11 (maximumf : (⟨S4096, .f32⟩ : BufTy).Contents (Elt F) → (⟨S4096, .f32⟩ : BufTy).Contents (Elt F) → (⟨S4096, .f32⟩ : BufTy).Contents (Elt F)),
    unary main_v11 main_v12 (broadcastInDim S4096x1 ![0] bcast_S4096_S4096x1_0 : (⟨S4096, .f32⟩ : BufTy).Contents (Elt F) → (⟨S4096x1, .f32⟩ : BufTy).Contents (Elt F)),
    unary main_v12 main_v13 (broadcastInDim S4096x4096 ![0, 1] bcast_S4096x1_S4096x4096_0_1 : (⟨S4096x1, .f32⟩ : BufTy).Contents (Elt F) → (⟨S4096x4096, .f32⟩ : BufTy).Contents (Elt F)),
    binary main_v8 main_v13 main_v14 (subf : (⟨S4096x4096, .f32⟩ : BufTy).Contents (Elt F) → (⟨S4096x4096, .f32⟩ : BufTy).Contents (Elt F) → (⟨S4096x4096, .f32⟩ : BufTy).Contents (Elt F)),
    unary main_v14 main_v15 (Host.exp : (⟨S4096x4096, .f32⟩ : BufTy).Contents (Elt F) → (⟨S4096x4096, .f32⟩ : BufTy).Contents (Elt F)),
    nullary main_cst_1 (constant S_ .f32 0x00000000#32),
    binary main_v15 main_cst_1 main_v16 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v16 main_v17 (broadcastInDim S4096x1 ![0] bcast_S4096_S4096x1_0 : (⟨S4096, .f32⟩ : BufTy).Contents (Elt F) → (⟨S4096x1, .f32⟩ : BufTy).Contents (Elt F)),
    unary main_v17 main_v18 (broadcastInDim S4096x4096 ![0, 1] bcast_S4096x1_S4096x4096_0_1 : (⟨S4096x1, .f32⟩ : BufTy).Contents (Elt F) → (⟨S4096x4096, .f32⟩ : BufTy).Contents (Elt F)),
    binary main_v15 main_v18 main_v19 (Host.divf : (⟨S4096x4096, .f32⟩ : BufTy).Contents (Elt F) → (⟨S4096x4096, .f32⟩ : BufTy).Contents (Elt F) → (⟨S4096x4096, .f32⟩ : BufTy).Contents (Elt F)),
    binary main_v19 main_arg1 main_v20 (mulf : (⟨S4096x4096, .f32⟩ : BufTy).Contents (Elt F) → (⟨S4096x4096, .f32⟩ : BufTy).Contents (Elt F) → (⟨S4096x4096, .f32⟩ : BufTy).Contents (Elt F)),
    binary main_v20 main_v0 main_v21 ((fun l r => Host.dotGeneral dot_S4096x4096_S4096x8_S4096x8_1_0_0_1_n_n none l r) : (⟨S4096x4096, .f32⟩ : BufTy).Contents (Elt F) → (⟨S4096x8, .f32⟩ : BufTy).Contents (Elt F) → (⟨S4096x8, .f32⟩ : BufTy).Contents (Elt F)),
    TRef.nullary main_call0.cst (constant S_ .f32 0x00000000#32),
    TRef.unary main_call0.cst main_call0.v0 (broadcastInDim S4096x8 ![] bcast_S_S4096x8),
    TRef.binary (TRef.of (T := ⟨S4096x8, .f32⟩) main_v21) main_call0.v0 main_call0.v1 (cmpf .ogt),
    TRef.nullary main_call0.cst_0 (constant S_ .f32 0x00000000#32),
    TRef.unary main_call0.cst_0 main_call0.v2 (broadcastInDim S4096x8 ![] bcast_S_S4096x8),
    TRef.binary (TRef.of (T := ⟨S4096x8, .f32⟩) main_v21) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4096x8 ![] bcast_S_S4096x8),
    TRef.ternary main_call0.v3 main_call0.call0.v1 (TRef.of (T := ⟨S4096x8, .f32⟩) main_v21) main_call0.call0.v2 select,
    TRef.unary main_call0.call0.v2 main_call0.v5 Host.expm1,
    TRef.nullary main_call0.cst_2 (constant S_ .f32 0x3F800000#32),
    TRef.unary main_call0.cst_2 main_call0.v6 (broadcastInDim S4096x8 ![] bcast_S_S4096x8),
    TRef.binary main_call0.v6 main_call0.v5 main_call0.v7 mulf,
    TRef.ternary main_call0.v1 (TRef.of (T := ⟨S4096x8, .f32⟩) main_v21) main_call0.v7 main_call0.call1.v0 select,
    binary main_v22 main_arg4 main_v23 ((fun l r => Host.dotGeneral dot_S4096x8_S8x1_S4096x1_1_0_0_1_n_n none l r) : (⟨S4096x8, .f32⟩ : BufTy).Contents (Elt F) → (⟨S8x1, .f32⟩ : BufTy).Contents (Elt F) → (⟨S4096x1, .f32⟩ : BufTy).Contents (Elt F)),
    unary main_arg5 main_v24 ((extractStridedSlice S1x1 ![0, 0] · slices_S2x1_S1x1_0_0) : (⟨S2x1, .f32⟩ : BufTy).Contents (Elt F) → (⟨S1x1, .f32⟩ : BufTy).Contents (Elt F)),
    binary main_v23 main_v24 main_v25 ((fun l r => Host.dotGeneral dot_S4096x1_S1x1_S4096x1_1_0_0_1_n_n none l r) : (⟨S4096x1, .f32⟩ : BufTy).Contents (Elt F) → (⟨S1x1, .f32⟩ : BufTy).Contents (Elt F) → (⟨S4096x1, .f32⟩ : BufTy).Contents (Elt F)),
    unary main_arg5 main_v26 ((extractStridedSlice S1x1 ![1, 0] · slices_S2x1_S1x1_1_0) : (⟨S2x1, .f32⟩ : BufTy).Contents (Elt F) → (⟨S1x1, .f32⟩ : BufTy).Contents (Elt F)),
    binary main_v23 main_v26 main_v27 ((fun l r => Host.dotGeneral dot_S4096x1_S1x1_S4096x1_1_0_0_1_n_n none l r) : (⟨S4096x1, .f32⟩ : BufTy).Contents (Elt F) → (⟨S1x1, .f32⟩ : BufTy).Contents (Elt F) → (⟨S4096x1, .f32⟩ : BufTy).Contents (Elt F)),
    unary main_v27 main_v28 ((transpose S1x4096 [1, 0] · transposes_S4096x1_S1x4096_1_0) : (⟨S4096x1, .f32⟩ : BufTy).Contents (Elt F) → (⟨S1x4096, .f32⟩ : BufTy).Contents (Elt F)),
    unary main_v25 main_v29 (broadcastInDim S4096x4096 ![0, 1] bcast_S4096x1_S4096x4096_0_1 : (⟨S4096x1, .f32⟩ : BufTy).Contents (Elt F) → (⟨S4096x4096, .f32⟩ : BufTy).Contents (Elt F)),
    unary main_v28 main_v30 (broadcastInDim S4096x4096 ![0, 1] bcast_S1x4096_S4096x4096_0_1 : (⟨S1x4096, .f32⟩ : BufTy).Contents (Elt F) → (⟨S4096x4096, .f32⟩ : BufTy).Contents (Elt F)),
    binary main_v29 main_v30 main_v31 (addf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0xFF800000#32),
    binary main_v31 main_cst_2 main_v32 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v33 (broadcastInDim S4096 ![] bcast_S_S4096 : (⟨S_, .f32⟩ : BufTy).Contents (Elt F) → (⟨S4096, .f32⟩ : BufTy).Contents (Elt F)),
    binary main_v33 main_v32 main_v34 (maximumf : (⟨S4096, .f32⟩ : BufTy).Contents (Elt F) → (⟨S4096, .f32⟩ : BufTy).Contents (Elt F) → (⟨S4096, .f32⟩ : BufTy).Contents (Elt F)),
    unary main_v34 main_v35 (broadcastInDim S4096x1 ![0] bcast_S4096_S4096x1_0 : (⟨S4096, .f32⟩ : BufTy).Contents (Elt F) → (⟨S4096x1, .f32⟩ : BufTy).Contents (Elt F)),
    unary main_v35 main_v36 (broadcastInDim S4096x4096 ![0, 1] bcast_S4096x1_S4096x4096_0_1 : (⟨S4096x1, .f32⟩ : BufTy).Contents (Elt F) → (⟨S4096x4096, .f32⟩ : BufTy).Contents (Elt F)),
    binary main_v31 main_v36 main_v37 (subf : (⟨S4096x4096, .f32⟩ : BufTy).Contents (Elt F) → (⟨S4096x4096, .f32⟩ : BufTy).Contents (Elt F) → (⟨S4096x4096, .f32⟩ : BufTy).Contents (Elt F)),
    unary main_v37 main_v38 (Host.exp : (⟨S4096x4096, .f32⟩ : BufTy).Contents (Elt F) → (⟨S4096x4096, .f32⟩ : BufTy).Contents (Elt F)),
    nullary main_cst_4 (constant S_ .f32 0x00000000#32),
    binary main_v38 main_cst_4 main_v39 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v39 main_v40 (broadcastInDim S4096x1 ![0] bcast_S4096_S4096x1_0 : (⟨S4096, .f32⟩ : BufTy).Contents (Elt F) → (⟨S4096x1, .f32⟩ : BufTy).Contents (Elt F)),
    unary main_v40 main_v41 (broadcastInDim S4096x4096 ![0, 1] bcast_S4096x1_S4096x4096_0_1 : (⟨S4096x1, .f32⟩ : BufTy).Contents (Elt F) → (⟨S4096x4096, .f32⟩ : BufTy).Contents (Elt F)),
    binary main_v38 main_v41 main_v42 (Host.divf : (⟨S4096x4096, .f32⟩ : BufTy).Contents (Elt F) → (⟨S4096x4096, .f32⟩ : BufTy).Contents (Elt F) → (⟨S4096x4096, .f32⟩ : BufTy).Contents (Elt F)),
    binary main_v42 main_arg1 main_v43 (mulf : (⟨S4096x4096, .f32⟩ : BufTy).Contents (Elt F) → (⟨S4096x4096, .f32⟩ : BufTy).Contents (Elt F) → (⟨S4096x4096, .f32⟩ : BufTy).Contents (Elt F)),
    binary main_v43 main_v23 main_v44 ((fun l r => Host.dotGeneral dot_S4096x4096_S4096x1_S4096x1_1_0_0_1_n_n none l r) : (⟨S4096x4096, .f32⟩ : BufTy).Contents (Elt F) → (⟨S4096x1, .f32⟩ : BufTy).Contents (Elt F) → (⟨S4096x1, .f32⟩ : BufTy).Contents (Elt F)),
    TRef.nullary main_call1.cst (constant S_ .f32 0x00000000#32),
    TRef.unary main_call1.cst main_call1.v0 (broadcastInDim S4096x1 ![] bcast_S_S4096x1),
    TRef.binary (TRef.of (T := ⟨S4096x1, .f32⟩) main_v44) main_call1.v0 main_call1.v1 (cmpf .ogt),
    TRef.nullary main_call1.cst_0 (constant S_ .f32 0x00000000#32),
    TRef.unary main_call1.cst_0 main_call1.v2 (broadcastInDim S4096x1 ![] bcast_S_S4096x1),
    TRef.binary (TRef.of (T := ⟨S4096x1, .f32⟩) main_v44) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4096x1 ![] bcast_S_S4096x1),
    TRef.ternary main_call1.v3 main_call1.call0.v1 (TRef.of (T := ⟨S4096x1, .f32⟩) main_v44) main_call1.call0.v2 select,
    TRef.unary main_call1.call0.v2 main_call1.v5 Host.expm1,
    TRef.nullary main_call1.cst_2 (constant S_ .f32 0x3F800000#32),
    TRef.unary main_call1.cst_2 main_call1.v6 (broadcastInDim S4096x1 ![] bcast_S_S4096x1),
    TRef.binary main_call1.v6 main_call1.v5 main_call1.v7 mulf,
    TRef.ternary main_call1.v1 (TRef.of (T := ⟨S4096x1, .f32⟩) main_v44) main_call1.v7 main_call1.call1.v0 select,
    binary main_arg1 main_arg1 main_v46 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v46 main_arg1 main_v47 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3F333333#32),
    unary main_cst_5 main_v48 (broadcastInDim S4096x1 ![] bcast_S_S4096x1 : (⟨S_, .f32⟩ : BufTy).Contents (Elt F) → (⟨S4096x1, .f32⟩ : BufTy).Contents (Elt F)),
    binary main_v45 main_v48 main_v49 (cmpf .ogt : (⟨S4096x1, .f32⟩ : BufTy).Contents (Elt F) → (⟨S4096x1, .f32⟩ : BufTy).Contents (Elt F) → (⟨S4096x1, .i1⟩ : BufTy).Contents (Elt F)),
    unary main_v49 main_v50 (uitofp .f32 : (⟨S4096x1, .i1⟩ : BufTy).Contents (Elt F) → (⟨S4096x1, .f32⟩ : BufTy).Contents (Elt F)),
    unary main_v50 main_v51 (broadcastInDim S4096x4096 ![0, 1] bcast_S4096x1_S4096x4096_0_1 : (⟨S4096x1, .f32⟩ : BufTy).Contents (Elt F) → (⟨S4096x4096, .f32⟩ : BufTy).Contents (Elt F)),
    binary main_arg1 main_v51 main_v52 (mulf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x3F800000#32),
    unary main_cst_6 main_v53 (broadcastInDim S4096x1 ![] bcast_S_S4096x1 : (⟨S_, .f32⟩ : BufTy).Contents (Elt F) → (⟨S4096x1, .f32⟩ : BufTy).Contents (Elt F)),
    binary main_v53 main_v50 main_v54 (subf : (⟨S4096x1, .f32⟩ : BufTy).Contents (Elt F) → (⟨S4096x1, .f32⟩ : BufTy).Contents (Elt F) → (⟨S4096x1, .f32⟩ : BufTy).Contents (Elt F)),
    unary main_v54 main_v55 (broadcastInDim S4096x4096 ![0, 1] bcast_S4096x1_S4096x4096_0_1 : (⟨S4096x1, .f32⟩ : BufTy).Contents (Elt F) → (⟨S4096x4096, .f32⟩ : BufTy).Contents (Elt F)),
    binary main_v46 main_v55 main_v56 (mulf : (⟨S4096x4096, .f32⟩ : BufTy).Contents (Elt F) → (⟨S4096x4096, .f32⟩ : BufTy).Contents (Elt F) → (⟨S4096x4096, .f32⟩ : BufTy).Contents (Elt F)),
    unary main_v50 main_v57 (broadcastInDim S4096x4096 ![0, 1] bcast_S4096x1_S4096x4096_0_1 : (⟨S4096x1, .f32⟩ : BufTy).Contents (Elt F) → (⟨S4096x4096, .f32⟩ : BufTy).Contents (Elt F)),
    binary main_v56 main_v57 main_v58 (mulf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x3F800000#32),
    unary main_cst_7 main_v59 (broadcastInDim S4096x1 ![] bcast_S_S4096x1 : (⟨S_, .f32⟩ : BufTy).Contents (Elt F) → (⟨S4096x1, .f32⟩ : BufTy).Contents (Elt F)),
    binary main_v59 main_v50 main_v60 (subf : (⟨S4096x1, .f32⟩ : BufTy).Contents (Elt F) → (⟨S4096x1, .f32⟩ : BufTy).Contents (Elt F) → (⟨S4096x1, .f32⟩ : BufTy).Contents (Elt F)),
    unary main_v60 main_v61 (broadcastInDim S4096x4096 ![0, 1] bcast_S4096x1_S4096x4096_0_1 : (⟨S4096x1, .f32⟩ : BufTy).Contents (Elt F) → (⟨S4096x4096, .f32⟩ : BufTy).Contents (Elt F)),
    binary main_v47 main_v61 main_v62 (mulf : (⟨S4096x4096, .f32⟩ : BufTy).Contents (Elt F) → (⟨S4096x4096, .f32⟩ : BufTy).Contents (Elt F) → (⟨S4096x4096, .f32⟩ : BufTy).Contents (Elt F)),
    binary main_v52 main_arg0 main_v63 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v58 main_arg0 main_v64 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    binary main_v62 main_arg0 main_v65 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    nary ![main_v63, main_v64, main_v65] main_v66 (fun u => concatenate S4096x1536 1 [⟨S4096x512, u 0⟩, ⟨S4096x512, u 1⟩, ⟨S4096x512, u 2⟩] concatenates_S4096x512_S4096x512_S4096x512_S4096x1536_d1),
    binary main_v66 main_arg6 main_v67 ((fun l r => Host.dotGeneral dot_S4096x1536_S1536x256_S4096x256_1_0_0_1_n_n none l r) : (⟨S4096x1536, .f32⟩ : BufTy).Contents (Elt F) → (⟨S1536x256, .f32⟩ : BufTy).Contents (Elt F) → (⟨S4096x256, .f32⟩ : BufTy).Contents (Elt F)),
    unary main_arg7 main_v68 (broadcastInDim S1x256 ![1] bcast_S256_S1x256_1 : (⟨S256, .f32⟩ : BufTy).Contents (Elt F) → (⟨S1x256, .f32⟩ : BufTy).Contents (Elt F)),
    unary main_v68 main_v69 (broadcastInDim S4096x256 ![0, 1] bcast_S1x256_S4096x256_0_1 : (⟨S1x256, .f32⟩ : BufTy).Contents (Elt F) → (⟨S4096x256, .f32⟩ : BufTy).Contents (Elt F)),
    binary main_v67 main_v69 main_v70 (addf : (⟨S4096x256, .f32⟩ : BufTy).Contents (Elt F) → (⟨S4096x256, .f32⟩ : BufTy).Contents (Elt F) → (⟨S4096x256, .f32⟩ : BufTy).Contents (Elt F)) ]

set_option maxRecDepth 16384 in
set_option maxHeartbeats 4000000 in
/-- @main is that straight line: its two parts and the outlined functions unfold to one chain of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., binary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., binary_bufs_sub .., binary_bufs_sub .., binary_bufs_sub .., nary_bufs_sub .., binary_bufs_sub .., unary_bufs_sub .., unary_bufs_sub .., binary_bufs_sub ..⟩

end Cert.ReferenceIdeal.RefValue

end
-- ==== Proof.RefRun.lean ====
/-
  The reference program's run: every weakly fair execution of @main terminates, the result buffer then holds the
  value `result` of the arguments (the stages of RefOps.lean composed) and the argument buffers are unchanged.

  The program is a straight line of host operations (RefOps.lean's `ops`); what a buffer holds after the line is
  read off the list, one operation at a time: an operation's result buffer holds its function of its operands'
  contents, every other buffer is untouched.
-/
import proofs.«162839_j74869869904021_2_alg».proof.Proof.RefOps
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## What the buffers hold after the operations -/

/-- The concatenation's line: its result buffer holds the three operands' contents side by side, each read at its
    own buffer. -/
theorem v66_result' (W : Valuation τ sig (Elt F)) :
    (nary (τ := τ) ![main_v63, main_v64, main_v65] main_v66
        (fun u => concatenate S4096x1536 1 [⟨S4096x512, u 0⟩, ⟨S4096x512, u 1⟩, ⟨S4096x512, u 2⟩]
          concatenates_S4096x512_S4096x512_S4096x512_S4096x1536_d1)).result W (no_index (Proc.devRef .tc main_v66))
      = concat3 S4096x1536 1 S4096x512 S4096x512 S4096x512 concatenates_S4096x512_S4096x512_S4096x512_S4096x1536_d1
          (W (Proc.devRef .tc main_v63)) (W (Proc.devRef .tc main_v64)) (W (Proc.devRef .tc main_v65)) :=
  (nary_result _ _ _ _ _ W).trans rfl

/-- One simplifier pass over the operations: every line's result at its own buffer, every other buffer untouched. -/
macro "after_results_ref" : tactic =>
  `(tactic| (simp (disch := decide) only [after_cons, after_nil,
      nullary_result', unary_result', binary_result', ternary_result', v66_result',
      nullary_result_ne', unary_result_ne', binary_result_ne', ternary_result_ne', nary_result_ne']))

set_option maxHeartbeats 40000000 in
/-- After the operations the result buffer holds `result` of the argument buffers' contents. -/
theorem out_eq (V : Valuation τ sig (Elt F)) :
    after ops V (main_v70 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_ref <;> rfl

set_option maxHeartbeats 4000000 in
/-- No operation writes argument 0. -/
theorem arg0_eq (V : Valuation τ sig (Elt F)) :
    after ops V (main_arg0 : DevRef τ sig) = V (main_arg0 : DevRef τ sig) := by
  after_results_ref

set_option maxHeartbeats 4000000 in
/-- No operation writes argument 1. -/
theorem arg1_eq (V : Valuation τ sig (Elt F)) :
    after ops V (main_arg1 : DevRef τ sig) = V (main_arg1 : DevRef τ sig) := by
  after_results_ref

set_option maxHeartbeats 4000000 in
/-- No operation writes argument 2. -/
theorem arg2_eq (V : Valuation τ sig (Elt F)) :
    after ops V (main_arg2 : DevRef τ sig) = V (main_arg2 : DevRef τ sig) := by
  after_results_ref

set_option maxHeartbeats 4000000 in
/-- No operation writes argument 3. -/
theorem arg3_eq (V : Valuation τ sig (Elt F)) :
    after ops V (main_arg3 : DevRef τ sig) = V (main_arg3 : DevRef τ sig) := by
  after_results_ref

set_option maxHeartbeats 4000000 in
/-- No operation writes argument 4. -/
theorem arg4_eq (V : Valuation τ sig (Elt F)) :
    after ops V (main_arg4 : DevRef τ sig) = V (main_arg4 : DevRef τ sig) := by
  after_results_ref

set_option maxHeartbeats 4000000 in
/-- No operation writes argument 5. -/
theorem arg5_eq (V : Valuation τ sig (Elt F)) :
    after ops V (main_arg5 : DevRef τ sig) = V (main_arg5 : DevRef τ sig) := by
  after_results_ref

set_option maxHeartbeats 4000000 in
/-- No operation writes argument 6. -/
theorem arg6_eq (V : Valuation τ sig (Elt F)) :
    after ops V (main_arg6 : DevRef τ sig) = V (main_arg6 : DevRef τ sig) := by
  after_results_ref

set_option maxHeartbeats 4000000 in
/-- No operation writes argument 7. -/
theorem arg7_eq (V : Valuation τ sig (Elt F)) :
    after ops V (main_arg7 : DevRef τ sig) = V (main_arg7 : DevRef τ sig) := by
  after_results_ref

/-! ## The run -/

/-- On every device, for any float values, from any memory with zero counters: every weakly fair execution of
    @main terminates with the result buffer at `result` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v70) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v70).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefValue

end
-- ==== Proof.Claims.lean ====
/- The certificate's five claims assembled: the three frames and the idealization's ledger outright, and the
   algebraic claim from ONE fact about values (`Bridge`): under the precondition, what the kernel program's last
   valuation holds at the result buffer is the reference's result of the same eight arguments. -/
import proofs.«162839_j74869869904021_2_alg».proof.Defs
import proofs.«162839_j74869869904021_2_alg».proof.Proof.Frames
import proofs.«162839_j74869869904021_2_alg».proof.Proof.WFrames
import proofs.«162839_j74869869904021_2_alg».proof.Proof.RefRun
import proofs.«162839_j74869869904021_2_alg».proof.Proof.Gen.Kernel
import proofs.«162839_j74869869904021_2_alg».proof.Proof.Gen.KernelIdeal
import proofs.«162839_j74869869904021_2_alg».proof.Proof.Gen.ReferenceIdeal
import proofs.«162839_j74869869904021_2_alg».proof.Proof.Gen.Pre_finite_inputs

noncomputable section

namespace Cert.Proof.Claims

open Idealize.ShloMosaic Idealize.ShloMosaic.TcCoe Idealize.SL.Sem

/-- The word-level program runs and its argument arrays end unchanged. -/
theorem frame_k : Cert.frame_Kernel := fun m ρ _ => Cert.Kernel.Final.frame (F := Bits) m ρ

/-- The idealized program runs and its argument arrays end unchanged. -/
theorem frame_ki : Cert.frame_KernelIdeal := fun m ρ _ => Cert.KernelIdeal.Final.frame (F := Ideal) m ρ

/-- The reference runs and its argument arrays end unchanged. -/
theorem frame_ri : Cert.frame_ReferenceIdeal := fun m g _ =>
  (θ_run _ _ _).mono (fun _ h c => (h c).2) (Cert.ReferenceIdeal.RefValue.run (F := Ideal) m g)

/-- The ideal pass rewrote no operation. -/
theorem preserves : Cert.preserves_Kernel_KernelIdeal := trivial

/-- The one fact about values: under the precondition, on every core, the kernel program's last valuation at the
    result buffer is the reference's result of the same eight arguments. -/
def Bridge : Prop :=
  ∀ (m : (ℓ : Loc Cert.KernelIdeal.nD Cert.KernelIdeal.τ Cert.KernelIdeal.sig) → Buf (Elt Ideal) ℓ), Cert.Pre_KernelIdeal m → ∀ c : Dev Cert.KernelIdeal.nD,
    Cert.KernelIdeal.Gen.V17 m (Cert.KernelIdeal.Final.outs m) c Cert.KernelIdeal.main_v55
      = Cert.ReferenceIdeal.RefValue.result (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))

/-- The two idealized programs, from memories agreeing on the arguments, both run and end with equal results. -/
theorem algebraic (hb : Bridge) : Cert.algebraic_KernelIdeal_ReferenceIdeal := by
  intro m ρ m' ρ' hpre hagree
  refine ⟨fun c => Cert.KernelIdeal.Gen.V17 m (Cert.KernelIdeal.Final.outs m) c Cert.KernelIdeal.main_v55, Cert.KernelIdeal.Final.value (F := Ideal) m ρ, ?_⟩
  refine (θ_run Cert.ReferenceIdeal.defs _ _).mono (fun _ h c => ⟨(h c).1.trans ?_, (h c).2⟩) (Cert.ReferenceIdeal.RefValue.run (F := Ideal) m' ρ')
  obtain ⟨e0, e1, e2, e3, e4, e5, e6, e7⟩ := hagree c
  rw [e0, e1, e2, e3, e4, e5, e6, e7]
  exact (hb m hpre c).symm

/-- The whole claim, given the fact about values. -/
theorem claim_of (hb : Bridge) : Cert.Claim :=
  ⟨Cert.Kernel.Gen.facts, Cert.KernelIdeal.Gen.facts, Cert.ReferenceIdeal.Gen.facts, Cert.Pre_finite_inputs.Gen.facts,
    frame_k, frame_ki, frame_ri, preserves, algebraic hb⟩

end Cert.Proof.Claims

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.LibSoftmaxShift.lean ====
/-
  The softmax of a rank-one sum, on the extended reals [−∞, +∞].

  If the logits of a row are e j = a + d j with a and every d j real numbers, then the row's maximum is a plus the
  maximum of the d j, so the shifted logits e j − max e are the shifted d j − max d: the row's softmax does not depend
  on a. Adding a real number is a monotone map of [−∞, +∞] that fixes −∞, so it commutes with a maximum folded from −∞
  (this needs no finiteness of the entries and no nonemptiness of the index set); the cancellation
  (a + x) − (a + ρ) = x − ρ is where the entries have to be real.

  Also here: the reassociation of one term of an attention product (no finiteness: the product of [−∞, +∞] is
  commutative and associative), and the two facts about a 0/1 mask m: (a · (1 − m)) · m = 0 and 1 − m ∈ {0, 1}.
-/
import Idealize.ShloMosaic.PureOps.Ideal
import proofs.«162839_j74869869904021_2_alg».proof.Proof.LibERealSums

noncomputable section

namespace Cert.GatSgc

/-- Adding a real number commutes with a binary maximum on [−∞, +∞]: x ↦ a + x is monotone. -/
theorem coe_add_max (a : ℝ) (x y : EReal) :
    (a : EReal) + max x y = max ((a : EReal) + x) ((a : EReal) + y) :=
  Monotone.map_max (f := fun z : EReal => (a : EReal) + z) (fun _ _ h => add_le_add le_rfl h)

/-- A fold of any commutative associative operation that is pointwise the maximum is the fold of the maximum. -/
theorem fold_op_eq_fold_max {ι : Type} (s : Finset ι) (op : EReal → EReal → EReal) [Std.Commutative op]
    [Std.Associative op] (hop : ∀ x y, op x y = max x y) (b : EReal) (f : ι → EReal) :
    s.fold op b f = s.fold max b f := by
  have h : op = max := funext fun x => funext fun y => hop x y
  subst h
  rfl

/-- The max-fold shift: the maximum, from −∞, of the a + f j is a plus the maximum of the f j, for a real a and ANY
    extended-real entries f j, over any finite index set (empty included: a + −∞ = −∞). -/
theorem fold_max_coe_add {ι : Type} (s : Finset ι) (a : ℝ) (f : ι → EReal) :
    s.fold max (⊥ : EReal) (fun j => (a : EReal) + f j) = (a : EReal) + s.fold max (⊥ : EReal) f := by
  classical
  induction s using Finset.induction_on with
  | empty => simp
  | insert j s hj ih => rw [Finset.fold_insert hj, Finset.fold_insert hj, ih, coe_add_max]

/-- The maximum, from −∞, of real entries over a nonempty finite type is a real number. -/
theorem fold_max_real {ι : Type} [Fintype ι] [Nonempty ι] (f : ι → EReal) (hf : ∀ j, ∃ r : ℝ, f j = (r : EReal)) :
    ∃ ρ : ℝ, Finset.univ.fold max (⊥ : EReal) f = (ρ : EReal) := by
  choose g hg using hf
  obtain ⟨ρ, hρ⟩ := Cert.Attn.fold_max_coe_exists Finset.univ Finset.univ_nonempty g
  exact ⟨ρ, by rw [show f = fun k => ((g k : ℝ) : EReal) from funext hg]; exact hρ⟩

/-- The same with the outer max(−∞, ·) both programs apply to the folded maximum. -/
theorem max_bot_fold_max_real {ι : Type} [Fintype ι] [Nonempty ι] (f : ι → EReal)
    (hf : ∀ j, ∃ r : ℝ, f j = (r : EReal)) :
    ∃ ρ : ℝ, max (⊥ : EReal) (Finset.univ.fold max (⊥ : EReal) f) = (ρ : EReal) := by
  obtain ⟨ρ, hρ⟩ := fold_max_real f hf
  exact ⟨ρ, by rw [max_bot_left, hρ]⟩

/-- The shifted logits of a rank-one row: with a and every d k real, (a + d j) − max(−∞, max_k (a + d k)) is
    d j − max(−∞, max_k d k). -/
theorem sub_max_fold_shift {ι : Type} [Fintype ι] (a : EReal) (d : ι → EReal)
    (ha : ∃ r : ℝ, a = (r : EReal)) (hd : ∀ k, ∃ r : ℝ, d k = (r : EReal)) (j : ι) :
    (a + d j) - max (⊥ : EReal) (Finset.univ.fold max (⊥ : EReal) fun k => a + d k)
      = d j - max (⊥ : EReal) (Finset.univ.fold max (⊥ : EReal) d) := by
  haveI : Nonempty ι := ⟨j⟩
  obtain ⟨a', rfl⟩ := ha
  obtain ⟨ρ, hρ⟩ := fold_max_real d hd
  obtain ⟨x, hx⟩ := hd j
  rw [fold_max_coe_add, hρ, hx, max_bot_left, max_bot_left, ← EReal.coe_add, ← EReal.coe_add, ← EReal.coe_sub,
    ← EReal.coe_sub, add_sub_add_left_eq_sub]

/-- The same when the outer maximum is taken against any b below the folded maximum (b = −∞ in the programs). -/
theorem sub_max_fold_shift_of_le {ι : Type} [Fintype ι] (a : EReal) (d : ι → EReal) (b b' : EReal)
    (ha : ∃ r : ℝ, a = (r : EReal)) (hd : ∀ k, ∃ r : ℝ, d k = (r : EReal))
    (hb : b ≤ Finset.univ.fold max (⊥ : EReal) fun k => a + d k) (hb' : b' ≤ Finset.univ.fold max (⊥ : EReal) d)
    (j : ι) :
    (a + d j) - max b (Finset.univ.fold max (⊥ : EReal) fun k => a + d k)
      = d j - max b' (Finset.univ.fold max (⊥ : EReal) d) := by
  have h := sub_max_fold_shift a d ha hd j
  rw [max_bot_left, max_bot_left] at h
  rw [max_eq_right hb, max_eq_right hb', h]

/-- The row softmax collapse. Let e k = a + d k with a and every d k real, M the row maximum max(−∞, max_k e k) and
    M' the maximum max(−∞, max_k d k). Then for ANY φ (the exponential in the programs), ψ (the quotient) and z (the
    sum's initial value): ψ (φ (e j − M)) (z + Σ_k φ (e k − M)) = ψ (φ (d j − M')) (z + Σ_k φ (d k − M')). -/
theorem softmax_row_collapse {ι : Type} [Fintype ι] (φ : EReal → EReal) (ψ : EReal → EReal → EReal) (z : EReal)
    (a : EReal) (d e : ι → EReal) (M M' : EReal)
    (ha : ∃ r : ℝ, a = (r : EReal)) (hd : ∀ k, ∃ r : ℝ, d k = (r : EReal)) (he : ∀ k, e k = a + d k)
    (hM : M = max (⊥ : EReal) (Finset.univ.fold max (⊥ : EReal) e))
    (hM' : M' = max (⊥ : EReal) (Finset.univ.fold max (⊥ : EReal) d)) (j : ι) :
    ψ (φ (e j - M)) (z + ∑ k, φ (e k - M)) = ψ (φ (d j - M')) (z + ∑ k, φ (d k - M')) := by
  have key : ∀ k, e k - M = d k - M' := by
    intro k
    rw [hM, hM', show e = fun k => a + d k from funext he]
    exact sub_max_fold_shift a d ha hd k
  simp only [key]

/-- One row of the attention product, reassociated: Σ_j (s j · adj i j) · h j f = Σ_j adj i j · (h j f · s j).
    No finiteness: the product of [−∞, +∞] is commutative and associative. -/
theorem attention_sum_comm {ι κ μ : Type} [Fintype ι] (s : ι → EReal) (adj : κ → ι → EReal) (h : ι → μ → EReal)
    (i : κ) (f : μ) :
    ∑ j, (s j * adj i j) * h j f = ∑ j, adj i j * (h j f * s j) :=
  Finset.sum_congr rfl fun j _ => by rw [mul_comm (s j) (adj i j), mul_assoc, mul_comm (s j) (h j f)]

/-- One entry of a dense attention layer with rank-one logits. The row's weights are the softmax of e i k = src i + d k
    (shifted by the row maximum M i = max(−∞, max_k e i k), written with ANY φ, ψ, z as in `softmax_row_collapse`),
    multiplied by adj i j and contracted with h; the result is adj contracted with h scaled by the ONE softmax of d:
    Σ_j (ψ (φ (e i j − M i)) (z + Σ_k φ (e i k − M i)) · adj i j) · h j f = Σ_j adj i j · (h j f · s j),
    s j = ψ (φ (d j − M')) (z + Σ_k φ (d k − M')), M' = max(−∞, max_k d k); src i and every d k real. -/
theorem attention_row_collapse {ι μ : Type} [Fintype ι] (φ : EReal → EReal) (ψ : EReal → EReal → EReal) (z : EReal)
    (src d : ι → EReal) (adj : ι → ι → EReal) (h : ι → μ → EReal)
    (hsrc : ∀ i, ∃ r : ℝ, src i = (r : EReal)) (hd : ∀ k, ∃ r : ℝ, d k = (r : EReal)) (i : ι) (f : μ) :
    ∑ j, (ψ (φ ((src i + d j) - max (⊥ : EReal) (Finset.univ.fold max (⊥ : EReal) fun k => src i + d k)))
            (z + ∑ k, φ ((src i + d k) - max (⊥ : EReal) (Finset.univ.fold max (⊥ : EReal) fun k => src i + d k)))
          * adj i j) * h j f
      = ∑ j, adj i j * (h j f * ψ (φ (d j - max (⊥ : EReal) (Finset.univ.fold max (⊥ : EReal) d)))
            (z + ∑ k, φ (d k - max (⊥ : EReal) (Finset.univ.fold max (⊥ : EReal) d)))) := by
  rw [← attention_sum_comm (fun j => ψ (φ (d j - max (⊥ : EReal) (Finset.univ.fold max (⊥ : EReal) d)))
    (z + ∑ k, φ (d k - max (⊥ : EReal) (Finset.univ.fold max (⊥ : EReal) d)))) adj h i f]
  refine Finset.sum_congr rfl fun j _ => ?_
  rw [softmax_row_collapse φ ψ z (src i) d (fun k => src i + d k) _ _ (hsrc i) hd (fun _ => rfl) rfl rfl j]

/-- 1 − 1 = 0 on [−∞, +∞]. -/
theorem one_sub_one : (1 : EReal) - 1 = 0 := by
  rw [← EReal.coe_one, ← EReal.coe_sub, sub_self, EReal.coe_zero]

/-- A 0/1 mask kills what was multiplied by its complement: (a · (1 − m)) · m = 0, for every a in [−∞, +∞]. -/
theorem mask_cancel (a m : EReal) (hm : m = 0 ∨ m = 1) : (a * (1 - m)) * m = 0 := by
  rcases hm with rfl | rfl
  · exact mul_zero _
  · rw [one_sub_one, mul_zero, zero_mul]

/-- The complement of a 0/1 mask is a 0/1 mask. -/
theorem one_sub_mask (m : EReal) (hm : m = 0 ∨ m = 1) : 1 - m = 0 ∨ 1 - m = 1 := by
  rcases hm with rfl | rfl
  · exact Or.inr (sub_zero _)
  · exact Or.inl one_sub_one

/-- A 0/1 mask and its complement are real numbers. -/
theorem mask_real (m : EReal) (hm : m = 0 ∨ m = 1) : ∃ r : ℝ, m = (r : EReal) := by
  rcases hm with rfl | rfl
  · exact ⟨0, EReal.coe_zero.symm⟩
  · exact ⟨1, EReal.coe_one.symm⟩

end Cert.GatSgc

end
-- ==== Proof.LibRealClosure.lean ====
/-
  "Every entry is a real number" propagates through the operations of a dense graph attention layer, read on the
  extended reals [−∞, +∞].

  A real number is an element of [−∞, +∞] of the form (r : ℝ). Sums, differences and products of real numbers are
  real, hence finite sums of products are; the exponential of a real number is a positive real number; a nonempty
  finite sum of positive real numbers is a positive real number; the quotient of a real number by a positive (or just
  nonzero) real number is real; the maximum of finitely many real numbers over a nonempty index set is real. So every
  entry of a softmax of real logits is real. The exponential linear unit maps a real number r to r when r > 0 and to
  exp r − 1 otherwise, a real number either way. The unsigned reading of a one-bit word is 0 or 1.
-/
import Idealize.ShloMosaic.PureOps.Ideal
import Idealize.ShloMosaic.PureOps.Ideal.Laws
import proofs.«162839_j74869869904021_2_alg».proof.Proof.LibERealSums
import proofs.«162839_j74869869904021_2_alg».proof.Proof.LibSoftmaxShift

noncomputable section

namespace Cert.GatSgc

open Idealize.ShloMosaic

/-! ### The patterns of −∞, +∞ and 1 -/

/-- The f32 pattern of −∞ denotes −∞. -/
theorem ofBits_neg_inf_f32 : Ideal.ofBits .f32 0xFF800000#32 = ⊥ := by simp [Ideal.ofBits, Ideal.ieee]

/-- The f32 pattern of +∞ denotes +∞. -/
theorem ofBits_inf_f32 : Ideal.ofBits .f32 0x7F800000#32 = ⊤ := by simp [Ideal.ofBits, Ideal.ieee]

/-- The f32 pattern of 1.0 denotes 1. -/
theorem ofBits_one_f32 : Ideal.ofBits .f32 0x3F800000#32 = 1 := by
  simp [Ideal.ofBits, Ideal.ieee, -EReal.coe_mul]; norm_num

/-- A fold of the idealized `maximumf` is the fold of the maximum of [−∞, +∞]. -/
theorem fold_maximumf_eq_fold_max {ι : Type} (s : Finset ι) (φ : FTy) (b : EReal) (f : ι → EReal) :
    s.fold (FloatOps.maximumf (F := Ideal) (φ := φ)) b f = s.fold max b f :=
  fold_op_eq_fold_max s (FloatOps.maximumf (F := Ideal) (φ := φ)) (fun _ _ => rfl) b f

/-! ### Real numbers inside [−∞, +∞] -/

/-- x is real exactly when it is neither infinity. -/
theorem real_iff_ne (x : EReal) : (∃ r : ℝ, x = (r : EReal)) ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- x is real exactly when |x| = max x (−x) is below +∞ (the form a finiteness precondition takes). -/
theorem real_iff_abs_lt_top (x : EReal) : (∃ r : ℝ, x = (r : EReal)) ↔ max x (-x) < ⊤ := by
  rw [real_iff_ne]
  induction x using EReal.rec with
  | bot => simp
  | top => simp
  | coe r =>
    refine iff_of_true ⟨EReal.coe_ne_bot r, EReal.coe_ne_top r⟩ ?_
    rw [← EReal.coe_neg, max_lt_iff]
    exact ⟨EReal.coe_lt_top _, EReal.coe_lt_top _⟩

theorem real_zero : ∃ r : ℝ, (0 : EReal) = (r : EReal) := ⟨0, EReal.coe_zero.symm⟩

theorem real_one : ∃ r : ℝ, (1 : EReal) = (r : EReal) := ⟨1, EReal.coe_one.symm⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of real numbers is real. -/
theorem real_sum {ι : Type} [Fintype ι] (f : ι → EReal) (hf : ∀ k, ∃ r : ℝ, f k = (r : EReal)) :
    ∃ r : ℝ, ∑ k, f k = (r : EReal) := by
  choose g hg using hf
  exact ⟨∑ k, g k, by rw [Cert.Attn.coe_sum_univ]; exact Finset.sum_congr rfl fun k _ => hg k⟩

/-- A finite sum of products of real numbers is real. -/
theorem real_sum_mul {ι : Type} [Fintype ι] (f g : ι → EReal) (hf : ∀ k, ∃ r : ℝ, f k = (r : EReal))
    (hg : ∀ k, ∃ r : ℝ, g k = (r : EReal)) : ∃ r : ℝ, ∑ k, f k * g k = (r : EReal) :=
  real_sum _ fun k => real_mul (hf k) (hg k)

/-- The same from a zero accumulator, the form of a host product's entry. -/
theorem real_zero_add_sum_mul {ι : Type} [Fintype ι] (f g : ι → EReal) (hf : ∀ k, ∃ r : ℝ, f k = (r : EReal))
    (hg : ∀ k, ∃ r : ℝ, g k = (r : EReal)) : ∃ r : ℝ, 0 + ∑ k, f k * g k = (r : EReal) := by
  rw [zero_add]; exact real_sum_mul f g hf hg

/-! ### Exponential, positive sums, quotient: a softmax entry is real -/

/-- The exponential of a real number is a positive real number. -/
theorem exp_real_pos {x : EReal} (hx : ∃ r : ℝ, x = (r : EReal)) :
    ∃ r : ℝ, 0 < r ∧ Ideal.exp x = (r : EReal) := by
  obtain ⟨a, rfl⟩ := hx; exact ⟨Real.exp a, Real.exp_pos a, rfl⟩

/-- A finite sum of positive real numbers over a nonempty index set is a positive real number. -/
theorem sum_pos_real {ι : Type} [Fintype ι] [Nonempty ι] (f : ι → EReal)
    (hf : ∀ k, ∃ r : ℝ, 0 < r ∧ f k = (r : EReal)) : ∃ r : ℝ, 0 < r ∧ ∑ k, f k = (r : EReal) := by
  choose g hg using hf
  exact ⟨∑ k, g k, Finset.sum_pos (fun k _ => (hg k).1) Finset.univ_nonempty,
    by rw [Cert.Attn.coe_sum_univ]; exact Finset.sum_congr rfl fun k _ => (hg k).2⟩

/-- The quotient of a real number by a nonzero real number is real. -/
theorem div_real_of_ne_zero {x y : EReal} (hx : ∃ r : ℝ, x = (r : EReal)) (hy : ∃ r : ℝ, r ≠ 0 ∧ y = (r : EReal)) :
    ∃ r : ℝ, Ideal.div x y = (r : EReal) := by
  obtain ⟨a, rfl⟩ := hx; obtain ⟨b, hb, rfl⟩ := hy
  exact ⟨a * (1 / b), by rw [Ideal.div_coe hb, EReal.coe_mul]⟩

/-- The quotient of a real number by a positive real number is real. -/
theorem div_real_pos {x y : EReal} (hx : ∃ r : ℝ, x = (r : EReal)) (hy : ∃ r : ℝ, 0 < r ∧ y = (r : EReal)) :
    ∃ r : ℝ, Ideal.div x y = (r : EReal) := by
  obtain ⟨b, hb, hyb⟩ := hy; exact div_real_of_ne_zero hx ⟨b, hb.ne', hyb⟩

/-- An entry of the softmax of real logits d, shifted by a real M, the sum taken from a zero accumulator:
    exp (d j − M) / (0 + Σ_k exp (d k − M)) is real. -/
theorem softmax_entry_real {ι : Type} [Fintype ι] (d : ι → EReal) (M : EReal)
    (hd : ∀ k, ∃ r : ℝ, d k = (r : EReal)) (hM : ∃ r : ℝ, M = (r : EReal)) (j : ι) :
    ∃ r : ℝ, Ideal.div (Ideal.exp (d j - M)) (0 + ∑ k, Ideal.exp (d k - M)) = (r : EReal) := by
  haveI : Nonempty ι := ⟨j⟩
  have hpos : ∀ k, ∃ r : ℝ, 0 < r ∧ Ideal.exp (d k - M) = (r : EReal) := fun k => exp_real_pos (real_sub (hd k) hM)
  obtain ⟨e, _, he⟩ := hpos j
  refine div_real_pos ⟨e, he⟩ ?_
  rw [zero_add]; exact sum_pos_real _ hpos

/-- The same with M the maximum the programs compute, max(−∞, max_k d k). -/
theorem softmax_entry_real_max {ι : Type} [Fintype ι] (d : ι → EReal) (hd : ∀ k, ∃ r : ℝ, d k = (r : EReal))
    (j : ι) :
    ∃ r : ℝ, Ideal.div (Ideal.exp (d j - max (⊥ : EReal) (Finset.univ.fold max (⊥ : EReal) d)))
        (0 + ∑ k, Ideal.exp (d k - max (⊥ : EReal) (Finset.univ.fold max (⊥ : EReal) d))) = (r : EReal) := by
  haveI : Nonempty ι := ⟨j⟩
  exact softmax_entry_real d _ hd (max_bot_fold_max_real d hd) j

/-! ### The exponential linear unit -/

/-- The exponential linear unit as the programs compute it at one entry: v if v > 0, else 1 · (exp w − 1) with
    w = 0 if v > 0, else v. -/
def elu (v : EReal) : EReal :=
  Scalar.select (Ideal.cmp .ogt v 0) v (1 * (Ideal.exp (Scalar.select (Ideal.cmp .ogt v 0) 0 v) - 1))

/-- At a real number r the unit is r for r > 0 and exp r − 1 otherwise. -/
theorem elu_coe (r : ℝ) : elu (r : EReal) = ((if 0 < r then r else Real.exp r - 1 : ℝ) : EReal) := by
  unfold elu Scalar.select
  by_cases h : 0 < r
  · have hc : Ideal.cmp .ogt (r : EReal) 0 = 1 := by
      show BitVec.ofBool (decide ((0 : EReal) < (r : EReal))) = 1
      rw [decide_eq_true (by exact_mod_cast h)]; rfl
    rw [if_pos hc, if_pos h]
  · have hc : ¬ Ideal.cmp .ogt (r : EReal) 0 = 1 := by
      show ¬ BitVec.ofBool (decide ((0 : EReal) < (r : EReal))) = 1
      rw [decide_eq_false (by exact_mod_cast h)]; decide
    rw [if_neg hc, if_neg hc, if_neg h, one_mul, EReal.coe_sub, EReal.coe_one]
    rfl

/-- The exponential linear unit maps real numbers to real numbers. -/
theorem elu_real {v : EReal} (hv : ∃ r : ℝ, v = (r : EReal)) : ∃ r : ℝ, elu v = (r : EReal) := by
  obtain ⟨r, rfl⟩ := hv; exact ⟨_, elu_coe r⟩

/-! ### The mask -/

/-- The unsigned reading of a one-bit word is 0 or 1. -/
theorem uitofp_bit (b : BitVec 1) : ((b.toNat : ℝ) : EReal) = 0 ∨ ((b.toNat : ℝ) : EReal) = 1 := by
  have hlt : b.toNat < 2 := b.isLt
  rcases (by omega : b.toNat = 0 ∨ b.toNat = 1) with h | h
  · left; rw [h]; simp
  · right; rw [h]; simp

/-- The same for the conversion as the programs spell it. -/
theorem uitofp_i1 (φ : FTy) (b : BitVec 1) :
    FloatOps.uitofp (F := Ideal) φ b = 0 ∨ FloatOps.uitofp (F := Ideal) φ b = 1 := uitofp_bit b

end Cert.GatSgc

end
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.KerReadC.lean ====
/- The kernel program's host side read as values over the extended reals, from the exit of the second attention
   region to the result. Each buffer is first written as a named stage of its operands' contents (a whole-array
   equation), then each stage is read at an index.

   The node score of node i is the exponential linear unit of entry (i, 0) of the array the second attention region
   leaves; the mask of node i is the 0/1 reading of "the score exceeds the threshold"; the two projected feature arrays
   are the features times the first and the last 512 rows of the last layer's weights (narrowing to bf16 changes nothing
   over the extended reals); the result adds the bias to every row of what the last region leaves. -/
import proofs.«162839_j74869869904021_2_alg».proof.Proof.Gen.KernelIdeal.Regions
import proofs.«162839_j74869869904021_2_alg».proof.Proof.LibRealClosure
import proofs.«162839_j74869869904021_2_alg».proof.Proof.LibPlainDotGeneral
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.KerRead

open Cert.KernelIdeal Cert.KernelIdeal.Gen
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (outs : Outs (F := Ideal)) (c : Dev nD)

/-! ## What the regions leave, read back; what no later item writes -/

theorem V9_v38 : V9 m outs c main_v38 = outs 9 main_v38 c := by simp only [V9, Function.update_self]
theorem V13_v44 : V13 m outs c main_v44 = outs 13 main_v44 c := by simp only [V13, Function.update_self]
theorem V14_v45 : V14 m outs c main_v45 = outs 14 main_v45 c := by simp only [V14, Function.update_self]
theorem V16_v52 : V16 m outs c main_v52 = outs 16 main_v52 c := by simp only [V16, Function.update_self]

/-- The arguments the later host stretches read are as launched. -/
theorem V14_arg0 : V14 m outs c main_arg0 = m ((c : Thread nD τ).loc main_arg0) :=
  (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m c main_arg0 (by decide)).trans <| (V2_of m c main_arg0 (by decide)).trans <| (V1_of m c main_arg0 (by decide)).trans <| rfl
theorem V14_arg6 : V14 m outs c main_arg6 = m ((c : Thread nD τ).loc main_arg6) :=
  (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans <| rfl
theorem V16_arg7 : V16 m outs c main_arg7 = m ((c : Thread nD τ).loc main_arg7) :=
  (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans <| rfl

/-- The bf16 adjacency matrix (written by the first host stretch) is unchanged up to the entry of each of the last
    three regions. -/
theorem V12_v0 : V12 m outs c main_v0 = V3 m c main_v0 :=
  (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m outs c main_v0 (by decide)).trans <| (V6_of m outs c main_v0 (by decide)).trans <| (V5_of m outs c main_v0 (by decide)).trans <| (V4_of m outs c main_v0 (by decide)).trans <| rfl
theorem V13_v0 : V13 m outs c main_v0 = V3 m c main_v0 :=
  (V13_of m outs c main_v0 (by decide)).trans (V12_v0 m outs c)
theorem V15_v0 : V15 m outs c main_v0 = V3 m c main_v0 :=
  (V15_of m outs c main_v0 (by decide)).trans <| (V14_of m outs c main_v0 (by decide)).trans (V13_v0 m outs c)

/-- The mask column is unchanged from its stretch to the last region's entry; -/
theorem V15_v43 : V15 m outs c main_v43 = V12 m outs c main_v43 :=
  (V15_of m outs c main_v43 (by decide)).trans <| (V14_of m outs c main_v43 (by decide)).trans <| (V13_of m outs c main_v43 (by decide)).trans rfl
/-- the square of the adjacency matrix, as the third region leaves it, up to the fourth's entry; -/
theorem V13_v44' : V13 m outs c main_v44 = outs 13 main_v44 c := V13_v44 m outs c
/-- the cube, as the fourth region leaves it, up to the last region's entry. -/
theorem V15_v45 : V15 m outs c main_v45 = outs 14 main_v45 c :=
  (V15_of m outs c main_v45 (by decide)).trans (V14_v45 m outs c)

/-! ## The stages -/

/-- Column 0 of the array the second attention region leaves. -/
def scoreCol (raw2 : FVec Ideal S4096x128 .f32) : FVec Ideal S4096x1 .f32 :=
  extractStridedSlice S4096x1 ![0, 0] raw2 slices_S4096x128_S4096x1_0_0

/-- The exponential linear unit, entrywise, as the program spells it: where an entry is positive the entry itself,
    elsewhere one times exp - 1 of (zero where the entry is positive, the entry elsewhere). -/
def eluCol (z : FVec Ideal S4096x1 .f32) : FVec Ideal S4096x1 .f32 :=
  select (cmpf .ogt z (broadcastInDim S4096x1 ![] bcast_S_S4096x1 (constant (F := Ideal) S_ .f32 0x00000000#32))) z
    (mulf (broadcastInDim S4096x1 ![] bcast_S_S4096x1 (constant (F := Ideal) S_ .f32 0x3F800000#32))
      (Host.expm1 (select (cmpf .ogt z (broadcastInDim S4096x1 ![] bcast_S_S4096x1 (constant (F := Ideal) S_ .f32 0x00000000#32)))
        (broadcastInDim S4096x1 ![] bcast_S_S4096x1 (id (constant (F := Ideal) S_ .f32 0x00000000#32))) z)))

/-- The indicator (one or zero) of a node's score exceeding the threshold. -/
def maskCol (ns : FVec Ideal S4096x1 .f32) : FVec Ideal S4096x1 .f32 :=
  uitofp .f32 (cmpf .ogt ns (broadcastInDim S4096x1 ![] bcast_S_S4096x1 (constant (F := Ideal) S_ .f32 0x3F333333#32)))

/-- The features times a 512-row block of the last layer's weights, narrowed to bf16. -/
def proj (x : FVec Ideal S4096x512 .f32) (Wblk : FVec Ideal S512x256 .f32) : FVec Ideal S4096x256 .bf16 :=
  truncf .bf16 (Host.dotGeneral (F := Ideal) dot_S4096x512_S512x256_S4096x256_1_0_0_1_n_n none x Wblk) bitsLt_bf16_f32

/-- The bias on every row. -/
def biasRows (b : FVec Ideal S256 .f32) : FVec Ideal S4096x256 .f32 :=
  broadcastInDim S4096x256 ![0, 1] bcast_S1x256_S4096x256_0_1 (broadcastInDim S1x256 ![1] bcast_S256_S1x256_1 b)

/-! ## The buffers are the stages -/

/-- Each stretch over ANY contents W it starts from: its result buffer is the stage of W's operand buffers. -/
theorem v39_of (W : Valuation τ sig (Elt Ideal)) :
    (StableHlo.after hostOps2 W main_v39 : FVec Ideal S4096x1 .f32) = scoreCol (W main_v38) := by
  dsimp only [hostOps2]
  after_results
  rfl

theorem v40_of (W : Valuation τ sig (Elt Ideal)) :
    (StableHlo.after hostOps2_1 W main_v40 : FVec Ideal S4096x1 .f32) = eluCol (W main_v39) := by
  dsimp only [hostOps2_1]
  after_results_simp
  rfl

theorem v43_of (W : Valuation τ sig (Elt Ideal)) :
    (StableHlo.after hostOps2_2 W main_v43 : FVec Ideal S4096x1 .f32) = maskCol (W main_v40) := by
  dsimp only [hostOps2_2]
  after_results
  rfl

theorem v48_of (W : Valuation τ sig (Elt Ideal)) :
    (StableHlo.after hostOps4 W main_v48 : FVec Ideal S4096x256 .bf16)
      = proj (W main_arg0) (extractStridedSlice S512x256 ![0, 0] (W main_arg6) slices_S1536x256_S512x256_0_0) := by
  dsimp only [hostOps4]
  after_results
  rfl

theorem v51_of (W : Valuation τ sig (Elt Ideal)) :
    (StableHlo.after hostOps4 W main_v51 : FVec Ideal S4096x256 .bf16)
      = proj (W main_arg0) (extractStridedSlice S512x256 ![1024, 0] (W main_arg6) slices_S1536x256_S512x256_1024_0) := by
  dsimp only [hostOps4]
  after_results
  rfl

theorem v55_of (W : Valuation τ sig (Elt Ideal)) :
    (StableHlo.after hostOps5 W main_v55 : FVec Ideal S4096x256 .f32) = addf (W main_v52) (biasRows (W main_arg7)) := by
  dsimp only [hostOps5]
  after_results
  rfl

theorem v39_eq : (V10 m outs c main_v39 : FVec Ideal S4096x1 .f32) = scoreCol (outs 9 main_v38 c) :=
  (v39_of (V9 m outs c)).trans (congrArg scoreCol (V9_v38 m outs c))

theorem v40_eq : (V11 m outs c main_v40 : FVec Ideal S4096x1 .f32) = eluCol (V10 m outs c main_v39) :=
  v40_of (V10 m outs c)

theorem v43_eq : (V12 m outs c main_v43 : FVec Ideal S4096x1 .f32) = maskCol (V11 m outs c main_v40) :=
  v43_of (V11 m outs c)

/-- The mask column as a stage of what the second attention region leaves. -/
theorem mask_eq : (V12 m outs c main_v43 : FVec Ideal S4096x1 .f32) = maskCol (eluCol (scoreCol (outs 9 main_v38 c))) := by
  rw [v43_eq, v40_eq, v39_eq]

theorem v48_eq : (V15 m outs c main_v48 : FVec Ideal S4096x256 .bf16)
    = proj (m ((c : Thread nD τ).loc main_arg0)) (extractStridedSlice S512x256 ![0, 0] (m ((c : Thread nD τ).loc main_arg6)) slices_S1536x256_S512x256_0_0) := by
  refine (v48_of (V14 m outs c)).trans ?_
  rw [V14_arg0, V14_arg6]

theorem v51_eq : (V15 m outs c main_v51 : FVec Ideal S4096x256 .bf16)
    = proj (m ((c : Thread nD τ).loc main_arg0)) (extractStridedSlice S512x256 ![1024, 0] (m ((c : Thread nD τ).loc main_arg6)) slices_S1536x256_S512x256_1024_0) := by
  refine (v51_of (V14 m outs c)).trans ?_
  rw [V14_arg0, V14_arg6]

theorem v55_eq : (V17 m outs c main_v55 : FVec Ideal S4096x256 .f32)
    = addf (outs 16 main_v52 c) (biasRows (m ((c : Thread nD τ).loc main_arg7))) := by
  refine (v55_of (V16 m outs c)).trans ?_
  rw [V16_v52, V16_arg7]

/-! ## The arrays as functions into the extended reals -/

/-- The features, the last layer's weights and bias (arguments, as launched). -/
abbrev xF : S4096x512.Idx → EReal := m ((c : Thread nD τ).loc main_arg0)
abbrev WsF : S1536x256.Idx → EReal := m ((c : Thread nD τ).loc main_arg6)
abbrev bF : S256.Idx → EReal := m ((c : Thread nD τ).loc main_arg7)
/-- What the second attention region and the last region leave (unknowns). -/
abbrev raw2 : S4096x128.Idx → EReal := outs 9 main_v38 c
abbrev out4 : S4096x256.Idx → EReal := outs 16 main_v52 c
/-- The mask column after its stretch, the two projected feature arrays at the last region's entry, the result. -/
abbrev maskArr : S4096x1.Idx → EReal := V12 m outs c main_v43
abbrev u0Arr : S4096x256.Idx → EReal := V15 m outs c main_v48
abbrev u2Arr : S4096x256.Idx → EReal := V15 m outs c main_v51
abbrev resArr : S4096x256.Idx → EReal := V17 m outs c main_v55

/-! ## The stages read at an index -/

/-- The mask of a node from its score: the 0/1 reading of "the score exceeds the threshold". -/
def maskOf (v : EReal) : EReal :=
  FloatOps.uitofp (F := Ideal) .f32 (Ideal.cmp .ogt v (Ideal.ofBits .f32 0x3F333333#32))

theorem scoreCol_apply (raw2 : FVec Ideal S4096x128 .f32) (i : Fin 4096) : scoreCol raw2 (ix2 i 0) = raw2 (ix2 i 0) := by
  unfold scoreCol
  exact extractStridedSlice_apply ![0, 0] raw2 slices_S4096x128_S4096x1_0_0 (ix2 i 0) (ix2 i 0) (fun a => by
    match a with
    | ⟨0, _⟩ => show i.val = 0 + i.val; omega
    | ⟨1, _⟩ => rfl)

/-- A scalar constant broadcast to the column, at an entry. -/
theorem bcastCol_apply (w : BitVec 32) (i : Fin 4096) :
    broadcastInDim S4096x1 ![] bcast_S_S4096x1 (constant (F := Ideal) S_ .f32 w) (ix2 i 0) = Ideal.ofBits .f32 w :=
  (broadcastInDim_apply ![] bcast_S_S4096x1 (constant (F := Ideal) S_ .f32 w) (ix2 i 0) ix0 (fun a => a.elim0)).trans rfl

theorem eluCol_apply (z : FVec Ideal S4096x1 .f32) (i : Fin 4096) : eluCol z (ix2 i 0) = Cert.GatSgc.elu (z (ix2 i 0)) := by
  unfold eluCol Cert.GatSgc.elu
  show Scalar.select (Ideal.cmp .ogt (z (ix2 i 0)) (broadcastInDim S4096x1 ![] bcast_S_S4096x1 (constant (F := Ideal) S_ .f32 0x00000000#32) (ix2 i 0))) (z (ix2 i 0))
      (broadcastInDim S4096x1 ![] bcast_S_S4096x1 (constant (F := Ideal) S_ .f32 0x3F800000#32) (ix2 i 0)
        * (Ideal.exp (Scalar.select (Ideal.cmp .ogt (z (ix2 i 0)) (broadcastInDim S4096x1 ![] bcast_S_S4096x1 (constant (F := Ideal) S_ .f32 0x00000000#32) (ix2 i 0)))
            (broadcastInDim S4096x1 ![] bcast_S_S4096x1 (constant (F := Ideal) S_ .f32 0x00000000#32) (ix2 i 0)) (z (ix2 i 0))) - 1)) = _
  rw [bcastCol_apply, bcastCol_apply, Ideal.ofBits_zero_f32, Cert.GatSgc.ofBits_one_f32]

theorem maskCol_apply (ns : FVec Ideal S4096x1 .f32) (i : Fin 4096) : maskCol ns (ix2 i 0) = maskOf (ns (ix2 i 0)) := by
  unfold maskCol maskOf
  show FloatOps.uitofp (F := Ideal) .f32 (Ideal.cmp .ogt (ns (ix2 i 0)) (broadcastInDim S4096x1 ![] bcast_S_S4096x1 (constant (F := Ideal) S_ .f32 0x3F333333#32) (ix2 i 0))) = _
  rw [bcastCol_apply]

/-- (1) THE MASK: node i's mask is maskOf of the exponential linear unit of entry (i, 0) of what the second attention
    region leaves. -/
theorem mask_apply (i : Fin 4096) :
    maskArr m outs c (ix2 i 0) = maskOf (Cert.GatSgc.elu (raw2 outs c (ix2 i 0))) := by
  unfold maskArr raw2
  rw [mask_eq, maskCol_apply, eluCol_apply, scoreCol_apply]

theorem proj_apply (x : FVec Ideal S4096x512 .f32) (Wblk : FVec Ideal S512x256 .f32) (j : Fin 4096) (o : Fin 256) :
    proj x Wblk (ix2 j o) = ∑ p : Fin 512, x (ix2 j p) * Wblk (ix2 p o) :=
  dotGeneral_plain_apply dot_S4096x512_S512x256_S4096x256_1_0_0_1_n_n_wf none x Wblk j o

theorem sliceW0_apply (Ws : FVec Ideal S1536x256 .f32) (p : Fin 512) (o : Fin 256) (pp : Fin 1536) (hpp : pp.val = p.val) :
    extractStridedSlice S512x256 ![0, 0] Ws slices_S1536x256_S512x256_0_0 (ix2 p o) = Ws (ix2 pp o) :=
  extractStridedSlice_apply ![0, 0] Ws slices_S1536x256_S512x256_0_0 (ix2 p o) (ix2 pp o) (fun a => by
    match a with
    | ⟨0, _⟩ => show pp.val = 0 + p.val; omega
    | ⟨1, _⟩ => show o.val = 0 + o.val; omega)

theorem sliceW2_apply (Ws : FVec Ideal S1536x256 .f32) (p : Fin 512) (o : Fin 256) (pp : Fin 1536) (hpp : pp.val = 1024 + p.val) :
    extractStridedSlice S512x256 ![1024, 0] Ws slices_S1536x256_S512x256_1024_0 (ix2 p o) = Ws (ix2 pp o) :=
  extractStridedSlice_apply ![1024, 0] Ws slices_S1536x256_S512x256_1024_0 (ix2 p o) (ix2 pp o) (fun a => by
    match a with
    | ⟨0, _⟩ => show pp.val = 1024 + p.val; omega
    | ⟨1, _⟩ => show o.val = 0 + o.val; omega)

/-- (2) THE PROJECTED FEATURES: entry (j, o) of the first is the sum over p of x(j, p) times the weights' (p, o), -/
theorem v48_apply (j : Fin 4096) (o : Fin 256) :
    u0Arr m outs c (ix2 j o) = ∑ p : Fin 512, xF m c (ix2 j p) * WsF m c (ix2 ⟨p.val, by omega⟩ o) := by
  unfold u0Arr xF WsF
  rw [v48_eq, proj_apply]
  exact Finset.sum_congr rfl fun p _ => by rw [sliceW0_apply _ p o ⟨p.val, by omega⟩ rfl]

/-- of the second the sum over p of x(j, p) times the weights' (1024 + p, o). -/
theorem v51_apply (j : Fin 4096) (o : Fin 256) :
    u2Arr m outs c (ix2 j o) = ∑ p : Fin 512, xF m c (ix2 j p) * WsF m c (ix2 ⟨1024 + p.val, by omega⟩ o) := by
  unfold u2Arr xF WsF
  rw [v51_eq, proj_apply]
  exact Finset.sum_congr rfl fun p _ => by rw [sliceW2_apply _ p o ⟨1024 + p.val, by omega⟩ rfl]

theorem biasRows_apply (b : FVec Ideal S256 .f32) (i : Fin 4096) (o : Fin 256) : biasRows b (ix2 i o) = b (ix1 o) := by
  unfold biasRows
  refine (broadcastInDim_apply ![0, 1] bcast_S1x256_S4096x256_0_1 _ (ix2 i o) (ix2 0 o) (fun a => by
    match a with
    | ⟨0, _⟩ => rfl
    | ⟨1, _⟩ => rfl)).trans ?_
  exact broadcastInDim_apply ![1] bcast_S256_S1x256_1 b (ix2 0 o) (ix1 o) (fun a => by
    match a with
    | ⟨0, _⟩ => rfl)

/-- (3) THE RESULT: what the last region leaves plus the bias. -/
theorem v55_apply (i : Fin 4096) (o : Fin 256) :
    resArr m outs c (ix2 i o) = out4 outs c (ix2 i o) + bF m c (ix1 o) := by
  unfold resArr
  rw [v55_eq]
  show out4 outs c (ix2 i o) + biasRows (bF m c) (ix2 i o) = _
  rw [biasRows_apply]

end Cert.KernelIdeal.KerRead

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.Reg2Value.lean ====
/- Region 2 (custom_call 2) at the exact extended reals: when the region ends, the output window's array holds
   the matrix product of the two input windows' arrays as the region found them — entry (p, q) is the sum over
   the 4096 contracted coordinates k of A(p, k) · B(k, q) —, and the input windows' arrays are unchanged.

   The body accumulates the product over two blocks of 2048 contracted coordinates: at the even point of a pair the
   accumulator is zeroed and the first partial product added, at the odd point the second is added and the
   accumulator stored (the narrowing to the output's format is the identity here). So what the odd point writes
   back is the sum of the two partial products, which is the whole sum split at 2048; the sixteen output blocks
   tile the array. -/
import proofs.«162839_j74869869904021_2_alg».proof.Proof.Reg2
import proofs.«162839_j74869869904021_2_alg».proof.Proof.LibPlainMatmul
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators

namespace Cert.KernelIdeal.Reg2Value

open Cert.KernelIdeal Cert.KernelIdeal.Gen Cert.KernelIdeal.Reg2
open Idealize.ShloMosaic Idealize.ShloMosaic.TcCoe Idealize.ShloMosaic.Tactic Idealize.ShloMosaic.ValueIdx
open Idealize.SL.Sem
open Idealize.ShloMosaic.Pipeline (Dat Cfg Window)

theorem hz : (![0, 0] : Fin 2 → Nat) = fun _ => 0 := funext fun a => by fin_cases a <;> rfl

/-! ## What each case's pieces are, as payloads of the blocks (any float instance) -/

section Pieces

variable {F : FTy → Type} [FloatOps F]

/-- Case A leaves in the scratch the first partial product added to the zero block. -/
theorem sout_A_eq (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) :
    sout_A c i arg3 harg3 arg4 harg4 arg5 harg5 arg6 harg6 hc0 hc1 x0 x1 = k2_pay2 (k2_pay1 (F := F)) x0 x1 := by
  unfold sout_A
  rw [View.read_writes_eq_canon _ _ _ (scover_A c i arg3 harg3 arg4 harg4 arg5 harg5 arg6 harg6 hc0 hc1 x0 x1)]
  unfold kernelRun_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz, View.ld_unit_zero (S := S2048x1024) hz]

/-- Case B leaves in the scratch its partial product added to what the scratch held. -/
theorem sout_B_eq (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) :
    sout_B c i arg3 harg3 arg4 harg4 arg5 harg5 arg6 harg6 hc0 hc1 x0 x1 xs0 = k2_pay2 xs0 x0 x1 := by
  unfold sout_B
  rw [View.read_writes_eq_canon _ _ _ (scover_B c i arg3 harg3 arg4 harg4 arg5 harg5 arg6 harg6 hc0 hc1 x0 x1 xs0)]
  unfold kernelRun_B
  dsimp only
  sl_unfold_words
  rw [View.canon_unit_zero (S := S1024x1024) hz]
  simp only [View.readAt_eq_ld, harg3.read_unread, harg4.read_unread, harg6.read_unread, View.ld_unit_zero (S := S1024x2048) hz, View.ld_unit_zero (S := S2048x1024) hz, View.ld_unit_zero (S := S1024x1024) hz]

/-- Case B leaves in the output block that sum, narrowed to the output's format. -/
theorem out_B_eq (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) :
    out_B_2 c i arg3 harg3 arg4 harg4 arg5 harg5 arg6 harg6 hc0 hc1 x0 x1 xs0 = k2_pay3 (k2_pay2 xs0 x0 x1) := by
  unfold out_B_2
  rw [View.read_writes_eq_canon _ _ _ (cover_B_2 c i arg3 harg3 arg4 harg4 arg5 harg5 arg6 harg6 hc0 hc1 x0 x1 xs0)]
  unfold kernelRun_B
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1024x2048) hz, View.ld_unit_zero (S := S2048x1024) hz, View.ld_unit_zero (S := S1024x1024) hz]

end Pieces

/-! ## The payloads at an entry, over the extended reals -/

/-- The zero block. -/
theorem pay1_apply (j : S1024x1024.Idx) : (k2_pay1 (F := Ideal) j : EReal) = 0 := by
  unfold k2_pay1
  simp only [shapeCast_self]
  exact Ideal.ofBits_zero_f32

/-- The accumulation step at entry (a, b): what the accumulator held plus the partial product over the block's
    2048 contracted coordinates. -/
theorem pay2_apply (v3 : FVec Ideal S1024x1024 .f32) (v4 : FVec Ideal S1024x2048 .bf16) (v6 : FVec Ideal S2048x1024 .bf16) (a b : Fin 1024) :
    (k2_pay2 (F := Ideal) v3 v4 v6 (ix2 a b) : EReal) = v3 (ix2 a b) + ∑ k : Fin 2048, v4 (ix2 a k) * v6 (ix2 k b) := by
  unfold k2_pay2
  simp only [shapeCast_self]
  exact congrArg (fun z : EReal => v3 (ix2 a b) + z)
    (matmul_plain_zero_apply dot_S1024x2048_S2048x1024_S1024x1024_1_0_0_1_n_n_wf none v4 v6 a b)

/-- The narrowing to the output's format is the identity. -/
theorem pay3_eq (v : FVec Ideal S1024x1024 .f32) : k2_pay3 (F := Ideal) v = v := rfl

/-- The two steps and the store, at entry (a, b): the sum of the two partial products. -/
theorem chain_apply (x0' : FVec Ideal S1024x2048 .bf16) (x1' : FVec Ideal S2048x1024 .bf16) (x0 : FVec Ideal S1024x2048 .bf16) (x1 : FVec Ideal S2048x1024 .bf16) (a b : Fin 1024) :
    (k2_pay3 (F := Ideal) (k2_pay2 (F := Ideal) (k2_pay2 (F := Ideal) (k2_pay1 (F := Ideal)) x0' x1') x0 x1) (ix2 a b) : EReal)
      = (∑ k : Fin 2048, x0' (ix2 a k) * x1' (ix2 k b)) + ∑ k : Fin 2048, x0 (ix2 a k) * x1 (ix2 k b) := by
  rw [pay3_eq]
  refine (pay2_apply _ x0 x1 a b).trans ?_
  refine congrArg (fun z : EReal => z + ∑ k : Fin 2048, x0 (ix2 a k) * x1 (ix2 k b)) ?_
  refine (pay2_apply _ x0' x1' a b).trans ?_
  rw [pay1_apply, zero_add]

/-! ## The blocks, read off the arrays -/

variable (V : (c : Dev nD) → (b : Ref sig .tc) → Buf (Elt Ideal) ((c : Thread nD τ).loc b))

/-- The two input windows' arrays as the region finds them, as functions into the extended reals. -/
abbrev Aarr (c : Dev nD) : FVec Ideal S4096x4096 .bf16 := V c (Pipeline.arrRef spec2 0)
abbrev Barr (c : Dev nD) : FVec Ideal S4096x4096 .bf16 := V c (Pipeline.arrRef spec2 1)

/-- The windows' block indices at a point, in closed form (the grid is 4 × 4 × 2, the last axis fastest). -/
theorem idx0 : ∀ t : Fin cfg2.N, (cfg2.win 0).index t 0 = t.val / 8 ∧ (cfg2.win 0).index t 1 = t.val % 2 :=
  (by decide +kernel : ∀ t : Fin grid2.N, win2_0.index t 0 = t.val / 8 ∧ win2_0.index t 1 = t.val % 2)
theorem idx1 : ∀ t : Fin cfg2.N, (cfg2.win 1).index t 0 = t.val % 2 ∧ (cfg2.win 1).index t 1 = t.val / 2 % 4 :=
  (by decide +kernel : ∀ t : Fin grid2.N, win2_1.index t 0 = t.val % 2 ∧ win2_1.index t 1 = t.val / 2 % 4)
theorem idx2 : ∀ t : Fin cfg2.N, (cfg2.win 2).index t 0 = t.val / 8 ∧ (cfg2.win 2).index t 1 = t.val / 2 % 4 :=
  (by decide +kernel : ∀ t : Fin grid2.N, win2_2.index t 0 = t.val / 8 ∧ win2_2.index t 1 = t.val / 2 % 4)

/-- Window 0's block at point `t`, at (a, k): the left array at row block `t / 8`, column block `t % 2`. -/
theorem iblk0_apply (c : Dev nD) (t : Fin cfg2.N) (a : Fin 1024) (k : Fin 2048)
    (h0 : 1024 * (t.val / 8) + a.val < 4096) (h1 : 2048 * (t.val % 2) + k.val < 4096) :
    (iblk V c 0 t : FVec Ideal S1024x2048 .bf16) (ix2 a k)
      = Aarr V c (ix2 ⟨1024 * (t.val / 8) + a.val, h0⟩ ⟨2048 * (t.val % 2) + k.val, h1⟩) := by
  have hi := idx0 t
  unfold iblk
  rw [View.read_apply]
  show V c main_v0 _ = V c main_v0 _
  congr 1
  funext ax
  apply Fin.ext
  match ax with
  | ⟨0, _⟩ => show win2_0.index t 0 * 1024 + 1 * a.val = 1024 * (t.val / 8) + a.val; rw [hi.1]; omega
  | ⟨1, _⟩ => show win2_0.index t 1 * 2048 + 1 * k.val = 2048 * (t.val % 2) + k.val; rw [hi.2]; omega

/-- Window 1's block at point `t`, at (k, b): the right array at row block `t % 2`, column block `t / 2 % 4`. -/
theorem iblk1_apply (c : Dev nD) (t : Fin cfg2.N) (k : Fin 2048) (b : Fin 1024)
    (h0 : 2048 * (t.val % 2) + k.val < 4096) (h1 : 1024 * (t.val / 2 % 4) + b.val < 4096) :
    (iblk V c 1 t : FVec Ideal S2048x1024 .bf16) (ix2 k b)
      = Barr V c (ix2 ⟨2048 * (t.val % 2) + k.val, h0⟩ ⟨1024 * (t.val / 2 % 4) + b.val, h1⟩) := by
  have hi := idx1 t
  unfold iblk
  rw [View.read_apply]
  show V c main_v0 _ = V c main_v0 _
  congr 1
  funext ax
  apply Fin.ext
  match ax with
  | ⟨0, _⟩ => show win2_1.index t 0 * 2048 + 1 * k.val = 2048 * (t.val % 2) + k.val; rw [hi.1]; omega
  | ⟨1, _⟩ => show win2_1.index t 1 * 1024 + 1 * b.val = 1024 * (t.val / 2 % 4) + b.val; rw [hi.2]; omega

/-! ## The product -/

/-- Entry (p, q) of the product of the two arrays. -/
def prod (c : Dev nD) (p q : Fin 4096) : EReal := ∑ k : Fin 4096, Aarr V c (ix2 p k) * Barr V c (ix2 k q)

/-- The product as the contents of the output array. -/
def G (c : Dev nD) : FVec Ideal S4096x4096 .bf16 := fun i => prod V c (i 0) (i 1)

theorem G_apply (c : Dev nD) (p q : Fin 4096) : G V c (ix2 p q) = prod V c p q := rfl

/-- The sum over the 4096 contracted coordinates split at 2048. -/
theorem prod_split (c : Dev nD) (p q : Fin 4096) :
    prod V c p q = (∑ k : Fin 2048, Aarr V c (ix2 p ⟨2048 * 0 + k.val, by omega⟩) * Barr V c (ix2 ⟨2048 * 0 + k.val, by omega⟩ q))
      + ∑ k : Fin 2048, Aarr V c (ix2 p ⟨2048 * 1 + k.val, by omega⟩) * Barr V c (ix2 ⟨2048 * 1 + k.val, by omega⟩ q) := by
  unfold prod
  refine (Fin.sum_univ_add (a := 2048) (b := 2048) fun k : Fin (2048 + 2048) => Aarr V c (ix2 p k) * Barr V c (ix2 k q)).trans ?_
  refine congrArg₂ (· + ·) (Finset.sum_congr rfl fun k _ => ?_) (Finset.sum_congr rfl fun k _ => ?_)
  · have e : (Fin.castAdd 2048 k : Fin (2048 + 2048)) = (⟨2048 * 0 + k.val, by omega⟩ : Fin 4096) := Fin.ext (by show k.val = 2048 * 0 + k.val; omega)
    rw [e]
  · have e : (Fin.natAdd 2048 k : Fin (2048 + 2048)) = (⟨2048 * 1 + k.val, by omega⟩ : Fin 4096) := Fin.ext (by show 2048 + k.val = 2048 * 1 + k.val; omega)
    rw [e]

/-! ## What the region leaves -/

/-- What an odd point's body leaves in the output block: the store of the accumulation over the pair of points. -/
theorem after_odd (c : Dev nD) (t : Fin cfg2.N) (h0 : ¬t.val % 2 = 0) :
    (dat (F := Ideal) V c).after 2 t
      = k2_pay3 (k2_pay2 (k2_pay2 (k2_pay1 (F := Ideal))
          (iblk V c 0 ⟨t.val - 1, Nat.lt_of_le_of_lt (Nat.sub_le _ _) t.isLt⟩) (iblk V c 1 ⟨t.val - 1, Nat.lt_of_le_of_lt (Nat.sub_le _ _) t.isLt⟩))
          (iblk V c 0 t) (iblk V c 1 t)) := by
  have h0' : (⟨t.val - 1, Nat.lt_of_le_of_lt (Nat.sub_le _ _) t.isLt⟩ : Fin cfg2.N).val % 2 = 0 := by
    show (t.val - 1) % 2 = 0; omega
  rw [after_2, outsAt_B V c t h0]
  unfold outB
  dsimp only
  rw [out_B_eq]
  rw [show outsAt V c (t.val - 1) (Nat.lt_of_le_of_lt (Nat.sub_le _ _) t.isLt)
      = outA V c ⟨t.val - 1, Nat.lt_of_le_of_lt (Nat.sub_le _ _) t.isLt⟩ h0' from outsAt_A V c ⟨t.val - 1, _⟩ h0']
  unfold outA
  dsimp only
  rw [sout_A_eq]

/-- The block of the product the output window names at point `t`, at (a, b). -/
theorem read_G (c : Dev nD) (t : Fin cfg2.N) (a b : Fin 1024)
    (hp : 1024 * (t.val / 8) + a.val < 4096) (hq : 1024 * (t.val / 2 % 4) + b.val < 4096) :
    ((cfg2.win 2).blk t).view.read (Elt Ideal) (G V c) (ix2 a b)
      = prod V c ⟨1024 * (t.val / 8) + a.val, hp⟩ ⟨1024 * (t.val / 2 % 4) + b.val, hq⟩ := by
  have hi := idx2 t
  rw [View.read_apply]
  show G V c _ = _
  unfold G
  congr 1
  · apply Fin.ext
    show win2_2.index t 0 * 1024 + 1 * a.val = 1024 * (t.val / 8) + a.val; rw [hi.1]; omega
  · apply Fin.ext
    show win2_2.index t 1 * 1024 + 1 * b.val = 1024 * (t.val / 2 % 4) + b.val; rw [hi.2]; omega

/-- Every write-back writes its block of the product. -/
theorem flushed_eq (c : Dev nD) (t : Fin cfg2.N) (hf : (cfg2.win 2).flush t = true) :
    (dat (F := Ideal) V c).flushed 2 t = ((cfg2.win 2).blk t).view.read (Elt Ideal) (G V c) := by
  have hN : t.val < 32 := lt_of_lt_of_eq t.isLt (show cfg2.N = 32 from N_2)
  have h1 : t.val % 2 = 1 := (flush2_2 t).mp hf
  have h0 : ¬t.val % 2 = 0 := by omega
  show (cfg2.win 2).cut (grid2.coords t) ((dat (F := Ideal) V c).after 2 t) = _
  rw [after_odd V c t h0]
  funext y
  obtain ⟨a, b, rfl⟩ : ∃ (a b : Fin 1024), y = ix2 a b := ⟨y 0, y 1, eq_ix2 y⟩
  have ha := a.isLt
  have hb := b.isLt
  refine Eq.trans ?_ (read_G V c t a b (by omega) (by omega)).symm
  refine (chain_apply _ _ _ _ a b).trans ?_
  rw [prod_split]
  refine congrArg₂ (· + ·) (Finset.sum_congr rfl fun k _ => ?_) (Finset.sum_congr rfl fun k _ => ?_)
  · have hk := k.isLt
    rw [iblk0_apply V c ⟨t.val - 1, _⟩ a k (by show 1024 * ((t.val - 1) / 8) + a.val < 4096; omega) (by show 2048 * ((t.val - 1) % 2) + k.val < 4096; omega),
      iblk1_apply V c ⟨t.val - 1, _⟩ k b (by show 2048 * ((t.val - 1) % 2) + k.val < 4096; omega) (by show 1024 * ((t.val - 1) / 2 % 4) + b.val < 4096; omega)]
    refine congrArg₂ (· * ·) (congrArg (Aarr V c) ?_) (congrArg (Barr V c) ?_)
    · funext ax; match ax with
      | ⟨0, _⟩ => exact Fin.ext (by show 1024 * ((t.val - 1) / 8) + a.val = 1024 * (t.val / 8) + a.val; omega)
      | ⟨1, _⟩ => exact Fin.ext (by show 2048 * ((t.val - 1) % 2) + k.val = 2048 * 0 + k.val; omega)
    · funext ax; match ax with
      | ⟨0, _⟩ => exact Fin.ext (by show 2048 * ((t.val - 1) % 2) + k.val = 2048 * 0 + k.val; omega)
      | ⟨1, _⟩ => exact Fin.ext (by show 1024 * ((t.val - 1) / 2 % 4) + b.val = 1024 * (t.val / 2 % 4) + b.val; omega)
  · have hk := k.isLt
    rw [iblk0_apply V c t a k (by omega) (by omega), iblk1_apply V c t k b (by omega) (by omega)]
    refine congrArg₂ (· * ·) (congrArg (Aarr V c) ?_) (congrArg (Barr V c) ?_)
    · funext ax; match ax with
      | ⟨0, _⟩ => rfl
      | ⟨1, _⟩ => exact Fin.ext (by show 2048 * (t.val % 2) + k.val = 2048 * 1 + k.val; omega)
    · funext ax; match ax with
      | ⟨0, _⟩ => exact Fin.ext (by show 2048 * (t.val % 2) + k.val = 2048 * 1 + k.val; omega)
      | ⟨1, _⟩ => rfl

/-- The write-backs' blocks tile the output array. -/
theorem cover (i : S4096x4096.Idx) : ∃ t : Fin cfg2.N, (cfg2.win 2).flush t = true ∧ i ∈ ((cfg2.win 2).blk t).view.set := by
  have hi0 : (i 0 : Nat) < 4096 := (i 0).isLt
  have hi1 : (i 1 : Nat) < 4096 := (i 1).isLt
  have hN : cfg2.N = 32 := N_2
  let t : Fin cfg2.N := ⟨8 * ((i 0 : Nat) / 1024) + 2 * ((i 1 : Nat) / 1024) + 1, by rw [hN]; omega⟩
  have ht : t.val = 8 * ((i 0 : Nat) / 1024) + 2 * ((i 1 : Nat) / 1024) + 1 := rfl
  have hx := idx2 t
  refine ⟨t, (flush2_2 t).mpr (by rw [ht]; omega), ?_⟩
  show i ∈ ((View.whole main_v44).slice (win2_2.rect t)).set
  rw [View.set_slice_whole, Rect.mem_set_unit]
  intro ax
  match ax with
  | ⟨0, _⟩ =>
    show win2_2.index t 0 * win2_2.size 0 ≤ (i 0 : Nat) ∧ (i 0 : Nat) < win2_2.index t 0 * win2_2.size 0 + win2_2.xsize (grid2.coords t) 0
    rw [hx.1, show win2_2.size 0 = 1024 from rfl, show win2_2.xsize (grid2.coords t) 0 = 1024 from rfl, ht]; omega
  | ⟨1, _⟩ =>
    show win2_2.index t 1 * win2_2.size 1 ≤ (i 1 : Nat) ∧ (i 1 : Nat) < win2_2.index t 1 * win2_2.size 1 + win2_2.xsize (grid2.coords t) 1
    rw [hx.2, show win2_2.size 1 = 1024 from rfl, show win2_2.xsize (grid2.coords t) 1 = 1024 from rfl, ht]; omega

/-- The output array ends holding the product. -/
theorem final (c : Dev nD) : (dat (F := Ideal) V c).arrAt 2 cfg2.N = G V c :=
  (dat (F := Ideal) V c).arrAt_eq_of_cover 2 (G V c) (flushed_eq V c) cover

/-- THE OUTPUT: entry (p, q) of the output window's array when the region ends is the sum over the 4096 contracted
    coordinates of the products of the two input arrays' entries, as the region found them. -/
theorem arrAt_out (c : Dev nD) (p q : Fin 4096) :
    (show FVec Ideal S4096x4096 .bf16 from (dat (F := Ideal) V c).arrAt 2 cfg2.N) (ix2 p q)
      = ∑ k : Fin 4096, Aarr V c (ix2 p k) * Barr V c (ix2 k q) :=
  congrFun (final V c) (ix2 p q)

/-- THE INPUTS: their arrays are unchanged. -/
theorem arrAt_in0 (c : Dev nD) : (dat (F := Ideal) V c).arrAt 0 cfg2.N = V c (Pipeline.arrRef spec2 0) :=
  ((dat (F := Ideal) V c).arrAt_in 0 rfl _).trans (A_eq V c 0)
theorem arrAt_in1 (c : Dev nD) : (dat (F := Ideal) V c).arrAt 1 cfg2.N = V c (Pipeline.arrRef spec2 1) :=
  ((dat (F := Ideal) V c).arrAt_in 1 rfl _).trans (A_eq V c 1)

end Cert.KernelIdeal.Reg2Value

end
-- ==== Proof.Reg3Value.lean ====
/- Region 3 (custom_call 3) at the exact extended reals: when the region ends, the output window's array holds
   the matrix product of the two input windows' arrays as the region found them — entry (p, q) is the sum over
   the 4096 contracted coordinates k of A(p, k) · B(k, q) —, and the input windows' arrays are unchanged.

   The body accumulates the product over two blocks of 2048 contracted coordinates: at the even point of a pair the
   accumulator is zeroed and the first partial product added, at the odd point the second is added and the
   accumulator stored (the narrowing to the output's format is the identity here). So what the odd point writes
   back is the sum of the two partial products, which is the whole sum split at 2048; the sixteen output blocks
   tile the array. -/
import proofs.«162839_j74869869904021_2_alg».proof.Proof.Reg3
import proofs.«162839_j74869869904021_2_alg».proof.Proof.LibPlainMatmul
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators

namespace Cert.KernelIdeal.Reg3Value

open Cert.KernelIdeal Cert.KernelIdeal.Gen Cert.KernelIdeal.Reg3
open Idealize.ShloMosaic Idealize.ShloMosaic.TcCoe Idealize.ShloMosaic.Tactic Idealize.ShloMosaic.ValueIdx
open Idealize.SL.Sem
open Idealize.ShloMosaic.Pipeline (Dat Cfg Window)

theorem hz : (![0, 0] : Fin 2 → Nat) = fun _ => 0 := funext fun a => by fin_cases a <;> rfl

/-! ## What each case's pieces are, as payloads of the blocks (any float instance) -/

section Pieces

variable {F : FTy → Type} [FloatOps F]

/-- Case A leaves in the scratch the first partial product added to the zero block. -/
theorem sout_A_eq (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0 i) (hc1 : ¬cond1 i) (x0 : Vec F S1024x2048 .bf16) (x1 : Vec F S2048x1024 .bf16) :
    sout_A c i arg3 harg3 arg4 harg4 arg5 harg5 arg6 harg6 hc0 hc1 x0 x1 = k3_pay2 (k3_pay1 (F := F)) x0 x1 := by
  unfold sout_A
  rw [View.read_writes_eq_canon _ _ _ (scover_A c i arg3 harg3 arg4 harg4 arg5 harg5 arg6 harg6 hc0 hc1 x0 x1)]
  unfold kernelRun_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz, View.ld_unit_zero (S := S2048x1024) hz]

/-- Case B leaves in the scratch its partial product added to what the scratch held. -/
theorem sout_B_eq (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) :
    sout_B c i arg3 harg3 arg4 harg4 arg5 harg5 arg6 harg6 hc0 hc1 x0 x1 xs0 = k3_pay2 xs0 x0 x1 := by
  unfold sout_B
  rw [View.read_writes_eq_canon _ _ _ (scover_B c i arg3 harg3 arg4 harg4 arg5 harg5 arg6 harg6 hc0 hc1 x0 x1 xs0)]
  unfold kernelRun_B
  dsimp only
  sl_unfold_words
  rw [View.canon_unit_zero (S := S1024x1024) hz]
  simp only [View.readAt_eq_ld, harg3.read_unread, harg4.read_unread, harg6.read_unread, View.ld_unit_zero (S := S1024x2048) hz, View.ld_unit_zero (S := S2048x1024) hz, View.ld_unit_zero (S := S1024x1024) hz]

/-- Case B leaves in the output block that sum, narrowed to the output's format. -/
theorem out_B_eq (c : Dev nD) (i : grid3.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0 i) (hc1 : cond1 i) (x0 : Vec F S1024x2048 .bf16) (x1 : Vec F S2048x1024 .bf16) (xs0 : Vec F S1024x1024 .f32) :
    out_B_2 c i arg3 harg3 arg4 harg4 arg5 harg5 arg6 harg6 hc0 hc1 x0 x1 xs0 = k3_pay3 (k3_pay2 xs0 x0 x1) := by
  unfold out_B_2
  rw [View.read_writes_eq_canon _ _ _ (cover_B_2 c i arg3 harg3 arg4 harg4 arg5 harg5 arg6 harg6 hc0 hc1 x0 x1 xs0)]
  unfold kernelRun_B
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1024x2048) hz, View.ld_unit_zero (S := S2048x1024) hz, View.ld_unit_zero (S := S1024x1024) hz]

end Pieces

/-! ## The payloads at an entry, over the extended reals -/

/-- The zero block. -/
theorem pay1_apply (j : S1024x1024.Idx) : (k3_pay1 (F := Ideal) j : EReal) = 0 := by
  unfold k3_pay1
  simp only [shapeCast_self]
  exact Ideal.ofBits_zero_f32

/-- The accumulation step at entry (a, b): what the accumulator held plus the partial product over the block's
    2048 contracted coordinates. -/
theorem pay2_apply (v3 : FVec Ideal S1024x1024 .f32) (v4 : FVec Ideal S1024x2048 .bf16) (v6 : FVec Ideal S2048x1024 .bf16) (a b : Fin 1024) :
    (k3_pay2 (F := Ideal) v3 v4 v6 (ix2 a b) : EReal) = v3 (ix2 a b) + ∑ k : Fin 2048, v4 (ix2 a k) * v6 (ix2 k b) := by
  unfold k3_pay2
  simp only [shapeCast_self]
  exact congrArg (fun z : EReal => v3 (ix2 a b) + z)
    (matmul_plain_zero_apply dot_S1024x2048_S2048x1024_S1024x1024_1_0_0_1_n_n_wf none v4 v6 a b)

/-- The narrowing to the output's format is the identity. -/
theorem pay3_eq (v : FVec Ideal S1024x1024 .f32) : k3_pay3 (F := Ideal) v = v := rfl

/-- The two steps and the store, at entry (a, b): the sum of the two partial products. -/
theorem chain_apply (x0' : FVec Ideal S1024x2048 .bf16) (x1' : FVec Ideal S2048x1024 .bf16) (x0 : FVec Ideal S1024x2048 .bf16) (x1 : FVec Ideal S2048x1024 .bf16) (a b : Fin 1024) :
    (k3_pay3 (F := Ideal) (k3_pay2 (F := Ideal) (k3_pay2 (F := Ideal) (k3_pay1 (F := Ideal)) x0' x1') x0 x1) (ix2 a b) : EReal)
      = (∑ k : Fin 2048, x0' (ix2 a k) * x1' (ix2 k b)) + ∑ k : Fin 2048, x0 (ix2 a k) * x1 (ix2 k b) := by
  rw [pay3_eq]
  refine (pay2_apply _ x0 x1 a b).trans ?_
  refine congrArg (fun z : EReal => z + ∑ k : Fin 2048, x0 (ix2 a k) * x1 (ix2 k b)) ?_
  refine (pay2_apply _ x0' x1' a b).trans ?_
  rw [pay1_apply, zero_add]

/-! ## The blocks, read off the arrays -/

variable (V : (c : Dev nD) → (b : Ref sig .tc) → Buf (Elt Ideal) ((c : Thread nD τ).loc b))

/-- The two input windows' arrays as the region finds them, as functions into the extended reals. -/
abbrev Aarr (c : Dev nD) : FVec Ideal S4096x4096 .bf16 := V c (Pipeline.arrRef spec3 0)
abbrev Barr (c : Dev nD) : FVec Ideal S4096x4096 .bf16 := V c (Pipeline.arrRef spec3 1)

/-- The windows' block indices at a point, in closed form (the grid is 4 × 4 × 2, the last axis fastest). -/
theorem idx0 : ∀ t : Fin cfg3.N, (cfg3.win 0).index t 0 = t.val / 8 ∧ (cfg3.win 0).index t 1 = t.val % 2 :=
  (by decide +kernel : ∀ t : Fin grid3.N, win3_0.index t 0 = t.val / 8 ∧ win3_0.index t 1 = t.val % 2)
theorem idx1 : ∀ t : Fin cfg3.N, (cfg3.win 1).index t 0 = t.val % 2 ∧ (cfg3.win 1).index t 1 = t.val / 2 % 4 :=
  (by decide +kernel : ∀ t : Fin grid3.N, win3_1.index t 0 = t.val % 2 ∧ win3_1.index t 1 = t.val / 2 % 4)
theorem idx2 : ∀ t : Fin cfg3.N, (cfg3.win 2).index t 0 = t.val / 8 ∧ (cfg3.win 2).index t 1 = t.val / 2 % 4 :=
  (by decide +kernel : ∀ t : Fin grid3.N, win3_2.index t 0 = t.val / 8 ∧ win3_2.index t 1 = t.val / 2 % 4)

/-- Window 0's block at point `t`, at (a, k): the left array at row block `t / 8`, column block `t % 2`. -/
theorem iblk0_apply (c : Dev nD) (t : Fin cfg3.N) (a : Fin 1024) (k : Fin 2048)
    (h0 : 1024 * (t.val / 8) + a.val < 4096) (h1 : 2048 * (t.val % 2) + k.val < 4096) :
    (iblk V c 0 t : FVec Ideal S1024x2048 .bf16) (ix2 a k)
      = Aarr V c (ix2 ⟨1024 * (t.val / 8) + a.val, h0⟩ ⟨2048 * (t.val % 2) + k.val, h1⟩) := by
  have hi := idx0 t
  unfold iblk
  rw [View.read_apply]
  show V c main_v44 _ = V c main_v44 _
  congr 1
  funext ax
  apply Fin.ext
  match ax with
  | ⟨0, _⟩ => show win3_0.index t 0 * 1024 + 1 * a.val = 1024 * (t.val / 8) + a.val; rw [hi.1]; omega
  | ⟨1, _⟩ => show win3_0.index t 1 * 2048 + 1 * k.val = 2048 * (t.val % 2) + k.val; rw [hi.2]; omega

/-- Window 1's block at point `t`, at (k, b): the right array at row block `t % 2`, column block `t / 2 % 4`. -/
theorem iblk1_apply (c : Dev nD) (t : Fin cfg3.N) (k : Fin 2048) (b : Fin 1024)
    (h0 : 2048 * (t.val % 2) + k.val < 4096) (h1 : 1024 * (t.val / 2 % 4) + b.val < 4096) :
    (iblk V c 1 t : FVec Ideal S2048x1024 .bf16) (ix2 k b)
      = Barr V c (ix2 ⟨2048 * (t.val % 2) + k.val, h0⟩ ⟨1024 * (t.val / 2 % 4) + b.val, h1⟩) := by
  have hi := idx1 t
  unfold iblk
  rw [View.read_apply]
  show V c main_v0 _ = V c main_v0 _
  congr 1
  funext ax
  apply Fin.ext
  match ax with
  | ⟨0, _⟩ => show win3_1.index t 0 * 2048 + 1 * k.val = 2048 * (t.val % 2) + k.val; rw [hi.1]; omega
  | ⟨1, _⟩ => show win3_1.index t 1 * 1024 + 1 * b.val = 1024 * (t.val / 2 % 4) + b.val; rw [hi.2]; omega

/-! ## The product -/

/-- Entry (p, q) of the product of the two arrays. -/
def prod (c : Dev nD) (p q : Fin 4096) : EReal := ∑ k : Fin 4096, Aarr V c (ix2 p k) * Barr V c (ix2 k q)

/-- The product as the contents of the output array. -/
def G (c : Dev nD) : FVec Ideal S4096x4096 .bf16 := fun i => prod V c (i 0) (i 1)

theorem G_apply (c : Dev nD) (p q : Fin 4096) : G V c (ix2 p q) = prod V c p q := rfl

/-- The sum over the 4096 contracted coordinates split at 2048. -/
theorem prod_split (c : Dev nD) (p q : Fin 4096) :
    prod V c p q = (∑ k : Fin 2048, Aarr V c (ix2 p ⟨2048 * 0 + k.val, by omega⟩) * Barr V c (ix2 ⟨2048 * 0 + k.val, by omega⟩ q))
      + ∑ k : Fin 2048, Aarr V c (ix2 p ⟨2048 * 1 + k.val, by omega⟩) * Barr V c (ix2 ⟨2048 * 1 + k.val, by omega⟩ q) := by
  unfold prod
  refine (Fin.sum_univ_add (a := 2048) (b := 2048) fun k : Fin (2048 + 2048) => Aarr V c (ix2 p k) * Barr V c (ix2 k q)).trans ?_
  refine congrArg₂ (· + ·) (Finset.sum_congr rfl fun k _ => ?_) (Finset.sum_congr rfl fun k _ => ?_)
  · have e : (Fin.castAdd 2048 k : Fin (2048 + 2048)) = (⟨2048 * 0 + k.val, by omega⟩ : Fin 4096) := Fin.ext (by show k.val = 2048 * 0 + k.val; omega)
    rw [e]
  · have e : (Fin.natAdd 2048 k : Fin (2048 + 2048)) = (⟨2048 * 1 + k.val, by omega⟩ : Fin 4096) := Fin.ext (by show 2048 + k.val = 2048 * 1 + k.val; omega)
    rw [e]

/-! ## What the region leaves -/

/-- What an odd point's body leaves in the output block: the store of the accumulation over the pair of points. -/
theorem after_odd (c : Dev nD) (t : Fin cfg3.N) (h0 : ¬t.val % 2 = 0) :
    (dat (F := Ideal) V c).after 2 t
      = k3_pay3 (k3_pay2 (k3_pay2 (k3_pay1 (F := Ideal))
          (iblk V c 0 ⟨t.val - 1, Nat.lt_of_le_of_lt (Nat.sub_le _ _) t.isLt⟩) (iblk V c 1 ⟨t.val - 1, Nat.lt_of_le_of_lt (Nat.sub_le _ _) t.isLt⟩))
          (iblk V c 0 t) (iblk V c 1 t)) := by
  have h0' : (⟨t.val - 1, Nat.lt_of_le_of_lt (Nat.sub_le _ _) t.isLt⟩ : Fin cfg3.N).val % 2 = 0 := by
    show (t.val - 1) % 2 = 0; omega
  rw [after_2, outsAt_B V c t h0]
  unfold outB
  dsimp only
  rw [out_B_eq]
  rw [show outsAt V c (t.val - 1) (Nat.lt_of_le_of_lt (Nat.sub_le _ _) t.isLt)
      = outA V c ⟨t.val - 1, Nat.lt_of_le_of_lt (Nat.sub_le _ _) t.isLt⟩ h0' from outsAt_A V c ⟨t.val - 1, _⟩ h0']
  unfold outA
  dsimp only
  rw [sout_A_eq]

/-- The block of the product the output window names at point `t`, at (a, b). -/
theorem read_G (c : Dev nD) (t : Fin cfg3.N) (a b : Fin 1024)
    (hp : 1024 * (t.val / 8) + a.val < 4096) (hq : 1024 * (t.val / 2 % 4) + b.val < 4096) :
    ((cfg3.win 2).blk t).view.read (Elt Ideal) (G V c) (ix2 a b)
      = prod V c ⟨1024 * (t.val / 8) + a.val, hp⟩ ⟨1024 * (t.val / 2 % 4) + b.val, hq⟩ := by
  have hi := idx2 t
  rw [View.read_apply]
  show G V c _ = _
  unfold G
  congr 1
  · apply Fin.ext
    show win3_2.index t 0 * 1024 + 1 * a.val = 1024 * (t.val / 8) + a.val; rw [hi.1]; omega
  · apply Fin.ext
    show win3_2.index t 1 * 1024 + 1 * b.val = 1024 * (t.val / 2 % 4) + b.val; rw [hi.2]; omega

/-- Every write-back writes its block of the product. -/
theorem flushed_eq (c : Dev nD) (t : Fin cfg3.N) (hf : (cfg3.win 2).flush t = true) :
    (dat (F := Ideal) V c).flushed 2 t = ((cfg3.win 2).blk t).view.read (Elt Ideal) (G V c) := by
  have hN : t.val < 32 := lt_of_lt_of_eq t.isLt (show cfg3.N = 32 from N_3)
  have h1 : t.val % 2 = 1 := (flush3_2 t).mp hf
  have h0 : ¬t.val % 2 = 0 := by omega
  show (cfg3.win 2).cut (grid3.coords t) ((dat (F := Ideal) V c).after 2 t) = _
  rw [after_odd V c t h0]
  funext y
  obtain ⟨a, b, rfl⟩ : ∃ (a b : Fin 1024), y = ix2 a b := ⟨y 0, y 1, eq_ix2 y⟩
  have ha := a.isLt
  have hb := b.isLt
  refine Eq.trans ?_ (read_G V c t a b (by omega) (by omega)).symm
  refine (chain_apply _ _ _ _ a b).trans ?_
  rw [prod_split]
  refine congrArg₂ (· + ·) (Finset.sum_congr rfl fun k _ => ?_) (Finset.sum_congr rfl fun k _ => ?_)
  · have hk := k.isLt
    rw [iblk0_apply V c ⟨t.val - 1, _⟩ a k (by show 1024 * ((t.val - 1) / 8) + a.val < 4096; omega) (by show 2048 * ((t.val - 1) % 2) + k.val < 4096; omega),
      iblk1_apply V c ⟨t.val - 1, _⟩ k b (by show 2048 * ((t.val - 1) % 2) + k.val < 4096; omega) (by show 1024 * ((t.val - 1) / 2 % 4) + b.val < 4096; omega)]
    refine congrArg₂ (· * ·) (congrArg (Aarr V c) ?_) (congrArg (Barr V c) ?_)
    · funext ax; match ax with
      | ⟨0, _⟩ => exact Fin.ext (by show 1024 * ((t.val - 1) / 8) + a.val = 1024 * (t.val / 8) + a.val; omega)
      | ⟨1, _⟩ => exact Fin.ext (by show 2048 * ((t.val - 1) % 2) + k.val = 2048 * 0 + k.val; omega)
    · funext ax; match ax with
      | ⟨0, _⟩ => exact Fin.ext (by show 2048 * ((t.val - 1) % 2) + k.val = 2048 * 0 + k.val; omega)
      | ⟨1, _⟩ => exact Fin.ext (by show 1024 * ((t.val - 1) / 2 % 4) + b.val = 1024 * (t.val / 2 % 4) + b.val; omega)
  · have hk := k.isLt
    rw [iblk0_apply V c t a k (by omega) (by omega), iblk1_apply V c t k b (by omega) (by omega)]
    refine congrArg₂ (· * ·) (congrArg (Aarr V c) ?_) (congrArg (Barr V c) ?_)
    · funext ax; match ax with
      | ⟨0, _⟩ => rfl
      | ⟨1, _⟩ => exact Fin.ext (by show 2048 * (t.val % 2) + k.val = 2048 * 1 + k.val; omega)
    · funext ax; match ax with
      | ⟨0, _⟩ => exact Fin.ext (by show 2048 * (t.val % 2) + k.val = 2048 * 1 + k.val; omega)
      | ⟨1, _⟩ => rfl

/-- The write-backs' blocks tile the output array. -/
theorem cover (i : S4096x4096.Idx) : ∃ t : Fin cfg3.N, (cfg3.win 2).flush t = true ∧ i ∈ ((cfg3.win 2).blk t).view.set := by
  have hi0 : (i 0 : Nat) < 4096 := (i 0).isLt
  have hi1 : (i 1 : Nat) < 4096 := (i 1).isLt
  have hN : cfg3.N = 32 := N_3
  let t : Fin cfg3.N := ⟨8 * ((i 0 : Nat) / 1024) + 2 * ((i 1 : Nat) / 1024) + 1, by rw [hN]; omega⟩
  have ht : t.val = 8 * ((i 0 : Nat) / 1024) + 2 * ((i 1 : Nat) / 1024) + 1 := rfl
  have hx := idx2 t
  refine ⟨t, (flush3_2 t).mpr (by rw [ht]; omega), ?_⟩
  show i ∈ ((View.whole main_v45).slice (win3_2.rect t)).set
  rw [View.set_slice_whole, Rect.mem_set_unit]
  intro ax
  match ax with
  | ⟨0, _⟩ =>
    show win3_2.index t 0 * win3_2.size 0 ≤ (i 0 : Nat) ∧ (i 0 : Nat) < win3_2.index t 0 * win3_2.size 0 + win3_2.xsize (grid3.coords t) 0
    rw [hx.1, show win3_2.size 0 = 1024 from rfl, show win3_2.xsize (grid3.coords t) 0 = 1024 from rfl, ht]; omega
  | ⟨1, _⟩ =>
    show win3_2.index t 1 * win3_2.size 1 ≤ (i 1 : Nat) ∧ (i 1 : Nat) < win3_2.index t 1 * win3_2.size 1 + win3_2.xsize (grid3.coords t) 1
    rw [hx.2, show win3_2.size 1 = 1024 from rfl, show win3_2.xsize (grid3.coords t) 1 = 1024 from rfl, ht]; omega

/-- The output array ends holding the product. -/
theorem final (c : Dev nD) : (dat (F := Ideal) V c).arrAt 2 cfg3.N = G V c :=
  (dat (F := Ideal) V c).arrAt_eq_of_cover 2 (G V c) (flushed_eq V c) cover

/-- THE OUTPUT: entry (p, q) of the output window's array when the region ends is the sum over the 4096 contracted
    coordinates of the products of the two input arrays' entries, as the region found them. -/
theorem arrAt_out (c : Dev nD) (p q : Fin 4096) :
    (show FVec Ideal S4096x4096 .bf16 from (dat (F := Ideal) V c).arrAt 2 cfg3.N) (ix2 p q)
      = ∑ k : Fin 4096, Aarr V c (ix2 p k) * Barr V c (ix2 k q) :=
  congrFun (final V c) (ix2 p q)

/-- THE INPUTS: their arrays are unchanged. -/
theorem arrAt_in0 (c : Dev nD) : (dat (F := Ideal) V c).arrAt 0 cfg3.N = V c (Pipeline.arrRef spec3 0) :=
  ((dat (F := Ideal) V c).arrAt_in 0 rfl _).trans (A_eq V c 0)
theorem arrAt_in1 (c : Dev nD) : (dat (F := Ideal) V c).arrAt 1 cfg3.N = V c (Pipeline.arrRef spec3 1) :=
  ((dat (F := Ideal) V c).arrAt_in 1 rfl _).trans (A_eq V c 1)

end Cert.KernelIdeal.Reg3Value

end
-- ==== Proof.Reg4ValuePieces.lean ====
/- The value of region 4, part 1: what each case of the kernel body leaves in the two accumulators and in the output
   block's buffer, as the body's payloads of the blocks it loaded (at any float instance). At a first point of a row
   block the accumulators end at the block products added to the zero fill; at a second point at the block products
   added to what they held, and the output block at the masked combination of the two. -/
import proofs.«162839_j74869869904021_2_alg».proof.Proof.Reg4
import Idealize.ShloMosaic.Lib.Pipeline.Value
import Idealize.ShloMosaic.Lib.Tactic

set_option maxRecDepth 16384

noncomputable section

namespace Cert.KernelIdeal.Reg4Value

open Cert.KernelIdeal Cert.KernelIdeal.Gen
open Idealize.ShloMosaic Idealize.ShloMosaic.TcCoe Idealize.ShloMosaic.Tactic Idealize.SL.Sem
open Idealize.ShloMosaic.Pipeline (Dat)

open Cert.KernelIdeal.Reg4
variable {F : FTy → Type} [FloatOps F]

theorem hz : (![0, 0] : Fin 2 → Nat) = fun _ => 0 := funext fun a => by fin_cases a <;> rfl

/-- k = 0: the first accumulator ends at the zero fill plus the first block product. -/
theorem sout_A_0_eq (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i) (x0 : Vec F S512x2048 .bf16) (x1 : Vec F S512x2048 .bf16) (x2 : Vec F S2048x256 .bf16) (x3 : Vec F S2048x256 .bf16) (x4 : Vec F S512x1 .f32) :
    sout_A_0 c i arg2 harg2 arg3 harg3 arg4 harg4 arg5 harg5 arg6 harg6 arg7 harg7 arg8 harg8 arg9 harg9 hc0 hc1 x0 x1 x2 x3 x4 = k4_pay3 (k4_pay1 (F := F)) x0 x2 := by
  unfold sout_A_0
  rw [View.read_writes_junk_eq_canon]
  unfold kernelRun_A
  dsimp only
  sl_unfold_words
  rw [View.canon_cons_unit_zero (S := S512x256) hz, View.readCov_unit_zero (S := S512x256) _ hz]
  simp only [View.readAt_eq_ld, harg2.read_unread, harg4.read_unread, View.ld_unit_zero (S := S512x2048) hz, View.ld_unit_zero (S := S2048x256) hz]

/-- k = 0: the second accumulator likewise. -/
theorem sout_A_1_eq (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : cond0 i) (hc1 : ¬cond1 i) (x0 : Vec F S512x2048 .bf16) (x1 : Vec F S512x2048 .bf16) (x2 : Vec F S2048x256 .bf16) (x3 : Vec F S2048x256 .bf16) (x4 : Vec F S512x1 .f32) :
    sout_A_1 c i arg2 harg2 arg3 harg3 arg4 harg4 arg5 harg5 arg6 harg6 arg7 harg7 arg8 harg8 arg9 harg9 hc0 hc1 x0 x1 x2 x3 x4 = k4_pay4 (k4_pay2 (F := F)) x1 x3 := by
  unfold sout_A_1
  rw [View.read_writes_junk_eq_canon]
  unfold kernelRun_A
  dsimp only
  sl_unfold_words
  rw [View.canon_cons_unit_zero (S := S512x256) hz, View.readCov_unit_zero (S := S512x256) _ hz]
  simp only [View.readAt_eq_ld, harg3.read_unread, harg5.read_unread, View.ld_unit_zero (S := S512x2048) hz, View.ld_unit_zero (S := S2048x256) hz]

/-- k = 1: the first accumulator ends at what it held plus the block product. -/
theorem sout_B_0_eq (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i) (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) :
    sout_B_0 c i arg2 harg2 arg3 harg3 arg4 harg4 arg5 harg5 arg6 harg6 arg7 harg7 arg8 harg8 arg9 harg9 hc0 hc1 x0 x1 x2 x3 x4 xs0 xs1 = k4_pay3 xs0 x0 x2 := by
  unfold sout_B_0
  rw [View.read_writes_junk_eq_canon]
  unfold kernelRun_B
  dsimp only
  sl_unfold_words
  rw [View.canon_unit_zero (S := S512x256) hz]
  simp only [View.readAt_eq_ld, harg2.read_unread, harg4.read_unread, harg8.read_unread, View.ld_unit_zero (S := S512x2048) hz, View.ld_unit_zero (S := S2048x256) hz, View.ld_unit_zero (S := S512x256) hz]

/-- k = 1: the second accumulator likewise. -/
theorem sout_B_1_eq (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i) (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) :
    sout_B_1 c i arg2 harg2 arg3 harg3 arg4 harg4 arg5 harg5 arg6 harg6 arg7 harg7 arg8 harg8 arg9 harg9 hc0 hc1 x0 x1 x2 x3 x4 xs0 xs1 = k4_pay4 xs1 x1 x3 := by
  unfold sout_B_1
  rw [View.read_writes_junk_eq_canon]
  unfold kernelRun_B
  dsimp only
  sl_unfold_words
  rw [View.canon_unit_zero (S := S512x256) hz]
  simp only [View.readAt_eq_ld, harg3.read_unread, harg5.read_unread, harg9.read_unread, View.ld_unit_zero (S := S512x2048) hz, View.ld_unit_zero (S := S2048x256) hz, View.ld_unit_zero (S := S512x256) hz]

/-- k = 1: the output block ends at the masked combination of the two accumulators just updated. -/
theorem out_B_5_eq (c : Dev nD) (i : grid4.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S512x1 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (hc0 : ¬cond0 i) (hc1 : cond1 i) (x0 : Vec F S512x2048 .bf16) (x1 : Vec F S512x2048 .bf16) (x2 : Vec F S2048x256 .bf16) (x3 : Vec F S2048x256 .bf16) (x4 : Vec F S512x1 .f32) (xs0 : Vec F S512x256 .f32) (xs1 : Vec F S512x256 .f32) :
    out_B_5 c i arg2 harg2 arg3 harg3 arg4 harg4 arg5 harg5 arg6 harg6 arg7 harg7 arg8 harg8 arg9 harg9 hc0 hc1 x0 x1 x2 x3 x4 xs0 xs1 = k4_pay5 x4 (k4_pay3 xs0 x0 x2) (k4_pay4 xs1 x1 x3) := by
  unfold out_B_5
  rw [View.read_writes_junk_eq_canon]
  unfold kernelRun_B
  dsimp only
  sl_unfold_words
  rw [View.canon_unit_zero (S := S512x256) hz, View.readCov_unit_zero (S := S512x256) arg8.view hz, View.readCov_unit_zero (S := S512x256) arg9.view hz]
  simp only [View.readAt_eq_ld, harg2.read_unread, harg3.read_unread, harg4.read_unread, harg5.read_unread, harg6.read_unread, harg8.read_unread, harg9.read_unread,
    View.ld_unit_zero (S := S512x2048) hz, View.ld_unit_zero (S := S2048x256) hz, View.ld_unit_zero (S := S512x256) hz, View.ld_unit_zero (S := S512x1) hz]

end Cert.KernelIdeal.Reg4Value

end
-- ==== Proof.Reg4ValuePay.lean ====
/- The value of region 4, part 2: the kernel body's payloads read at an index, over the extended reals. The zero fill
   is 0; an accumulator update at (r, q) adds to what the accumulator held the sum over the 2048 columns k of the
   left block's (r, k) times the right block's (k, q); the output payload at (r, q) is the mask column's entry at row r
   times the first accumulator plus (one minus that entry) times the second. -/
import proofs.«162839_j74869869904021_2_alg».proof.Proof.Gen.KernelIdeal.Skeleton
import proofs.«162839_j74869869904021_2_alg».proof.Proof.LibPlainMatmul
import Idealize.ShloMosaic.Lib.Pipeline.Value
import Idealize.ShloMosaic.Lib.ValueIdx

set_option maxRecDepth 16384

noncomputable section

namespace Cert.KernelIdeal.Reg4Value

open Cert.KernelIdeal Cert.KernelIdeal.Gen
open Idealize.ShloMosaic Idealize.ShloMosaic.TcCoe Idealize.ShloMosaic.Tactic Idealize.SL.Sem
open Idealize.ShloMosaic.Pipeline (Dat)

open Idealize.ShloMosaic.ValueIdx
open scoped BigOperators

/-- The literal the output payload subtracts the mask from (the f32 word of one), as an extended real. -/
abbrev oneLit : EReal := Ideal.ofBits .f32 0x3F800000#32

theorem pay1_apply (r : Fin 512) (q : Fin 256) : (k4_pay1 (F := Ideal)) (ix2 r q) = 0 := by
  unfold k4_pay1
  simp only [shapeCast_self]
  exact Ideal.ofBits_zero_f32

theorem pay2_apply (r : Fin 512) (q : Fin 256) : (k4_pay2 (F := Ideal)) (ix2 r q) = 0 := by
  unfold k4_pay2
  simp only [shapeCast_self]
  exact Ideal.ofBits_zero_f32

theorem pay3_apply (acc : Vec Ideal S512x256 .f32) (a : Vec Ideal S512x2048 .bf16) (b : Vec Ideal S2048x256 .bf16)
    (r : Fin 512) (q : Fin 256) :
    k4_pay3 acc a b (ix2 r q) = acc (ix2 r q) + ∑ k : Fin 2048, a (ix2 r k) * b (ix2 k q) := by
  unfold k4_pay3
  simp only [shapeCast_self]
  exact congrArg (acc (ix2 r q) + ·) (matmul_plain_zero_apply dot_S512x2048_S2048x256_S512x256_1_0_0_1_n_n_wf none a b r q)

theorem pay4_apply (acc : Vec Ideal S512x256 .f32) (a : Vec Ideal S512x2048 .bf16) (b : Vec Ideal S2048x256 .bf16)
    (r : Fin 512) (q : Fin 256) :
    k4_pay4 acc a b (ix2 r q) = acc (ix2 r q) + ∑ k : Fin 2048, a (ix2 r k) * b (ix2 k q) := by
  unfold k4_pay4
  simp only [shapeCast_self]
  exact congrArg (acc (ix2 r q) + ·) (matmul_plain_zero_apply dot_S512x2048_S2048x256_S512x256_1_0_0_1_n_n_wf none a b r q)

theorem pay5_apply (m : Vec Ideal S512x1 .f32) (a b : Vec Ideal S512x256 .f32) (r : Fin 512) (q : Fin 256) :
    k4_pay5 m a b (ix2 r q) = m (ix2 r 0) * a (ix2 r q) + (oneLit - m (ix2 r 0)) * b (ix2 r q) := by
  unfold k4_pay5
  simp only [shapeCast_self]
  have e1 : broadcastTo S512x256 m broadcasts_S512x1_S512x256 (ix2 r q) = m (ix2 r 0) :=
    broadcastTo_apply m broadcasts_S512x1_S512x256 (ix2 r q) (ix2 r 0) (fun ax => by
      match ax with
      | ⟨0, _⟩ => rfl
      | ⟨1, _⟩ => rfl)
  have e2 : broadcastTo S512x256 (subf (broadcast S512x1 (Scalar.ofBits .f32 0x3F800000#32 : Ideal .f32)) m) broadcasts_S512x1_S512x256 (ix2 r q)
      = oneLit - m (ix2 r 0) :=
    (broadcastTo_apply _ broadcasts_S512x1_S512x256 (ix2 r q) (ix2 r 0) (fun ax => by
      match ax with
      | ⟨0, _⟩ => rfl
      | ⟨1, _⟩ => rfl)).trans rfl
  exact congrArg₂ (· + ·) (congrArg (· * a (ix2 r q)) e1) (congrArg (· * b (ix2 r q)) e2)

end Cert.KernelIdeal.Reg4Value

end
-- ==== Proof.Reg4Value.lean ====
/- The value of region 4, last part: what the output array holds when the region ends, as one whole-array function
   of the arrays the region is entered with, index by index over the extended reals:
       out(p, q) = m(p) * (sum over k of A(p, k) * U0(k, q)) + (one - m(p)) * (sum over k of A3(p, k) * U2(k, q)),
   k over all 4096 columns, m the mask column, "one" the literal the kernel subtracts the mask from. The sum over the
   4096 columns is the sum over the first 2048 (added to the zero fill at the first point of a row block) plus the sum
   over the last 2048 (added at the second point); over the extended reals a finite sum splits so and adding zero
   changes nothing. The input windows' arrays are unchanged. -/
import proofs.«162839_j74869869904021_2_alg».proof.Proof.Reg4ValuePieces
import proofs.«162839_j74869869904021_2_alg».proof.Proof.Reg4ValuePay
import Idealize.ShloMosaic.Lib.Pipeline.Value

set_option maxRecDepth 16384

noncomputable section

namespace Cert.KernelIdeal.Reg4Value

open Cert.KernelIdeal Cert.KernelIdeal.Gen
open Idealize.ShloMosaic Idealize.ShloMosaic.TcCoe Idealize.ShloMosaic.Tactic Idealize.SL.Sem
open Idealize.ShloMosaic.Pipeline (Dat)

open Cert.KernelIdeal.Reg4 Idealize.ShloMosaic.ValueIdx
open scoped BigOperators

variable (V : (c : Dev nD) → (b : Ref sig .tc) → Buf (Elt Ideal) ((c : Thread nD τ).loc b))

/-! ## The windows' block indices in closed form (decided over the 16 points) -/

theorem idx_0 : ∀ t : Fin cfg4.N, win4_0.index t 0 = t.val / 2 ∧ win4_0.index t 1 = t.val % 2 :=
  (by decide +kernel : ∀ t : Fin grid4.N, win4_0.index t 0 = t.val / 2 ∧ win4_0.index t 1 = t.val % 2)
theorem idx_1 : ∀ t : Fin cfg4.N, win4_1.index t 0 = t.val / 2 ∧ win4_1.index t 1 = t.val % 2 :=
  (by decide +kernel : ∀ t : Fin grid4.N, win4_1.index t 0 = t.val / 2 ∧ win4_1.index t 1 = t.val % 2)
theorem idx_2 : ∀ t : Fin cfg4.N, win4_2.index t 0 = t.val % 2 ∧ win4_2.index t 1 = 0 :=
  (by decide +kernel : ∀ t : Fin grid4.N, win4_2.index t 0 = t.val % 2 ∧ win4_2.index t 1 = 0)
theorem idx_3 : ∀ t : Fin cfg4.N, win4_3.index t 0 = t.val % 2 ∧ win4_3.index t 1 = 0 :=
  (by decide +kernel : ∀ t : Fin grid4.N, win4_3.index t 0 = t.val % 2 ∧ win4_3.index t 1 = 0)
theorem idx_4 : ∀ t : Fin cfg4.N, win4_4.index t 0 = t.val / 2 ∧ win4_4.index t 1 = 0 :=
  (by decide +kernel : ∀ t : Fin grid4.N, win4_4.index t 0 = t.val / 2 ∧ win4_4.index t 1 = 0)
theorem idx_5 : ∀ t : Fin cfg4.N, win4_5.index t 0 = t.val / 2 ∧ win4_5.index t 1 = 0 :=
  (by decide +kernel : ∀ t : Fin grid4.N, win4_5.index t 0 = t.val / 2 ∧ win4_5.index t 1 = 0)

/-! ## The region's arrays as functions into the extended reals -/

/-- The adjacency (window 0), its third power (window 1), the two feature arrays (windows 2, 3), the mask column (window 4). -/
abbrev adj (c : Dev nD) : S4096x4096.Idx → EReal := V c main_v0
abbrev adj3 (c : Dev nD) : S4096x4096.Idx → EReal := V c main_v45
abbrev u0 (c : Dev nD) : S4096x256.Idx → EReal := V c main_v48
abbrev u2 (c : Dev nD) : S4096x256.Idx → EReal := V c main_v51
abbrev msk (c : Dev nD) : S4096x1.Idx → EReal := V c main_v43

/-! ## The blocks and the buffers as functions into the extended reals -/

abbrev blkA (c : Dev nD) (t : Fin cfg4.N) : S512x2048.Idx → EReal := iblk V c 0 t
abbrev blkA3 (c : Dev nD) (t : Fin cfg4.N) : S512x2048.Idx → EReal := iblk V c 1 t
abbrev blkU0 (c : Dev nD) (t : Fin cfg4.N) : S2048x256.Idx → EReal := iblk V c 2 t
abbrev blkU2 (c : Dev nD) (t : Fin cfg4.N) : S2048x256.Idx → EReal := iblk V c 3 t
abbrev blkM (c : Dev nD) (t : Fin cfg4.N) : S512x1.Idx → EReal := iblk V c 4 t
/-- The output block's buffer and the two accumulators after position n. -/
abbrev outB (c : Dev nD) (n : ℕ) (h : n < cfg4.N) : S512x256.Idx → EReal := (outsAt V c n h).1
abbrev acc0 (c : Dev nD) (n : ℕ) (h : n < cfg4.N) : S512x256.Idx → EReal := (outsAt V c n h).2.1
abbrev acc1 (c : Dev nD) (n : ℕ) (h : n < cfg4.N) : S512x256.Idx → EReal := (outsAt V c n h).2.2

/-! ## A window's block read at an index is the array at the block's offset plus the index -/

theorem iblk0_apply (c : Dev nD) (t : Fin cfg4.N) (r : Fin 512) (k : Fin 2048) (p : Fin 4096) (kk : Fin 4096)
    (hp : p.val = 512 * (t.val / 2) + r.val) (hk : kk.val = 2048 * (t.val % 2) + k.val) :
    blkA V c t (ix2 r k) = adj V c (ix2 p kk) := by
  unfold blkA iblk
  rw [View.read_apply]
  show V c main_v0 _ = V c main_v0 _
  congr 1
  funext a
  apply Fin.ext
  match a with
  | ⟨0, _⟩ => show win4_0.index t 0 * 512 + 1 * r.val = p.val; rw [(idx_0 t).1, hp]; omega
  | ⟨1, _⟩ => show win4_0.index t 1 * 2048 + 1 * k.val = kk.val; rw [(idx_0 t).2, hk]; omega

theorem iblk1_apply (c : Dev nD) (t : Fin cfg4.N) (r : Fin 512) (k : Fin 2048) (p : Fin 4096) (kk : Fin 4096)
    (hp : p.val = 512 * (t.val / 2) + r.val) (hk : kk.val = 2048 * (t.val % 2) + k.val) :
    blkA3 V c t (ix2 r k) = adj3 V c (ix2 p kk) := by
  unfold blkA3 iblk
  rw [View.read_apply]
  show V c main_v45 _ = V c main_v45 _
  congr 1
  funext a
  apply Fin.ext
  match a with
  | ⟨0, _⟩ => show win4_1.index t 0 * 512 + 1 * r.val = p.val; rw [(idx_1 t).1, hp]; omega
  | ⟨1, _⟩ => show win4_1.index t 1 * 2048 + 1 * k.val = kk.val; rw [(idx_1 t).2, hk]; omega

theorem iblk2_apply (c : Dev nD) (t : Fin cfg4.N) (k : Fin 2048) (q : Fin 256) (kk : Fin 4096)
    (hk : kk.val = 2048 * (t.val % 2) + k.val) :
    blkU0 V c t (ix2 k q) = u0 V c (ix2 kk q) := by
  unfold blkU0 iblk
  rw [View.read_apply]
  show V c main_v48 _ = V c main_v48 _
  congr 1
  funext a
  apply Fin.ext
  match a with
  | ⟨0, _⟩ => show win4_2.index t 0 * 2048 + 1 * k.val = kk.val; rw [(idx_2 t).1, hk]; omega
  | ⟨1, _⟩ => show win4_2.index t 1 * 256 + 1 * q.val = q.val; rw [(idx_2 t).2]; omega

theorem iblk3_apply (c : Dev nD) (t : Fin cfg4.N) (k : Fin 2048) (q : Fin 256) (kk : Fin 4096)
    (hk : kk.val = 2048 * (t.val % 2) + k.val) :
    blkU2 V c t (ix2 k q) = u2 V c (ix2 kk q) := by
  unfold blkU2 iblk
  rw [View.read_apply]
  show V c main_v51 _ = V c main_v51 _
  congr 1
  funext a
  apply Fin.ext
  match a with
  | ⟨0, _⟩ => show win4_3.index t 0 * 2048 + 1 * k.val = kk.val; rw [(idx_3 t).1, hk]; omega
  | ⟨1, _⟩ => show win4_3.index t 1 * 256 + 1 * q.val = q.val; rw [(idx_3 t).2]; omega

theorem iblk4_apply (c : Dev nD) (t : Fin cfg4.N) (r : Fin 512)  (p : Fin 4096)
    (hp : p.val = 512 * (t.val / 2) + r.val) :
    blkM V c t (ix2 r 0) = msk V c (ix2 p 0) := by
  unfold blkM iblk
  rw [View.read_apply]
  show V c main_v43 _ = V c main_v43 _
  congr 1
  funext a
  apply Fin.ext
  match a with
  | ⟨0, _⟩ => show win4_4.index t 0 * 512 + 1 * r.val = p.val; rw [(idx_4 t).1, hp]; omega
  | ⟨1, _⟩ => show win4_4.index t 1 * 1 + 1 * 0 = 0; rw [(idx_4 t).2]

/-! ## The accumulators and the output block, point by point -/

/-- After a first point of a row block each accumulator holds zero plus its block product. -/
theorem acc_even (c : Dev nD) (t : Fin cfg4.N) (h0 : t.val % 2 = 0) (r : Fin 512) (q : Fin 256) :
    acc0 V c t.val t.isLt (ix2 r q) = 0 + ∑ k : Fin 2048, blkA V c t (ix2 r k) * blkU0 V c t (ix2 k q)
    ∧ acc1 V c t.val t.isLt (ix2 r q) = 0 + ∑ k : Fin 2048, blkA3 V c t (ix2 r k) * blkU2 V c t (ix2 k q) := by
  unfold acc0 acc1
  rw [outsAt_A V c t h0]
  unfold caseA
  dsimp only
  rw [sout_A_0_eq, sout_A_1_eq]
  exact ⟨(pay3_apply _ _ _ r q).trans (by rw [pay1_apply]), (pay4_apply _ _ _ r q).trans (by rw [pay2_apply])⟩

/-- After a second point the output block holds the masked combination of the accumulators as the point before left
    them, each with this point's block product added. -/
theorem out_odd (c : Dev nD) (t : Fin cfg4.N) (h0 : ¬t.val % 2 = 0) (r : Fin 512) (q : Fin 256) :
    outB V c t.val t.isLt (ix2 r q)
      = blkM V c t (ix2 r 0) * (acc0 V c (t.val - 1) (Nat.lt_of_le_of_lt (Nat.sub_le _ _) t.isLt) (ix2 r q)
            + ∑ k : Fin 2048, blkA V c t (ix2 r k) * blkU0 V c t (ix2 k q))
        + (oneLit - blkM V c t (ix2 r 0)) * (acc1 V c (t.val - 1) (Nat.lt_of_le_of_lt (Nat.sub_le _ _) t.isLt) (ix2 r q)
            + ∑ k : Fin 2048, blkA3 V c t (ix2 r k) * blkU2 V c t (ix2 k q)) := by
  unfold outB acc0 acc1
  rw [outsAt_B V c t h0]
  unfold caseB
  dsimp only
  rw [out_B_5_eq]
  refine (pay5_apply _ _ _ r q).trans ?_
  rw [pay3_apply, pay4_apply]

/-! ## The whole-array function -/

/-- A sum over the 4096 columns is the sum over the first 2048 plus the sum over the last 2048. -/
theorem sum_split (f : Fin 4096 → EReal) :
    ∑ k : Fin 4096, f k = ∑ k : Fin 2048, f ⟨k.val, by omega⟩ + ∑ k : Fin 2048, f ⟨2048 + k.val, by omega⟩ :=
  (Fin.sum_univ_add (a := 2048) (b := 2048) f).trans rfl

/-- The output at row p, column q. -/
def Gat (c : Dev nD) (p : Fin 4096) (q : Fin 256) : EReal :=
  msk V c (ix2 p 0) * (∑ k : Fin 4096, adj V c (ix2 p k) * u0 V c (ix2 k q))
    + (oneLit - msk V c (ix2 p 0)) * (∑ k : Fin 4096, adj3 V c (ix2 p k) * u2 V c (ix2 k q))

/-- What a second point (k = 1) of row block t / 2 leaves in the output block, at (r, q): the output at row
    512 (t / 2) + r. -/
theorem out_closed (c : Dev nD) (t : Fin cfg4.N) (h1 : t.val % 2 = 1) (r : Fin 512) (q : Fin 256) (p : Fin 4096)
    (hp : p.val = 512 * (t.val / 2) + r.val) :
    outB V c t.val t.isLt (ix2 r q) = Gat V c p q := by
  have h0 : ¬t.val % 2 = 0 := by omega
  have hN : t.val < 16 := lt_of_lt_of_eq t.isLt (show cfg4.N = 16 from N_4)
  have htp : t.val - 1 < cfg4.N := Nat.lt_of_le_of_lt (Nat.sub_le _ _) t.isLt
  have he := acc_even V c ⟨t.val - 1, htp⟩ (by show (t.val - 1) % 2 = 0; omega) r q
  rw [out_odd V c t h0 r q]
  rw [he.1, he.2, zero_add, zero_add]
  unfold Gat
  rw [sum_split (fun k => adj V c (ix2 p k) * u0 V c (ix2 k q)), sum_split (fun k => adj3 V c (ix2 p k) * u2 V c (ix2 k q))]
  rw [iblk4_apply V c t r p hp]
  have hpp : p.val = 512 * ((t.val - 1) / 2) + r.val := by omega
  have s00 : ∑ k : Fin 2048, blkA V c ⟨t.val - 1, htp⟩ (ix2 r k) * blkU0 V c ⟨t.val - 1, htp⟩ (ix2 k q)
      = ∑ k : Fin 2048, adj V c (ix2 p ⟨k.val, by omega⟩) * u0 V c (ix2 ⟨k.val, by omega⟩ q) :=
    Finset.sum_congr rfl fun k _ => by
      rw [iblk0_apply V c ⟨t.val - 1, htp⟩ r k p ⟨k.val, by omega⟩ hpp (by show k.val = 2048 * ((t.val - 1) % 2) + k.val; omega),
        iblk2_apply V c ⟨t.val - 1, htp⟩ k q ⟨k.val, by omega⟩ (by show k.val = 2048 * ((t.val - 1) % 2) + k.val; omega)]
  have s01 : ∑ k : Fin 2048, blkA V c t (ix2 r k) * blkU0 V c t (ix2 k q)
      = ∑ k : Fin 2048, adj V c (ix2 p ⟨2048 + k.val, by omega⟩) * u0 V c (ix2 ⟨2048 + k.val, by omega⟩ q) :=
    Finset.sum_congr rfl fun k _ => by
      rw [iblk0_apply V c t r k p ⟨2048 + k.val, by omega⟩ hp (by show 2048 + k.val = 2048 * (t.val % 2) + k.val; omega),
        iblk2_apply V c t k q ⟨2048 + k.val, by omega⟩ (by show 2048 + k.val = 2048 * (t.val % 2) + k.val; omega)]
  have s10 : ∑ k : Fin 2048, blkA3 V c ⟨t.val - 1, htp⟩ (ix2 r k) * blkU2 V c ⟨t.val - 1, htp⟩ (ix2 k q)
      = ∑ k : Fin 2048, adj3 V c (ix2 p ⟨k.val, by omega⟩) * u2 V c (ix2 ⟨k.val, by omega⟩ q) :=
    Finset.sum_congr rfl fun k _ => by
      rw [iblk1_apply V c ⟨t.val - 1, htp⟩ r k p ⟨k.val, by omega⟩ hpp (by show k.val = 2048 * ((t.val - 1) % 2) + k.val; omega),
        iblk3_apply V c ⟨t.val - 1, htp⟩ k q ⟨k.val, by omega⟩ (by show k.val = 2048 * ((t.val - 1) % 2) + k.val; omega)]
  have s11 : ∑ k : Fin 2048, blkA3 V c t (ix2 r k) * blkU2 V c t (ix2 k q)
      = ∑ k : Fin 2048, adj3 V c (ix2 p ⟨2048 + k.val, by omega⟩) * u2 V c (ix2 ⟨2048 + k.val, by omega⟩ q) :=
    Finset.sum_congr rfl fun k _ => by
      rw [iblk1_apply V c t r k p ⟨2048 + k.val, by omega⟩ hp (by show 2048 + k.val = 2048 * (t.val % 2) + k.val; omega),
        iblk3_apply V c t k q ⟨2048 + k.val, by omega⟩ (by show 2048 + k.val = 2048 * (t.val % 2) + k.val; omega)]
  rw [s00, s01, s10, s11]

/-- The output array when the region ends. -/
def G (c : Dev nD) : Buf (Elt Ideal) ((c : Thread nD τ).loc main_v52) := fun i => Gat V c (i 0) (i 1)

/-- What a write-back (after a second point) writes is its block of G. -/
theorem flushed_eq (c : Dev nD) (t : Fin cfg4.N) (hf : (cfg4.win 5).flush t = true) :
    (dat V c).flushed 5 t = ((cfg4.win 5).blk t).view.read (Elt Ideal) (G V c) := by
  have h1 : t.val % 2 = 1 := (flush4_5 t).mp hf
  show (cfg4.win 5).cut (grid4.coords t) ((dat V c).after 5 t) = _
  rw [after_5]
  refine funext fun (y : S512x256.Idx) => ?_
  obtain ⟨r, q, rfl⟩ : ∃ (r : Fin 512) (q : Fin 256), y = ix2 r q := ⟨y 0, y 1, eq_ix2 y⟩
  rw [View.read_apply]
  show outB V c t.val t.isLt (ix2 r q) = G V c (((cfg4.win 5).blk t).view.emb (ix2 r q))
  have e0 : ((((cfg4.win 5).blk t).view.emb (ix2 r q)) 0).val = 512 * (t.val / 2) + r.val := by
    show win4_5.index t 0 * 512 + 1 * r.val = _; rw [(idx_5 t).1]; omega
  have e1 : (((cfg4.win 5).blk t).view.emb (ix2 r q)) 1 = q :=
    Fin.ext (by show win4_5.index t 1 * 256 + 1 * q.val = q.val; rw [(idx_5 t).2]; omega)
  unfold G
  rw [e1]
  exact out_closed V c t h1 r q _ e0

/-- The write-backs cover the output array: row p is in the block written back after point 2 (p / 512) + 1. -/
theorem cover (i : S4096x256.Idx) : ∃ t : Fin cfg4.N, (cfg4.win 5).flush t = true ∧ i ∈ ((cfg4.win 5).blk t).view.set := by
  have h0 : (i 0 : Nat) < 4096 := (i 0).isLt
  have h1 : (i 1 : Nat) < 256 := (i 1).isLt
  have hN : cfg4.N = 16 := N_4
  have ht : 2 * ((i 0).val / 512) + 1 < cfg4.N := by omega
  refine ⟨⟨2 * ((i 0).val / 512) + 1, ht⟩, (flush4_5 _).mpr (by show (2 * ((i 0).val / 512) + 1) % 2 = 1; omega), ?_⟩
  show i ∈ ((View.whole main_v52).slice (win4_5.rect ⟨2 * ((i 0).val / 512) + 1, ht⟩)).set
  rw [View.set_slice_whole, Rect.mem_set_unit]
  intro a
  match a with
  | ⟨0, _⟩ =>
    show win4_5.index ⟨2 * ((i 0).val / 512) + 1, ht⟩ 0 * 512 ≤ (i 0 : Nat) ∧ (i 0 : Nat) < win4_5.index ⟨2 * ((i 0).val / 512) + 1, ht⟩ 0 * 512 + 512
    rw [(idx_5 ⟨2 * ((i 0).val / 512) + 1, ht⟩).1]
    show (2 * ((i 0).val / 512) + 1) / 2 * 512 ≤ (i 0 : Nat) ∧ (i 0 : Nat) < (2 * ((i 0).val / 512) + 1) / 2 * 512 + 512
    omega
  | ⟨1, _⟩ =>
    show win4_5.index ⟨2 * ((i 0).val / 512) + 1, ht⟩ 1 * 256 ≤ (i 1 : Nat) ∧ (i 1 : Nat) < win4_5.index ⟨2 * ((i 0).val / 512) + 1, ht⟩ 1 * 256 + 256
    rw [(idx_5 ⟨2 * ((i 0).val / 512) + 1, ht⟩).2]
    omega

/-- THE OUTPUT: when the region ends the output window's array holds G. -/
theorem arrAt_out_eq (c : Dev nD) : (dat V c).arrAt 5 cfg4.N = G V c :=
  (dat V c).arrAt_eq_of_cover 5 (G V c) (flushed_eq V c) cover

/-- The same, index by index. -/
theorem arrAt_out (c : Dev nD) (p : Fin 4096) (q : Fin 256) :
    ((dat V c).arrAt 5 cfg4.N : S4096x256.Idx → EReal) (ix2 p q)
      = msk V c (ix2 p 0) * (∑ k : Fin 4096, adj V c (ix2 p k) * u0 V c (ix2 k q))
        + (oneLit - msk V c (ix2 p 0)) * (∑ k : Fin 4096, adj3 V c (ix2 p k) * u2 V c (ix2 k q)) := by
  rw [arrAt_out_eq]; rfl

/-! ## The input windows' arrays are unchanged -/

theorem arrAt_in (c : Dev nD) (w : Fin cfg4.W) (hw : (cfg4.win w).isOut = false) :
    (dat V c).arrAt w cfg4.N = V c (Pipeline.arrRef spec4 w) :=
  ((dat V c).arrAt_in w hw _).trans (A_eq V c w)

theorem arrAt_in0 (c : Dev nD) : (dat V c).arrAt 0 cfg4.N = V c main_v0 := arrAt_in V c 0 rfl
theorem arrAt_in1 (c : Dev nD) : (dat V c).arrAt 1 cfg4.N = V c main_v45 := arrAt_in V c 1 rfl
theorem arrAt_in2 (c : Dev nD) : (dat V c).arrAt 2 cfg4.N = V c main_v48 := arrAt_in V c 2 rfl
theorem arrAt_in3 (c : Dev nD) : (dat V c).arrAt 3 cfg4.N = V c main_v51 := arrAt_in V c 3 rfl
theorem arrAt_in4 (c : Dev nD) : (dat V c).arrAt 4 cfg4.N = V c main_v43 := arrAt_in V c 4 rfl

end Cert.KernelIdeal.Reg4Value

end
-- ==== Proof.KerCompose.lean ====
/- The kernel program's result entry in closed form over the extended reals, by composing the host side's reads with
   the values the last three regions leave. With A the (bf16) adjacency array, m(i) the mask of node i, x the features,
   Ws the last layer's weights and b its bias:
     result(i, q) = ( m(i) * sum_k A(i,k) * (sum_p x(k,p) * Ws(p,q))
                    + (1 - m(i)) * sum_k A3(i,k) * (sum_p x(k,p) * Ws(1024+p,q)) ) + b(q),
   where A3(i,k) = sum_l A2(i,l) * A(l,k) and A2(i,l) = sum_t A(i,t) * A(t,l) are what the fourth and the third region
   leave. Nothing here is algebra: every step rewrites with an equation already proved of a region or of a host stretch. -/
import proofs.«162839_j74869869904021_2_alg».proof.Proof.Frames
import proofs.«162839_j74869869904021_2_alg».proof.Proof.KerReadC
import proofs.«162839_j74869869904021_2_alg».proof.Proof.Reg2Value
import proofs.«162839_j74869869904021_2_alg».proof.Proof.Reg3Value
import proofs.«162839_j74869869904021_2_alg».proof.Proof.Reg4Value

set_option maxRecDepth 16384

noncomputable section

namespace Cert.KernelIdeal.KerCompose

open Cert.KernelIdeal Cert.KernelIdeal.Gen
open Idealize.ShloMosaic Idealize.ShloMosaic.TcCoe Idealize.SL.Sem Idealize.ShloMosaic.ValueIdx
open Cert.KernelIdeal.KerRead
open scoped BigOperators

variable (m : (ℓ : Loc nD τ sig) → Buf (Elt Ideal) ℓ) (c : Dev nD)

local notation "H0'" => (Cert.KernelIdeal.Final.H0 (F := Ideal))
local notation "H1'" => (Cert.KernelIdeal.Final.H1 (F := Ideal))
local notation "H2'" => (Cert.KernelIdeal.Final.H2 (F := Ideal))
local notation "H3'" => (Cert.KernelIdeal.Final.H3 (F := Ideal))
local notation "H4'" => (Cert.KernelIdeal.Final.H4 (F := Ideal))
/-- The contents the five regions leave, and the earlier stages of the same. -/
local notation "oF" => Cert.KernelIdeal.Final.outs (F := Ideal) m
local notation "o4" => Cert.KernelIdeal.Run.outs4 m H0' H1' H2' H3'
local notation "o3" => Cert.KernelIdeal.Run.outs3 m H0' H1' H2'
local notation "o2" => Cert.KernelIdeal.Run.outs2 m H0' H1'

/-! ## The arrays -/

/-- The bf16 adjacency array the first host stretch writes, as a function into the extended reals. -/
abbrev adjF : S4096x4096.Idx → EReal := V3 m c main_v0
/-- What the third and the fourth region leave (the square and the cube of the adjacency array). -/
abbrev sqArr : S4096x4096.Idx → EReal := oF 13 main_v44 c
abbrev cubeArr : S4096x4096.Idx → EReal := oF 14 main_v45 c

/-- The square and the cube of the adjacency array, entry by entry. -/
def adj2 (i l : Fin 4096) : EReal := ∑ t : Fin 4096, adjF m c (ix2 i t) * adjF m c (ix2 t l)
def adj3 (i k : Fin 4096) : EReal := ∑ l : Fin 4096, adj2 m c i l * adjF m c (ix2 l k)
/-- The mask of node i. -/
def msk (i : Fin 4096) : EReal := maskOf (Cert.GatSgc.elu (raw2 (oF) c (ix2 i 0)))

/-! ## Region 2 leaves the square -/

theorem sq_eq : sqArr m c = Reg2Value.G (Cert.KernelIdeal.Run.cv (V12 m o2)) c :=
  ((Cert.KernelIdeal.Run.o5_v44 m H0' H1' H2' H3' H4' 13 c).trans (Cert.KernelIdeal.Run.outs3_at m H0' H1' H2' 13 c)).trans
    (Reg2Value.final (Cert.KernelIdeal.Run.cv (V12 m o2)) c)

theorem r2_A : Reg2Value.Aarr (Cert.KernelIdeal.Run.cv (V12 m o2)) c = adjF m c :=
  (congrFun (Cert.KernelIdeal.Run.V12_final m H0' H1' H2' H3' H4' c) main_v0).symm.trans (V12_v0 m (oF) c)
theorem r2_B : Reg2Value.Barr (Cert.KernelIdeal.Run.cv (V12 m o2)) c = adjF m c :=
  (congrFun (Cert.KernelIdeal.Run.V12_final m H0' H1' H2' H3' H4' c) main_v0).symm.trans (V12_v0 m (oF) c)

theorem sq_apply (i l : Fin 4096) : sqArr m c (ix2 i l) = adj2 m c i l := by
  refine (congrFun (sq_eq m c) (ix2 i l)).trans ?_
  show Reg2Value.prod (Cert.KernelIdeal.Run.cv (V12 m o2)) c i l = _
  unfold Reg2Value.prod adj2
  rw [r2_A, r2_B]

/-! ## Region 3 leaves the cube -/

theorem cube_eq : cubeArr m c = Reg3Value.G (Cert.KernelIdeal.Run.cv (V13 m o3)) c :=
  ((Cert.KernelIdeal.Run.o5_v45 m H0' H1' H2' H3' H4' 14 c).trans (Cert.KernelIdeal.Run.outs4_at m H0' H1' H2' H3' 14 c)).trans
    (Reg3Value.final (Cert.KernelIdeal.Run.cv (V13 m o3)) c)

theorem r3_A : Reg3Value.Aarr (Cert.KernelIdeal.Run.cv (V13 m o3)) c = sqArr m c :=
  (congrFun (Cert.KernelIdeal.Run.V13_final m H0' H1' H2' H3' H4' c) main_v44).symm.trans (V13_v44 m (oF) c)
theorem r3_B : Reg3Value.Barr (Cert.KernelIdeal.Run.cv (V13 m o3)) c = adjF m c :=
  (congrFun (Cert.KernelIdeal.Run.V13_final m H0' H1' H2' H3' H4' c) main_v0).symm.trans (V13_v0 m (oF) c)

theorem cube_apply (i k : Fin 4096) : cubeArr m c (ix2 i k) = adj3 m c i k := by
  refine (congrFun (cube_eq m c) (ix2 i k)).trans ?_
  show Reg3Value.prod (Cert.KernelIdeal.Run.cv (V13 m o3)) c i k = _
  unfold Reg3Value.prod adj3
  rw [r3_A, r3_B]
  exact Finset.sum_congr rfl fun l _ => by rw [sq_apply]

/-! ## Region 4 leaves the masked combination -/

theorem out_eq : out4 (oF) c = Reg4Value.G (Cert.KernelIdeal.Run.cv (V15 m o4)) c :=
  (Cert.KernelIdeal.Run.outs5_at m H0' H1' H2' H3' H4' 16 c).trans (Reg4Value.arrAt_out_eq (Cert.KernelIdeal.Run.cv (V15 m o4)) c)

theorem r4_msk : Reg4Value.msk (Cert.KernelIdeal.Run.cv (V15 m o4)) c = maskArr m (oF) c :=
  (congrFun (Cert.KernelIdeal.Run.V15_final m H0' H1' H2' H3' H4' c) main_v43).symm.trans (V15_v43 m (oF) c)
theorem r4_adj : Reg4Value.adj (Cert.KernelIdeal.Run.cv (V15 m o4)) c = adjF m c :=
  (congrFun (Cert.KernelIdeal.Run.V15_final m H0' H1' H2' H3' H4' c) main_v0).symm.trans (V15_v0 m (oF) c)
theorem r4_adj3 : Reg4Value.adj3 (Cert.KernelIdeal.Run.cv (V15 m o4)) c = cubeArr m c :=
  (congrFun (Cert.KernelIdeal.Run.V15_final m H0' H1' H2' H3' H4' c) main_v45).symm.trans (V15_v45 m (oF) c)
theorem r4_u0 : Reg4Value.u0 (Cert.KernelIdeal.Run.cv (V15 m o4)) c = u0Arr m (oF) c :=
  (congrFun (Cert.KernelIdeal.Run.V15_final m H0' H1' H2' H3' H4' c) main_v48).symm
theorem r4_u2 : Reg4Value.u2 (Cert.KernelIdeal.Run.cv (V15 m o4)) c = u2Arr m (oF) c :=
  (congrFun (Cert.KernelIdeal.Run.V15_final m H0' H1' H2' H3' H4' c) main_v51).symm

/-- What the last region leaves, at (i, q). -/
theorem out_apply (i : Fin 4096) (q : Fin 256) :
    out4 (oF) c (ix2 i q)
      = msk m c i * (∑ k : Fin 4096, adjF m c (ix2 i k) * (∑ p : Fin 512, xF m c (ix2 k p) * WsF m c (ix2 ⟨p.val, by omega⟩ q)))
        + (1 - msk m c i) * (∑ k : Fin 4096, adj3 m c i k * (∑ p : Fin 512, xF m c (ix2 k p) * WsF m c (ix2 ⟨1024 + p.val, by omega⟩ q))) := by
  refine (congrFun (out_eq m c) (ix2 i q)).trans ?_
  show Reg4Value.Gat (Cert.KernelIdeal.Run.cv (V15 m o4)) c i q = _
  unfold Reg4Value.Gat
  rw [r4_msk, r4_adj, r4_adj3, r4_u0, r4_u2, show Reg4Value.oneLit = 1 from Cert.GatSgc.ofBits_one_f32]
  have s1 : ∑ k : Fin 4096, adjF m c (ix2 i k) * u0Arr m (oF) c (ix2 k q)
      = ∑ k : Fin 4096, adjF m c (ix2 i k) * (∑ p : Fin 512, xF m c (ix2 k p) * WsF m c (ix2 ⟨p.val, by omega⟩ q)) :=
    Finset.sum_congr rfl fun k _ => by rw [v48_apply]
  have s2 : ∑ k : Fin 4096, cubeArr m c (ix2 i k) * u2Arr m (oF) c (ix2 k q)
      = ∑ k : Fin 4096, adj3 m c i k * (∑ p : Fin 512, xF m c (ix2 k p) * WsF m c (ix2 ⟨1024 + p.val, by omega⟩ q)) :=
    Finset.sum_congr rfl fun k _ => by rw [cube_apply, v51_apply]
  rw [s1, s2, mask_apply]
  rfl

/-- THE RESULT in closed form. -/
theorem result_closed (i : Fin 4096) (q : Fin 256) :
    resArr m (oF) c (ix2 i q)
      = (msk m c i * (∑ k : Fin 4096, adjF m c (ix2 i k) * (∑ p : Fin 512, xF m c (ix2 k p) * WsF m c (ix2 ⟨p.val, by omega⟩ q)))
          + (1 - msk m c i) * (∑ k : Fin 4096, adj3 m c i k * (∑ p : Fin 512, xF m c (ix2 k p) * WsF m c (ix2 ⟨1024 + p.val, by omega⟩ q))))
        + bF m c (ix1 q) := by
  rw [v55_apply, out_apply]

end Cert.KernelIdeal.KerCompose

end
-- ==== Proof.KerReadADefs.lean ====
/- The kernel program's host side from the launch to the entry of the second attention region: the stages its
   buffers hold, as functions of their operands' contents over the extended reals. -/
import proofs.«162839_j74869869904021_2_alg».proof.Proof.Gen.KernelIdeal.Regions
import proofs.«162839_j74869869904021_2_alg».proof.Proof.LibRealClosure
import proofs.«162839_j74869869904021_2_alg».proof.Proof.LibPlainDotGeneral
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal.Laws

set_option maxRecDepth 16384

noncomputable section

namespace Cert.KernelIdeal.KerRead

open Cert.KernelIdeal Cert.KernelIdeal.Gen
open Idealize.ShloMosaic Idealize.ShloMosaic.TcCoe Idealize.SL.Sem Idealize.ShloMosaic.StableHlo Idealize.ShloMosaic.ValueIdx
open scoped BigOperators

/-! ## The stages -/

/-- A matrix narrowed to bf16. -/
def narrow {s : Shape} (v : FVec Ideal s .f32) : FVec Ideal s .bf16 := truncf .bf16 v bitsLt_bf16_f32

/-- The last eight entries of the first layer's scoring vector; the last entry of the second layer's. -/
def a1Hi (a1 : FVec Ideal S16x1 .f32) : FVec Ideal S8x1 .f32 := extractStridedSlice S8x1 ![8, 0] a1 slices_S16x1_S8x1_8_0
def a2Hi (a2 : FVec Ideal S2x1 .f32) : FVec Ideal S1x1 .f32 := extractStridedSlice S1x1 ![1, 0] a2 slices_S2x1_S1x1_1_0

/-- First layer: the projected features. -/
def hProj (x : FVec Ideal S4096x512 .f32) (W1 : FVec Ideal S512x8 .f32) : FVec Ideal S4096x8 .f32 :=
  Host.dotGeneral (F := Ideal) dot_S4096x512_S512x8_S4096x8_1_0_0_1_n_n none x W1

/-- First layer: the destination scores, the projected features against part of the scoring vector. -/
def dstCol8 (h : FVec Ideal S4096x8 .f32) (a : FVec Ideal S8x1 .f32) : FVec Ideal S4096x1 .f32 :=
  Host.dotGeneral (F := Ideal) dot_S4096x8_S8x1_S4096x1_1_0_0_1_n_n none h a

/-- Second layer: the destination scores. -/
def dstCol1 (h : FVec Ideal S4096x1 .f32) (a : FVec Ideal S1x1 .f32) : FVec Ideal S4096x1 .f32 :=
  Host.dotGeneral (F := Ideal) dot_S4096x1_S1x1_S4096x1_1_0_0_1_n_n none h a

/-- The maximum of a column as the program computes it: the larger of minus infinity and the maximum, started at
    minus infinity, of the column's entries. -/
def colMax (d : FVec Ideal S4096x1 .f32) : FVec Ideal S1 .f32 :=
  maximumf (broadcastInDim S1 ![] bcast_S_S1 (constant (F := Ideal) S_ .f32 0xFF800000#32))
    (Host.reduce FloatOps.maximumf d (constant (F := Ideal) S_ .f32 0xFF800000#32) reducesTo_S4096x1_S1_d0 h_S_)

/-- One number repeated down a column. -/
def spread (v : FVec Ideal S1 .f32) : FVec Ideal S4096x1 .f32 :=
  broadcastInDim S4096x1 ![0, 1] bcast_S1x1_S4096x1_0_1 (broadcastInDim S1x1 ![1] bcast_S1_S1x1_1 v)

/-- The exponential of every entry of a column minus the column's maximum. -/
def colExp (d : FVec Ideal S4096x1 .f32) : FVec Ideal S4096x1 .f32 := Host.exp (subf d (spread (colMax d)))

/-- The sum of a column, started at zero. -/
def colSum (e : FVec Ideal S4096x1 .f32) : FVec Ideal S1 .f32 :=
  Host.reduceAdd e (constant (F := Ideal) S_ .f32 0x00000000#32) reducesTo_S4096x1_S1_d0 h_S_

/-- The softmax of a column. -/
def colSoftmax (d : FVec Ideal S4096x1 .f32) : FVec Ideal S4096x1 .f32 :=
  Host.divf (colExp d) (spread (colSum (colExp d)))

/-- First layer: the projected features, each node's scaled by its softmax weight. -/
def hw1 (x : FVec Ideal S4096x512 .f32) (W1 : FVec Ideal S512x8 .f32) (a1 : FVec Ideal S16x1 .f32) : FVec Ideal S4096x8 .f32 :=
  mulf (hProj x W1) (broadcastInDim S4096x8 ![0, 1] bcast_S4096x1_S4096x8_0_1 (colSoftmax (dstCol8 (hProj x W1) (a1Hi a1))))

/-- The integer zero the pads convert to their padding value. -/
def izero : IVec S_ 32 := constantI S_ 32 0#32

/-- Eight columns padded with the converted integer to 128; one column padded to 128. -/
def pad8 (v : FVec Ideal S4096x8 .f32) (z : IVec S_ 32) : FVec Ideal S4096x128 .f32 :=
  pad S4096x128 ![0, 0] ![0, 120] ![0, 0] v (sitofp (F := Ideal) .f32 z) pads_S4096x8_S4096x128_000_01200 h_S_
def pad1 (v : FVec Ideal S4096x1 .f32) (z : IVec S_ 32) : FVec Ideal S4096x128 .f32 :=
  pad S4096x128 ![0, 0] ![0, 127] ![0, 0] v (sitofp (F := Ideal) .f32 z) pads_S4096x1_S4096x128_000_01270 h_S_

/-- The first eight columns of what the first region leaves. -/
def cols8 (raw1 : FVec Ideal S4096x128 .f32) : FVec Ideal S4096x8 .f32 :=
  extractStridedSlice S4096x8 ![0, 0] raw1 slices_S4096x128_S4096x8_0_0

/-- The exponential linear unit, entrywise, as the program spells it. -/
def elu8 (z : FVec Ideal S4096x8 .f32) : FVec Ideal S4096x8 .f32 :=
  select (cmpf .ogt z (broadcastInDim S4096x8 ![] bcast_S_S4096x8 (constant (F := Ideal) S_ .f32 0x00000000#32))) z
    (mulf (broadcastInDim S4096x8 ![] bcast_S_S4096x8 (constant (F := Ideal) S_ .f32 0x3F800000#32))
      (Host.expm1 (select (cmpf .ogt z (broadcastInDim S4096x8 ![] bcast_S_S4096x8 (constant (F := Ideal) S_ .f32 0x00000000#32)))
        (broadcastInDim S4096x8 ![] bcast_S_S4096x8 (id (constant (F := Ideal) S_ .f32 0x00000000#32))) z)))

/-- Second layer: the projected features, each node's scaled by its softmax weight. -/
def hw2 (g : FVec Ideal S4096x8 .f32) (W2 : FVec Ideal S8x1 .f32) (a2 : FVec Ideal S2x1 .f32) : FVec Ideal S4096x1 .f32 :=
  mulf (dstCol8 g W2) (colSoftmax (dstCol1 (dstCol8 g W2) (a2Hi a2)))

end Cert.KernelIdeal.KerRead

end
-- ==== Proof.KerReadAIdx.lean ====
/- The stages of the kernel program's host side, from the launch to the entry of the second attention region, read at
   an index over the extended reals: a projection is a sum of products, the column softmax divides the exponential of
   an entry minus the column's maximum by the sum of those exponentials, a pad keeps the columns it was given and is
   zero elsewhere, a narrowing to bf16 changes nothing. -/
import proofs.«162839_j74869869904021_2_alg».proof.Proof.KerReadADefs

set_option maxRecDepth 16384

noncomputable section

namespace Cert.KernelIdeal.KerRead

open Cert.KernelIdeal Cert.KernelIdeal.Gen
open Idealize.ShloMosaic Idealize.ShloMosaic.TcCoe Idealize.SL.Sem Idealize.ShloMosaic.StableHlo Idealize.ShloMosaic.ValueIdx
open scoped BigOperators

/-! ## Slices, pads, narrowing -/

theorem narrow_apply {s : Shape} (v : FVec Ideal s .f32) (i : s.Idx) : narrow v i = v i := rfl

theorem a1Hi_apply (a1 : FVec Ideal S16x1 .f32) (f : Fin 8) (ff : Fin 16) (hff : ff.val = 8 + f.val) :
    a1Hi a1 (ix2 f 0) = a1 (ix2 ff 0) := by
  unfold a1Hi
  exact extractStridedSlice_apply ![8, 0] a1 slices_S16x1_S8x1_8_0 (ix2 f 0) (ix2 ff 0) (fun a => by
    match a with
    | ⟨0, _⟩ => show ff.val = 8 + f.val; exact hff
    | ⟨1, _⟩ => rfl)

theorem a2Hi_apply (a2 : FVec Ideal S2x1 .f32) : a2Hi a2 (ix2 (0 : Fin 1) (0 : Fin 1)) = a2 (ix2 (1 : Fin 2) (0 : Fin 1)) := by
  unfold a2Hi
  exact extractStridedSlice_apply ![1, 0] a2 slices_S2x1_S1x1_1_0 (ix2 0 0) (ix2 1 0) (fun a => by
    match a with
    | ⟨0, _⟩ => rfl
    | ⟨1, _⟩ => rfl)

theorem cols8_apply (raw1 : FVec Ideal S4096x128 .f32) (j : Fin 4096) (f : Fin 8) (ff : Fin 128) (hff : ff.val = f.val) :
    cols8 raw1 (ix2 j f) = raw1 (ix2 j ff) := by
  unfold cols8
  exact extractStridedSlice_apply ![0, 0] raw1 slices_S4096x128_S4096x8_0_0 (ix2 j f) (ix2 j ff) (fun a => by
    match a with
    | ⟨0, _⟩ => show j.val = 0 + j.val; omega
    | ⟨1, _⟩ => show ff.val = 0 + f.val; omega)

/-- The integer zero converts to zero. -/
theorem sitofp_izero : sitofp (F := Ideal) .f32 izero (Shape.Idx.first h_S_) = 0 := by
  show FloatOps.sitofp (F := Ideal) .f32 (0#32) = 0
  exact sitofp_zero

/-- A pad of eight columns to 128: inside the first eight columns the operand, -/
theorem pad8_apply_in (v : FVec Ideal S4096x8 .f32) (z : IVec S_ 32) (j : Fin 4096) (q : Fin 128) (f : Fin 8) (hf : q.val = f.val) :
    pad8 v z (ix2 j q) = v (ix2 j f) := by
  unfold pad8
  exact pad_apply_of_inside ![0, 0] ![0, 120] ![0, 0] v (sitofp (F := Ideal) .f32 z) pads_S4096x8_S4096x128_000_01200 h_S_ (ix2 j q) (ix2 j f) (fun a => by
    match a with
    | ⟨0, _⟩ => show j.val = 0 + j.val * (0 + 1); omega
    | ⟨1, _⟩ => show q.val = 0 + f.val * (0 + 1); omega)

/-- elsewhere zero. -/
theorem pad8_apply_out (v : FVec Ideal S4096x8 .f32) (j : Fin 4096) (q : Fin 128) (hq : 8 ≤ q.val) :
    pad8 v izero (ix2 j q) = 0 := by
  unfold pad8
  rw [pad_apply_of_not_inside ![0, 0] ![0, 120] ![0, 0] v (sitofp (F := Ideal) .f32 izero) pads_S4096x8_S4096x128_000_01200 h_S_ (ix2 j q) (1 : Fin 2) (by
    show ¬(0 ≤ q.val ∧ (q.val - 0) % (0 + 1) = 0 ∧ (q.val - 0) / (0 + 1) < 8); omega)]
  exact sitofp_izero

/-- A pad of one column to 128: in column 0 the operand, -/
theorem pad1_apply_in (v : FVec Ideal S4096x1 .f32) (z : IVec S_ 32) (j : Fin 4096) :
    pad1 v z (ix2 j 0) = v (ix2 j 0) := by
  unfold pad1
  exact pad_apply_of_inside ![0, 0] ![0, 127] ![0, 0] v (sitofp (F := Ideal) .f32 z) pads_S4096x1_S4096x128_000_01270 h_S_ (ix2 j 0) (ix2 j 0) (fun a => by
    match a with
    | ⟨0, _⟩ => show j.val = 0 + j.val * (0 + 1); omega
    | ⟨1, _⟩ => rfl)

/-- elsewhere zero. -/
theorem pad1_apply_out (v : FVec Ideal S4096x1 .f32) (j : Fin 4096) (q : Fin 128) (hq : 1 ≤ q.val) :
    pad1 v izero (ix2 j q) = 0 := by
  unfold pad1
  rw [pad_apply_of_not_inside ![0, 0] ![0, 127] ![0, 0] v (sitofp (F := Ideal) .f32 izero) pads_S4096x1_S4096x128_000_01270 h_S_ (ix2 j q) (1 : Fin 2) (by
    show ¬(0 ≤ q.val ∧ (q.val - 0) % (0 + 1) = 0 ∧ (q.val - 0) / (0 + 1) < 1); omega)]
  exact sitofp_izero

/-! ## Projections -/

theorem hProj_apply (x : FVec Ideal S4096x512 .f32) (W1 : FVec Ideal S512x8 .f32) (j : Fin 4096) (f : Fin 8) :
    hProj x W1 (ix2 j f) = ∑ p : Fin 512, x (ix2 j p) * W1 (ix2 p f) :=
  dotGeneral_plain_apply dot_S4096x512_S512x8_S4096x8_1_0_0_1_n_n_wf none x W1 j f

theorem dstCol8_apply (h : FVec Ideal S4096x8 .f32) (a : FVec Ideal S8x1 .f32) (j : Fin 4096) :
    dstCol8 h a (ix2 j 0) = ∑ f : Fin 8, h (ix2 j f) * a (ix2 f 0) :=
  dotGeneral_plain_apply dot_S4096x8_S8x1_S4096x1_1_0_0_1_n_n_wf none h a j 0

theorem dstCol1_apply (h : FVec Ideal S4096x1 .f32) (a : FVec Ideal S1x1 .f32) (j : Fin 4096) :
    dstCol1 h a (ix2 j 0) = h (ix2 j 0) * a (ix2 0 0) :=
  (dotGeneral_plain_apply dot_S4096x1_S1x1_S4096x1_1_0_0_1_n_n_wf none h a j 0).trans (Fin.sum_univ_one _)

/-! ## The column softmax -/

theorem red_col : S4096x1.Reduces [0] S1 := by decide

/-- The index of the column's entry `k`. -/
theorem lift_col (k : Fin 4096) : red_col.lift (ix1 0) k = ix2 k 0 := by
  funext a
  apply Fin.ext
  match a with
  | ⟨0, _⟩ => rfl
  | ⟨1, _⟩ => rfl

theorem colMax_apply (d : FVec Ideal S4096x1 .f32) :
    colMax d (ix1 0) = max ⊥ (Finset.univ.fold max ⊥ fun k : Fin 4096 => d (ix2 k 0)) := by
  unfold colMax
  show max (broadcastInDim S1 ![] bcast_S_S1 (constant (F := Ideal) S_ .f32 0xFF800000#32) (ix1 0))
      (Host.reduce FloatOps.maximumf d (constant (F := Ideal) S_ .f32 0xFF800000#32) reducesTo_S4096x1_S1_d0 h_S_ (ix1 0)) = _
  rw [Host.reduce_eq_fold_single (FloatOps.maximumf (F := Ideal) (φ := .f32)) d _ reducesTo_S4096x1_S1_d0 red_col h_S_ (ix1 0),
    Cert.GatSgc.fold_maximumf_eq_fold_max,
    broadcastInDim_apply ![] bcast_S_S1 (constant (F := Ideal) S_ .f32 0xFF800000#32) (ix1 0) ix0 (fun a => a.elim0)]
  show max (Ideal.ofBits .f32 0xFF800000#32) (Finset.univ.fold max (Ideal.ofBits .f32 0xFF800000#32) (d ∘ red_col.lift (ix1 0))) = _
  rw [Cert.GatSgc.ofBits_neg_inf_f32]
  have e : (d ∘ red_col.lift (ix1 0)) = fun k : Fin 4096 => d (ix2 k 0) := funext fun k => congrArg d (lift_col k)
  rw [e]
  rfl

theorem spread_apply (v : FVec Ideal S1 .f32) (j : Fin 4096) : spread v (ix2 j 0) = v (ix1 0) := by
  unfold spread
  rw [broadcastInDim_apply ![0, 1] bcast_S1x1_S4096x1_0_1 _ (ix2 j 0) (ix2 0 0) (fun a => by
      match a with
      | ⟨0, _⟩ => rfl
      | ⟨1, _⟩ => rfl),
    broadcastInDim_apply ![1] bcast_S1_S1x1_1 v (ix2 0 0) (ix1 0) (fun a => by
      match a with
      | ⟨0, _⟩ => rfl)]

theorem colExp_apply (d : FVec Ideal S4096x1 .f32) (j : Fin 4096) :
    colExp d (ix2 j 0) = Ideal.exp (d (ix2 j 0) - colMax d (ix1 0)) := by
  unfold colExp
  show Ideal.exp (d (ix2 j 0) - spread (colMax d) (ix2 j 0)) = _
  rw [spread_apply]

theorem colSum_apply (e : FVec Ideal S4096x1 .f32) : colSum e (ix1 0) = 0 + ∑ k : Fin 4096, e (ix2 k 0) := by
  unfold colSum
  show Ideal.hostReduceAdd reducesTo_S4096x1_S1_d0 e (Ideal.ofBits .f32 0x00000000#32) (ix1 0) = _
  rw [Ideal.hostReduceAdd_single reducesTo_S4096x1_S1_d0 red_col e _ (ix1 0), Ideal.ofBits_zero_f32]
  exact congrArg (0 + ·) (Finset.sum_congr rfl fun k _ => congrArg e (lift_col k))

theorem colSoftmax_apply (d : FVec Ideal S4096x1 .f32) (j : Fin 4096) :
    colSoftmax d (ix2 j 0) = Ideal.div (colExp d (ix2 j 0)) (colSum (colExp d) (ix1 0)) := by
  unfold colSoftmax
  show Ideal.div (colExp d (ix2 j 0)) (spread (colSum (colExp d)) (ix2 j 0)) = _
  rw [spread_apply]

/-- THE SOFTMAX WEIGHT of entry `j` of a column `d`: the exponential of the entry minus the column's maximum, over the
    sum of those exponentials (the maximum and the sum as the program starts them: from minus infinity, from zero). -/
def smWeight (d : Fin 4096 → EReal) (j : Fin 4096) : EReal :=
  Ideal.div (Ideal.exp (d j - max ⊥ (Finset.univ.fold max ⊥ d)))
    (0 + ∑ k : Fin 4096, Ideal.exp (d k - max ⊥ (Finset.univ.fold max ⊥ d)))

theorem colSoftmax_eq (d : FVec Ideal S4096x1 .f32) (j : Fin 4096) :
    colSoftmax d (ix2 j 0) = smWeight (fun k => d (ix2 k 0)) j := by
  rw [colSoftmax_apply, colExp_apply d j, colSum_apply, colMax_apply]
  unfold smWeight
  refine congrArg (Ideal.div _) (congrArg (0 + ·) (Finset.sum_congr rfl fun k _ => ?_))
  rw [colExp_apply, colMax_apply]

/-! ## The exponential linear unit -/

theorem bcast8_apply (w : BitVec 32) (j : Fin 4096) (f : Fin 8) :
    broadcastInDim S4096x8 ![] bcast_S_S4096x8 (constant (F := Ideal) S_ .f32 w) (ix2 j f) = Ideal.ofBits .f32 w :=
  (broadcastInDim_apply ![] bcast_S_S4096x8 (constant (F := Ideal) S_ .f32 w) (ix2 j f) ix0 (fun a => a.elim0)).trans rfl

theorem elu8_apply (z : FVec Ideal S4096x8 .f32) (j : Fin 4096) (f : Fin 8) :
    elu8 z (ix2 j f) = Cert.GatSgc.elu (z (ix2 j f)) := by
  unfold elu8 Cert.GatSgc.elu
  show Scalar.select (Ideal.cmp .ogt (z (ix2 j f)) (broadcastInDim S4096x8 ![] bcast_S_S4096x8 (constant (F := Ideal) S_ .f32 0x00000000#32) (ix2 j f))) (z (ix2 j f))
      (broadcastInDim S4096x8 ![] bcast_S_S4096x8 (constant (F := Ideal) S_ .f32 0x3F800000#32) (ix2 j f)
        * (Ideal.exp (Scalar.select (Ideal.cmp .ogt (z (ix2 j f)) (broadcastInDim S4096x8 ![] bcast_S_S4096x8 (constant (F := Ideal) S_ .f32 0x00000000#32) (ix2 j f)))
            (broadcastInDim S4096x8 ![] bcast_S_S4096x8 (constant (F := Ideal) S_ .f32 0x00000000#32) (ix2 j f)) (z (ix2 j f))) - 1)) = _
  rw [bcast8_apply, bcast8_apply, Ideal.ofBits_zero_f32, Cert.GatSgc.ofBits_one_f32]

/-! ## The two scaled feature arrays, entry by entry -/

/-- First layer: the projected feature `f` of node `j`; the destination score of node `j`; the scaled feature. -/
def hEnt (x : S4096x512.Idx → EReal) (W1 : S512x8.Idx → EReal) (j : Fin 4096) (f : Fin 8) : EReal :=
  ∑ p : Fin 512, x (ix2 j p) * W1 (ix2 p f)
def dst1Ent (x : S4096x512.Idx → EReal) (W1 : S512x8.Idx → EReal) (a1 : S16x1.Idx → EReal) (j : Fin 4096) : EReal :=
  ∑ f : Fin 8, hEnt x W1 j f * a1 (ix2 ⟨8 + f.val, by omega⟩ 0)
def hw1Ent (x : S4096x512.Idx → EReal) (W1 : S512x8.Idx → EReal) (a1 : S16x1.Idx → EReal) (j : Fin 4096) (f : Fin 8) : EReal :=
  hEnt x W1 j f * smWeight (dst1Ent x W1 a1) j

theorem hw1_apply (x : FVec Ideal S4096x512 .f32) (W1 : FVec Ideal S512x8 .f32) (a1 : FVec Ideal S16x1 .f32) (j : Fin 4096) (f : Fin 8) :
    hw1 x W1 a1 (ix2 j f) = hw1Ent x W1 a1 j f := by
  unfold hw1
  show hProj x W1 (ix2 j f) * broadcastInDim S4096x8 ![0, 1] bcast_S4096x1_S4096x8_0_1 (colSoftmax (dstCol8 (hProj x W1) (a1Hi a1))) (ix2 j f) = _
  rw [broadcastInDim_apply ![0, 1] bcast_S4096x1_S4096x8_0_1 _ (ix2 j f) (ix2 j 0) (fun a => by
      match a with
      | ⟨0, _⟩ => rfl
      | ⟨1, _⟩ => rfl),
    colSoftmax_eq, hProj_apply]
  unfold hw1Ent
  refine congrArg (hEnt x W1 j f * ·) (congrArg (fun d => smWeight d j) (funext fun k => ?_))
  rw [dstCol8_apply]
  unfold dst1Ent
  refine Finset.sum_congr rfl fun f' _ => ?_
  rw [hProj_apply, a1Hi_apply a1 f' ⟨8 + f'.val, by omega⟩ rfl]
  rfl

/-- Second layer: the feature `f` of node `j` (the exponential linear unit of what the first region leaves); its
    projection; the destination score; the scaled projection. -/
def g1Ent (raw1 : S4096x128.Idx → EReal) (j : Fin 4096) (f : Fin 8) : EReal :=
  Cert.GatSgc.elu (raw1 (ix2 j ⟨f.val, by omega⟩))
def h2Ent (raw1 : S4096x128.Idx → EReal) (W2 : S8x1.Idx → EReal) (j : Fin 4096) : EReal :=
  ∑ f : Fin 8, g1Ent raw1 j f * W2 (ix2 f 0)
def dst2Ent (raw1 : S4096x128.Idx → EReal) (W2 : S8x1.Idx → EReal) (a2 : S2x1.Idx → EReal) (j : Fin 4096) : EReal :=
  h2Ent raw1 W2 j * a2 (ix2 1 0)
def hw2Ent (raw1 : S4096x128.Idx → EReal) (W2 : S8x1.Idx → EReal) (a2 : S2x1.Idx → EReal) (j : Fin 4096) : EReal :=
  h2Ent raw1 W2 j * smWeight (dst2Ent raw1 W2 a2) j

theorem h2_apply (raw1 : FVec Ideal S4096x128 .f32) (W2 : FVec Ideal S8x1 .f32) (j : Fin 4096) :
    dstCol8 (elu8 (cols8 raw1)) W2 (ix2 j 0) = h2Ent raw1 W2 j := by
  rw [dstCol8_apply]
  unfold h2Ent g1Ent
  refine Finset.sum_congr rfl fun f _ => ?_
  rw [elu8_apply, cols8_apply raw1 j f ⟨f.val, by omega⟩ rfl]

theorem hw2_apply (raw1 : FVec Ideal S4096x128 .f32) (W2 : FVec Ideal S8x1 .f32) (a2 : FVec Ideal S2x1 .f32) (j : Fin 4096) :
    hw2 (elu8 (cols8 raw1)) W2 a2 (ix2 j 0) = hw2Ent raw1 W2 a2 j := by
  unfold hw2
  show dstCol8 (elu8 (cols8 raw1)) W2 (ix2 j 0) * colSoftmax (dstCol1 (dstCol8 (elu8 (cols8 raw1)) W2) (a2Hi a2)) (ix2 j 0) = _
  rw [colSoftmax_eq, h2_apply]
  unfold hw2Ent
  refine congrArg (h2Ent raw1 W2 j * ·) (congrArg (fun d => smWeight d j) (funext fun k => ?_))
  rw [dstCol1_apply, h2_apply, a2Hi_apply]
  rfl

end Cert.KernelIdeal.KerRead

end
-- ==== Proof.KerReadA.lean ====
/- The kernel program's host side read as values over the extended reals, from the launch to the entry of the second
   attention region: each buffer the two attention regions read is a named stage of the arguments (and, for the
   second, of what the first region leaves), and each is read at an index.

   The adjacency matrix narrowed to bf16 is the adjacency matrix. The first region's right factor holds, in its first
   eight columns, the projected features of a node scaled by the node's weight in the softmax, over all nodes, of the
   destination scores, and zero in the other columns; the second region's right factor holds the same for the second
   layer (one column), whose features are the exponential linear unit of what the first region leaves. -/
import proofs.«162839_j74869869904021_2_alg».proof.Proof.KerReadAIdx

set_option maxRecDepth 16384

noncomputable section

namespace Cert.KernelIdeal.KerRead

open Cert.KernelIdeal Cert.KernelIdeal.Gen
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (outs : Outs (F := Ideal)) (c : Dev nD)

/-! ## What no later item writes -/

/-- The bf16 adjacency matrix and the adjacency matrix itself are unchanged up to the second region's entry. -/
theorem V8_v0 : V8 m outs c main_v0 = V3 m c main_v0 :=
  (V8_of m outs c main_v0 (by decide)).trans <| (V7_of m outs c main_v0 (by decide)).trans <| (V6_of m outs c main_v0 (by decide)).trans <| (V5_of m outs c main_v0 (by decide)).trans <| (V4_of m outs c main_v0 (by decide))
theorem V8_arg1 : V8 m outs c main_arg1 = m ((c : Thread nD τ).loc main_arg1) :=
  (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m c main_arg1 (by decide)).trans <| (V2_of m c main_arg1 (by decide)).trans <| (V1_of m c main_arg1 (by decide))
/-- The first region's output array is as the region left it until the stretch that reads it. -/
theorem V4_v19 : V4 m outs c main_v19 = outs 4 main_v19 c := by simp only [V4, Function.update_self]
/-- The arguments the second layer reads are as launched. -/
theorem V6_arg4 : V6 m outs c main_arg4 = m ((c : Thread nD τ).loc main_arg4) :=
  (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide))
theorem V6_arg5 : V6 m outs c main_arg5 = m ((c : Thread nD τ).loc main_arg5) :=
  (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide))

/-! ## The buffers are the stages -/

/-- Each stretch over ANY contents W it starts from: its result buffers are stages of W's operand buffers. -/
theorem v0_of (W : Valuation τ sig (Elt Ideal)) :
    (StableHlo.after hostOps0 W main_v0 : FVec Ideal S4096x4096 .bf16) = narrow (W main_arg1) := by
  dsimp only [hostOps0]
  after_results
  rfl

set_option maxHeartbeats 2000000 in
theorem v16_of (W : Valuation τ sig (Elt Ideal)) :
    (StableHlo.after hostOps0 W main_v16 : FVec Ideal S4096x8 .f32) = hw1 (W main_arg0) (W main_arg2) (W main_arg3) := by
  dsimp only [hostOps0]
  after_results_simp
  rfl

theorem c_of (W : Valuation τ sig (Elt Ideal)) :
    (StableHlo.after hostOps0 W main_c : IVec S_ 32) = izero := by
  dsimp only [hostOps0]
  after_results
  rfl

theorem v17_of (W : Valuation τ sig (Elt Ideal)) :
    (StableHlo.after hostOps0_1 W main_v17 : FVec Ideal S4096x128 .f32) = pad8 (W main_v16) (W main_c) := by
  dsimp only [hostOps0_1]
  after_results
  rfl

theorem v18_of (W : Valuation τ sig (Elt Ideal)) :
    (StableHlo.after hostOps0_2 W main_v18 : FVec Ideal S4096x128 .bf16) = narrow (W main_v17) := by
  dsimp only [hostOps0_2]
  after_results
  rfl

theorem v20_of (W : Valuation τ sig (Elt Ideal)) :
    (StableHlo.after hostOps1 W main_v20 : FVec Ideal S4096x8 .f32) = cols8 (W main_v19) := by
  dsimp only [hostOps1]
  after_results
  rfl

theorem v21_of (W : Valuation τ sig (Elt Ideal)) :
    (StableHlo.after hostOps1_1 W main_v21 : FVec Ideal S4096x8 .f32) = elu8 (W main_v20) := by
  dsimp only [hostOps1_1]
  after_results
  rfl

set_option maxHeartbeats 2000000 in
theorem v36_of (W : Valuation τ sig (Elt Ideal)) :
    (StableHlo.after hostOps1_2 W main_v36 : FVec Ideal S4096x1 .f32) = hw2 (W main_v21) (W main_arg4) (W main_arg5) := by
  dsimp only [hostOps1_2]
  after_results_simp
  rfl

theorem c5_of (W : Valuation τ sig (Elt Ideal)) :
    (StableHlo.after hostOps1_2 W main_c_5 : IVec S_ 32) = izero := by
  dsimp only [hostOps1_2]
  after_results
  rfl

theorem v37_of (W : Valuation τ sig (Elt Ideal)) :
    (StableHlo.after hostOps1_3 W main_v37 : FVec Ideal S4096x128 .f32) = pad1 (W main_v36) (W main_c_5) := by
  dsimp only [hostOps1_3]
  after_results
  rfl

/-! ## The arguments and what the first region leaves, as arrays of extended reals -/

abbrev xA : S4096x512.Idx → EReal := m ((c : Thread nD τ).loc main_arg0)
abbrev adjA : S4096x4096.Idx → EReal := m ((c : Thread nD τ).loc main_arg1)
abbrev W1A : S512x8.Idx → EReal := m ((c : Thread nD τ).loc main_arg2)
abbrev a1A : S16x1.Idx → EReal := m ((c : Thread nD τ).loc main_arg3)
abbrev W2A : S8x1.Idx → EReal := m ((c : Thread nD τ).loc main_arg4)
abbrev a2A : S2x1.Idx → EReal := m ((c : Thread nD τ).loc main_arg5)
/-- What the first attention region leaves (an unknown of this module). -/
abbrev raw1 : S4096x128.Idx → EReal := outs 4 main_v19 c

/-! ## (1) The bf16 adjacency matrix -/

theorem V3_v0 : (V3 m c main_v0 : FVec Ideal S4096x4096 .bf16) = narrow (adjA m c) :=
  (V3_of m c main_v0 (by decide)).trans <| (V2_of m c main_v0 (by decide)).trans (v0_of (V0 m c))

theorem V3_v0_apply (i : S4096x4096.Idx) : (V3 m c main_v0 : S4096x4096.Idx → EReal) i = adjA m c i := by
  rw [V3_v0]; rfl

/-! ## (2) The first region's right factor -/

theorem V3_v18 : (V3 m c main_v18 : FVec Ideal S4096x128 .bf16) = narrow (pad8 (hw1 (xA m c) (W1A m c) (a1A m c)) izero) := by
  refine (v18_of (V2 m c)).trans ?_
  rw [show (V2 m c main_v17 : FVec Ideal S4096x128 .f32) = pad8 (V1 m c main_v16) (V1 m c main_c) from v17_of (V1 m c),
    show (V1 m c main_v16 : FVec Ideal S4096x8 .f32) = hw1 (V0 m c main_arg0) (V0 m c main_arg2) (V0 m c main_arg3) from v16_of (V0 m c),
    show (V1 m c main_c : IVec S_ 32) = izero from c_of (V0 m c)]

/-- In its first eight columns the scaled projected features, -/
theorem V3_v18_apply_in (j : Fin 4096) (q : Fin 128) (f : Fin 8) (hf : q.val = f.val) :
    (V3 m c main_v18 : S4096x128.Idx → EReal) (ix2 j q) = hw1Ent (xA m c) (W1A m c) (a1A m c) j f := by
  rw [V3_v18]
  show pad8 (hw1 (xA m c) (W1A m c) (a1A m c)) izero (ix2 j q) = _
  rw [pad8_apply_in _ _ j q f hf, hw1_apply]

/-- in the other columns zero. -/
theorem V3_v18_apply_out (j : Fin 4096) (q : Fin 128) (hq : 8 ≤ q.val) :
    (V3 m c main_v18 : S4096x128.Idx → EReal) (ix2 j q) = (0 : EReal) := by
  rw [V3_v18]
  show pad8 (hw1 (xA m c) (W1A m c) (a1A m c)) izero (ix2 j q) = _
  exact pad8_apply_out _ j q hq

/-! ## (3) The second region's right factor -/

theorem V8_v37 : (V8 m outs c main_v37 : FVec Ideal S4096x128 .f32)
    = pad1 (hw2 (elu8 (cols8 (raw1 outs c))) (W2A m c) (a2A m c)) izero := by
  refine (v37_of (V7 m outs c)).trans ?_
  rw [show (V7 m outs c main_v36 : FVec Ideal S4096x1 .f32) = hw2 (V6 m outs c main_v21) (V6 m outs c main_arg4) (V6 m outs c main_arg5) from v36_of (V6 m outs c),
    show (V7 m outs c main_c_5 : IVec S_ 32) = izero from c5_of (V6 m outs c),
    show (V6 m outs c main_v21 : FVec Ideal S4096x8 .f32) = elu8 (V5 m outs c main_v20) from v21_of (V5 m outs c),
    show (V5 m outs c main_v20 : FVec Ideal S4096x8 .f32) = cols8 (V4 m outs c main_v19) from v20_of (V4 m outs c),
    V4_v19, V6_arg4, V6_arg5]

/-- In column 0 the scaled projected feature, -/
theorem V8_v37_apply_in (j : Fin 4096) :
    (V8 m outs c main_v37 : S4096x128.Idx → EReal) (ix2 j 0) = hw2Ent (raw1 outs c) (W2A m c) (a2A m c) j := by
  rw [V8_v37, pad1_apply_in, hw2_apply]

/-- in the other columns zero. -/
theorem V8_v37_apply_out (j : Fin 4096) (q : Fin 128) (hq : 1 ≤ q.val) :
    (V8 m outs c main_v37 : S4096x128.Idx → EReal) (ix2 j q) = (0 : EReal) := by
  rw [V8_v37]
  exact pad1_apply_out _ j q hq

end Cert.KernelIdeal.KerRead

end
-- ==== Proof.Reg0Value.lean ====
import proofs.«162839_j74869869904021_2_alg».proof.Proof.Reg0
import proofs.«162839_j74869869904021_2_alg».proof.Proof.LibPlainMatmul
import Idealize.ShloMosaic.Lib.Pipeline.Value
import Idealize.ShloMosaic.Lib.ValueIdx
import Idealize.ShloMosaic.Lib.Tactic

set_option maxRecDepth 16384

noncomputable section

namespace Cert.KernelIdeal.Reg0Value

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open scoped BigOperators

open Cert.KernelIdeal.Reg0

/-! # Region 0 (the first matrix product): the value of its output array

Over the extended reals the accumulator after the point with last coordinate `k` holds the sum, over
the column blocks `0 … k` of the left factor's row block, of the blocks' products; the output block
written back at the last `k` is therefore the row block of the full product. -/

section Pieces

variable {F : FTy → Type} [FloatOps F]

theorem hz : (![0, 0] : Fin 2 → Nat) = fun _ => 0 := funext fun a => by fin_cases a <;> rfl

/-- After a point with `k = 0` the accumulator holds the zero block plus the blocks' product. -/
theorem sout_A_eq (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x2048 .bf16) (x1 : Vec F S2048x128 .bf16) :
    sout_A c i arg3 harg3 arg4 harg4 arg5 harg5 arg6 harg6 hc0 hc1 x0 x1 = k0_pay2 (k0_pay1 (F := F)) x0 x1 := by
  unfold sout_A
  rw [View.read_writes_eq_canon _ _ _ (scover_A c i arg3 harg3 arg4 harg4 arg5 harg5 arg6 harg6 hc0 hc1 x0 x1)]
  unfold kernelRun_A
  dsimp only
  sl_unfold_words
  rw [View.canon_cons_unit_zero (S := S512x128) hz, View.readCov_unit_zero (S := S512x128) _ hz]
  simp only [View.readAt_eq_ld, harg3.read_unread, harg4.read_unread, View.ld_unit_zero (S := S512x2048) hz,
    View.ld_unit_zero (S := S2048x128) hz]

/-- After a point with `k` last the accumulator holds what it held plus the blocks' product, -/
theorem sout_B_eq (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) :
    sout_B c i arg3 harg3 arg4 harg4 arg5 harg5 arg6 harg6 hc0 hc1 x0 x1 xs0 = k0_pay2 xs0 x0 x1 := by
  unfold sout_B
  rw [View.read_writes_eq_canon _ _ _ (scover_B c i arg3 harg3 arg4 harg4 arg5 harg5 arg6 harg6 hc0 hc1 x0 x1 xs0)]
  unfold kernelRun_B
  dsimp only
  sl_unfold_words
  rw [View.canon_unit_zero (S := S512x128) hz]
  simp only [View.readAt_eq_ld, harg3.read_unread, harg4.read_unread, harg6.read_unread, View.ld_unit_zero (S := S512x2048) hz,
    View.ld_unit_zero (S := S2048x128) hz, View.ld_unit_zero (S := S512x128) hz]

/-- and the output block is a copy of it. -/
theorem out_B_eq (c : Dev nD) (i : grid0.Coords) (arg3 : Memref sig .tc .vmem S512x2048 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x2048 .bf16) (x1 : Vec F S2048x128 .bf16) (xs0 : Vec F S512x128 .f32) :
    out_B_2 c i arg3 harg3 arg4 harg4 arg5 harg5 arg6 harg6 hc0 hc1 x0 x1 xs0 = k0_pay2 xs0 x0 x1 := by
  unfold out_B_2
  rw [View.read_writes_eq_canon _ _ _ (cover_B_2 c i arg3 harg3 arg4 harg4 arg5 harg5 arg6 harg6 hc0 hc1 x0 x1 xs0)]
  unfold kernelRun_B
  dsimp only
  sl_unfold_words
  rw [View.canon_unit_zero (S := S512x128) hz, View.readCov_unit_zero (S := S512x128) _ hz]
  simp only [View.readAt_eq_ld, harg3.read_unread, harg4.read_unread, harg6.read_unread, View.ld_unit_zero (S := S512x2048) hz,
    View.ld_unit_zero (S := S2048x128) hz, View.ld_unit_zero (S := S512x128) hz]

end Pieces

/-! ## The payloads over the extended reals -/

/-- The zero block is zero at every entry. -/
theorem pay1_apply (j : S512x128.Idx) : k0_pay1 (F := Ideal) j = 0 := by
  unfold k0_pay1
  simp only [shapeCast_self]
  exact Ideal.ofBits_zero_f32

/-- The accumulating payload at an entry: the accumulator there plus the entry of the blocks' product. -/
theorem pay2_apply (xs : Vec Ideal S512x128 .f32) (x0 : Vec Ideal S512x2048 .bf16) (x1 : Vec Ideal S2048x128 .bf16) (j : S512x128.Idx) :
    k0_pay2 (F := Ideal) xs x0 x1 j = xs j + ∑ k : Fin 2048, x0 (ix2 (j 0) k) * x1 (ix2 k (j 1)) := by
  obtain ⟨r, q, rfl⟩ : ∃ (r : Fin 512) (q : Fin 128), j = ix2 r q := ⟨j 0, j 1, eq_ix2 j⟩
  unfold k0_pay2
  simp only [shapeCast_self]
  exact congrArg (xs (ix2 r q) + ·) (matmul_plain_zero_apply dot_S512x2048_S2048x128_S512x128_1_0_0_1_n_n_wf none x0 x1 r q)

/-! ## Sums over a range cut into equal blocks -/

/-- A sum over `J * K` consecutive indices is the sum, over the `J` blocks of `K` consecutive indices,
    of the blocks' sums. -/
theorem sum_blocks {M : Type} [AddCommMonoid M] (J K : ℕ) (f : Fin (J * K) → M) :
    ∑ k : Fin (J * K), f k = ∑ s : Fin J, ∑ k : Fin K, f (finProdFinEquiv (s, k)) :=
  ((Equiv.sum_comp finProdFinEquiv f).symm).trans (Fintype.sum_prod_type _)

variable (V : (c : Dev nD) → (b : Ref sig .tc) → Buf (Elt Ideal) ((c : Thread nD τ).loc b))

/-! ## The windows' blocks as parts of the arrays -/

/-- The left factor, the right factor: the two input arrays as the region finds them. -/
abbrev Amat (c : Dev nD) : S4096x4096.Idx → EReal := V c (Pipeline.arrRef spec0 0)
abbrev Bmat (c : Dev nD) : S4096x128.Idx → EReal := V c (Pipeline.arrRef spec0 1)

/-- THE PRODUCT: entry `(p, q)` is the sum over `k` of `A(p, k) · B(k, q)`. -/
def G (c : Dev nD) : S4096x128.Idx → EReal :=
  fun i => ∑ k : Fin 4096, Amat V c (ix2 (i 0) k) * Bmat V c (ix2 k (i 1))

/-- The printed index maps, decided over the grid: at point `t` the left factor's block is (row block
    `t / 2`, column block `t % 2`), the right factor's is row block `t % 2`, the output's is row block
    `t / 2`. -/
theorem idx_facts : ∀ t : Fin cfg0.N,
    win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = t.val / 2 ∧ win0_2.index t (1 : Fin 2) = 0 :=
  (by decide +kernel : ∀ t : Fin grid0.N,
    win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = t.val / 2 ∧ win0_2.index t (1 : Fin 2) = 0)

/-- The two input blocks at point `t`, as arrays of extended reals. -/
abbrev blk0 (c : Dev nD) (t : Fin cfg0.N) : S512x2048.Idx → EReal := iblk V c 0 t
abbrev blk1 (c : Dev nD) (t : Fin cfg0.N) : S2048x128.Idx → EReal := iblk V c 1 t

/-- An entry of the left factor's block at point `t` is the entry of the array under it. -/
theorem iblk0_apply (c : Dev nD) (t : Fin cfg0.N) (r : Fin 512) (k : Fin 2048) (p kk : Fin 4096)
    (hp : p.val = 512 * (t.val / 2) + r.val) (hk : kk.val = 2048 * (t.val % 2) + k.val) :
    blk0 V c t (ix2 r k) = Amat V c (ix2 p kk) := by
  obtain ⟨e0, e1, -⟩ := idx_facts t
  unfold blk0 iblk
  rw [View.read_apply]
  show V c (Pipeline.arrRef spec0 0) _ = V c (Pipeline.arrRef spec0 0) _
  congr 1
  funext a
  apply Fin.ext
  match a with
  | ⟨0, _⟩ => show win0_0.index t (0 : Fin 2) * 512 + 1 * r.val = p.val; rw [e0, hp]; omega
  | ⟨1, _⟩ => show win0_0.index t (1 : Fin 2) * 2048 + 1 * k.val = kk.val; rw [e1, hk]; omega

/-- An entry of the right factor's block at point `t` is the entry of the array under it. -/
theorem iblk1_apply (c : Dev nD) (t : Fin cfg0.N) (k : Fin 2048) (q : Fin 128) (kk : Fin 4096)
    (hk : kk.val = 2048 * (t.val % 2) + k.val) :
    blk1 V c t (ix2 k q) = Bmat V c (ix2 kk q) := by
  obtain ⟨-, -, e0, e1, -⟩ := idx_facts t
  unfold blk1 iblk
  rw [View.read_apply]
  show V c (Pipeline.arrRef spec0 1) _ = V c (Pipeline.arrRef spec0 1) _
  congr 1
  funext a
  apply Fin.ext
  match a with
  | ⟨0, _⟩ => show win0_1.index t (0 : Fin 2) * 2048 + 1 * k.val = kk.val; rw [e0, hk]; omega
  | ⟨1, _⟩ => show win0_1.index t (1 : Fin 2) * 128 + 1 * q.val = q.val; rw [e1]; omega

/-! ## The accumulation -/

/-- The product of the two blocks at point `n`, at an entry (zero past the grid). -/
def part (c : Dev nD) (n : ℕ) (j : S512x128.Idx) : EReal :=
  if h : n < cfg0.N then
    ∑ k : Fin 2048, blk0 V c ⟨n, h⟩ (ix2 (j 0) k) * blk1 V c ⟨n, h⟩ (ix2 k (j 1))
  else 0

/-- After an even point the accumulator holds that point's product. -/
theorem acc_A (c : Dev nD) (n : ℕ) (hn : n < cfg0.N) (h0 : n % 2 = 0) (j : S512x128.Idx) :
    (outsAt V c n hn).2 j = part V c n j := by
  rw [outsAt_A V c ⟨n, hn⟩ h0]
  unfold stepA
  dsimp only
  rw [sout_A_eq, pay2_apply, pay1_apply, zero_add]
  unfold part
  rw [dif_pos hn]
  try rfl

/-- After an odd point the accumulator holds what it held plus that point's product, -/
theorem acc_B (c : Dev nD) (n : ℕ) (hn : n < cfg0.N) (h0 : ¬n % 2 = 0) (j : S512x128.Idx) :
    (outsAt V c n hn).2 j = (outsAt V c (n - 1) (Nat.lt_of_le_of_lt (Nat.sub_le _ _) hn)).2 j + part V c n j := by
  rw [outsAt_B V c ⟨n, hn⟩ h0]
  unfold stepB
  dsimp only
  rw [sout_B_eq, pay2_apply]
  unfold part
  rw [dif_pos hn]
  try rfl

/-- and so does the output block. -/
theorem out_B (c : Dev nD) (n : ℕ) (hn : n < cfg0.N) (h0 : ¬n % 2 = 0) (j : S512x128.Idx) :
    (outsAt V c n hn).1 j = (outsAt V c (n - 1) (Nat.lt_of_le_of_lt (Nat.sub_le _ _) hn)).2 j + part V c n j := by
  rw [outsAt_B V c ⟨n, hn⟩ h0]
  unfold stepB
  dsimp only
  rw [out_B_eq, pay2_apply]
  unfold part
  rw [dif_pos hn]
  try rfl

/-- The product of the blocks at point `n`, through the arrays: the part of the product's sum over the
    column block `n % 2`. -/
theorem part_eq (c : Dev nD) (n : ℕ) (hn : n < cfg0.N) (j : S512x128.Idx) (p : Fin 4096) (s : Fin 2)
    (hp : p.val = 512 * (n / 2) + (j 0).val) (hs : s.val = n % 2) :
    part V c n j = ∑ k : Fin 2048, Amat V c (ix2 p (finProdFinEquiv (s, k))) * Bmat V c (ix2 (finProdFinEquiv (s, k)) (j 1)) := by
  unfold part
  rw [dif_pos hn]
  try rfl
  refine Finset.sum_congr rfl fun k _ => ?_
  have hk : (finProdFinEquiv (s, k) : Fin (2 * 2048)).val = 2048 * (n % 2) + k.val := by
    rw [finProdFinEquiv_apply_val, hs]; show k.val + 2048 * (n % 2) = _; omega
  rw [iblk0_apply V c ⟨n, hn⟩ (j 0) k p (finProdFinEquiv (s, k)) hp hk,
    iblk1_apply V c ⟨n, hn⟩ k (j 1) (finProdFinEquiv (s, k)) hk]

/-! ## What is written back, and the array after the region -/

/-- The product at an index, its sum cut into the two column blocks of the left factor. -/
theorem G_apply (c : Dev nD) (i : S4096x128.Idx) (p : Fin 4096) (q : Fin 128) (hp : (i 0).val = p.val) (hq : (i 1).val = q.val) :
    G V c i = ∑ s : Fin 2, ∑ k : Fin 2048, Amat V c (ix2 p (finProdFinEquiv (s, k))) * Bmat V c (ix2 (finProdFinEquiv (s, k)) q) := by
  have key : ∀ (a : Fin 4096) (b : Fin 128), a = p → b = q →
      (∑ k : Fin 4096, Amat V c (ix2 a k) * Bmat V c (ix2 k b))
        = ∑ s : Fin 2, ∑ k : Fin 2048, Amat V c (ix2 p (finProdFinEquiv (s, k))) * Bmat V c (ix2 (finProdFinEquiv (s, k)) q) := by
    intro a b ha hb
    rw [ha, hb]
    exact sum_blocks 2 2048 (fun k => Amat V c (ix2 p k) * Bmat V c (ix2 k q))
  exact key (i 0) (i 1) (Fin.ext hp) (Fin.ext hq)

/-- WHAT A POINT WRITES BACK (an odd point: `k` last) is its block of the product. -/
theorem flushed_eq (c : Dev nD) (t : Fin cfg0.N) (hf : (cfg0.win 2).flush t = true) :
    (dat V c).flushed 2 t = ((cfg0.win 2).blk t).view.read (Elt Ideal) (G V c) := by
  have h1 : t.val % 2 = 1 := (flush0_2 t).mp hf
  have hN : t.val < 16 := lt_of_lt_of_eq t.isLt (show cfg0.N = 16 from N_0)
  obtain ⟨-, -, -, -, e0, e1⟩ := idx_facts t
  show (cfg0.win 2).cut (grid0.coords t) ((dat V c).after 2 t) = _
  rw [after_2]
  funext y
  rw [View.read_apply]
  show (outsAt V c t.val t.isLt).1 y = G V c (((cfg0.win 2).blk t).view.emb y)
  have hy0 : (y 0).val < 512 := (y 0).isLt
  have hp : ((((cfg0.win 2).blk t).view.emb y) 0).val = 512 * (t.val / 2) + (y 0).val := by
    show win0_2.index t (0 : Fin 2) * 512 + 1 * (y 0).val = _; rw [e0]; omega
  have hq : ((((cfg0.win 2).blk t).view.emb y) 1).val = (y 1).val := by
    show win0_2.index t (1 : Fin 2) * 128 + 1 * (y 1).val = (y 1).val; rw [e1]; omega
  rw [G_apply V c _ ⟨512 * (t.val / 2) + (y 0).val, by omega⟩ (y 1) hp hq, Fin.sum_univ_two]
  rw [out_B V c t.val t.isLt (by omega) y, acc_A V c (t.val - 1) _ (by omega) y]
  rw [part_eq V c (t.val - 1) (Nat.lt_of_le_of_lt (Nat.sub_le _ _) t.isLt) y ⟨512 * (t.val / 2) + (y 0).val, by omega⟩ 0
      (by show 512 * (t.val / 2) + (y 0).val = 512 * ((t.val - 1) / 2) + (y 0).val; omega)
      (by show 0 = (t.val - 1) % 2; omega),
    part_eq V c t.val t.isLt y ⟨512 * (t.val / 2) + (y 0).val, by omega⟩ 1 rfl
      (by show 1 = t.val % 2; omega)]

/-- An index of the output array is in point `t`'s block iff each coordinate is in the block's range. -/
theorem mem_blk (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v19).slice (win0_2.rect t)).set ↔ _
  rw [View.set_slice_whole, Rect.mem_set_unit]
  exact Iff.rfl

/-- Every index of the output array is in the block of a point that writes back: the row blocks tile it. -/
theorem cover (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 16 := N_0
  have hb : 2 * ((i 0).val / 512) + 1 < cfg0.N := by rw [hN]; omega
  obtain ⟨-, -, -, -, e0, e1⟩ := idx_facts ⟨2 * ((i 0).val / 512) + 1, hb⟩
  refine ⟨⟨2 * ((i 0).val / 512) + 1, hb⟩, (flush0_2 _).mpr (by show (2 * ((i 0).val / 512) + 1) % 2 = 1; omega), ?_⟩
  rw [mem_blk]
  intro a
  match a with
  | ⟨0, _⟩ =>
    show win0_2.index ⟨2 * ((i 0).val / 512) + 1, hb⟩ (0 : Fin 2) * 512 ≤ (i 0).val ∧ (i 0).val < win0_2.index ⟨2 * ((i 0).val / 512) + 1, hb⟩ (0 : Fin 2) * 512 + 512
    rw [e0]; dsimp only; omega
  | ⟨1, _⟩ =>
    show win0_2.index ⟨2 * ((i 0).val / 512) + 1, hb⟩ (1 : Fin 2) * 128 ≤ (i 1).val ∧ (i 1).val < win0_2.index ⟨2 * ((i 0).val / 512) + 1, hb⟩ (1 : Fin 2) * 128 + 128
    rw [e1]; omega

/-- THE OUTPUT ARRAY when the region ends: the product of the two input arrays as the region found them. -/
theorem arrAt_out (c : Dev nD) : (dat V c).arrAt 2 cfg0.N = G V c :=
  (dat V c).arrAt_eq_of_cover 2 (G V c) (flushed_eq V c) cover

/-- The same, entry by entry. -/
theorem arrAt_out_apply (c : Dev nD) (p : Fin 4096) (q : Fin 128) :
    ((dat V c).arrAt 2 cfg0.N : S4096x128.Idx → EReal) (ix2 p q) = ∑ k : Fin 4096, Amat V c (ix2 p k) * Bmat V c (ix2 k q) := by
  rw [arrAt_out]; rfl

/-- The input arrays are unchanged. -/
theorem arrAt_in0 (c : Dev nD) : (dat V c).arrAt 0 cfg0.N = V c (Pipeline.arrRef spec0 0) :=
  ((dat V c).arrAt_in 0 rfl _).trans (A_eq V c 0)
theorem arrAt_in1 (c : Dev nD) : (dat V c).arrAt 1 cfg0.N = V c (Pipeline.arrRef spec0 1) :=
  ((dat V c).arrAt_in 1 rfl _).trans (A_eq V c 1)

end Cert.KernelIdeal.Reg0Value

end
-- ==== Proof.Reg1Value.lean ====
import proofs.«162839_j74869869904021_2_alg».proof.Proof.Reg1
import proofs.«162839_j74869869904021_2_alg».proof.Proof.LibPlainMatmul
import Idealize.ShloMosaic.Lib.Pipeline.Value
import Idealize.ShloMosaic.Lib.ValueIdx
import Idealize.ShloMosaic.Lib.Tactic

set_option maxRecDepth 16384

noncomputable section

namespace Cert.KernelIdeal.Reg1Value

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open scoped BigOperators

open Cert.KernelIdeal.Reg1

/-! # Region 1 (the second matrix product): the value of its output array

Over the extended reals the accumulator after the point with last coordinate `k` holds the sum, over
the column blocks `0 … k` of the left factor's row block, of the blocks' products; the output block
written back at the last `k` is therefore the row block of the full product. -/

section Pieces

variable {F : FTy → Type} [FloatOps F]

theorem hz : (![0, 0] : Fin 2 → Nat) = fun _ => 0 := funext fun a => by fin_cases a <;> rfl

/-- After a point with `k = 0` the accumulator holds the zero block plus the blocks' product. -/
theorem sout_A_eq (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : cond_0 i) (hc1 : ¬cond_1 i)
    (x0 : Vec F S512x1024 .f32) (x1 : Vec F S1024x128 .f32) :
    sout_A c i arg3 harg3 arg4 harg4 arg5 harg5 arg6 harg6 hc0 hc1 x0 x1 = k1_pay2 (k1_pay1 (F := F)) x0 x1 := by
  unfold sout_A
  rw [View.read_writes_eq_canon _ _ _ (scover_A c i arg3 harg3 arg4 harg4 arg5 harg5 arg6 harg6 hc0 hc1 x0 x1)]
  unfold kernelRun_A
  dsimp only
  sl_unfold_words
  rw [View.canon_cons_unit_zero (S := S512x128) hz, View.readCov_unit_zero (S := S512x128) _ hz]
  simp only [View.readAt_eq_ld, harg3.read_unread, harg4.read_unread, View.ld_unit_zero (S := S512x1024) hz,
    View.ld_unit_zero (S := S1024x128) hz]

/-- After a point with `k` neither first nor last the accumulator holds what it held plus the blocks' product. -/
theorem sout_B_eq (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : ¬cond_1 i)
    (x0 : Vec F S512x1024 .f32) (x1 : Vec F S1024x128 .f32) (xs0 : Vec F S512x128 .f32) :
    sout_B c i arg3 harg3 arg4 harg4 arg5 harg5 arg6 harg6 hc0 hc1 x0 x1 xs0 = k1_pay2 xs0 x0 x1 := by
  unfold sout_B
  rw [View.read_writes_eq_canon _ _ _ (scover_B c i arg3 harg3 arg4 harg4 arg5 harg5 arg6 harg6 hc0 hc1 x0 x1 xs0)]
  unfold kernelRun_B
  dsimp only
  sl_unfold_words
  rw [View.canon_unit_zero (S := S512x128) hz]
  simp only [View.readAt_eq_ld, harg3.read_unread, harg4.read_unread, harg6.read_unread, View.ld_unit_zero (S := S512x1024) hz,
    View.ld_unit_zero (S := S1024x128) hz, View.ld_unit_zero (S := S512x128) hz]

/-- After a point with `k` last likewise, -/
theorem sout_C_eq (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) :
    sout_C c i arg3 harg3 arg4 harg4 arg5 harg5 arg6 harg6 hc0 hc1 x0 x1 xs0 = k1_pay2 xs0 x0 x1 := by
  unfold sout_C
  rw [View.read_writes_eq_canon _ _ _ (scover_C c i arg3 harg3 arg4 harg4 arg5 harg5 arg6 harg6 hc0 hc1 x0 x1 xs0)]
  unfold kernelRun_C
  dsimp only
  sl_unfold_words
  rw [View.canon_unit_zero (S := S512x128) hz]
  simp only [View.readAt_eq_ld, harg3.read_unread, harg4.read_unread, harg6.read_unread, View.ld_unit_zero (S := S512x1024) hz,
    View.ld_unit_zero (S := S1024x128) hz, View.ld_unit_zero (S := S512x128) hz]

/-- and the output block is a copy of it. -/
theorem out_C_eq (c : Dev nD) (i : grid1.Coords) (arg3 : Memref sig .tc .vmem S512x1024 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S512x128 .f32) (harg6 : arg6.IsWhole) (hc0 : ¬cond_0 i) (hc1 : cond_1 i)
    (x0 : Vec F S512x1024 .f32) (x1 : Vec F S1024x128 .f32) (xs0 : Vec F S512x128 .f32) :
    out_C_2 c i arg3 harg3 arg4 harg4 arg5 harg5 arg6 harg6 hc0 hc1 x0 x1 xs0 = k1_pay2 xs0 x0 x1 := by
  unfold out_C_2
  rw [View.read_writes_eq_canon _ _ _ (cover_C_2 c i arg3 harg3 arg4 harg4 arg5 harg5 arg6 harg6 hc0 hc1 x0 x1 xs0)]
  unfold kernelRun_C
  dsimp only
  sl_unfold_words
  rw [View.canon_unit_zero (S := S512x128) hz, View.readCov_unit_zero (S := S512x128) _ hz]
  simp only [View.readAt_eq_ld, harg3.read_unread, harg4.read_unread, harg6.read_unread, View.ld_unit_zero (S := S512x1024) hz,
    View.ld_unit_zero (S := S1024x128) hz, View.ld_unit_zero (S := S512x128) hz]

end Pieces

/-! ## The payloads over the extended reals -/

/-- The zero block is zero at every entry. -/
theorem pay1_apply (j : S512x128.Idx) : k1_pay1 (F := Ideal) j = 0 := by
  unfold k1_pay1
  simp only [shapeCast_self]
  exact Ideal.ofBits_zero_f32

/-- The accumulating payload at an entry: the accumulator there plus the entry of the blocks' product. -/
theorem pay2_apply (xs : Vec Ideal S512x128 .f32) (x0 : Vec Ideal S512x1024 .f32) (x1 : Vec Ideal S1024x128 .f32) (j : S512x128.Idx) :
    k1_pay2 (F := Ideal) xs x0 x1 j = xs j + ∑ k : Fin 1024, x0 (ix2 (j 0) k) * x1 (ix2 k (j 1)) := by
  obtain ⟨r, q, rfl⟩ : ∃ (r : Fin 512) (q : Fin 128), j = ix2 r q := ⟨j 0, j 1, eq_ix2 j⟩
  unfold k1_pay2
  simp only [shapeCast_self]
  exact congrArg (xs (ix2 r q) + ·) (matmul_plain_zero_apply dot_S512x1024_S1024x128_S512x128_1_0_0_1_n_n_wf (some .fp32) x0 x1 r q)

/-! ## Sums over a range cut into equal blocks -/

/-- A sum over `J * K` consecutive indices is the sum, over the `J` blocks of `K` consecutive indices,
    of the blocks' sums. -/
theorem sum_blocks {M : Type} [AddCommMonoid M] (J K : ℕ) (f : Fin (J * K) → M) :
    ∑ k : Fin (J * K), f k = ∑ s : Fin J, ∑ k : Fin K, f (finProdFinEquiv (s, k)) :=
  ((Equiv.sum_comp finProdFinEquiv f).symm).trans (Fintype.sum_prod_type _)

variable (V : (c : Dev nD) → (b : Ref sig .tc) → Buf (Elt Ideal) ((c : Thread nD τ).loc b))

/-! ## The windows' blocks as parts of the arrays -/

/-- The left factor, the right factor: the two input arrays as the region finds them. -/
abbrev Amat (c : Dev nD) : S4096x4096.Idx → EReal := V c (Pipeline.arrRef spec1 0)
abbrev Bmat (c : Dev nD) : S4096x128.Idx → EReal := V c (Pipeline.arrRef spec1 1)

/-- THE PRODUCT: entry `(p, q)` is the sum over `k` of `A(p, k) · B(k, q)`. -/
def G (c : Dev nD) : S4096x128.Idx → EReal :=
  fun i => ∑ k : Fin 4096, Amat V c (ix2 (i 0) k) * Bmat V c (ix2 k (i 1))

/-- The printed index maps, decided over the grid: at point `t` the left factor's block is (row block
    `t / 4`, column block `t % 4`), the right factor's is row block `t % 4`, the output's is row block
    `t / 4`. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0)

/-- The two input blocks at point `t`, as arrays of extended reals. -/
abbrev blk0 (c : Dev nD) (t : Fin cfg1.N) : S512x1024.Idx → EReal := iblk V c 0 t
abbrev blk1 (c : Dev nD) (t : Fin cfg1.N) : S1024x128.Idx → EReal := iblk V c 1 t

/-- An entry of the left factor's block at point `t` is the entry of the array under it. -/
theorem iblk0_apply (c : Dev nD) (t : Fin cfg1.N) (r : Fin 512) (k : Fin 1024) (p kk : Fin 4096)
    (hp : p.val = 512 * (t.val / 4) + r.val) (hk : kk.val = 1024 * (t.val % 4) + k.val) :
    blk0 V c t (ix2 r k) = Amat V c (ix2 p kk) := by
  obtain ⟨e0, e1, -⟩ := idx_facts t
  unfold blk0 iblk
  rw [View.read_apply]
  show V c (Pipeline.arrRef spec1 0) _ = V c (Pipeline.arrRef spec1 0) _
  congr 1
  funext a
  apply Fin.ext
  match a with
  | ⟨0, _⟩ => show win1_0.index t (0 : Fin 2) * 512 + 1 * r.val = p.val; rw [e0, hp]; omega
  | ⟨1, _⟩ => show win1_0.index t (1 : Fin 2) * 1024 + 1 * k.val = kk.val; rw [e1, hk]; omega

/-- An entry of the right factor's block at point `t` is the entry of the array under it. -/
theorem iblk1_apply (c : Dev nD) (t : Fin cfg1.N) (k : Fin 1024) (q : Fin 128) (kk : Fin 4096)
    (hk : kk.val = 1024 * (t.val % 4) + k.val) :
    blk1 V c t (ix2 k q) = Bmat V c (ix2 kk q) := by
  obtain ⟨-, -, e0, e1, -⟩ := idx_facts t
  unfold blk1 iblk
  rw [View.read_apply]
  show V c (Pipeline.arrRef spec1 1) _ = V c (Pipeline.arrRef spec1 1) _
  congr 1
  funext a
  apply Fin.ext
  match a with
  | ⟨0, _⟩ => show win1_1.index t (0 : Fin 2) * 1024 + 1 * k.val = kk.val; rw [e0, hk]; omega
  | ⟨1, _⟩ => show win1_1.index t (1 : Fin 2) * 128 + 1 * q.val = q.val; rw [e1]; omega

/-! ## The accumulation -/

/-- The product of the two blocks at point `n`, at an entry (zero past the grid). -/
def part (c : Dev nD) (n : ℕ) (j : S512x128.Idx) : EReal :=
  if h : n < cfg1.N then
    ∑ k : Fin 1024, blk0 V c ⟨n, h⟩ (ix2 (j 0) k) * blk1 V c ⟨n, h⟩ (ix2 k (j 1))
  else 0

/-- After a point with `k = 0` the accumulator holds that point's product. -/
theorem acc_A (c : Dev nD) (n : ℕ) (hn : n < cfg1.N) (h0 : n % 4 = 0) (j : S512x128.Idx) :
    (outsAt V c n hn).2 j = part V c n j := by
  rw [outsAt_A V c ⟨n, hn⟩ h0]
  unfold stepA
  dsimp only
  rw [sout_A_eq, pay2_apply, pay1_apply, zero_add]
  unfold part
  rw [dif_pos hn]
  try rfl

/-- After a point with `k` neither first nor last it holds what it held plus that point's product, -/
theorem acc_B (c : Dev nD) (n : ℕ) (hn : n < cfg1.N) (h0 : ¬n % 4 = 0) (h1 : ¬n % 4 = 3) (j : S512x128.Idx) :
    (outsAt V c n hn).2 j = (outsAt V c (n - 1) (Nat.lt_of_le_of_lt (Nat.sub_le _ _) hn)).2 j + part V c n j := by
  rw [outsAt_B V c ⟨n, hn⟩ h0 h1]
  unfold stepB
  dsimp only
  rw [sout_B_eq, pay2_apply]
  unfold part
  rw [dif_pos hn]
  try rfl

/-- and after a point with `k` last the output block holds the same. -/
theorem out_C (c : Dev nD) (n : ℕ) (hn : n < cfg1.N) (h0 : ¬n % 4 = 0) (h1 : n % 4 = 3) (j : S512x128.Idx) :
    (outsAt V c n hn).1 j = (outsAt V c (n - 1) (Nat.lt_of_le_of_lt (Nat.sub_le _ _) hn)).2 j + part V c n j := by
  rw [outsAt_C V c ⟨n, hn⟩ h0 h1]
  unfold stepC
  dsimp only
  rw [out_C_eq, pay2_apply]
  unfold part
  rw [dif_pos hn]
  try rfl

/-- The product of the blocks at point `n`, through the arrays: the part of the product's sum over the
    column block `n % 4`. -/
theorem part_eq (c : Dev nD) (n : ℕ) (hn : n < cfg1.N) (j : S512x128.Idx) (p : Fin 4096) (s : Fin 4)
    (hp : p.val = 512 * (n / 4) + (j 0).val) (hs : s.val = n % 4) :
    part V c n j = ∑ k : Fin 1024, Amat V c (ix2 p (finProdFinEquiv (s, k))) * Bmat V c (ix2 (finProdFinEquiv (s, k)) (j 1)) := by
  unfold part
  rw [dif_pos hn]
  refine Finset.sum_congr rfl fun k _ => ?_
  have hk : (finProdFinEquiv (s, k) : Fin (4 * 1024)).val = 1024 * (n % 4) + k.val := by
    rw [finProdFinEquiv_apply_val, hs]; show k.val + 1024 * (n % 4) = _; omega
  rw [iblk0_apply V c ⟨n, hn⟩ (j 0) k p (finProdFinEquiv (s, k)) hp hk,
    iblk1_apply V c ⟨n, hn⟩ k (j 1) (finProdFinEquiv (s, k)) hk]

/-! ## What is written back, and the array after the region -/

/-- The product at an index, its sum cut into the four column blocks of the left factor. -/
theorem G_apply (c : Dev nD) (i : S4096x128.Idx) (p : Fin 4096) (q : Fin 128) (hp : (i 0).val = p.val) (hq : (i 1).val = q.val) :
    G V c i = ∑ s : Fin 4, ∑ k : Fin 1024, Amat V c (ix2 p (finProdFinEquiv (s, k))) * Bmat V c (ix2 (finProdFinEquiv (s, k)) q) := by
  have key : ∀ (a : Fin 4096) (b : Fin 128), a = p → b = q →
      (∑ k : Fin 4096, Amat V c (ix2 a k) * Bmat V c (ix2 k b))
        = ∑ s : Fin 4, ∑ k : Fin 1024, Amat V c (ix2 p (finProdFinEquiv (s, k))) * Bmat V c (ix2 (finProdFinEquiv (s, k)) q) := by
    intro a b ha hb
    rw [ha, hb]
    exact sum_blocks 4 1024 (fun k => Amat V c (ix2 p k) * Bmat V c (ix2 k q))
  exact key (i 0) (i 1) (Fin.ext hp) (Fin.ext hq)

/-- WHAT A POINT WRITES BACK (a point with `k` last) is its block of the product. -/
theorem flushed_eq (c : Dev nD) (t : Fin cfg1.N) (hf : (cfg1.win 2).flush t = true) :
    (dat V c).flushed 2 t = ((cfg1.win 2).blk t).view.read (Elt Ideal) (G V c) := by
  have h1 : t.val % 4 = 3 := (flush1_2 t).mp hf
  have hN : t.val < 32 := lt_of_lt_of_eq t.isLt (show cfg1.N = 32 from N_1)
  have hN' : cfg1.N = 32 := N_1
  obtain ⟨-, -, -, -, e0, e1⟩ := idx_facts t
  show (cfg1.win 2).cut (grid1.coords t) ((dat V c).after 2 t) = _
  rw [after_2]
  funext y
  rw [View.read_apply]
  show (outsAt V c t.val t.isLt).1 y = G V c (((cfg1.win 2).blk t).view.emb y)
  have hy0 : (y 0).val < 512 := (y 0).isLt
  have hp : ((((cfg1.win 2).blk t).view.emb y) 0).val = 512 * (t.val / 4) + (y 0).val := by
    show win1_2.index t (0 : Fin 2) * 512 + 1 * (y 0).val = _; rw [e0]; omega
  have hq : ((((cfg1.win 2).blk t).view.emb y) 1).val = (y 1).val := by
    show win1_2.index t (1 : Fin 2) * 128 + 1 * (y 1).val = (y 1).val; rw [e1]; omega
  rw [G_apply V c _ ⟨512 * (t.val / 4) + (y 0).val, by omega⟩ (y 1) hp hq, Fin.sum_univ_four]
  rw [out_C V c t.val t.isLt (by omega) h1 y,
    acc_B V c (t.val - 1) _ (by omega) (by omega) y,
    acc_B V c (t.val - 1 - 1) _ (by omega) (by omega) y,
    acc_A V c (t.val - 1 - 1 - 1) _ (by omega) y]
  rw [part_eq V c (t.val - 1 - 1 - 1) (Nat.lt_of_le_of_lt (by omega) t.isLt) y ⟨512 * (t.val / 4) + (y 0).val, by omega⟩ 0
      (by show 512 * (t.val / 4) + (y 0).val = 512 * ((t.val - 1 - 1 - 1) / 4) + (y 0).val; omega)
      (by show 0 = (t.val - 1 - 1 - 1) % 4; omega),
    part_eq V c (t.val - 1 - 1) (Nat.lt_of_le_of_lt (by omega) t.isLt) y ⟨512 * (t.val / 4) + (y 0).val, by omega⟩ 1
      (by show 512 * (t.val / 4) + (y 0).val = 512 * ((t.val - 1 - 1) / 4) + (y 0).val; omega)
      (by show 1 = (t.val - 1 - 1) % 4; omega),
    part_eq V c (t.val - 1) (Nat.lt_of_le_of_lt (by omega) t.isLt) y ⟨512 * (t.val / 4) + (y 0).val, by omega⟩ 2
      (by show 512 * (t.val / 4) + (y 0).val = 512 * ((t.val - 1) / 4) + (y 0).val; omega)
      (by show 2 = (t.val - 1) % 4; omega),
    part_eq V c t.val t.isLt y ⟨512 * (t.val / 4) + (y 0).val, by omega⟩ 3 rfl
      (by show 3 = t.val % 4; omega)]

/-- An index of the output array is in point `t`'s block iff each coordinate is in the block's range. -/
theorem mem_blk (t : Fin cfg1.N) (i : S4096x128.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v38).slice (win1_2.rect t)).set ↔ _
  rw [View.set_slice_whole, Rect.mem_set_unit]
  exact Iff.rfl

/-- Every index of the output array is in the block of a point that writes back: the row blocks tile it. -/
theorem cover (i : S4096x128.Idx) : ∃ t : Fin cfg1.N, (cfg1.win 2).flush t = true ∧ i ∈ ((cfg1.win 2).blk t).view.set := by
  have hi0 : (i 0).val < 4096 := (i 0).isLt
  have hi1 : (i 1).val < 128 := (i 1).isLt
  have hN : cfg1.N = 32 := N_1
  have hb : 4 * ((i 0).val / 512) + 3 < cfg1.N := by rw [hN]; omega
  obtain ⟨-, -, -, -, e0, e1⟩ := idx_facts ⟨4 * ((i 0).val / 512) + 3, hb⟩
  refine ⟨⟨4 * ((i 0).val / 512) + 3, hb⟩, (flush1_2 _).mpr (by show (4 * ((i 0).val / 512) + 3) % 4 = 3; omega), ?_⟩
  rw [mem_blk]
  intro a
  match a with
  | ⟨0, _⟩ =>
    show win1_2.index ⟨4 * ((i 0).val / 512) + 3, hb⟩ (0 : Fin 2) * 512 ≤ (i 0).val ∧ (i 0).val < win1_2.index ⟨4 * ((i 0).val / 512) + 3, hb⟩ (0 : Fin 2) * 512 + 512
    rw [e0]; dsimp only; omega
  | ⟨1, _⟩ =>
    show win1_2.index ⟨4 * ((i 0).val / 512) + 3, hb⟩ (1 : Fin 2) * 128 ≤ (i 1).val ∧ (i 1).val < win1_2.index ⟨4 * ((i 0).val / 512) + 3, hb⟩ (1 : Fin 2) * 128 + 128
    rw [e1]; omega

/-- THE OUTPUT ARRAY when the region ends: the product of the two input arrays as the region found them. -/
theorem arrAt_out (c : Dev nD) : (dat V c).arrAt 2 cfg1.N = G V c :=
  (dat V c).arrAt_eq_of_cover 2 (G V c) (flushed_eq V c) cover

/-- The same, entry by entry. -/
theorem arrAt_out_apply (c : Dev nD) (p : Fin 4096) (q : Fin 128) :
    ((dat V c).arrAt 2 cfg1.N : S4096x128.Idx → EReal) (ix2 p q) = ∑ k : Fin 4096, Amat V c (ix2 p k) * Bmat V c (ix2 k q) := by
  rw [arrAt_out]; rfl

/-- The input arrays are unchanged. -/
theorem arrAt_in0 (c : Dev nD) : (dat V c).arrAt 0 cfg1.N = V c (Pipeline.arrRef spec1 0) :=
  ((dat V c).arrAt_in 0 rfl _).trans (A_eq V c 0)
theorem arrAt_in1 (c : Dev nD) : (dat V c).arrAt 1 cfg1.N = V c (Pipeline.arrRef spec1 1) :=
  ((dat V c).arrAt_in 1 rfl _).trans (A_eq V c 1)

end Cert.KernelIdeal.Reg1Value

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.RefRead.lean ====
/-
  The reference's stages read at an entry, at the exact extended reals.

  Every stage of RefOps.lean is read at a row (and column) given by literal coordinates: a matrix product as the sum
  over the contracted coordinate of the products of entries, a row maximum as the maximum from minus infinity of the
  row's entries, a row sum as the sum of the row's entries, the broadcasts, the transpose, the slices and the
  concatenation by the coordinates they copy from. The exponential, the comparison, the selection and the division
  are left as the exact functions they are.
-/
import proofs.«162839_j74869869904021_2_alg».proof.Proof.RefOps
import proofs.«162839_j74869869904021_2_alg».proof.Proof.LibPlainDotGeneral
import proofs.«162839_j74869869904021_2_alg».proof.Proof.LibConcatRead
import Idealize.ShloMosaic.Lib.IdealHost
import Idealize.ShloMosaic.Lib.Pipeline.Value

open scoped BigOperators

noncomputable section

namespace Cert.ReferenceIdeal.RefValue

open Cert.ReferenceIdeal Cert.ReferenceIdeal.Gen Idealize.ShloMosaic Idealize.ShloMosaic.ValueIdx

/-! ## The layout operations, read at an entry -/

/-- A one-column matrix repeated along the rows of a square matrix reads, at `(i, j)`, the column's entry `i`. -/
theorem rows_apply {α : Type} (v : S4096x1.Idx → α) (i j : Fin 4096) :
    broadcastInDim S4096x4096 ![0, 1] bcast_S4096x1_S4096x4096_0_1 v (ix2 i j) = v (ix2 i 0) :=
  broadcastInDim_apply _ _ v (ix2 i j) (ix2 i 0) (fun a => by
    match a with
    | ⟨0, _⟩ => rfl
    | ⟨1, _⟩ => rfl)

/-- A one-row matrix repeated along the columns of a square matrix reads, at `(i, j)`, the row's entry `j`. -/
theorem cols_apply {α : Type} (v : S1x4096.Idx → α) (i j : Fin 4096) :
    broadcastInDim S4096x4096 ![0, 1] bcast_S1x4096_S4096x4096_0_1 v (ix2 i j) = v (ix2 0 j) :=
  broadcastInDim_apply _ _ v (ix2 i j) (ix2 0 j) (fun a => by
    match a with
    | ⟨0, _⟩ => rfl
    | ⟨1, _⟩ => rfl)

/-- The transpose of a one-column matrix reads, at `(0, j)`, the column's entry `j`. -/
theorem transpose_col_apply {α : Type} (v : S4096x1.Idx → α) (j : Fin 4096) :
    transpose S1x4096 [1, 0] v transposes_S4096x1_S1x4096_1_0 (ix2 0 j) = v (ix2 j 0) :=
  transpose_apply _ v _ (ix2 0 j) (ix2 j 0) (fun b => by
    match b with
    | ⟨0, _⟩ => rfl
    | ⟨1, _⟩ => rfl)

/-- A vector as a one-column matrix reads, at `(i, 0)`, the vector's entry `i`. -/
theorem col_apply' {α : Type} (v : S4096.Idx → α) (i : Fin 4096) :
    broadcastInDim S4096x1 ![0] bcast_S4096_S4096x1_0 v (ix2 i 0) = v (ix1 i) :=
  broadcastInDim_apply _ _ v (ix2 i 0) (ix1 i) (fun a => by
    match a with
    | ⟨0, _⟩ => rfl)

/-- A scalar spread over any shape reads the scalar everywhere. -/
theorem splat_apply {α : Type} {s : Shape} (hb : S_.BroadcastsInDim s (![] : Fin 0 → Fin s.rank)) (c : S_.Idx → α) (j : s.Idx) :
    broadcastInDim s ![] hb c j = c ix0 :=
  broadcastInDim_scalar_apply hb c j

/-! ## The bit patterns the program names -/

/-- The pattern of minus infinity is the bottom of the extended reals. -/
theorem ofBits_neg_inf : Ideal.ofBits .f32 0xFF800000#32 = (⊥ : EReal) := by simp [Ideal.ofBits, Ideal.ieee]

/-! ## The row softmax, read at an entry -/

/-- A row index with a column put back is the entry `(i, j)`. -/
theorem lift_row (h : S4096x4096.Reduces [1] S4096) (i : Fin 4096) (k : Fin (S4096x4096.size 1)) :
    h.lift (ix1 i) k = ix2 i (⟨k.val, k.isLt⟩ : Fin 4096) := by
  funext c; apply Fin.ext
  fin_cases c <;> rfl

theorem reduces_row : S4096x4096.Reduces [1] S4096 := by decide

/-- The pair scores at `(i, j)`: the source score of `i` plus the destination score of `j`. -/
theorem pairScores_apply (src dst : FVec Ideal S4096x1 .f32) (i j : Fin 4096) :
    pairScores src dst (ix2 i j) = src (ix2 i 0) + dst (ix2 j 0) := by
  unfold pairScores
  refine (addf_apply _ _ _).trans ?_
  rw [rows_apply, cols_apply, transpose_col_apply]

/-- A one-column matrix along the rows, read at `(i, j)`. -/
theorem rows_apply_ideal (v : FVec Ideal S4096x1 .f32) (i j : Fin 4096) : rows v (ix2 i j) = v (ix2 i 0) := by
  unfold rows; exact rows_apply v i j

/-- A vector as a one-column matrix, read at `(i, 0)`. -/
theorem col_apply (v : FVec Ideal S4096 .f32) (i : Fin 4096) : col v (ix2 i 0) = v (ix1 i) := by
  unfold col; exact col_apply' v i

/-- The row maximum at row `i`: the larger of minus infinity and the maximum, from minus infinity, of the row's entries. -/
theorem rowMax_apply (e : FVec Ideal S4096x4096 .f32) (i : Fin 4096) :
    rowMax e (ix1 i) = max (⊥ : EReal) ((Finset.univ : Finset (Fin 4096)).fold max (⊥ : EReal) fun j => e (ix2 i j)) := by
  unfold rowMax
  refine (maximumf_apply _ _ _).trans ?_
  rw [splat_apply, Host.reduce_eq_fold_single FloatOps.maximumf e _ reducesTo_S4096x4096_S4096_d1 reduces_row h_S_]
  show max (Ideal.ofBits .f32 0xFF800000#32) (Finset.fold max (Ideal.ofBits .f32 0xFF800000#32) _ _) = _
  rw [ofBits_neg_inf]
  have hf : (e ∘ reduces_row.lift (ix1 i)) = fun j : Fin 4096 => e (ix2 i j) :=
    funext fun k => congrArg e (lift_row reduces_row i k)
  exact congrArg (fun f => max (⊥ : EReal) (Finset.fold max (⊥ : EReal) f (Finset.univ : Finset (Fin 4096)))) hf

/-- The row maximum at row `i`, the outer maximum with minus infinity dropped. -/
theorem rowMax_apply' (e : FVec Ideal S4096x4096 .f32) (i : Fin 4096) :
    rowMax e (ix1 i) = (Finset.univ : Finset (Fin 4096)).fold max (⊥ : EReal) fun j => e (ix2 i j) := by
  rw [rowMax_apply]; exact max_eq_right bot_le

/-- The shifted exponential at `(i, j)`. -/
theorem expShift_apply (e : FVec Ideal S4096x4096 .f32) (i j : Fin 4096) :
    expShift e (ix2 i j) = Ideal.exp (e (ix2 i j) - rowMax e (ix1 i)) := by
  unfold expShift
  show Ideal.exp (e (ix2 i j) - rows (col (rowMax e)) (ix2 i j)) = _
  rw [rows_apply_ideal, col_apply]

/-- The row sum at row `i`: the sum of the row's shifted exponentials. -/
theorem rowSum_apply (e : FVec Ideal S4096x4096 .f32) (i : Fin 4096) :
    rowSum e (ix1 i) = ∑ j : Fin 4096, expShift e (ix2 i j) := by
  unfold rowSum
  rw [hostReduceAdd_apply, Ideal.hostReduceAdd_single reducesTo_S4096x4096_S4096_d1 reduces_row]
  show Ideal.ofBits .f32 0x00000000#32 + _ = _
  rw [Ideal.ofBits_zero_f32, zero_add]
  exact Finset.sum_congr rfl fun k _ => congrArg (expShift e) (lift_row reduces_row i k)

/-- The softmax at `(i, j)`: the shifted exponential over the row's sum of shifted exponentials. -/
theorem softmax_apply (e : FVec Ideal S4096x4096 .f32) (i j : Fin 4096) :
    softmax e (ix2 i j) = Ideal.div (Ideal.exp (e (ix2 i j) - rowMax e (ix1 i)))
      (∑ j' : Fin 4096, Ideal.exp (e (ix2 i j') - rowMax e (ix1 i))) := by
  unfold softmax
  refine (hostDivf_apply _ _ _).trans ?_
  rw [rows_apply_ideal, col_apply, rowSum_apply, expShift_apply]
  exact congrArg (Ideal.div _) (Finset.sum_congr rfl fun j' _ => expShift_apply e i j')

/-! ## The exponential linear unit, read at an entry -/

/-- The exponential linear unit on one extended real, as the program spells it: the number itself where it is
    positive, elsewhere one times (the exponential, less one, of: zero where the number is positive, the number
    elsewhere). -/
def elu (t : EReal) : EReal :=
  Scalar.select (Ideal.cmp .ogt t 0) t (1 * (Ideal.exp (Scalar.select (Ideal.cmp .ogt t 0) 0 t) - 1))

/-- The same with the zeros and the one as the bit patterns the program writes. -/
theorem elu_printed (t : EReal) :
    Scalar.select (Ideal.cmp .ogt t (Ideal.ofBits .f32 0x00000000#32)) t
        (Ideal.ofBits .f32 0x3F800000#32
          * (Ideal.exp (Scalar.select (Ideal.cmp .ogt t (Ideal.ofBits .f32 0x00000000#32)) (Ideal.ofBits .f32 0x00000000#32) t) - 1))
      = elu t := by
  rw [Ideal.ofBits_zero_f32, Ideal.ofBits_one_f32]; rfl

/-- The entrywise exponential linear unit at an entry. -/
theorem eluV_apply {s : Shape} (hb : S_.BroadcastsInDim s (![] : Fin 0 → Fin s.rank)) (z : FVec Ideal s .f32) (j : s.Idx) :
    eluV hb z j = elu (z j) := by
  unfold eluV
  refine Eq.trans ?_ (elu_printed (z j))
  show Scalar.select (Ideal.cmp .ogt (z j) (broadcastInDim s ![] hb (constant (F := Ideal) S_ .f32 0x00000000#32) j)) (z j)
      (broadcastInDim s ![] hb (constant (F := Ideal) S_ .f32 0x3F800000#32) j
        * (Ideal.exp (Scalar.select (Ideal.cmp .ogt (z j) (broadcastInDim s ![] hb (constant (F := Ideal) S_ .f32 0x00000000#32) j))
            (broadcastInDim s ![] hb (id (constant (F := Ideal) S_ .f32 0x00000000#32)) j) (z j)) - 1)) = _
  simp only [splat_apply, id]
  rfl

/-! ## The matrix products and the slices, read at an entry -/

/-- The first eight entries of the first layer's scoring vector. -/
theorem a1_lo_apply (a1 : FVec Ideal S16x1 .f32) (k : Fin 8) :
    extractStridedSlice S8x1 ![0, 0] a1 slices_S16x1_S8x1_0_0 (ix2 k 0) = a1 (ix2 (⟨k.val, by omega⟩ : Fin 16) 0) :=
  extractStridedSlice_apply _ a1 _ (ix2 k 0) (ix2 (⟨k.val, by omega⟩ : Fin 16) 0) (fun a => by
    match a with
    | ⟨0, _⟩ => exact (Nat.zero_add _).symm
    | ⟨1, _⟩ => rfl)

/-- The last eight entries of the first layer's scoring vector. -/
theorem a1_hi_apply (a1 : FVec Ideal S16x1 .f32) (k : Fin 8) :
    extractStridedSlice S8x1 ![8, 0] a1 slices_S16x1_S8x1_8_0 (ix2 k 0) = a1 (ix2 (⟨8 + k.val, by omega⟩ : Fin 16) 0) :=
  extractStridedSlice_apply _ a1 _ (ix2 k 0) (ix2 (⟨8 + k.val, by omega⟩ : Fin 16) 0) (fun a => by
    match a with
    | ⟨0, _⟩ => rfl
    | ⟨1, _⟩ => rfl)

/-- The first entry of the second layer's scoring vector. -/
theorem a2_lo_apply (a2 : FVec Ideal S2x1 .f32) :
    extractStridedSlice S1x1 ![0, 0] a2 slices_S2x1_S1x1_0_0 (ix2 0 0) = a2 (ix2 0 0) :=
  extractStridedSlice_apply _ a2 _ (ix2 0 0) (ix2 0 0) (fun a => by
    match a with
    | ⟨0, _⟩ => rfl
    | ⟨1, _⟩ => rfl)

/-- The second entry of the second layer's scoring vector. -/
theorem a2_hi_apply (a2 : FVec Ideal S2x1 .f32) :
    extractStridedSlice S1x1 ![1, 0] a2 slices_S2x1_S1x1_1_0 (ix2 0 0) = a2 (ix2 1 0) :=
  extractStridedSlice_apply _ a2 _ (ix2 0 0) (ix2 1 0) (fun a => by
    match a with
    | ⟨0, _⟩ => rfl
    | ⟨1, _⟩ => rfl)

/-- A one-bit word turned into a float, at an entry. -/
theorem uitofp_apply {s : Shape} (c : IVec s 1) (j : s.Idx) :
    (uitofp .f32 c : FVec Ideal s .f32) j = FloatOps.uitofp (F := Ideal) .f32 (c j) := rfl

/-- A comparison at an entry compares the entries as extended reals. -/
theorem cmpf_apply_ideal {s : Shape} (p : CmpFPredicate) (u v : FVec Ideal s .f32) (j : s.Idx) :
    cmpf p u v j = Ideal.cmp p (u j) (v j) := rfl

section Stages

variable (x : FVec Ideal S4096x512 .f32) (adj : FVec Ideal S4096x4096 .f32) (W1 : FVec Ideal S512x8 .f32)
  (a1 : FVec Ideal S16x1 .f32) (W2 : FVec Ideal S8x1 .f32) (a2 : FVec Ideal S2x1 .f32) (Ws : FVec Ideal S1536x256 .f32)
  (b : FVec Ideal S256 .f32)

/-- First layer's projected features at `(i, k)`. -/
theorem h1_apply (i : Fin 4096) (k : Fin 8) : h1 x W1 (ix2 i k) = ∑ c : Fin 512, x (ix2 i c) * W1 (ix2 c k) := by
  unfold h1; exact dotGeneral_plain_apply _ none x W1 i k

/-- First layer's source score of node `i`. -/
theorem src1_apply (i : Fin 4096) :
    src1 x W1 a1 (ix2 i 0) = ∑ k : Fin 8, h1 x W1 (ix2 i k) * a1 (ix2 (⟨k.val, by omega⟩ : Fin 16) 0) := by
  unfold src1
  refine (dotGeneral_plain_apply _ none (h1 x W1) _ i 0).trans ?_
  exact Finset.sum_congr rfl fun k _ => congrArg (h1 x W1 (ix2 i k) * ·) (a1_lo_apply a1 k)

/-- First layer's destination score of node `i`. -/
theorem dst1_apply (i : Fin 4096) :
    dst1 x W1 a1 (ix2 i 0) = ∑ k : Fin 8, h1 x W1 (ix2 i k) * a1 (ix2 (⟨8 + k.val, by omega⟩ : Fin 16) 0) := by
  unfold dst1
  refine (dotGeneral_plain_apply _ none (h1 x W1) _ i 0).trans ?_
  exact Finset.sum_congr rfl fun k _ => congrArg (h1 x W1 (ix2 i k) * ·) (a1_hi_apply a1 k)

/-- First layer's pair score at `(i, j)`. -/
theorem e1_apply (i j : Fin 4096) : e1 x W1 a1 (ix2 i j) = src1 x W1 a1 (ix2 i 0) + dst1 x W1 a1 (ix2 j 0) := by
  unfold e1; exact pairScores_apply _ _ i j

/-- First layer's attention weight before masking at `(i, j)`. -/
theorem sm1_apply (i j : Fin 4096) :
    sm1 x W1 a1 (ix2 i j) = Ideal.div (Ideal.exp (e1 x W1 a1 (ix2 i j) - rowMax (e1 x W1 a1) (ix1 i)))
      (∑ j' : Fin 4096, Ideal.exp (e1 x W1 a1 (ix2 i j') - rowMax (e1 x W1 a1) (ix1 i))) := by
  unfold sm1; exact softmax_apply _ i j

/-- First layer's masked attention weight at `(i, j)`. -/
theorem att1_apply (i j : Fin 4096) : att1 x adj W1 a1 (ix2 i j) = sm1 x W1 a1 (ix2 i j) * adj (ix2 i j) := by
  unfold att1; exact mulf_apply _ _ _

/-- First layer's weighted sum of projected features at `(i, k)`. -/
theorem agg1_apply (i : Fin 4096) (k : Fin 8) :
    agg1 x adj W1 a1 (ix2 i k) = ∑ j : Fin 4096, att1 x adj W1 a1 (ix2 i j) * h1 x W1 (ix2 j k) := by
  unfold agg1; exact dotGeneral_plain_apply _ none _ _ i k

/-- First layer's output at `(i, k)`. -/
theorem g1_apply (i : Fin 4096) (k : Fin 8) : g1 x adj W1 a1 (ix2 i k) = elu (agg1 x adj W1 a1 (ix2 i k)) := by
  unfold g1; exact eluV_apply _ _ _

/-- Second layer's projected feature of node `i`. -/
theorem h2_apply (i : Fin 4096) :
    h2 x adj W1 a1 W2 (ix2 i 0) = ∑ k : Fin 8, g1 x adj W1 a1 (ix2 i k) * W2 (ix2 k 0) := by
  unfold h2; exact dotGeneral_plain_apply _ none _ W2 i 0

/-- Second layer's source score of node `i`. -/
theorem src2_apply (i : Fin 4096) : src2 x adj W1 a1 W2 a2 (ix2 i 0) = h2 x adj W1 a1 W2 (ix2 i 0) * a2 (ix2 0 0) := by
  unfold src2
  refine (dotGeneral_plain_apply _ none (h2 x adj W1 a1 W2) _ i 0).trans ?_
  rw [Fin.sum_univ_one, a2_lo_apply]

/-- Second layer's destination score of node `i`. -/
theorem dst2_apply (i : Fin 4096) : dst2 x adj W1 a1 W2 a2 (ix2 i 0) = h2 x adj W1 a1 W2 (ix2 i 0) * a2 (ix2 1 0) := by
  unfold dst2
  refine (dotGeneral_plain_apply _ none (h2 x adj W1 a1 W2) _ i 0).trans ?_
  rw [Fin.sum_univ_one, a2_hi_apply]

/-- Second layer's pair score at `(i, j)`. -/
theorem e2_apply (i j : Fin 4096) :
    e2 x adj W1 a1 W2 a2 (ix2 i j) = src2 x adj W1 a1 W2 a2 (ix2 i 0) + dst2 x adj W1 a1 W2 a2 (ix2 j 0) := by
  unfold e2; exact pairScores_apply _ _ i j

/-- Second layer's attention weight before masking at `(i, j)`. -/
theorem sm2_apply (i j : Fin 4096) :
    sm2 x adj W1 a1 W2 a2 (ix2 i j)
      = Ideal.div (Ideal.exp (e2 x adj W1 a1 W2 a2 (ix2 i j) - rowMax (e2 x adj W1 a1 W2 a2) (ix1 i)))
          (∑ j' : Fin 4096, Ideal.exp (e2 x adj W1 a1 W2 a2 (ix2 i j') - rowMax (e2 x adj W1 a1 W2 a2) (ix1 i))) := by
  unfold sm2; exact softmax_apply _ i j

/-- Second layer's masked attention weight at `(i, j)`. -/
theorem att2_apply (i j : Fin 4096) :
    att2 x adj W1 a1 W2 a2 (ix2 i j) = sm2 x adj W1 a1 W2 a2 (ix2 i j) * adj (ix2 i j) := by
  unfold att2; exact mulf_apply _ _ _

/-- Second layer's weighted sum at node `i`. -/
theorem agg2_apply (i : Fin 4096) :
    agg2 x adj W1 a1 W2 a2 (ix2 i 0) = ∑ j : Fin 4096, att2 x adj W1 a1 W2 a2 (ix2 i j) * h2 x adj W1 a1 W2 (ix2 j 0) := by
  unfold agg2; exact dotGeneral_plain_apply _ none _ _ i 0

/-- The score of node `i`. -/
theorem ns_apply (i : Fin 4096) : ns x adj W1 a1 W2 a2 (ix2 i 0) = elu (agg2 x adj W1 a1 W2 a2 (ix2 i 0)) := by
  unfold ns; exact eluV_apply _ _ _

/-- The indicator of node `i`: one when its score exceeds the threshold, else zero. -/
theorem mask_apply (i : Fin 4096) :
    mask x adj W1 a1 W2 a2 (ix2 i 0)
      = FloatOps.uitofp (F := Ideal) .f32 (Ideal.cmp .ogt (ns x adj W1 a1 W2 a2 (ix2 i 0)) (Ideal.ofBits .f32 0x3F333333#32)) := by
  unfold mask
  rw [uitofp_apply, cmpf_apply_ideal, splat_apply]; rfl

/-- One minus the indicator of node `i`. -/
theorem nmask_apply (i : Fin 4096) : nmask x adj W1 a1 W2 a2 (ix2 i 0) = 1 - mask x adj W1 a1 W2 a2 (ix2 i 0) := by
  unfold nmask
  refine (subf_apply _ _ _).trans ?_
  rw [splat_apply]
  show Ideal.ofBits .f32 0x3F800000#32 - _ = _
  rw [Ideal.ofBits_one_f32]

/-- The squared adjacency matrix at `(i, j)`. -/
theorem adj2_apply (i j : Fin 4096) : adj2 adj (ix2 i j) = ∑ k : Fin 4096, adj (ix2 i k) * adj (ix2 k j) := by
  unfold adj2; exact dotGeneral_plain_apply _ none adj adj i j

/-- The cubed adjacency matrix at `(i, j)`. -/
theorem adj3_apply (i j : Fin 4096) : adj3 adj (ix2 i j) = ∑ k : Fin 4096, adj2 adj (ix2 i k) * adj (ix2 k j) := by
  unfold adj3; exact dotGeneral_plain_apply _ none _ adj i j

/-- The first masked matrix at `(i, j)`. -/
theorem m1_apply (i j : Fin 4096) : m1 x adj W1 a1 W2 a2 (ix2 i j) = adj (ix2 i j) * mask x adj W1 a1 W2 a2 (ix2 i 0) := by
  unfold m1
  refine (mulf_apply _ _ _).trans ?_
  rw [rows_apply_ideal]

/-- The second masked matrix at `(i, j)`. -/
theorem m2_apply (i j : Fin 4096) :
    m2 x adj W1 a1 W2 a2 (ix2 i j)
      = adj2 adj (ix2 i j) * nmask x adj W1 a1 W2 a2 (ix2 i 0) * mask x adj W1 a1 W2 a2 (ix2 i 0) := by
  unfold m2
  refine (mulf_apply _ _ _).trans ?_
  rw [rows_apply_ideal]
  refine congrArg (· * _) ((mulf_apply _ _ _).trans ?_)
  rw [rows_apply_ideal]

/-- The third masked matrix at `(i, j)`. -/
theorem m3_apply (i j : Fin 4096) : m3 x adj W1 a1 W2 a2 (ix2 i j) = adj3 adj (ix2 i j) * nmask x adj W1 a1 W2 a2 (ix2 i 0) := by
  unfold m3
  refine (mulf_apply _ _ _).trans ?_
  rw [rows_apply_ideal]

/-- The first product at `(i, c)`. -/
theorem p1_apply (i : Fin 4096) (c : Fin 512) :
    p1 x adj W1 a1 W2 a2 (ix2 i c) = ∑ j : Fin 4096, m1 x adj W1 a1 W2 a2 (ix2 i j) * x (ix2 j c) := by
  unfold p1; exact dotGeneral_plain_apply _ none _ x i c

/-- The second product at `(i, c)`. -/
theorem p2_apply (i : Fin 4096) (c : Fin 512) :
    p2 x adj W1 a1 W2 a2 (ix2 i c) = ∑ j : Fin 4096, m2 x adj W1 a1 W2 a2 (ix2 i j) * x (ix2 j c) := by
  unfold p2; exact dotGeneral_plain_apply _ none _ x i c

/-- The third product at `(i, c)`. -/
theorem p3_apply (i : Fin 4096) (c : Fin 512) :
    p3 x adj W1 a1 W2 a2 (ix2 i c) = ∑ j : Fin 4096, m3 x adj W1 a1 W2 a2 (ix2 i j) * x (ix2 j c) := by
  unfold p3; exact dotGeneral_plain_apply _ none _ x i c

/-- The three products side by side, read in the first: columns `0 … 511`. -/
theorem agg_apply_first (i : Fin 4096) (c : Fin 512) :
    agg x adj W1 a1 W2 a2 (ix2 i (⟨c.val, by omega⟩ : Fin 1536)) = p1 x adj W1 a1 W2 a2 (ix2 i c) := by
  unfold agg concat3
  exact concat3_cols_first (p1 x adj W1 a1 W2 a2) (p2 x adj W1 a1 W2 a2) (p3 x adj W1 a1 W2 a2)
    concatenates_S4096x512_S4096x512_S4096x512_S4096x1536_d1 i c _ rfl

/-- Read in the second: columns `512 … 1023`. -/
theorem agg_apply_second (i : Fin 4096) (c : Fin 512) :
    agg x adj W1 a1 W2 a2 (ix2 i (⟨512 + c.val, by omega⟩ : Fin 1536)) = p2 x adj W1 a1 W2 a2 (ix2 i c) := by
  unfold agg concat3
  exact concat3_cols_second (p1 x adj W1 a1 W2 a2) (p2 x adj W1 a1 W2 a2) (p3 x adj W1 a1 W2 a2)
    concatenates_S4096x512_S4096x512_S4096x512_S4096x1536_d1 i c _ rfl

/-- Read in the third: columns `1024 … 1535`. -/
theorem agg_apply_third (i : Fin 4096) (c : Fin 512) :
    agg x adj W1 a1 W2 a2 (ix2 i (⟨512 + 512 + c.val, by omega⟩ : Fin 1536)) = p3 x adj W1 a1 W2 a2 (ix2 i c) := by
  unfold agg concat3
  exact concat3_cols_third (p1 x adj W1 a1 W2 a2) (p2 x adj W1 a1 W2 a2) (p3 x adj W1 a1 W2 a2)
    concatenates_S4096x512_S4096x512_S4096x512_S4096x1536_d1 i c _ rfl

/-- The bias on every row: at `(i, o)` the bias's entry `o`. -/
theorem bias_apply (i : Fin 4096) (o : Fin 256) :
    broadcastInDim S4096x256 ![0, 1] bcast_S1x256_S4096x256_0_1 (broadcastInDim S1x256 ![1] bcast_S256_S1x256_1 b) (ix2 i o)
      = b (ix1 o) := by
  rw [broadcastInDim_apply _ _ _ (ix2 i o) (ix2 (0 : Fin 1) o) (fun a => by
    match a with
    | ⟨0, _⟩ => rfl
    | ⟨1, _⟩ => rfl)]
  exact broadcastInDim_apply _ _ b (ix2 (0 : Fin 1) o) (ix1 o) (fun a => by
    match a with
    | ⟨0, _⟩ => rfl)

/-- The program's result at `(i, o)`. -/
theorem result_apply (i : Fin 4096) (o : Fin 256) :
    result x adj W1 a1 W2 a2 Ws b (ix2 i o)
      = (∑ c : Fin 1536, agg x adj W1 a1 W2 a2 (ix2 i c) * Ws (ix2 c o)) + b (ix1 o) := by
  unfold result
  refine (addf_apply _ _ _).trans ?_
  rw [bias_apply]
  exact congrArg (· + b (ix1 o)) (dotGeneral_plain_apply _ none (agg x adj W1 a1 W2 a2) Ws i o)

end Stages

/-! ## The last layer's sum, piece by piece -/

/-- A sum over the 1536 columns is the sum of the sums over the three pieces of 512. -/
theorem sum_three_pieces (f : Fin 1536 → EReal) :
    ∑ c : Fin 1536, f c
      = (∑ c : Fin 512, f (⟨c.val, by omega⟩ : Fin 1536)) + (∑ c : Fin 512, f (⟨512 + c.val, by omega⟩ : Fin 1536))
        + ∑ c : Fin 512, f (⟨512 + 512 + c.val, by omega⟩ : Fin 1536) := by
  have h1 : ∑ c : Fin (1024 + 512), f c
      = ∑ c : Fin 1024, f (Fin.castAdd 512 c) + ∑ c : Fin 512, f (Fin.natAdd 1024 c) :=
    Fin.sum_univ_add (M := EReal) (a := 1024) (b := 512) (f : Fin (1024 + 512) → EReal)
  have h2 : ∑ c : Fin (512 + 512), f (Fin.castAdd 512 c)
      = ∑ c : Fin 512, f (Fin.castAdd 512 (Fin.castAdd 512 c)) + ∑ c : Fin 512, f (Fin.castAdd 512 (Fin.natAdd 512 c)) :=
    Fin.sum_univ_add (M := EReal) (a := 512) (b := 512) fun c : Fin (512 + 512) => f (Fin.castAdd 512 c)
  exact h1.trans (congrArg (· + _) h2)

section Pieces

variable (x : FVec Ideal S4096x512 .f32) (adj : FVec Ideal S4096x4096 .f32) (W1 : FVec Ideal S512x8 .f32)
  (a1 : FVec Ideal S16x1 .f32) (W2 : FVec Ideal S8x1 .f32) (a2 : FVec Ideal S2x1 .f32) (Ws : FVec Ideal S1536x256 .f32)
  (b : FVec Ideal S256 .f32)

/-- The program's result at `(i, o)`, the last layer's sum split over the three products. -/
theorem result_apply_pieces (i : Fin 4096) (o : Fin 256) :
    result x adj W1 a1 W2 a2 Ws b (ix2 i o)
      = ((∑ c : Fin 512, p1 x adj W1 a1 W2 a2 (ix2 i c) * Ws (ix2 (⟨c.val, by omega⟩ : Fin 1536) o))
          + (∑ c : Fin 512, p2 x adj W1 a1 W2 a2 (ix2 i c) * Ws (ix2 (⟨512 + c.val, by omega⟩ : Fin 1536) o))
          + ∑ c : Fin 512, p3 x adj W1 a1 W2 a2 (ix2 i c) * Ws (ix2 (⟨512 + 512 + c.val, by omega⟩ : Fin 1536) o))
        + b (ix1 o) := by
  rw [result_apply, sum_three_pieces]
  simp only [agg_apply_first, agg_apply_second, agg_apply_third]

end Pieces

end Cert.ReferenceIdeal.RefValue

end
-- ==== Proof.BridgeGat.lean ====
/-
  The attention half of the comparison, on the reference's stages alone.

  In both attention layers the score of a pair is "source score of the row node plus destination score of the column
  node". When all scores are real numbers, a row's softmax does not depend on the row's source score: subtracting the
  row maximum removes it. So the row softmax of the pair scores is, in every row, the ONE softmax of the destination
  scores, and a layer's weighted sum at row i is the sum over j of adj (i, j) times the features of j scaled by that
  one softmax's entry j.

  On the way: under the hypothesis that every entry of every argument is a real number, every entry of every stage
  of the two attention layers is a real number (sums and products of real numbers, exponentials, quotients by a
  positive sum, the exponential linear unit), and so are the entries of the square and the cube of the adjacency
  matrix.
-/
import proofs.«162839_j74869869904021_2_alg».proof.Proof.RefRead
import proofs.«162839_j74869869904021_2_alg».proof.Proof.LibSoftmaxShift
import proofs.«162839_j74869869904021_2_alg».proof.Proof.LibRealClosure

open scoped BigOperators

noncomputable section

namespace Cert.Bridge

open Cert.ReferenceIdeal Cert.ReferenceIdeal.RefValue Idealize.ShloMosaic Idealize.ShloMosaic.ValueIdx

/-- The one softmax of a column of scores `d`: entry `j` is the exponential of `d j` less the maximum of `d`, over
    the sum of those exponentials. -/
def colsm (d : Fin 4096 → EReal) (j : Fin 4096) : EReal :=
  Ideal.div (Ideal.exp (d j - max (⊥ : EReal) (Finset.univ.fold max (⊥ : EReal) d)))
    (∑ k : Fin 4096, Ideal.exp (d k - max (⊥ : EReal) (Finset.univ.fold max (⊥ : EReal) d)))

/-- The exponential linear unit of the stages is the one whose realness is known: the same text. -/
theorem elu_eq (t : EReal) : elu t = Cert.GatSgc.elu t := rfl

/-- An entry of the one softmax of real scores is a real number. -/
theorem colsm_real (d : Fin 4096 → EReal) (hd : ∀ k, ∃ r : ℝ, d k = (r : EReal)) (j : Fin 4096) :
    ∃ r : ℝ, colsm d j = (r : EReal) := by
  have h := Cert.GatSgc.softmax_entry_real_max d hd j
  rw [zero_add] at h
  exact h

/-- An entry of the row softmax of real pair scores is a real number. -/
theorem softmax_real (e : FVec Ideal S4096x4096 .f32) (he : ∀ i j : Fin 4096, ∃ r : ℝ, e (ix2 i j) = (r : EReal))
    (i j : Fin 4096) : ∃ r : ℝ, softmax e (ix2 i j) = (r : EReal) := by
  rw [softmax_apply, rowMax_apply]
  have h := Cert.GatSgc.softmax_entry_real_max (fun j => e (ix2 i j)) (he i) j
  rw [zero_add] at h
  exact h

section Layers

variable (x : FVec Ideal S4096x512 .f32) (adj : FVec Ideal S4096x4096 .f32) (W1 : FVec Ideal S512x8 .f32)
  (a1 : FVec Ideal S16x1 .f32) (W2 : FVec Ideal S8x1 .f32) (a2 : FVec Ideal S2x1 .f32)

/-! ## The adjacency matrix's powers -/

/-- The square of a real adjacency matrix is real. -/
theorem adj2_real (hadj : ∀ i, ∃ r : ℝ, adj i = (r : EReal)) (i j : Fin 4096) :
    ∃ r : ℝ, adj2 adj (ix2 i j) = (r : EReal) := by
  rw [adj2_apply]; exact Cert.GatSgc.real_sum_mul _ _ (fun _ => hadj _) (fun _ => hadj _)

/-- The cube of a real adjacency matrix is real. -/
theorem adj3_real (hadj : ∀ i, ∃ r : ℝ, adj i = (r : EReal)) (i j : Fin 4096) :
    ∃ r : ℝ, adj3 adj (ix2 i j) = (r : EReal) := by
  rw [adj3_apply]; exact Cert.GatSgc.real_sum_mul _ _ (fun k => adj2_real adj hadj i k) (fun _ => hadj _)

/-! ## The first layer -/

theorem h1_real (hx : ∀ i, ∃ r : ℝ, x i = (r : EReal)) (hW1 : ∀ i, ∃ r : ℝ, W1 i = (r : EReal)) (i : Fin 4096) (k : Fin 8) :
    ∃ r : ℝ, h1 x W1 (ix2 i k) = (r : EReal) := by
  rw [h1_apply]; exact Cert.GatSgc.real_sum_mul _ _ (fun _ => hx _) (fun _ => hW1 _)

theorem src1_real (hx : ∀ i, ∃ r : ℝ, x i = (r : EReal)) (hW1 : ∀ i, ∃ r : ℝ, W1 i = (r : EReal))
    (ha1 : ∀ i, ∃ r : ℝ, a1 i = (r : EReal)) (i : Fin 4096) : ∃ r : ℝ, src1 x W1 a1 (ix2 i 0) = (r : EReal) := by
  rw [src1_apply]; exact Cert.GatSgc.real_sum_mul _ _ (fun k => h1_real x W1 hx hW1 i k) (fun _ => ha1 _)

theorem dst1_real (hx : ∀ i, ∃ r : ℝ, x i = (r : EReal)) (hW1 : ∀ i, ∃ r : ℝ, W1 i = (r : EReal))
    (ha1 : ∀ i, ∃ r : ℝ, a1 i = (r : EReal)) (i : Fin 4096) : ∃ r : ℝ, dst1 x W1 a1 (ix2 i 0) = (r : EReal) := by
  rw [dst1_apply]; exact Cert.GatSgc.real_sum_mul _ _ (fun k => h1_real x W1 hx hW1 i k) (fun _ => ha1 _)

theorem e1_real (hx : ∀ i, ∃ r : ℝ, x i = (r : EReal)) (hW1 : ∀ i, ∃ r : ℝ, W1 i = (r : EReal))
    (ha1 : ∀ i, ∃ r : ℝ, a1 i = (r : EReal)) (i j : Fin 4096) : ∃ r : ℝ, e1 x W1 a1 (ix2 i j) = (r : EReal) := by
  rw [e1_apply]; exact Cert.GatSgc.real_add (src1_real x W1 a1 hx hW1 ha1 i) (dst1_real x W1 a1 hx hW1 ha1 j)

theorem sm1_real (hx : ∀ i, ∃ r : ℝ, x i = (r : EReal)) (hW1 : ∀ i, ∃ r : ℝ, W1 i = (r : EReal))
    (ha1 : ∀ i, ∃ r : ℝ, a1 i = (r : EReal)) (i j : Fin 4096) : ∃ r : ℝ, sm1 x W1 a1 (ix2 i j) = (r : EReal) := by
  unfold sm1; exact softmax_real _ (e1_real x W1 a1 hx hW1 ha1) i j

theorem att1_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal)) (i j : Fin 4096) :
    ∃ r : ℝ, att1 x adj W1 a1 (ix2 i j) = (r : EReal) := by
  rw [att1_apply]; exact Cert.GatSgc.real_mul (sm1_real x W1 a1 hx hW1 ha1 i j) (hadj _)

theorem agg1_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal)) (i : Fin 4096) (k : Fin 8) :
    ∃ r : ℝ, agg1 x adj W1 a1 (ix2 i k) = (r : EReal) := by
  rw [agg1_apply]
  exact Cert.GatSgc.real_sum_mul _ _ (fun j => att1_real x adj W1 a1 hx hadj hW1 ha1 i j) (fun j => h1_real x W1 hx hW1 j k)

theorem g1_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal)) (i : Fin 4096) (k : Fin 8) :
    ∃ r : ℝ, g1 x adj W1 a1 (ix2 i k) = (r : EReal) := by
  rw [g1_apply, elu_eq]; exact Cert.GatSgc.elu_real (agg1_real x adj W1 a1 hx hadj hW1 ha1 i k)

/-- The first layer's weighted sum at `(i, k)`: the adjacency row against the projected features scaled by the one
    softmax of the destination scores. -/
theorem agg1_collapse (hx : ∀ i, ∃ r : ℝ, x i = (r : EReal)) (hW1 : ∀ i, ∃ r : ℝ, W1 i = (r : EReal))
    (ha1 : ∀ i, ∃ r : ℝ, a1 i = (r : EReal)) (i : Fin 4096) (k : Fin 8) :
    agg1 x adj W1 a1 (ix2 i k)
      = ∑ j : Fin 4096, adj (ix2 i j) * (h1 x W1 (ix2 j k) * colsm (fun j => dst1 x W1 a1 (ix2 j 0)) j) := by
  have key := Cert.GatSgc.attention_row_collapse Ideal.exp Ideal.div 0 (fun i => src1 x W1 a1 (ix2 i 0))
    (fun j => dst1 x W1 a1 (ix2 j 0)) (fun i j => adj (ix2 i j)) (fun j k => h1 x W1 (ix2 j k))
    (src1_real x W1 a1 hx hW1 ha1) (dst1_real x W1 a1 hx hW1 ha1) i k
  simp only [zero_add] at key
  rw [agg1_apply]
  simp only [colsm]
  refine Eq.trans (Finset.sum_congr rfl fun j _ => ?_) key
  rw [att1_apply, sm1_apply, rowMax_apply]
  simp only [e1_apply]

/-! ## The second layer -/

theorem h2_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (i : Fin 4096) : ∃ r : ℝ, h2 x adj W1 a1 W2 (ix2 i 0) = (r : EReal) := by
  rw [h2_apply]; exact Cert.GatSgc.real_sum_mul _ _ (fun k => g1_real x adj W1 a1 hx hadj hW1 ha1 i k) (fun _ => hW2 _)

theorem src2_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i : Fin 4096) :
    ∃ r : ℝ, src2 x adj W1 a1 W2 a2 (ix2 i 0) = (r : EReal) := by
  rw [src2_apply]; exact Cert.GatSgc.real_mul (h2_real x adj W1 a1 W2 hx hadj hW1 ha1 hW2 i) (ha2 _)

theorem dst2_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i : Fin 4096) :
    ∃ r : ℝ, dst2 x adj W1 a1 W2 a2 (ix2 i 0) = (r : EReal) := by
  rw [dst2_apply]; exact Cert.GatSgc.real_mul (h2_real x adj W1 a1 W2 hx hadj hW1 ha1 hW2 i) (ha2 _)

theorem e2_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i j : Fin 4096) :
    ∃ r : ℝ, e2 x adj W1 a1 W2 a2 (ix2 i j) = (r : EReal) := by
  rw [e2_apply]
  exact Cert.GatSgc.real_add (src2_real x adj W1 a1 W2 a2 hx hadj hW1 ha1 hW2 ha2 i)
    (dst2_real x adj W1 a1 W2 a2 hx hadj hW1 ha1 hW2 ha2 j)

theorem sm2_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i j : Fin 4096) :
    ∃ r : ℝ, sm2 x adj W1 a1 W2 a2 (ix2 i j) = (r : EReal) := by
  unfold sm2; exact softmax_real _ (e2_real x adj W1 a1 W2 a2 hx hadj hW1 ha1 hW2 ha2) i j

theorem att2_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i j : Fin 4096) :
    ∃ r : ℝ, att2 x adj W1 a1 W2 a2 (ix2 i j) = (r : EReal) := by
  rw [att2_apply]; exact Cert.GatSgc.real_mul (sm2_real x adj W1 a1 W2 a2 hx hadj hW1 ha1 hW2 ha2 i j) (hadj _)

theorem agg2_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i : Fin 4096) :
    ∃ r : ℝ, agg2 x adj W1 a1 W2 a2 (ix2 i 0) = (r : EReal) := by
  rw [agg2_apply]
  exact Cert.GatSgc.real_sum_mul _ _ (fun j => att2_real x adj W1 a1 W2 a2 hx hadj hW1 ha1 hW2 ha2 i j)
    (fun j => h2_real x adj W1 a1 W2 hx hadj hW1 ha1 hW2 j)

/-- Every node score is a real number. -/
theorem ns_real (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i : Fin 4096) :
    ∃ r : ℝ, ns x adj W1 a1 W2 a2 (ix2 i 0) = (r : EReal) := by
  rw [ns_apply, elu_eq]; exact Cert.GatSgc.elu_real (agg2_real x adj W1 a1 W2 a2 hx hadj hW1 ha1 hW2 ha2 i)

/-- The second layer's weighted sum at node `i`: the adjacency row against the projected features scaled by the one
    softmax of the destination scores. -/
theorem agg2_collapse (hx : ∀ i, ∃ r : ℝ, x i = (r : EReal)) (hadj : ∀ i, ∃ r : ℝ, adj i = (r : EReal))
    (hW1 : ∀ i, ∃ r : ℝ, W1 i = (r : EReal)) (ha1 : ∀ i, ∃ r : ℝ, a1 i = (r : EReal))
    (hW2 : ∀ i, ∃ r : ℝ, W2 i = (r : EReal)) (ha2 : ∀ i, ∃ r : ℝ, a2 i = (r : EReal)) (i : Fin 4096) :
    agg2 x adj W1 a1 W2 a2 (ix2 i 0)
      = ∑ j : Fin 4096, adj (ix2 i j)
          * (h2 x adj W1 a1 W2 (ix2 j 0) * colsm (fun j => dst2 x adj W1 a1 W2 a2 (ix2 j 0)) j) := by
  have key := Cert.GatSgc.attention_row_collapse Ideal.exp Ideal.div 0 (fun i => src2 x adj W1 a1 W2 a2 (ix2 i 0))
    (fun j => dst2 x adj W1 a1 W2 a2 (ix2 j 0)) (fun i j => adj (ix2 i j))
    (fun j (_ : Fin 1) => h2 x adj W1 a1 W2 (ix2 j 0))
    (src2_real x adj W1 a1 W2 a2 hx hadj hW1 ha1 hW2 ha2) (dst2_real x adj W1 a1 W2 a2 hx hadj hW1 ha1 hW2 ha2) i 0
  simp only [zero_add] at key
  rw [agg2_apply]
  simp only [colsm]
  refine Eq.trans (Finset.sum_congr rfl fun j _ => ?_) key
  rw [att2_apply, sm2_apply, rowMax_apply]
  simp only [e2_apply]

end Layers

end Cert.Bridge

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.PreReal.lean ====
/-
  The finiteness precondition read as "every entry of every argument is a real number".

  The precondition is the conjunction, over the eight argument arrays, of "all entries satisfy |x| < +∞", each computed
  as a reduction by `and` of the entrywise comparisons, started at 1. A conjunction of one-bit words is 1 exactly when
  both are; a reduction by `and` into a single result that is 1 met a 1 at every entry; and on the extended reals
  |x| = max(x, −x) lies below +∞ exactly when x is neither infinity, that is, a real number.
-/
import proofs.«162839_j74869869904021_2_alg».proof.Pre_finite_inputs
import Idealize.ShloMosaic.Lib.ReduceAll
import Idealize.ShloMosaic.Lib.ValueIdx
import Idealize.ShloMosaic.PureOps.Ideal
import proofs.«162839_j74869869904021_2_alg».proof.Proof.LibFiniteEntry

noncomputable section

namespace Cert.PreReal

open Idealize.ShloMosaic Cert.Pre_finite_inputs

/-- The shape of a scalar has one index. -/
instance : Subsingleton S_.Idx := ⟨fun a b => funext fun d => d.elim0⟩

/-- A conjunction of two arrays of one-bit words is 1 at an index exactly when both are. -/
theorem andi_apply_eq_one {s : Shape} (x y : IVec s 1) (i : s.Idx) (h : andi x y i = 1#1) :
    x i = 1#1 ∧ y i = 1#1 :=
  IntOp.andi_eq_one.1 h

/-- One "all entries are finite": where the reduction by `and` of the comparisons |x i| < +∞ is 1, every entry of x
    is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) :
    ∃ r : ℝ, x i = (r : EReal) :=
  Ideal.real_of_abs_lt_inf (x i) (Host.reduce_andi_all _ _ hr hu _ e i)

variable [Cert.Pre_finite_inputs.Facts]

/-- The precondition gives: every entry of each of the eight arguments is a real number. -/
theorem fn_real (x : FVec Ideal S4096x512 .f32) (adj : FVec Ideal S4096x4096 .f32) (W1 : FVec Ideal S512x8 .f32)
    (a1 : FVec Ideal S16x1 .f32) (W2 : FVec Ideal S8x1 .f32) (a2 : FVec Ideal S2x1 .f32)
    (Ws : FVec Ideal S1536x256 .f32) (b : FVec Ideal S256 .f32)
    (h : Cert.Pre_finite_inputs.fn (F := Ideal) x adj W1 a1 W2 a2 Ws b = fun _ => 1#1) :
    (∀ i, ∃ r : ℝ, x i = (r : EReal)) ∧ (∀ i, ∃ r : ℝ, adj i = (r : EReal)) ∧ (∀ i, ∃ r : ℝ, W1 i = (r : EReal))
      ∧ (∀ i, ∃ r : ℝ, a1 i = (r : EReal)) ∧ (∀ i, ∃ r : ℝ, W2 i = (r : EReal)) ∧ (∀ i, ∃ r : ℝ, a2 i = (r : EReal))
      ∧ (∀ i, ∃ r : ℝ, Ws i = (r : EReal)) ∧ (∀ i, ∃ r : ℝ, b i = (r : EReal)) := by
  have h0 := congrFun h ValueIdx.ix0
  dsimp only [fn, fn_part1, fn_part2] at h0
  obtain ⟨h0, hb⟩ := andi_apply_eq_one _ _ _ h0
  obtain ⟨h0, hWs⟩ := andi_apply_eq_one _ _ _ h0
  obtain ⟨h0, ha2⟩ := andi_apply_eq_one _ _ _ h0
  obtain ⟨h0, hW2⟩ := andi_apply_eq_one _ _ _ h0
  obtain ⟨h0, ha1⟩ := andi_apply_eq_one _ _ _ h0
  obtain ⟨h0, hW1⟩ := andi_apply_eq_one _ _ _ h0
  obtain ⟨hx, hadj⟩ := andi_apply_eq_one _ _ _ h0
  exact ⟨all_real x _ _ _ hx, all_real adj _ _ _ hadj, all_real W1 _ _ _ hW1, all_real a1 _ _ _ ha1,
    all_real W2 _ _ _ hW2, all_real a2 _ _ _ ha2, all_real Ws _ _ _ hWs, all_real b _ _ _ hb⟩

end Cert.PreReal

end
-- ==== Proof.KerComposeGat.lean ====
/- The two attention layers of the kernel program composed, against the reference's stages, over the extended reals,
   under the hypothesis that every entry of the six arguments the attention layers read is a real number.

   What the first attention region leaves in its first eight columns is the reference's first weighted sum: the region
   multiplies the adjacency array by the projected features each scaled by its node's weight in the ONE softmax of the
   destination scores, which is what the reference's row softmax collapses to. Hence the second layer's features,
   projections, destination scores and scaled projections are the reference's; what the second attention region leaves
   in column 0 is the reference's second weighted sum; and the kernel's mask of a node is the reference's. -/
import proofs.«162839_j74869869904021_2_alg».proof.Proof.KerCompose
import proofs.«162839_j74869869904021_2_alg».proof.Proof.KerReadA
import proofs.«162839_j74869869904021_2_alg».proof.Proof.Reg0Value
import proofs.«162839_j74869869904021_2_alg».proof.Proof.Reg1Value
import proofs.«162839_j74869869904021_2_alg».proof.Proof.BridgeGat
import proofs.«162839_j74869869904021_2_alg».proof.Proof.PreReal
import proofs.«162839_j74869869904021_2_alg».proof.Proof.Gen.Pre_finite_inputs
import proofs.«162839_j74869869904021_2_alg».proof.Defs

set_option maxRecDepth 16384

noncomputable section

namespace Cert.KernelIdeal.KerCompose

open Cert.KernelIdeal Cert.KernelIdeal.Gen
open Idealize.ShloMosaic Idealize.ShloMosaic.TcCoe Idealize.SL.Sem Idealize.ShloMosaic.ValueIdx
open Cert.KernelIdeal.KerRead
open scoped BigOperators

variable (m : (ℓ : Loc nD τ sig) → Buf (Elt Ideal) ℓ) (c : Dev nD)

local notation "H0'" => (Cert.KernelIdeal.Final.H0 (F := Ideal))
local notation "H1'" => (Cert.KernelIdeal.Final.H1 (F := Ideal))
local notation "H2'" => (Cert.KernelIdeal.Final.H2 (F := Ideal))
local notation "H3'" => (Cert.KernelIdeal.Final.H3 (F := Ideal))
local notation "H4'" => (Cert.KernelIdeal.Final.H4 (F := Ideal))
local notation "oF" => Cert.KernelIdeal.Final.outs (F := Ideal) m
local notation "o1" => Cert.KernelIdeal.Run.outs1 m H0'

/-! ## The adjacency array -/

/-- (5) The bf16 adjacency array is the adjacency argument (narrowing changes nothing over the extended reals). -/
theorem adjF_eq (i : S4096x4096.Idx) : adjF m c i = adjA m c i := V3_v0_apply m c i

/-! ## The kernel's entrywise stages are the reference's -/

/-- The softmax weight with the sum started at zero is the one softmax. -/
theorem smWeight_eq_colsm (d : Fin 4096 → EReal) (j : Fin 4096) : smWeight d j = Cert.Bridge.colsm d j := by
  unfold smWeight Cert.Bridge.colsm
  rw [zero_add]

theorem hEnt_eq (j : Fin 4096) (f : Fin 8) :
    hEnt (xA m c) (W1A m c) j f = Cert.ReferenceIdeal.RefValue.h1 (F := Ideal) (xA m c) (W1A m c) (ix2 j f) :=
  (Cert.ReferenceIdeal.RefValue.h1_apply (xA m c) (W1A m c) j f).symm

theorem dst1Ent_eq :
    dst1Ent (xA m c) (W1A m c) (a1A m c) = fun j => Cert.ReferenceIdeal.RefValue.dst1 (F := Ideal) (xA m c) (W1A m c) (a1A m c) (ix2 j 0) :=
  funext fun j => by
    rw [Cert.ReferenceIdeal.RefValue.dst1_apply]
    unfold dst1Ent
    exact Finset.sum_congr rfl fun f _ => by rw [hEnt_eq]

/-! ## (1) What the first attention region leaves -/

theorem raw1_product : raw1 (oF) c = Reg0Value.G (Cert.KernelIdeal.Run.cv (V3 m)) c :=
  ((Cert.KernelIdeal.Run.o5_v19 m H0' H1' H2' H3' H4' 4 c).trans (Cert.KernelIdeal.Run.outs1_at m H0' 4 c)).trans
    (Reg0Value.arrAt_out (Cert.KernelIdeal.Run.cv (V3 m)) c)

/-- Entry (i, q) of what the first attention region leaves: the adjacency row against column q of its right factor. -/
theorem raw1_apply (i : Fin 4096) (q : Fin 128) :
    raw1 (oF) c (ix2 i q) = ∑ k : Fin 4096, adjA m c (ix2 i k) * (V3 m c main_v18 : S4096x128.Idx → EReal) (ix2 k q) := by
  refine (congrFun (raw1_product m c) (ix2 i q)).trans ?_
  show ∑ k : Fin 4096, Reg0Value.Amat (Cert.KernelIdeal.Run.cv (V3 m)) c (ix2 i k) * Reg0Value.Bmat (Cert.KernelIdeal.Run.cv (V3 m)) c (ix2 k q) = _
  refine Finset.sum_congr rfl fun k _ => ?_
  rw [show Reg0Value.Amat (Cert.KernelIdeal.Run.cv (V3 m)) c (ix2 i k) = adjA m c (ix2 i k) from V3_v0_apply m c _]

variable (hx : ∀ i, ∃ r : ℝ, xA m c i = (r : EReal)) (hadj : ∀ i, ∃ r : ℝ, adjA m c i = (r : EReal))
  (hW1 : ∀ i, ∃ r : ℝ, W1A m c i = (r : EReal)) (ha1 : ∀ i, ∃ r : ℝ, a1A m c i = (r : EReal))
  (hW2 : ∀ i, ∃ r : ℝ, W2A m c i = (r : EReal)) (ha2 : ∀ i, ∃ r : ℝ, a2A m c i = (r : EReal))

include hx hW1 ha1 in
/-- In its first eight columns it is the reference's first weighted sum. -/
theorem raw1_agg1 (i : Fin 4096) (f : Fin 8) (q : Fin 128) (hq : q.val = f.val) :
    raw1 (oF) c (ix2 i q) = Cert.ReferenceIdeal.RefValue.agg1 (F := Ideal) (xA m c) (adjA m c) (W1A m c) (a1A m c) (ix2 i f) := by
  rw [raw1_apply, Cert.Bridge.agg1_collapse (xA m c) (adjA m c) (W1A m c) (a1A m c) hx hW1 ha1 i f]
  refine Finset.sum_congr rfl fun k _ => ?_
  rw [V3_v18_apply_in m c k q f hq]
  unfold hw1Ent
  rw [smWeight_eq_colsm, hEnt_eq, dst1Ent_eq]

/-! ## (2) The second layer's stages -/

include hx hW1 ha1 in
theorem g1Ent_eq (j : Fin 4096) (f : Fin 8) :
    g1Ent (raw1 (oF) c) j f = Cert.ReferenceIdeal.RefValue.g1 (F := Ideal) (xA m c) (adjA m c) (W1A m c) (a1A m c) (ix2 j f) := by
  unfold g1Ent
  rw [raw1_agg1 m c hx hW1 ha1 j f ⟨f.val, by omega⟩ rfl, Cert.ReferenceIdeal.RefValue.g1_apply]
  rfl

include hx hW1 ha1 in
theorem h2Ent_eq (j : Fin 4096) :
    h2Ent (raw1 (oF) c) (W2A m c) j = Cert.ReferenceIdeal.RefValue.h2 (F := Ideal) (xA m c) (adjA m c) (W1A m c) (a1A m c) (W2A m c) (ix2 j 0) := by
  rw [Cert.ReferenceIdeal.RefValue.h2_apply]
  unfold h2Ent
  exact Finset.sum_congr rfl fun f _ => by rw [g1Ent_eq m c hx hW1 ha1]

include hx hW1 ha1 in
theorem dst2Ent_eq :
    dst2Ent (raw1 (oF) c) (W2A m c) (a2A m c) = fun j => Cert.ReferenceIdeal.RefValue.dst2 (F := Ideal) (xA m c) (adjA m c) (W1A m c) (a1A m c) (W2A m c) (a2A m c) (ix2 j 0) :=
  funext fun j => by
    rw [Cert.ReferenceIdeal.RefValue.dst2_apply]
    unfold dst2Ent
    rw [h2Ent_eq m c hx hW1 ha1]

include hx hW1 ha1 in
theorem hw2Ent_eq (j : Fin 4096) :
    hw2Ent (raw1 (oF) c) (W2A m c) (a2A m c) j
      = Cert.ReferenceIdeal.RefValue.h2 (F := Ideal) (xA m c) (adjA m c) (W1A m c) (a1A m c) (W2A m c) (ix2 j 0)
        * Cert.Bridge.colsm (fun j => Cert.ReferenceIdeal.RefValue.dst2 (F := Ideal) (xA m c) (adjA m c) (W1A m c) (a1A m c) (W2A m c) (a2A m c) (ix2 j 0)) j := by
  unfold hw2Ent
  rw [smWeight_eq_colsm, h2Ent_eq m c hx hW1 ha1, dst2Ent_eq m c hx hW1 ha1]

/-! ## (3) What the second attention region leaves -/

theorem raw2_product : raw2 (oF) c = Reg1Value.G (Cert.KernelIdeal.Run.cv (V8 m o1)) c :=
  ((Cert.KernelIdeal.Run.o5_v38 m H0' H1' H2' H3' H4' 9 c).trans (Cert.KernelIdeal.Run.outs2_at m H0' H1' 9 c)).trans
    (Reg1Value.arrAt_out (Cert.KernelIdeal.Run.cv (V8 m o1)) c)

include hx hadj hW1 ha1 hW2 ha2 in
/-- In column 0 it is the reference's second weighted sum. -/
theorem raw2_agg2 (i : Fin 4096) :
    raw2 (oF) c (ix2 i 0) = Cert.ReferenceIdeal.RefValue.agg2 (F := Ideal) (xA m c) (adjA m c) (W1A m c) (a1A m c) (W2A m c) (a2A m c) (ix2 i 0) := by
  refine (congrFun (raw2_product m c) (ix2 i 0)).trans ?_
  show ∑ k : Fin 4096, Reg1Value.Amat (Cert.KernelIdeal.Run.cv (V8 m o1)) c (ix2 i k) * Reg1Value.Bmat (Cert.KernelIdeal.Run.cv (V8 m o1)) c (ix2 k 0) = _
  rw [Cert.Bridge.agg2_collapse (xA m c) (adjA m c) (W1A m c) (a1A m c) (W2A m c) (a2A m c) hx hadj hW1 ha1 hW2 ha2 i]
  refine Finset.sum_congr rfl fun k _ => ?_
  have eA : Reg1Value.Amat (Cert.KernelIdeal.Run.cv (V8 m o1)) c = adjA m c :=
    (congrFun (Cert.KernelIdeal.Run.V8_final m H0' H1' H2' H3' H4' c) main_arg1).symm.trans (V8_arg1 m (oF) c)
  have h37 : Reg1Value.Bmat (Cert.KernelIdeal.Run.cv (V8 m o1)) c = (V8 m (oF) c main_v37 : S4096x128.Idx → EReal) :=
    (congrFun (Cert.KernelIdeal.Run.V8_final m H0' H1' H2' H3' H4' c) main_v37).symm
  rw [eA, h37, V8_v37_apply_in m (oF) c k, hw2Ent_eq m c hx hW1 ha1]

/-! ## (4) The mask -/

include hx hadj hW1 ha1 hW2 ha2 in
/-- The kernel's mask of node i is the reference's. -/
theorem msk_eq_of_real (i : Fin 4096) :
    msk m c i = Cert.ReferenceIdeal.RefValue.mask (F := Ideal) (xA m c) (adjA m c) (W1A m c) (a1A m c) (W2A m c) (a2A m c) (ix2 i 0) := by
  unfold msk
  rw [raw2_agg2 m c hx hadj hW1 ha1 hW2 ha2 i, Cert.ReferenceIdeal.RefValue.mask_apply, Cert.ReferenceIdeal.RefValue.ns_apply]
  rfl

omit hx hadj hW1 ha1 hW2 ha2 in
/-- The same from the finiteness precondition: it makes every entry of every argument a real number. -/
theorem msk_eq (hpre : Cert.Pre_KernelIdeal m) (i : Fin 4096) :
    msk m c i = Cert.ReferenceIdeal.RefValue.mask (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (ix2 i 0) := by
  obtain ⟨hx, hadj, hW1, ha1, hW2, ha2, -, -⟩ := Cert.PreReal.fn_real _ _ _ _ _ _ _ _ (hpre c)
  exact msk_eq_of_real m c hx hadj hW1 ha1 hW2 ha2 i

end Cert.KernelIdeal.KerCompose

end
-- ==== Proof.LibMaskedHops.lean ====
/-
  Masked hops of a simplified graph convolution, on the extended reals [−∞, +∞].

  With every entry a real number the matrix product is associative, and a row scaling s i moves through a product:
  Σ_j (A i j · s i) · X j c = s i · Σ_j A i j · X j c. On [−∞, +∞] the product does not distribute over the sum in
  general, so these are proved by carrying the entries back to ℝ, where they are the usual finite-sum identities, and
  including the result again (the inclusion ℝ → [−∞, +∞] commutes with finite sums and with products).

  The head: the aggregated features are three stretches of 512 columns — hop 0 scaled by the mask m i, hop 1 scaled
  by (1 − m i) and then by m i, hop 2 scaled by (1 − m i) — contracted with a [1536, ·] weight. For a 0/1 mask the
  middle stretch vanishes identically ((a · (1 − m)) · m = 0 for every a, real or not), and the other two are
  m i · (adj · (x · W₀)) and (1 − m i) · (adj³ · (x · W₂)) by associativity and the row scaling.
-/
import Idealize.ShloMosaic.PureOps.Ideal
import proofs.«162839_j74869869904021_2_alg».proof.Proof.LibERealSums
import proofs.«162839_j74869869904021_2_alg».proof.Proof.LibSoftmaxShift

noncomputable section

namespace Cert.GatSgc

/-- Associativity of the matrix product for real entries, read in [−∞, +∞]:
    Σ_c (Σ_b A a b · B b c) · C c d = Σ_b A a b · (Σ_c B b c · C c d). -/
theorem matmul_assoc_real {α β γ δ : Type} [Fintype β] [Fintype γ] (A : α → β → EReal) (B : β → γ → EReal)
    (C : γ → δ → EReal) (hA : ∀ a b, ∃ r : ℝ, A a b = (r : EReal)) (hB : ∀ b c, ∃ r : ℝ, B b c = (r : EReal))
    (hC : ∀ c d, ∃ r : ℝ, C c d = (r : EReal)) (a : α) (d : δ) :
    ∑ c, (∑ b, A a b * B b c) * C c d = ∑ b, A a b * (∑ c, B b c * C c d) := by
  choose A' hA' using hA
  choose B' hB' using hB
  choose C' hC' using hC
  simp only [hA', hB', hC', ← EReal.coe_mul, ← Cert.Attn.coe_sum_univ]
  congr 1
  simp only [Finset.sum_mul, Finset.mul_sum]
  rw [Finset.sum_comm]
  exact Finset.sum_congr rfl fun b _ => Finset.sum_congr rfl fun c _ => mul_assoc _ _ _

/-- A row scaling moves through a product, for real entries: Σ_j (A i j · s i) · X j c = s i · Σ_j A i j · X j c. -/
theorem row_scale_sum {ι κ μ : Type} [Fintype ι] (A : κ → ι → EReal) (s : κ → EReal) (X : ι → μ → EReal)
    (hA : ∀ i j, ∃ r : ℝ, A i j = (r : EReal)) (hs : ∀ i, ∃ r : ℝ, s i = (r : EReal))
    (hX : ∀ j c, ∃ r : ℝ, X j c = (r : EReal)) (i : κ) (c : μ) :
    ∑ j, (A i j * s i) * X j c = s i * ∑ j, A i j * X j c := by
  choose A' hA' using hA
  choose s' hs' using hs
  choose X' hX' using hX
  simp only [hA', hs', hX', ← EReal.coe_mul, ← Cert.Attn.coe_sum_univ]
  congr 1
  rw [Finset.mul_sum]
  exact Finset.sum_congr rfl fun j _ => by ring

/-- One scaled hop contracted with one weight column, for real entries:
    Σ_p (Σ_j (A j · s) · X j p) · V p = s · Σ_j A j · (Σ_p X j p · V p) — associativity and the row scaling at once. -/
theorem scaled_hop_assoc {ι π : Type} [Fintype ι] [Fintype π] (A : ι → EReal) (s : EReal) (X : ι → π → EReal)
    (V : π → EReal) (hA : ∀ j, ∃ r : ℝ, A j = (r : EReal)) (hs : ∃ r : ℝ, s = (r : EReal))
    (hX : ∀ j p, ∃ r : ℝ, X j p = (r : EReal)) (hV : ∀ p, ∃ r : ℝ, V p = (r : EReal)) :
    ∑ p, (∑ j, (A j * s) * X j p) * V p = s * ∑ j, A j * ∑ p, X j p * V p := by
  choose A' hA' using hA
  obtain ⟨s', rfl⟩ := hs
  choose X' hX' using hX
  choose V' hV' using hV
  simp only [hA', hX', hV', ← EReal.coe_mul, ← Cert.Attn.coe_sum_univ]
  congr 1
  simp only [Finset.sum_mul, Finset.mul_sum]
  rw [Finset.sum_comm]
  exact Finset.sum_congr rfl fun j _ => Finset.sum_congr rfl fun p _ => by ring

/-- A sum over 1536 columns is the sum of its three stretches of 512 columns, in any commutative additive monoid. -/
theorem sum_three_stretches {M : Type} [AddCommMonoid M] (f : Fin 1536 → M) :
    ∑ c, f c = ∑ p : Fin 512, f ⟨p, by omega⟩ + ∑ p : Fin 512, f ⟨512 + p, by omega⟩
      + ∑ p : Fin 512, f ⟨1024 + p, by omega⟩ := by
  have h1 := Fin.sum_univ_add (a := 1024) (b := 512) f
  have h2 := Fin.sum_univ_add (a := 512) (b := 512) (fun q : Fin 1024 => f (Fin.castAdd 512 q))
  rw [h1, h2]
  rfl

/-- Block t of width c, offset k, lies inside n blocks of width c. -/
theorem blk_lt {n c : ℕ} (t : Fin n) (k : Fin c) : (t : ℕ) * c + k < n * c :=
  calc (t : ℕ) * c + k < t * c + c := by omega
    _ = (t + 1) * c := by ring
    _ ≤ n * c := Nat.mul_le_mul_right c t.isLt

/-- A sum over n · c indices is the sum over the n blocks of width c of the blocks' sums (index t · c + k), in any
    commutative additive monoid: how a contraction accumulated block by block is the whole contraction. -/
theorem sum_blocks {M : Type} [AddCommMonoid M] (n c : ℕ) (f : Fin (n * c) → M) :
    ∑ j, f j = ∑ t : Fin n, ∑ k : Fin c, f ⟨t * c + k, blk_lt t k⟩ := by
  rw [← finProdFinEquiv.sum_comp, Fintype.sum_prod_type]
  refine Finset.sum_congr rfl fun t _ => Finset.sum_congr rfl fun k _ => congrArg f (Fin.ext ?_)
  show (k : ℕ) + c * t = t * c + k
  ring

/-- A sum over 4096 indices is the sum of its two stretches of 2048. -/
theorem sum_two_stretches_4096 {M : Type} [AddCommMonoid M] (f : Fin 4096 → M) :
    ∑ c, f c = ∑ p : Fin 2048, f ⟨p, by omega⟩ + ∑ p : Fin 2048, f ⟨2048 + p, by omega⟩ := by
  rw [Fin.sum_univ_add (a := 2048) (b := 2048) f]
  rfl

/-- A sum over 4096 indices is the sum of its four stretches of 1024. -/
theorem sum_four_stretches_4096 {M : Type} [AddCommMonoid M] (f : Fin 4096 → M) :
    ∑ c, f c = ∑ p : Fin 1024, f ⟨p, by omega⟩ + ∑ p : Fin 1024, f ⟨1024 + p, by omega⟩
      + ∑ p : Fin 1024, f ⟨2048 + p, by omega⟩ + ∑ p : Fin 1024, f ⟨3072 + p, by omega⟩ := by
  have h1 := Fin.sum_univ_add (a := 3072) (b := 1024) f
  have h2 := Fin.sum_univ_add (a := 2048) (b := 1024) (fun q : Fin 3072 => f (Fin.castAdd 1024 q))
  have h3 := Fin.sum_univ_add (a := 1024) (b := 1024) (fun q : Fin 2048 => f (Fin.castAdd 1024 (Fin.castAdd 1024 q)))
  rw [h1, h2, h3]
  rfl

/-- The head of the graph convolution. `agg i` is a row of 1536 aggregated features given by its three stretches
    (`h0`, `h1`, `h2`: hop 0 scaled by m i; hop 1 scaled by 1 − m i and then by m i; hop 2 scaled by 1 − m i), m i is
    0 or 1, and x, adj, adj3, W are real (adj2 and b may be anything). Then
    (Σ_c agg i c · W c o) + b o = (m i · Σ_j adj i j · (Σ_p x j p · W p o)
                                   + (1 − m i) · Σ_j adj3 i j · (Σ_p x j p · W (1024 + p) o)) + b o. -/
theorem sgc_head {ι κ : Type} [Fintype ι] (x : ι → Fin 512 → EReal) (adj adj2 adj3 : ι → ι → EReal)
    (W : Fin 1536 → κ → EReal) (b : κ → EReal) (m : ι → EReal) (agg : ι → Fin 1536 → EReal)
    (hx : ∀ j p, ∃ r : ℝ, x j p = (r : EReal)) (hadj : ∀ i j, ∃ r : ℝ, adj i j = (r : EReal))
    (hadj3 : ∀ i j, ∃ r : ℝ, adj3 i j = (r : EReal)) (hW : ∀ c o, ∃ r : ℝ, W c o = (r : EReal))
    (hm : ∀ i, m i = 0 ∨ m i = 1)
    (h0 : ∀ i (p : Fin 512), agg i ⟨p, by omega⟩ = ∑ j, (adj i j * m i) * x j p)
    (h1 : ∀ i (p : Fin 512), agg i ⟨512 + p, by omega⟩ = ∑ j, ((adj2 i j * (1 - m i)) * m i) * x j p)
    (h2 : ∀ i (p : Fin 512), agg i ⟨1024 + p, by omega⟩ = ∑ j, (adj3 i j * (1 - m i)) * x j p)
    (i : ι) (o : κ) :
    (∑ c, agg i c * W c o) + b o
      = (m i * (∑ j, adj i j * (∑ p : Fin 512, x j p * W ⟨p, by omega⟩ o))
          + (1 - m i) * (∑ j, adj3 i j * (∑ p : Fin 512, x j p * W ⟨1024 + p, by omega⟩ o))) + b o := by
  congr 1
  rw [sum_three_stretches (fun c => agg i c * W c o)]
  have hz : ∀ j, (adj2 i j * (1 - m i)) * m i = 0 := fun j => mask_cancel _ _ (hm i)
  simp only [h0, h1, h2, hz, zero_mul, Finset.sum_const_zero, add_zero]
  rw [scaled_hop_assoc (fun j => adj i j) (m i) x (fun p : Fin 512 => W ⟨p, by omega⟩ o) (hadj i)
      (mask_real _ (hm i)) hx (fun p => hW _ o),
    scaled_hop_assoc (fun j => adj3 i j) (1 - m i) x (fun p : Fin 512 => W ⟨1024 + p, by omega⟩ o) (hadj3 i)
      (mask_real _ (one_sub_mask _ (hm i))) hx (fun p => hW _ o)]

end Cert.GatSgc

end
-- ==== Proof.BridgeSgc.lean ====
/-
  The last layer of the two programs: the masked three-hop aggregation against the fused two-hop form.

  The reference masks the adjacency matrix, its square and its cube by the 0/1 indicator m of the row node — the
  matrix by m, the square by (1 − m) and then by m, the cube by (1 − m) —, multiplies each by the features, lays the
  three products side by side and contracts with the weight's three blocks of 512 rows. For a 0/1 indicator the middle
  product vanishes ((a · (1 − m)) · m = 0), and, all entries being real numbers, a row scaling moves out of a product
  and the matrix product is associative: the first block is m · (adj · (x · W₀)) and the third (1 − m) · (adj³ · (x · W₂)),
  which is the fused form.
-/
import proofs.«162839_j74869869904021_2_alg».proof.Proof.RefRead
import proofs.«162839_j74869869904021_2_alg».proof.Proof.LibMaskedHops
import proofs.«162839_j74869869904021_2_alg».proof.Proof.LibRealClosure

open scoped BigOperators

noncomputable section

namespace Cert.Bridge

open Cert.ReferenceIdeal Cert.ReferenceIdeal.RefValue Idealize.ShloMosaic Idealize.ShloMosaic.ValueIdx Cert.GatSgc

section Sgc

variable (x : FVec Ideal S4096x512 .f32) (adj : FVec Ideal S4096x4096 .f32) (W1 : FVec Ideal S512x8 .f32)
  (a1 : FVec Ideal S16x1 .f32) (W2 : FVec Ideal S8x1 .f32) (a2 : FVec Ideal S2x1 .f32) (Ws : FVec Ideal S1536x256 .f32)
  (b : FVec Ideal S256 .f32)

/-- The indicator of a node is 0 or 1. -/
theorem mask_zero_or_one (i : Fin 4096) :
    mask x adj W1 a1 W2 a2 (ix2 i 0) = 0 ∨ mask x adj W1 a1 W2 a2 (ix2 i 0) = 1 := by
  rw [mask_apply]; exact uitofp_i1 _ _

/-- An entry of the cube of a real matrix, written as the two nested sums, is a real number. -/
theorem cube_real (hadj : ∀ i, ∃ r : ℝ, adj i = (r : EReal)) (i k : Fin 4096) :
    ∃ r : ℝ, (∑ l : Fin 4096, (∑ t : Fin 4096, adj (ix2 i t) * adj (ix2 t l)) * adj (ix2 l k)) = (r : EReal) :=
  real_sum_mul _ _ (fun _ => real_sum_mul _ _ (fun _ => hadj _) (fun _ => hadj _)) (fun _ => hadj _)

/-- The fused form of the last layer is the reference's result, entry by entry: with mk the indicator,
    (mk i · Σ_k adj i k · (Σ_p x k p · Ws p q) + (1 − mk i) · Σ_k adj³ i k · (Σ_p x k p · Ws (1024 + p) q)) + b q. -/
theorem sgc_bridge (hx : ∀ i, ∃ r : ℝ, x i = (r : EReal)) (hadj : ∀ i, ∃ r : ℝ, adj i = (r : EReal))
    (hWs : ∀ i, ∃ r : ℝ, Ws i = (r : EReal)) (mk : Fin 4096 → EReal)
    (hmk : ∀ i, mk i = mask x adj W1 a1 W2 a2 (ix2 i 0)) (i : Fin 4096) (q : Fin 256) :
    (mk i * (∑ k : Fin 4096, adj (ix2 i k)
          * (∑ p : Fin 512, x (ix2 k p) * Ws (ix2 (⟨p.val, by omega⟩ : Fin 1536) q)))
      + (1 - mk i) * (∑ k : Fin 4096,
          (∑ l : Fin 4096, (∑ t : Fin 4096, adj (ix2 i t) * adj (ix2 t l)) * adj (ix2 l k))
            * (∑ p : Fin 512, x (ix2 k p) * Ws (ix2 (⟨1024 + p.val, by omega⟩ : Fin 1536) q)))) + b (ix1 q)
      = result x adj W1 a1 W2 a2 Ws b (ix2 i q) := by
  have hm : mk i = 0 ∨ mk i = 1 := by rw [hmk]; exact mask_zero_or_one x adj W1 a1 W2 a2 i
  rw [result_apply_pieces]
  congr 1
  -- the first block: the row scaling by the indicator moves out, and the product reassociates
  have h1 : (∑ c : Fin 512, p1 x adj W1 a1 W2 a2 (ix2 i c) * Ws (ix2 (⟨c.val, by omega⟩ : Fin 1536) q))
      = mk i * (∑ k : Fin 4096, adj (ix2 i k)
          * (∑ p : Fin 512, x (ix2 k p) * Ws (ix2 (⟨p.val, by omega⟩ : Fin 1536) q))) := by
    simp only [p1_apply, m1_apply, ← hmk]
    exact scaled_hop_assoc (fun k : Fin 4096 => adj (ix2 i k)) (mk i) (fun k (p : Fin 512) => x (ix2 k p))
      (fun p : Fin 512 => Ws (ix2 (⟨p.val, by omega⟩ : Fin 1536) q)) (fun _ => hadj _) (mask_real _ hm)
      (fun _ _ => hx _) (fun _ => hWs _)
  -- the middle block vanishes
  have h2 : (∑ c : Fin 512, p2 x adj W1 a1 W2 a2 (ix2 i c) * Ws (ix2 (⟨512 + c.val, by omega⟩ : Fin 1536) q)) = 0 := by
    simp only [p2_apply, m2_apply, nmask_apply, ← hmk, mask_cancel _ _ hm, zero_mul, Finset.sum_const_zero]
  -- the third block: the same as the first, with the cube and the complement of the indicator
  have h3 : (∑ c : Fin 512, p3 x adj W1 a1 W2 a2 (ix2 i c) * Ws (ix2 (⟨512 + 512 + c.val, by omega⟩ : Fin 1536) q))
      = (1 - mk i) * (∑ k : Fin 4096,
          (∑ l : Fin 4096, (∑ t : Fin 4096, adj (ix2 i t) * adj (ix2 t l)) * adj (ix2 l k))
            * (∑ p : Fin 512, x (ix2 k p) * Ws (ix2 (⟨1024 + p.val, by omega⟩ : Fin 1536) q))) := by
    simp only [p3_apply, m3_apply, nmask_apply, ← hmk, adj3_apply, adj2_apply]
    exact scaled_hop_assoc
      (fun k : Fin 4096 => ∑ l : Fin 4096, (∑ t : Fin 4096, adj (ix2 i t) * adj (ix2 t l)) * adj (ix2 l k))
      (1 - mk i) (fun k (p : Fin 512) => x (ix2 k p))
      (fun p : Fin 512 => Ws (ix2 (⟨1024 + p.val, by omega⟩ : Fin 1536) q)) (fun k => cube_real adj hadj i k)
      (mask_real _ (one_sub_mask _ hm)) (fun _ _ => hx _) (fun _ => hWs _)
  rw [h1, h2, h3, add_zero]

end Sgc

end Cert.Bridge

end
-- ==== Proof.Bridge.lean ====
/-
  The kernel program's result is the reference's, as one function of the same eight arguments, entry by entry.
  Under the precondition every entry of every argument is a real number. An entry (i, q) of the kernel program's result
  buffer is, by composing what its host stretches and its five regions compute,
      m(i) · Σ_k A(i,k) · (x · W₀)(k,q)  +  (1 − m(i)) · Σ_k A³(i,k) · (x · W₂)(k,q)  +  b(q),
  with A the adjacency argument, A³ = (A · A) · A written as sums, W₀ and W₂ the first and third blocks of 512 rows of the
  weight, and m(i) the 0/1 indicator of node i's score exceeding the threshold, the score computed with one column softmax
  per attention layer. That indicator is the reference's mask at node i (the two attention layers agree, the row softmax of
  src(i) + dst(j) not depending on i), and the displayed expression is the reference's result entry: its middle hop vanishes
  because (a · (1 − m)) · m = 0 for a 0/1 indicator, its outer hops are the two terms by associativity of finite sums of reals.
-/
import proofs.«162839_j74869869904021_2_alg».proof.Proof.Claims
import proofs.«162839_j74869869904021_2_alg».proof.Proof.KerCompose
import proofs.«162839_j74869869904021_2_alg».proof.Proof.KerComposeGat
import proofs.«162839_j74869869904021_2_alg».proof.Proof.BridgeSgc
import proofs.«162839_j74869869904021_2_alg».proof.Proof.PreReal

noncomputable section

namespace Cert.Bridge

open Idealize.ShloMosaic Idealize.ShloMosaic.TcCoe Idealize.SL.Sem Idealize.ShloMosaic.ValueIdx
open Cert.KernelIdeal Cert.KernelIdeal.Gen Cert.KernelIdeal.KerRead Cert.KernelIdeal.KerCompose

/-- Under the precondition, on every core, the last valuation of the kernel program's fold through @main holds at the
    result buffer the reference's composed term of the arguments' launch contents. -/
theorem bridge : Cert.Proof.Claims.Bridge := by
  intro m hpre c
  obtain ⟨hx, hadj, hW1, ha1, hW2, ha2, hWs, hb⟩ := Cert.PreReal.fn_real _ _ _ _ _ _ _ _ (hpre c)
  funext idx
  obtain ⟨i, q, rfl⟩ : ∃ (i : Fin 4096) (q : Fin 256), idx = ix2 i q := ⟨idx 0, idx 1, eq_ix2 idx⟩
  refine (result_closed m c i q).trans ?_
  have h := sgc_bridge (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) hx hadj hWs (msk m c) (fun i => msk_eq m c hpre i) i q
  refine Eq.trans ?_ h
  simp only [adj3, adj2, adjF_eq m c]

end Cert.Bridge

end
-- ==== Proof.lean ====
/-
  The proof of `Cert.Claim`: a dense graph-attention scoring head followed by a masked three-hop graph convolution,
  computed by five pipelined matrix-product kernels, against its plain reference.

  The mathematics, over the exact extended reals, under the precondition that every entry of every argument is a real
  number.

  * The attention layers. A layer projects the features, h = x · W, scores the pair (i, j) by src(i) + dst(j) with
    src = h · a₁ and dst = h · a₂, turns every row of scores into weights by a softmax, masks the weights entrywise by
    the adjacency matrix and sums the weighted features. The softmax of a row subtracts the row's maximum, and the
    maximum of src(i) + dst(j) over j is src(i) plus the maximum of dst: the shifted scores do not depend on src(i), so
    every row's softmax is the ONE softmax s of the column dst. The reference's row i is therefore the sum over j of
    adj(i, j) · (s(j) · h(j)): the product of the adjacency matrix with the features scaled by s, which is what the
    kernel program computes, with one softmax along the column.

  * The convolution. With m(i) the 0/1 indicator "the score of node i exceeds the threshold", the reference masks the
    adjacency matrix A by m, its square first by (1 − m) and then by m, its cube by (1 − m), multiplies each masked
    matrix by the features, lays the three products side by side and contracts them with the weight's three blocks of
    512 rows. For a 0/1 indicator (a · (1 − m)) · m = 0, so the middle product vanishes identically. A row scaling moves
    out of a matrix product and the matrix product is associative — identities of finite sums of real numbers, carried
    to the extended reals —, so the first block is m(i) · (A · (x · W₀))(i, ·) and the third (1 − m(i)) · (A³ · (x · W₂))(i, ·):
    the fused form the kernel program computes, to which both add the bias on every row.

  * The kernels. Each of the five kernel regions accumulates a block of rows of a matrix product over the contracted
    axis in a scratch accumulator — zeroed at the first block of the contracted axis, the partial product of the two
    loaded blocks added at every block, the accumulator stored into the output block at the last (the last region
    accumulates two products and stores their combination by m and 1 − m). A finite sum splits along the blocks of the
    contracted axis and adding zero changes nothing, so what a region's write-backs leave in its output array is the
    whole product, entry by entry; narrowing a value to a shorter float format changes nothing over the extended reals.
    The third region reads one array, the adjacency matrix, through both of its input windows: the two windows hold
    the two halves of the array's full share.

  * The runs. The kernel program's @main is a list of segments, stretches of host operations and kernel regions; one
    run through the segments shows that every weakly fair execution terminates without a fault and that every buffer
    outside the regions' scopes ends at the last valuation of the fold through the segments: the argument arrays as
    launched (the frame, for the word-level program and for the idealized one alike), the result buffer at the
    composed value. The reference is a straight line of host operations: after it the result buffer holds the
    composition of its stages and the arguments are untouched.

  Joining the two results — the kernel program's composed value and the reference's, as functions of the same eight
  arguments — is the fact `Cert.Bridge.bridge`; the five claims follow from it (`Cert.Proof.Claims.claim_of`).
-/
import proofs.«162839_j74869869904021_2_alg».proof.Defs
import proofs.«162839_j74869869904021_2_alg».proof.Proof.Claims
import proofs.«162839_j74869869904021_2_alg».proof.Proof.Bridge

noncomputable section

namespace Cert.Proof

theorem claim : Cert.Claim := Cert.Proof.Claims.claim_of Cert.Bridge.bridge

end Cert.Proof

end
